-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S32x128x128 .f32
  ∧ IdealRules.sign_bit.Statement Cert.KernelIdeal.S32x128x128 .f32
  ∧ IdealRules.sign_bit.Statement Cert.KernelIdeal.S32x128x128 .f32
  ∧ IdealRules.sign_bit.Statement Cert.KernelIdeal.S32x128x128 .f32
  ∧ IdealRules.sign_bit.Statement Cert.KernelIdeal.S32x128x128 .f32
  ∧ IdealRules.sign_bit.Statement Cert.KernelIdeal.S32x128x128 .f32
  ∧ IdealRules.sign_bit.Statement Cert.KernelIdeal.S32x128x128 .f32
  ∧ IdealRules.sign_bit.Statement Cert.KernelIdeal.S32x128x128 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256 : Shape := ⟨2, ![256, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel

variable [Facts]

def fn {F : FTy → Type} [FloatOps F] (main_arg0 : FVec F S256x256 .f32) (main_arg1 : FVec F S256x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  main_v8
-- ==== Kernel.lean ====
abbrev S256x256 : Shape := ⟨2, ![256, 256]⟩
abbrev S1x1 : Shape := ⟨2, ![1, 1]⟩
abbrev S256x128 : Shape := ⟨2, ![256, 128]⟩
abbrev S128x128 : Shape := ⟨2, ![128, 128]⟩
abbrev S32x128 : Shape := ⟨2, ![32, 128]⟩
abbrev S32x128x1 : Shape := ⟨3, ![32, 128, 1]⟩
abbrev S32x1x128 : Shape := ⟨3, ![32, 1, 128]⟩
abbrev S32x128x128 : Shape := ⟨3, ![32, 128, 128]⟩
abbrev S128 : Shape := ⟨1, ![128]⟩
abbrev S128x1 : Shape := ⟨2, ![128, 1]⟩
abbrev S1 : Shape := ⟨1, ![1]⟩
abbrev S_ : Shape := ⟨0, ![]⟩

abbrev nBuf : Space → Nat
  | .hbm => 4
  | .vmem => 11
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S1x1, .f32⟩
  | .hbm, ⟨3, _⟩ => ⟨S_, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [BitOps F]

abbrev grid0 : Pipeline.Grid := ⟨2, ![2, 2], ![false, false]⟩

def k0_cond2 (i : grid0.Coords) : BitVec 1 :=
  let arg0 : BitVec 32 := BitVec.ofNat 32 (i 0).val
  let c1_i32 : BitVec 32 := 1#32
  let v452 : BitVec 1 := Scalar.cmpi .eq arg0 c1_i32
  let arg1 : BitVec 32 := BitVec.ofNat 32 (i 1).val
  let c1_i32_153 : BitVec 32 := 1#32
  let v453 : BitVec 1 := Scalar.cmpi .eq arg1 c1_i32_153
  let v454 : BitVec 1 := Scalar.andi v452 v453
  let v455 : BitVec 32 := Scalar.extui v454
  let c0_i32_154 : BitVec 32 := 0#32
  let v456 : BitVec 1 := Scalar.cmpi .ne v455 c0_i32_154
  v456

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x128_S32x128_0_0 : ∀ a, (![0, 0] : Fin 2 → Nat) a + S32x128.size a ≤ S256x128.size a
  h_S32x128 : 0 < S32x128.numel
  shapeCasts_S32x128_S32x128x1 : S32x128.ShapeCasts S32x128x1
  shapeCasts_S32x128_S32x1x128 : S32x128.ShapeCasts S32x1x128
  broadcasts_S32x128x1_S32x128x128 : S32x128x1.Broadcasts S32x128x128
  broadcasts_S32x1x128_S32x128x128 : S32x1x128.Broadcasts S32x128x128
  natLt_1_32 : 1 < 32
  reduces_S32x128x128_S128x128 : S32x128x128.Reduces [0] S128x128
  inb_S256x128_S32x128_32_0 : ∀ a, (![32, 0] : Fin 2 → Nat) a + S32x128.size a ≤ S256x128.size a
  inb_S256x128_S32x128_64_0 : ∀ a, (![64, 0] : Fin 2 → Nat) a + S32x128.size a ≤ S256x128.size a
  inb_S256x128_S32x128_96_0 : ∀ a, (![96, 0] : Fin 2 → Nat) a + S32x128.size a ≤ S256x128.size a
  inb_S256x128_S32x128_128_0 : ∀ a, (![128, 0] : Fin 2 → Nat) a + S32x128.size a ≤ S256x128.size a
  inb_S256x128_S32x128_160_0 : ∀ a, (![160, 0] : Fin 2 → Nat) a + S32x128.size a ≤ S256x128.size a
  inb_S256x128_S32x128_192_0 : ∀ a, (![192, 0] : Fin 2 → Nat) a + S32x128.size a ≤ S256x128.size a
  inb_S256x128_S32x128_224_0 : ∀ a, (![224, 0] : Fin 2 → Nat) a + S32x128.size a ≤ S256x128.size a
  iota_S128x128_d0_w32 : S128x128.Iotas .tc 32 [0]
  iota_S128x128_d1_w32 : S128x128.Iotas .tc 32 [1]
  reduces_S128x128_S128 : S128x128.Reduces [1] S128
  shapeCasts_S128_S128x1 : S128.ShapeCasts S128x1
  reduces_S128x1_S1 : S128x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S256x256.size a
  hwx0_0 : ∀ i : grid0.Coords, EltTy.bits .f32 = 32 ∨ (Rect.block (s := S256x256) S256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x256.size a
  hwx0_1 : ∀ i : grid0.Coords, EltTy.bits .f32 = 32 ∨ (Rect.block (s := S256x256) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x256.size a
  hwx0_2 : ∀ i : grid0.Coords, EltTy.bits .f32 = 32 ∨ (Rect.block (s := S256x256) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x256.size a
  hwx0_3 : ∀ i : grid0.Coords, EltTy.bits .f32 = 32 ∨ (Rect.block (s := S256x256) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_arg0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S256x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S256x256 : Shape := ⟨2, ![256, 256]⟩
abbrev S_ : Shape := ⟨0, ![]⟩
abbrev S65536 : Shape := ⟨1, ![65536]⟩
abbrev S32640 : Shape := ⟨1, ![32640]⟩
abbrev S65536x1 : Shape := ⟨2, ![65536, 1]⟩
abbrev S32640x1 : Shape := ⟨2, ![32640, 1]⟩
abbrev S256x32640 : Shape := ⟨2, ![256, 32640]⟩

abbrev nBuf : Space → Nat
  | .hbm => 217
  | .vmem => 0
  | .smem => 0
  | _ => 0

abbrev hbmTy0_0 (i : Nat) : BufTy := match i % 128 with
  | 0 => ⟨S256x256, .f32⟩
  | 1 => ⟨S256x256, .f32⟩
  | 2 => ⟨S_, .f32⟩
  | 3 => ⟨S256x256, .f32⟩
  | 4 => ⟨S256x256, .i32⟩
  | 5 => ⟨S_, .i32⟩
  | 6 => ⟨S256x256, .i32⟩
  | 7 => ⟨S256x256, .i32⟩
  | 8 => ⟨S256x256, .i32⟩
  | 9 => ⟨S256x256, .i1⟩
  | 10 => ⟨S_, .f32⟩
  | 11 => ⟨S256x256, .f32⟩
  | 12 => ⟨S256x256, .f32⟩
  | 13 => ⟨S_, .f32⟩
  | 14 => ⟨S256x256, .f32⟩
  | 15 => ⟨S256x256, .i1⟩
  | 16 => ⟨S65536, .i1⟩
  | 17 => ⟨S65536, .i32⟩
  | 18 => ⟨S_, .i32⟩
  | 19 => ⟨S_, .i32⟩
  | 20 => ⟨S65536, .i32⟩
  | 21 => ⟨S_, .i32⟩
  | 22 => ⟨S32640, .i32⟩
  | 23 => ⟨S_, .i32⟩
  | 24 => ⟨S_, .i32⟩
  | 25 => ⟨S65536, .i32⟩
  | 26 => ⟨S65536, .i32⟩
  | 27 => ⟨S_, .i32⟩
  | 28 => ⟨S65536, .i32⟩
  | 29 => ⟨S65536, .i1⟩
  | 30 => ⟨S_, .i32⟩
  | 31 => ⟨S65536, .i32⟩
  | 32 => ⟨S65536, .i32⟩
  | 33 => ⟨S65536, .i32⟩
  | 34 => ⟨S65536x1, .i32⟩
  | 35 => ⟨S_, .i32⟩
  | 36 => ⟨S65536, .i32⟩
  | 37 => ⟨S32640, .i32⟩
  | 38 => ⟨S_, .i32⟩
  | 39 => ⟨S_, .i32⟩
  | 40 => ⟨S32640, .i32⟩
  | 41 => ⟨S_, .i32⟩
  | 42 => ⟨S32640, .i32⟩
  | 43 => ⟨S32640, .i32⟩
  | 44 => ⟨S32640, .i32⟩
  | 45 => ⟨S_, .i32⟩
  | 46 => ⟨S32640, .i32⟩
  | 47 => ⟨S32640, .i1⟩
  | 48 => ⟨S32640, .i32⟩
  | 49 => ⟨S32640, .i32⟩
  | 50 => ⟨S_, .i32⟩
  | 51 => ⟨S32640, .i32⟩
  | 52 => ⟨S32640, .i1⟩
  | 53 => ⟨S32640, .i1⟩
  | 54 => ⟨S_, .i32⟩
  | 55 => ⟨S32640, .i32⟩
  | 56 => ⟨S32640, .i32⟩
  | 57 => ⟨S32640, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S32640, .i32⟩
  | 65 => ⟨S32640, .i32⟩
  | 66 => ⟨S_, .i32⟩
  | 67 => ⟨S32640, .i32⟩
  | 68 => ⟨S32640, .i1⟩
  | 69 => ⟨S_, .i32⟩
  | 70 => ⟨S32640, .i32⟩
  | 71 => ⟨S32640, .i1⟩
  | 72 => ⟨S_, .i32⟩
  | 73 => ⟨S_, .i1⟩
  | 74 => ⟨S32640, .i1⟩
  | 75 => ⟨S32640, .i1⟩
  | 76 => ⟨S32640, .i1⟩
  | 77 => ⟨S32640, .i32⟩
  | 78 => ⟨S32640, .i32⟩
  | 79 => ⟨S32640, .i32⟩
  | 80 => ⟨S_, .i32⟩
  | 81 => ⟨S32640, .i32⟩
  | 82 => ⟨S32640, .i32⟩
  | 83 => ⟨S32640, .i32⟩
  | 84 => ⟨S_, .i32⟩
  | 85 => ⟨S32640, .i32⟩
  | 86 => ⟨S32640, .i1⟩
  | 87 => ⟨S32640, .i32⟩
  | 88 => ⟨S32640, .i32⟩
  | 89 => ⟨S_, .i32⟩
  | 90 => ⟨S32640, .i32⟩
  | 91 => ⟨S32640, .i1⟩
  | 92 => ⟨S32640, .i1⟩
  | 93 => ⟨S_, .i32⟩
  | 94 => ⟨S32640, .i32⟩
  | 95 => ⟨S32640, .i32⟩
  | 96 => ⟨S32640, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S32640, .i32⟩
  | 104 => ⟨S32640, .i32⟩
  | 105 => ⟨S_, .i32⟩
  | 106 => ⟨S32640, .i32⟩
  | 107 => ⟨S32640, .i1⟩
  | 108 => ⟨S_, .i32⟩
  | 109 => ⟨S32640, .i32⟩
  | 110 => ⟨S32640, .i1⟩
  | 111 => ⟨S_, .i32⟩
  | 112 => ⟨S_, .i1⟩
  | 113 => ⟨S32640, .i1⟩
  | 114 => ⟨S32640, .i1⟩
  | 115 => ⟨S32640, .i1⟩
  | 116 => ⟨S32640, .i32⟩
  | 117 => ⟨S32640, .i32⟩
  | 118 => ⟨S32640, .i32⟩
  | 119 => ⟨S_, .i32⟩
  | 120 => ⟨S32640, .i32⟩
  | 121 => ⟨S32640, .i1⟩
  | 122 => ⟨S_, .i32⟩
  | 123 => ⟨S32640, .i32⟩
  | 124 => ⟨S32640, .i32⟩
  | 125 => ⟨S32640, .i32⟩
  | 126 => ⟨S32640x1, .i32⟩
  | 127 => ⟨S256x32640, .f32⟩
  | _ => ⟨S256x256, .f32⟩

abbrev hbmTy0_1 (i : Nat) : BufTy := match i % 128 with
  | 0 => ⟨S_, .i32⟩
  | 1 => ⟨S32640, .i32⟩
  | 2 => ⟨S32640, .i1⟩
  | 3 => ⟨S_, .i32⟩
  | 4 => ⟨S32640, .i32⟩
  | 5 => ⟨S32640, .i32⟩
  | 6 => ⟨S32640, .i32⟩
  | 7 => ⟨S32640x1, .i32⟩
  | 8 => ⟨S256x32640, .f32⟩
  | 9 => ⟨S256x32640, .f32⟩
  | 10 => ⟨S256x32640, .f32⟩
  | 11 => ⟨S_, .i32⟩
  | 12 => ⟨S32640, .i32⟩
  | 13 => ⟨S32640, .i1⟩
  | 14 => ⟨S_, .i32⟩
  | 15 => ⟨S32640, .i32⟩
  | 16 => ⟨S32640, .i32⟩
  | 17 => ⟨S32640, .i32⟩
  | 18 => ⟨S32640x1, .i32⟩
  | 19 => ⟨S256x32640, .f32⟩
  | 20 => ⟨S_, .i32⟩
  | 21 => ⟨S32640, .i32⟩
  | 22 => ⟨S32640, .i1⟩
  | 23 => ⟨S_, .i32⟩
  | 24 => ⟨S32640, .i32⟩
  | 25 => ⟨S32640, .i32⟩
  | 26 => ⟨S32640, .i32⟩
  | 27 => ⟨S32640x1, .i32⟩
  | 28 => ⟨S256x32640, .f32⟩
  | 29 => ⟨S256x32640, .f32⟩
  | 30 => ⟨S_, .f32⟩
  | 31 => ⟨S256x32640, .f32⟩
  | 32 => ⟨S256x32640, .f32⟩
  | 33 => ⟨S256x32640, .f32⟩
  | 34 => ⟨S_, .f32⟩
  | 35 => ⟨S256x32640, .f32⟩
  | 36 => ⟨S256x32640, .f32⟩
  | 37 => ⟨S256x32640, .f32⟩
  | 38 => ⟨S256x32640, .f32⟩
  | 39 => ⟨S256x32640, .i1⟩
  | 40 => ⟨S256x32640, .f32⟩
  | 41 => ⟨S256x32640, .f32⟩
  | 42 => ⟨S256x32640, .f32⟩
  | 43 => ⟨S256x32640, .f32⟩
  | 44 => ⟨S256x32640, .f32⟩
  | 45 => ⟨S256x32640, .f32⟩
  | 46 => ⟨S256x32640, .f32⟩
  | 47 => ⟨S256x32640, .f32⟩
  | 48 => ⟨S_, .f32⟩
  | 49 => ⟨S256x32640, .f32⟩
  | 50 => ⟨S256x32640, .i1⟩
  | 51 => ⟨S256x32640, .i32⟩
  | 52 => ⟨S_, .i32⟩
  | 53 => ⟨S32640, .i32⟩
  | 54 => ⟨S_, .f32⟩
  | 55 => ⟨S_, .f32⟩
  | 56 => ⟨S256x32640, .f32⟩
  | 57 => ⟨S256x32640, .f32⟩
  | 58 => ⟨S_, .f32⟩
  | 59 => ⟨S32640, .f32⟩
  | 60 => ⟨S_, .i32⟩
  | 61 => ⟨S32640, .i32⟩
  | 62 => ⟨S32640, .i1⟩
  | 63 => ⟨S_, .i32⟩
  | 64 => ⟨S32640, .i32⟩
  | 65 => ⟨S32640, .i32⟩
  | 66 => ⟨S32640, .f32⟩
  | 67 => ⟨S32640, .f32⟩
  | 68 => ⟨S_, .f32⟩
  | 69 => ⟨S_, .f32⟩
  | 70 => ⟨S32640, .f32⟩
  | 71 => ⟨S32640, .f32⟩
  | 72 => ⟨S_, .i32⟩
  | 73 => ⟨S32640, .i32⟩
  | 74 => ⟨S32640, .i1⟩
  | 75 => ⟨S32640, .i32⟩
  | 76 => ⟨S_, .i32⟩
  | 77 => ⟨S_, .i32⟩
  | 78 => ⟨S_, .f32⟩
  | 79 => ⟨S_, .f32⟩
  | 80 => ⟨S_, .f32⟩
  | 81 => ⟨S_, .f32⟩
  | 82 => ⟨S_, .i1⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | _ => ⟨S256x256, .f32⟩

abbrev hbmTy (i : Nat) : BufTy := match i / 128 with
  | 0 => hbmTy0_0 i
  | 1 => hbmTy0_1 i
  | _ => ⟨S256x256, .f32⟩

abbrev bufTy : (tb : Table) → Fin (tcTables nBuf tb) → BufTy
  | .hbm, ⟨i, _⟩ => hbmTy i
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_cst : Ref sig .tc := ⟨.hbm, 10, rfl⟩
abbrev main_call0_v5 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_call1_v0 : Ref sig .tc := ⟨.hbm, 16, rfl⟩
abbrev main_call1_v1 : Ref sig .tc := ⟨.hbm, 17, rfl⟩
abbrev main_call1_call0_c : Ref sig .tc := ⟨.hbm, 18, rfl⟩
abbrev main_call1_call0_v0 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_c_1 : Ref sig .tc := ⟨.hbm, 23, rfl⟩
abbrev main_call2_v0 : Ref sig .tc := ⟨.hbm, 24, rfl⟩
abbrev main_call2_v1 : Ref sig .tc := ⟨.hbm, 25, rfl⟩
abbrev main_v6 : Ref sig .tc := ⟨.hbm, 26, rfl⟩
abbrev main_c_2 : Ref sig .tc := ⟨.hbm, 27, rfl⟩
abbrev main_v7 : Ref sig .tc := ⟨.hbm, 28, rfl⟩
abbrev main_v8 : Ref sig .tc := ⟨.hbm, 29, rfl⟩
abbrev main_c_3 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c_4 : Ref sig .tc := ⟨.hbm, 35, rfl⟩
abbrev main_v13 : Ref sig .tc := ⟨.hbm, 36, rfl⟩
abbrev main_v14 : Ref sig .tc := ⟨.hbm, 37, rfl⟩
abbrev main_call3_call0_c : Ref sig .tc := ⟨.hbm, 38, rfl⟩
abbrev main_call3_call0_v0 : Ref sig .tc := ⟨.hbm, 39, rfl⟩
abbrev main_v15 : Ref sig .tc := ⟨.hbm, 40, rfl⟩
abbrev main_c_5 : Ref sig .tc := ⟨.hbm, 41, rfl⟩
abbrev main_call4_v0 : Ref sig .tc := ⟨.hbm, 42, rfl⟩
abbrev main_call4_v1 : Ref sig .tc := ⟨.hbm, 43, rfl⟩
abbrev main_call4_v2 : Ref sig .tc := ⟨.hbm, 44, rfl⟩
abbrev main_call4_v3 : Ref sig .tc := ⟨.hbm, 45, rfl⟩
abbrev main_call4_v4 : Ref sig .tc := ⟨.hbm, 46, rfl⟩
abbrev main_call4_v5 : Ref sig .tc := ⟨.hbm, 47, rfl⟩
abbrev main_call4_v6 : Ref sig .tc := ⟨.hbm, 48, rfl⟩
abbrev main_call4_v7 : Ref sig .tc := ⟨.hbm, 49, rfl⟩
abbrev main_call4_c : Ref sig .tc := ⟨.hbm, 50, rfl⟩
abbrev main_call4_v8 : Ref sig .tc := ⟨.hbm, 51, rfl⟩
abbrev main_call4_v9 : Ref sig .tc := ⟨.hbm, 52, rfl⟩
abbrev main_call4_v10 : Ref sig .tc := ⟨.hbm, 53, rfl⟩
abbrev main_call4_c_0 : Ref sig .tc := ⟨.hbm, 54, rfl⟩
abbrev main_call4_v11 : Ref sig .tc := ⟨.hbm, 55, rfl⟩
abbrev main_call4_v12 : Ref sig .tc := ⟨.hbm, 56, rfl⟩
abbrev main_v16 : Ref sig .tc := ⟨.hbm, 57, rfl⟩
abbrev main_c_6 : Ref sig .tc := ⟨.hbm, 58, rfl⟩
abbrev main_call5_v0 : Ref sig .tc := ⟨.hbm, 59, rfl⟩
abbrev main_call5_c : Ref sig .tc := ⟨.hbm, 60, rfl⟩
abbrev main_call5_v1 : Ref sig .tc := ⟨.hbm, 61, rfl⟩
abbrev main_call5_c_0 : Ref sig .tc := ⟨.hbm, 62, rfl⟩
abbrev main_call5_v2 : Ref sig .tc := ⟨.hbm, 63, rfl⟩
abbrev main_call5_v3 : Ref sig .tc := ⟨.hbm, 64, rfl⟩
abbrev main_call5_v4 : Ref sig .tc := ⟨.hbm, 65, rfl⟩
abbrev main_call5_c_1 : Ref sig .tc := ⟨.hbm, 66, rfl⟩
abbrev main_call5_v5 : Ref sig .tc := ⟨.hbm, 67, rfl⟩
abbrev main_call5_v6 : Ref sig .tc := ⟨.hbm, 68, rfl⟩
abbrev main_call5_c_2 : Ref sig .tc := ⟨.hbm, 69, rfl⟩
abbrev main_call5_v7 : Ref sig .tc := ⟨.hbm, 70, rfl⟩
abbrev main_call5_v8 : Ref sig .tc := ⟨.hbm, 71, rfl⟩
abbrev main_call5_c_3 : Ref sig .tc := ⟨.hbm, 72, rfl⟩
abbrev main_call5_v9 : Ref sig .tc := ⟨.hbm, 73, rfl⟩
abbrev main_call5_v10 : Ref sig .tc := ⟨.hbm, 74, rfl⟩
abbrev main_call5_v11 : Ref sig .tc := ⟨.hbm, 75, rfl⟩
abbrev main_call5_v12 : Ref sig .tc := ⟨.hbm, 76, rfl⟩
abbrev main_call5_v13 : Ref sig .tc := ⟨.hbm, 77, rfl⟩
abbrev main_call5_v14 : Ref sig .tc := ⟨.hbm, 78, rfl⟩
abbrev main_v17 : Ref sig .tc := ⟨.hbm, 79, rfl⟩
abbrev main_c_7 : Ref sig .tc := ⟨.hbm, 80, rfl⟩
abbrev main_call6_v0 : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_call6_v5 : Ref sig .tc := ⟨.hbm, 86, rfl⟩
abbrev main_call6_v6 : Ref sig .tc := ⟨.hbm, 87, rfl⟩
abbrev main_call6_v7 : Ref sig .tc := ⟨.hbm, 88, rfl⟩
abbrev main_call6_c : Ref sig .tc := ⟨.hbm, 89, rfl⟩
abbrev main_call6_v8 : Ref sig .tc := ⟨.hbm, 90, rfl⟩
abbrev main_call6_v9 : Ref sig .tc := ⟨.hbm, 91, rfl⟩
abbrev main_call6_v10 : Ref sig .tc := ⟨.hbm, 92, rfl⟩
abbrev main_call6_c_0 : Ref sig .tc := ⟨.hbm, 93, rfl⟩
abbrev main_call6_v11 : Ref sig .tc := ⟨.hbm, 94, rfl⟩
abbrev main_call6_v12 : Ref sig .tc := ⟨.hbm, 95, rfl⟩
abbrev main_v18 : Ref sig .tc := ⟨.hbm, 96, rfl⟩
abbrev main_c_8 : Ref sig .tc := ⟨.hbm, 97, rfl⟩
abbrev main_call7_v0 : Ref sig .tc := ⟨.hbm, 98, rfl⟩
abbrev main_call7_c : Ref sig .tc := ⟨.hbm, 99, rfl⟩
abbrev main_call7_v1 : Ref sig .tc := ⟨.hbm, 100, rfl⟩
abbrev main_call7_c_0 : Ref sig .tc := ⟨.hbm, 101, rfl⟩
abbrev main_call7_v2 : Ref sig .tc := ⟨.hbm, 102, rfl⟩
abbrev main_call7_v3 : Ref sig .tc := ⟨.hbm, 103, rfl⟩
abbrev main_call7_v4 : Ref sig .tc := ⟨.hbm, 104, rfl⟩
abbrev main_call7_c_1 : Ref sig .tc := ⟨.hbm, 105, rfl⟩
abbrev main_call7_v5 : Ref sig .tc := ⟨.hbm, 106, rfl⟩
abbrev main_call7_v6 : Ref sig .tc := ⟨.hbm, 107, rfl⟩
abbrev main_call7_c_2 : Ref sig .tc := ⟨.hbm, 108, rfl⟩
abbrev main_call7_v7 : Ref sig .tc := ⟨.hbm, 109, rfl⟩
abbrev main_call7_v8 : Ref sig .tc := ⟨.hbm, 110, rfl⟩
abbrev main_call7_c_3 : Ref sig .tc := ⟨.hbm, 111, rfl⟩
abbrev main_call7_v9 : Ref sig .tc := ⟨.hbm, 112, rfl⟩
abbrev main_call7_v10 : Ref sig .tc := ⟨.hbm, 113, rfl⟩
abbrev main_call7_v11 : Ref sig .tc := ⟨.hbm, 114, rfl⟩
abbrev main_call7_v12 : Ref sig .tc := ⟨.hbm, 115, rfl⟩
abbrev main_call7_v13 : Ref sig .tc := ⟨.hbm, 116, rfl⟩
abbrev main_call7_v14 : Ref sig .tc := ⟨.hbm, 117, rfl⟩
abbrev main_v19 : Ref sig .tc := ⟨.hbm, 118, rfl⟩
abbrev main_c_9 : Ref sig .tc := ⟨.hbm, 119, rfl⟩
abbrev main_v20 : Ref sig .tc := ⟨.hbm, 120, rfl⟩
abbrev main_v21 : Ref sig .tc := ⟨.hbm, 121, rfl⟩
abbrev main_c_10 : Ref sig .tc := ⟨.hbm, 122, rfl⟩
abbrev main_v22 : Ref sig .tc := ⟨.hbm, 123, rfl⟩
abbrev main_v23 : Ref sig .tc := ⟨.hbm, 124, rfl⟩
abbrev main_v24 : Ref sig .tc := ⟨.hbm, 125, rfl⟩
abbrev main_v25 : Ref sig .tc := ⟨.hbm, 126, rfl⟩
abbrev main_v26 : Ref sig .tc := ⟨.hbm, 127, rfl⟩
abbrev main_c_11 : Ref sig .tc := ⟨.hbm, 128, rfl⟩
abbrev main_v27 : Ref sig .tc := ⟨.hbm, 129, rfl⟩
abbrev main_v28 : Ref sig .tc := ⟨.hbm, 130, rfl⟩
abbrev main_c_12 : Ref sig .tc := ⟨.hbm, 131, rfl⟩
abbrev main_v29 : Ref sig .tc := ⟨.hbm, 132, rfl⟩
abbrev main_v30 : Ref sig .tc := ⟨.hbm, 133, rfl⟩
abbrev main_v31 : Ref sig .tc := ⟨.hbm, 134, rfl⟩
abbrev main_v32 : Ref sig .tc := ⟨.hbm, 135, rfl⟩
abbrev main_v33 : Ref sig .tc := ⟨.hbm, 136, rfl⟩
abbrev main_v34 : Ref sig .tc := ⟨.hbm, 137, rfl⟩
abbrev main_v35 : Ref sig .tc := ⟨.hbm, 138, rfl⟩
abbrev main_c_13 : Ref sig .tc := ⟨.hbm, 139, rfl⟩
abbrev main_v36 : Ref sig .tc := ⟨.hbm, 140, rfl⟩
abbrev main_v37 : Ref sig .tc := ⟨.hbm, 141, rfl⟩
abbrev main_c_14 : Ref sig .tc := ⟨.hbm, 142, rfl⟩
abbrev main_v38 : Ref sig .tc := ⟨.hbm, 143, rfl⟩
abbrev main_v39 : Ref sig .tc := ⟨.hbm, 144, rfl⟩
abbrev main_v40 : Ref sig .tc := ⟨.hbm, 145, rfl⟩
abbrev main_v41 : Ref sig .tc := ⟨.hbm, 146, rfl⟩
abbrev main_v42 : Ref sig .tc := ⟨.hbm, 147, rfl⟩
abbrev main_c_15 : Ref sig .tc := ⟨.hbm, 148, rfl⟩
abbrev main_v43 : Ref sig .tc := ⟨.hbm, 149, rfl⟩
abbrev main_v44 : Ref sig .tc := ⟨.hbm, 150, rfl⟩
abbrev main_c_16 : Ref sig .tc := ⟨.hbm, 151, rfl⟩
abbrev main_v45 : Ref sig .tc := ⟨.hbm, 152, rfl⟩
abbrev main_v46 : Ref sig .tc := ⟨.hbm, 153, rfl⟩
abbrev main_v47 : Ref sig .tc := ⟨.hbm, 154, rfl⟩
abbrev main_v48 : Ref sig .tc := ⟨.hbm, 155, rfl⟩
abbrev main_v49 : Ref sig .tc := ⟨.hbm, 156, rfl⟩
abbrev main_v50 : Ref sig .tc := ⟨.hbm, 157, rfl⟩
abbrev main_cst_17 : Ref sig .tc := ⟨.hbm, 158, rfl⟩
abbrev main_v51 : Ref sig .tc := ⟨.hbm, 159, rfl⟩
abbrev main_v52 : Ref sig .tc := ⟨.hbm, 160, rfl⟩
abbrev main_v53 : Ref sig .tc := ⟨.hbm, 161, rfl⟩
abbrev main_call8_cst : Ref sig .tc := ⟨.hbm, 162, rfl⟩
abbrev main_call8_v0 : Ref sig .tc := ⟨.hbm, 163, rfl⟩
abbrev main_call8_v1 : Ref sig .tc := ⟨.hbm, 164, rfl⟩
abbrev main_call8_v2 : Ref sig .tc := ⟨.hbm, 165, rfl⟩
abbrev main_call8_v3 : Ref sig .tc := ⟨.hbm, 166, rfl⟩
abbrev main_call8_v4 : Ref sig .tc := ⟨.hbm, 167, rfl⟩
abbrev main_call8_v5 : Ref sig .tc := ⟨.hbm, 168, rfl⟩
abbrev main_call8_v6 : Ref sig .tc := ⟨.hbm, 169, rfl⟩
abbrev main_call8_v7 : Ref sig .tc := ⟨.hbm, 170, rfl⟩
abbrev main_call8_v8 : Ref sig .tc := ⟨.hbm, 171, rfl⟩
abbrev main_call8_v9 : Ref sig .tc := ⟨.hbm, 172, rfl⟩
abbrev main_call8_v10 : Ref sig .tc := ⟨.hbm, 173, rfl⟩
abbrev main_call8_v11 : Ref sig .tc := ⟨.hbm, 174, rfl⟩
abbrev main_v54 : Ref sig .tc := ⟨.hbm, 175, rfl⟩
abbrev main_cst_18 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_c_19 : Ref sig .tc := ⟨.hbm, 180, rfl⟩
abbrev main_v58 : Ref sig .tc := ⟨.hbm, 181, rfl⟩
abbrev main_cst_20 : Ref sig .tc := ⟨.hbm, 182, rfl⟩
abbrev main_call9_v0 : Ref sig .tc := ⟨.hbm, 183, rfl⟩
abbrev main_call9_v1 : Ref sig .tc := ⟨.hbm, 184, rfl⟩
abbrev main_v59 : Ref sig .tc := ⟨.hbm, 185, rfl⟩
abbrev main_cst_21 : Ref sig .tc := ⟨.hbm, 186, rfl⟩
abbrev main_v60 : Ref sig .tc := ⟨.hbm, 187, rfl⟩
abbrev main_c_22 : Ref sig .tc := ⟨.hbm, 188, rfl⟩
abbrev main_v61 : Ref sig .tc := ⟨.hbm, 189, rfl⟩
abbrev main_v62 : Ref sig .tc := ⟨.hbm, 190, rfl⟩
abbrev main_c_23 : Ref sig .tc := ⟨.hbm, 191, rfl⟩
abbrev main_v63 : Ref sig .tc := ⟨.hbm, 192, rfl⟩
abbrev main_v64 : Ref sig .tc := ⟨.hbm, 193, rfl⟩
abbrev main_v65 : Ref sig .tc := ⟨.hbm, 194, rfl⟩
abbrev main_v66 : Ref sig .tc := ⟨.hbm, 195, rfl⟩
abbrev main_cst_24 : Ref sig .tc := ⟨.hbm, 196, rfl⟩
abbrev main_call10_v0 : Ref sig .tc := ⟨.hbm, 197, rfl⟩
abbrev main_call10_v1 : Ref sig .tc := ⟨.hbm, 198, rfl⟩
abbrev main_v67 : Ref sig .tc := ⟨.hbm, 199, rfl⟩
abbrev main_c_25 : Ref sig .tc := ⟨.hbm, 200, rfl⟩
abbrev main_v68 : Ref sig .tc := ⟨.hbm, 201, rfl⟩
abbrev main_v69 : Ref sig .tc := ⟨.hbm, 202, rfl⟩
abbrev main_v70 : Ref sig .tc := ⟨.hbm, 203, rfl⟩
abbrev main_c_26 : Ref sig .tc := ⟨.hbm, 204, rfl⟩
abbrev main_v71 : Ref sig .tc := ⟨.hbm, 205, rfl⟩
abbrev main_v72 : Ref sig .tc := ⟨.hbm, 206, rfl⟩
abbrev main_cst_27 : Ref sig .tc := ⟨.hbm, 207, rfl⟩
abbrev main_v73 : Ref sig .tc := ⟨.hbm, 208, rfl⟩
abbrev main_cst_28 : Ref sig .tc := ⟨.hbm, 209, rfl⟩
abbrev main_v74 : Ref sig .tc := ⟨.hbm, 210, rfl⟩
abbrev main_cst_29 : Ref sig .tc := ⟨.hbm, 211, rfl⟩
abbrev main_v75 : Ref sig .tc := ⟨.hbm, 212, rfl⟩
abbrev main_v76 : Ref sig .tc := ⟨.hbm, 213, rfl⟩
abbrev main_cst_30 : Ref sig .tc := ⟨.hbm, 214, rfl⟩
abbrev main_call11_v0 : Ref sig .tc := ⟨.hbm, 215, rfl⟩
abbrev main_v77 : Ref sig .tc := ⟨.hbm, 216, rfl⟩

abbrev nD : Nat := 1
abbrev τ : Topo := Topo.v7x

variable {F : FTy → Type} [FloatOps F]

class Facts₀ : Prop where
  bcast_S_S256x256 : S_.BroadcastsInDim S256x256 (![] : Fin 0 → Fin S256x256.rank)
  shapeCasts_S256x256_S65536 : S256x256.ShapeCasts S65536
  natLt_1_32 : 1 < 32
  bcast_S_S_ : S_.BroadcastsInDim S_ (![] : Fin 0 → Fin S_.rank)
  reduceWindows_S65536_S65536_w65536s1p65535_0 : S65536.ReduceWindows (![65536] : Fin 1 → Nat) ![1] ![65535] ![0] S65536
  h_S_ : 0 < S_.numel
  bcast_S_S32640 : S_.BroadcastsInDim S32640 (![] : Fin 0 → Fin S32640.rank)
  bcast_S_S65536 : S_.BroadcastsInDim S65536 (![] : Fin 0 → Fin S65536.rank)
  bcast_S65536_S65536x1_0 : S65536.BroadcastsInDim S65536x1 (![0] : Fin 1 → Fin S65536x1.rank)
  reduceWindows_S32640_S32640_w32640s1p32639_0 : S32640.ReduceWindows (![32640] : Fin 1 → Nat) ![1] ![32639] ![0] S32640
  bcast_S32640_S32640x1_0 : S32640.BroadcastsInDim S32640x1 (![0] : Fin 1 → Fin S32640x1.rank)
  bcast_S_S256x32640 : S_.BroadcastsInDim S256x32640 (![] : Fin 0 → Fin S256x32640.rank)
  reducesTo_S256x32640_S32640_d0 : S256x32640.ReducesTo [0] S32640
  reducesTo_S32640_S_d0 : S32640.ReducesTo [0] S_
  scatter_S32640_S65536x1_S65536_n_0_0_1_wf : ScatterDims.WF S32640 S65536x1 S65536 [] [0] [0] 1
  gather_S256x256_S32640x1_S256x32640_0_1_n_n_1_1_2561_wf : GatherDims.WF S256x256 S32640x1 S256x32640 [0] [1] [] [1] [] 1 ![256, 1]

variable [Facts₀]

def scatter_S32640_S65536x1_S65536_n_0_0_1 : ScatterDims S32640 S65536x1 S65536 where
  updateWindowDims := []
  insertedWindowDims := [0]
  scatterDimsToOperandDims := [0]
  indexVectorDim := 1
  wf := scatter_S32640_S65536x1_S65536_n_0_0_1_wf
def gather_S256x256_S32640x1_S256x32640_0_1_n_n_1_1_2561 : GatherDims S256x256 S32640x1 S256x32640 where
  offsetDims := [0]
  collapsedSliceDims := [1]
  operandBatchingDims := []
  startIndicesBatchingDims := []
  startIndexMap := [1]
  indexVectorDim := 1
  sliceSizes := ![256, 1]
  wf := gather_S256x256_S32640x1_S256x32640_0_1_n_n_1_1_2561_wf

class Facts : Prop extends Facts₀ where

variable [Facts]
-- ==== Proof.Preserves.lean ====
/-
  The idealized kernel differs from the printed one at eight places, one per batch chunk of 32 rows: where the
  kernel builds "1.0 carrying the sign bit of the relevance difference" out of integer operations on the float's
  word, the idealized program selects -1 when the difference is negative and 1 otherwise. That the two agree is
  the sign-bit rule's statement at the chunk's shape [32, 128, 128], once per chunk.
-/
import proofs.«118690_j7060926235074_1_alg».proof.Defs

noncomputable section

namespace Cert.Proof.RankNet

open Idealize.ShloMosaic

/-- One chunk's sign window: at the word level it is ±1.0's pattern by the sign bit, at the ideal instance the
    select on "difference < 0". -/
theorem sign_chunk : IdealRules.sign_bit.Statement Cert.KernelIdeal.S32x128x128 .f32 :=
  IdealRules.sign_bit.statement Cert.KernelIdeal.S32x128x128 .f32

/-- All eight chunks. -/
theorem preserves : Cert.preserves_Kernel_KernelIdeal :=
  ⟨sign_chunk, sign_chunk, sign_chunk, sign_chunk, sign_chunk, sign_chunk, sign_chunk, sign_chunk⟩

end Cert.Proof.RankNet

end
-- ==== Proof.RefOps.lean ====
/-
  The reference program as one straight line. Its @main computes, on the host, the list of index pairs (i, j) with
  i < j of a 256 x 256 grid (a triangular mask, the running count of its ones, a histogram of those counts and its
  running sum: the positions of the ones in order), gathers the two columns of each pair out of both inputs, and
  reduces: per pair the number of batch rows whose relevance difference has a sign and the sum over those rows of
  softplus(-sign * prediction difference); then the mean over the pairs that have such a row of their per-pair means.
  Here the line is written out as the list of its 215 operations, each module-local function's operations standing at its
  call over the call's own buffers, and its run is read back: every weakly fair execution ends with every buffer at
  the fold of the operations' results over the launch contents.
-/
import proofs.«118690_j7060926235074_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 215 operations, in order. -/
abbrev ops : List (HloOp τ sig (Elt F)) :=
  [
    nullary main_cst (constant S_ .f32 0x3F800000#32),
    unary main_cst main_v0 (broadcastInDim S256x256 ![] bcast_S_S256x256 : (⟨S_, .f32⟩ : BufTy).Contents (Elt F) → (⟨S256x256, .f32⟩ : BufTy).Contents (Elt F)),
    TRef.nullary main_call0.v0 (iotaInDim S256x256 32 0),
    TRef.nullary main_call0.c (constantI S_ 32 0#32),
    TRef.unary main_call0.c main_call0.v1 (broadcastInDim S256x256 ![] bcast_S_S256x256),
    TRef.binary main_call0.v0 main_call0.v1 main_call0.v2 addi,
    TRef.nullary main_call0.v3 (iotaInDim S256x256 32 1),
    TRef.binary main_call0.v2 main_call0.v3 main_call0.v4 (cmpi .sge),
    TRef.nullary main_call0.cst (constant S_ .f32 0x00000000#32),
    TRef.unary main_call0.cst main_call0.v5 (broadcastInDim S256x256 ![] bcast_S_S256x256),
    TRef.ternary main_call0.v4 main_call0.v5 (.of main_v0 : StableHlo.TRef sig ⟨S256x256, .f32⟩) main_call0.v6 select,
    nullary main_cst_0 (constant S_ .f32 0x00000000#32),
    unary main_cst_0 main_v2 (broadcastInDim S256x256 ![] bcast_S_S256x256 : (⟨S_, .f32⟩ : BufTy).Contents (Elt F) → (⟨S256x256, .f32⟩ : BufTy).Contents (Elt F)),
    binary main_v1 main_v2 main_v3 (cmpf .une : (⟨S256x256, .f32⟩ : BufTy).Contents (Elt F) → (⟨S256x256, .f32⟩ : BufTy).Contents (Elt F) → (⟨S256x256, .i1⟩ : BufTy).Contents (Elt F)),
    TRef.reshape (.of main_v3 : StableHlo.TRef sig ⟨S256x256, .i1⟩) main_call1.v0 rfl shapeCasts_S256x256_S65536,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![65536] ![1] ![65535] ![0] x v reduceWindows_S65536_S65536_w65536s1p65535_0 h_S_),
    nullary main_c (constantI S_ 32 0#32),
    unary main_c main_v5 (broadcastInDim S32640 ![] bcast_S_S32640 : (⟨S_, .i32⟩ : BufTy).Contents (Elt F) → (⟨S32640, .i32⟩ : BufTy).Contents (Elt F)),
    nullary main_c_1 (constantI S_ 32 0#32),
    TRef.unary (.of main_c_1 : StableHlo.TRef sig ⟨S_, .i32⟩) main_call2.v0 id,
    TRef.unary main_call2.v0 main_call2.v1 (broadcastInDim S65536 ![] bcast_S_S65536),
    TRef.binary main_call2.v1 (.of main_v4 : StableHlo.TRef sig ⟨S65536, .i32⟩) main_call2.v2 maxsi,
    nullary main_c_2 (constantI S_ 32 0#32),
    unary main_c_2 main_v7 (broadcastInDim S65536 ![] bcast_S_S65536 : (⟨S_, .i32⟩ : BufTy).Contents (Elt F) → (⟨S65536, .i32⟩ : BufTy).Contents (Elt F)),
    binary main_v6 main_v7 main_v8 (cmpi .slt : (⟨S65536, .i32⟩ : BufTy).Contents (Elt F) → (⟨S65536, .i32⟩ : BufTy).Contents (Elt F) → (⟨S65536, .i1⟩ : BufTy).Contents (Elt F)),
    nullary main_c_3 (constantI S_ 32 32640#32),
    unary main_c_3 main_v9 (broadcastInDim S65536 ![] bcast_S_S65536 : (⟨S_, .i32⟩ : BufTy).Contents (Elt F) → (⟨S65536, .i32⟩ : BufTy).Contents (Elt F)),
    binary main_v6 main_v9 main_v10 (addi : (⟨S65536, .i32⟩ : BufTy).Contents (Elt F) → (⟨S65536, .i32⟩ : BufTy).Contents (Elt F) → (⟨S65536, .i32⟩ : BufTy).Contents (Elt F)),
    ternary main_v8 main_v10 main_v6 main_v11 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v11 main_v12 (broadcastInDim S65536x1 ![0] bcast_S65536_S65536x1_0 : (⟨S65536, .i32⟩ : BufTy).Contents (Elt F) → (⟨S65536x1, .i32⟩ : BufTy).Contents (Elt F)),
    nullary main_c_4 (constantI S_ 32 1#32),
    unary main_c_4 main_v13 (broadcastInDim S65536 ![] bcast_S_S65536 : (⟨S_, .i32⟩ : BufTy).Contents (Elt F) → (⟨S65536, .i32⟩ : BufTy).Contents (Elt F)),
    ternary main_v5 main_v12 main_v13 main_v14 ((fun x i u => Host.scatter scatter_S32640_S65536x1_S65536_n_0_0_1 IntOp.addi x i u) : (⟨S32640, .i32⟩ : BufTy).Contents (Elt F) → (⟨S65536x1, .i32⟩ : BufTy).Contents (Elt F) → (⟨S65536, .i32⟩ : BufTy).Contents (Elt F) → (⟨S32640, .i32⟩ : BufTy).Contents (Elt F)),
    TRef.nullary main_call3.call0.c (constantI S_ 32 0#32),
    TRef.unary main_call3.call0.c main_call3.call0.v0 (broadcastInDim S_ ![] bcast_S_S_),
    TRef.binary (.of main_v14 : StableHlo.TRef sig ⟨S32640, .i32⟩) main_call3.call0.v0 main_call3.call0.v1 (fun x v => Host.reduceWindow IntOp.addi ![32640] ![1] ![32639] ![0] x v reduceWindows_S32640_S32640_w32640s1p32639_0 h_S_),
    nullary main_c_5 (constantI S_ 32 256#32),
    TRef.unary (.of main_c_5 : StableHlo.TRef sig ⟨S_, .i32⟩) main_call4.v0 (broadcastInDim S32640 ![] bcast_S_S32640),
    TRef.binary (.of main_v15 : StableHlo.TRef sig ⟨S32640, .i32⟩) main_call4.v0 main_call4.v1 Host.divsi,
    TRef.unary (.of main_v15 : StableHlo.TRef sig ⟨S32640, .i32⟩) main_call4.v2 signi,
    TRef.unary (.of main_c_5 : StableHlo.TRef sig ⟨S_, .i32⟩) main_call4.v3 signi,
    TRef.unary main_call4.v3 main_call4.v4 (broadcastInDim S32640 ![] bcast_S_S32640),
    TRef.binary main_call4.v2 main_call4.v4 main_call4.v5 (cmpi .ne),
    TRef.unary (.of main_c_5 : StableHlo.TRef sig ⟨S_, .i32⟩) main_call4.v6 (broadcastInDim S32640 ![] bcast_S_S32640),
    TRef.binary (.of main_v15 : StableHlo.TRef sig ⟨S32640, .i32⟩) main_call4.v6 main_call4.v7 Host.remsi,
    TRef.nullary main_call4.c (constantI S_ 32 0#32),
    TRef.unary main_call4.c main_call4.v8 (broadcastInDim S32640 ![] bcast_S_S32640),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S32640 ![] bcast_S_S32640),
    TRef.binary main_call4.v1 main_call4.v11 main_call4.v12 subi,
    TRef.ternary main_call4.v10 main_call4.v12 main_call4.v1 main_call4.call0.v0 select,
    nullary main_c_6 (constantI S_ 32 256#32),
    TRef.unary (.of main_c_6 : StableHlo.TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S32640 ![] bcast_S_S32640),
    TRef.binary (.of main_v16 : StableHlo.TRef sig ⟨S32640, .i32⟩) main_call5.v3 main_call5.v4 Host.remsi,
    TRef.nullary main_call5.c_1 (constantI S_ 32 0#32),
    TRef.unary main_call5.c_1 main_call5.v5 (broadcastInDim S32640 ![] bcast_S_S32640),
    TRef.binary main_call5.v4 main_call5.v5 main_call5.v6 (cmpi .ne),
    TRef.nullary main_call5.c_2 (constantI S_ 32 0#32),
    TRef.unary main_call5.c_2 main_call5.v7 (broadcastInDim S32640 ![] bcast_S_S32640),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S32640 ![] bcast_S_S32640),
    TRef.binary main_call5.v8 main_call5.v10 main_call5.v11 (cmpi .ne),
    TRef.binary main_call5.v11 main_call5.v6 main_call5.v12 andi,
    TRef.unary main_call5.call0.v0 main_call5.v13 (broadcastInDim S32640 ![] bcast_S_S32640),
    TRef.binary main_call5.v4 main_call5.v13 main_call5.v14 addi,
    TRef.ternary main_call5.v12 main_call5.v14 main_call5.v4 main_call5.v15 select,
    nullary main_c_7 (constantI S_ 32 1#32),
    TRef.unary (.of main_c_7 : StableHlo.TRef sig ⟨S_, .i32⟩) main_call6.v0 (broadcastInDim S32640 ![] bcast_S_S32640),
    TRef.binary (.of main_v15 : StableHlo.TRef sig ⟨S32640, .i32⟩) main_call6.v0 main_call6.v1 Host.divsi,
    TRef.unary (.of main_v15 : StableHlo.TRef sig ⟨S32640, .i32⟩) main_call6.v2 signi,
    TRef.unary (.of main_c_7 : StableHlo.TRef sig ⟨S_, .i32⟩) main_call6.v3 signi,
    TRef.unary main_call6.v3 main_call6.v4 (broadcastInDim S32640 ![] bcast_S_S32640),
    TRef.binary main_call6.v2 main_call6.v4 main_call6.v5 (cmpi .ne),
    TRef.unary (.of main_c_7 : StableHlo.TRef sig ⟨S_, .i32⟩) main_call6.v6 (broadcastInDim S32640 ![] bcast_S_S32640),
    TRef.binary (.of main_v15 : StableHlo.TRef sig ⟨S32640, .i32⟩) main_call6.v6 main_call6.v7 Host.remsi,
    TRef.nullary main_call6.c (constantI S_ 32 0#32),
    TRef.unary main_call6.c main_call6.v8 (broadcastInDim S32640 ![] bcast_S_S32640),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S32640 ![] bcast_S_S32640),
    TRef.binary main_call6.v1 main_call6.v11 main_call6.v12 subi,
    TRef.ternary main_call6.v10 main_call6.v12 main_call6.v1 main_call6.call0.v0 select,
    nullary main_c_8 (constantI S_ 32 256#32),
    TRef.unary (.of main_c_8 : StableHlo.TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S32640 ![] bcast_S_S32640),
    TRef.binary (.of main_v18 : StableHlo.TRef sig ⟨S32640, .i32⟩) main_call7.v3 main_call7.v4 Host.remsi,
    TRef.nullary main_call7.c_1 (constantI S_ 32 0#32),
    TRef.unary main_call7.c_1 main_call7.v5 (broadcastInDim S32640 ![] bcast_S_S32640),
    TRef.binary main_call7.v4 main_call7.v5 main_call7.v6 (cmpi .ne),
    TRef.nullary main_call7.c_2 (constantI S_ 32 0#32),
    TRef.unary main_call7.c_2 main_call7.v7 (broadcastInDim S32640 ![] bcast_S_S32640),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S32640 ![] bcast_S_S32640),
    TRef.binary main_call7.v8 main_call7.v10 main_call7.v11 (cmpi .ne),
    TRef.binary main_call7.v11 main_call7.v6 main_call7.v12 andi,
    TRef.unary main_call7.call0.v0 main_call7.v13 (broadcastInDim S32640 ![] bcast_S_S32640),
    TRef.binary main_call7.v4 main_call7.v13 main_call7.v14 addi,
    TRef.ternary main_call7.v12 main_call7.v14 main_call7.v4 main_call7.v15 select,
    nullary main_c_9 (constantI S_ 32 0#32),
    unary main_c_9 main_v20 (broadcastInDim S32640 ![] bcast_S_S32640 : (⟨S_, .i32⟩ : BufTy).Contents (Elt F) → (⟨S32640, .i32⟩ : BufTy).Contents (Elt F)),
    binary main_v17 main_v20 main_v21 (cmpi .slt : (⟨S32640, .i32⟩ : BufTy).Contents (Elt F) → (⟨S32640, .i32⟩ : BufTy).Contents (Elt F) → (⟨S32640, .i1⟩ : BufTy).Contents (Elt F)),
    nullary main_c_10 (constantI S_ 32 256#32),
    unary main_c_10 main_v22 (broadcastInDim S32640 ![] bcast_S_S32640 : (⟨S_, .i32⟩ : BufTy).Contents (Elt F) → (⟨S32640, .i32⟩ : BufTy).Contents (Elt F)),
    binary main_v17 main_v22 main_v23 (addi : (⟨S32640, .i32⟩ : BufTy).Contents (Elt F) → (⟨S32640, .i32⟩ : BufTy).Contents (Elt F) → (⟨S32640, .i32⟩ : BufTy).Contents (Elt F)),
    ternary main_v21 main_v23 main_v17 main_v24 (select : (⟨S32640, .i1⟩ : BufTy).Contents (Elt F) → (⟨S32640, .i32⟩ : BufTy).Contents (Elt F) → (⟨S32640, .i32⟩ : BufTy).Contents (Elt F) → (⟨S32640, .i32⟩ : BufTy).Contents (Elt F)),
    unary main_v24 main_v25 (broadcastInDim S32640x1 ![0] bcast_S32640_S32640x1_0 : (⟨S32640, .i32⟩ : BufTy).Contents (Elt F) → (⟨S32640x1, .i32⟩ : BufTy).Contents (Elt F)),
    binary main_arg1 main_v25 main_v26 ((fun x i => Host.gather gather_S256x256_S32640x1_S256x32640_0_1_n_n_1_1_2561 x i) : (⟨S256x256, .f32⟩ : BufTy).Contents (Elt F) → (⟨S32640x1, .i32⟩ : BufTy).Contents (Elt F) → (⟨S256x32640, .f32⟩ : BufTy).Contents (Elt F)),
    nullary main_c_11 (constantI S_ 32 0#32),
    unary main_c_11 main_v27 (broadcastInDim S32640 ![] bcast_S_S32640 : (⟨S_, .i32⟩ : BufTy).Contents (Elt F) → (⟨S32640, .i32⟩ : BufTy).Contents (Elt F)),
    binary main_v19 main_v27 main_v28 (cmpi .slt : (⟨S32640, .i32⟩ : BufTy).Contents (Elt F) → (⟨S32640, .i32⟩ : BufTy).Contents (Elt F) → (⟨S32640, .i1⟩ : BufTy).Contents (Elt F)),
    nullary main_c_12 (constantI S_ 32 256#32),
    unary main_c_12 main_v29 (broadcastInDim S32640 ![] bcast_S_S32640 : (⟨S_, .i32⟩ : BufTy).Contents (Elt F) → (⟨S32640, .i32⟩ : BufTy).Contents (Elt F)),
    binary main_v19 main_v29 main_v30 (addi : (⟨S32640, .i32⟩ : BufTy).Contents (Elt F) → (⟨S32640, .i32⟩ : BufTy).Contents (Elt F) → (⟨S32640, .i32⟩ : BufTy).Contents (Elt F)),
    ternary main_v28 main_v30 main_v19 main_v31 (select : (⟨S32640, .i1⟩ : BufTy).Contents (Elt F) → (⟨S32640, .i32⟩ : BufTy).Contents (Elt F) → (⟨S32640, .i32⟩ : BufTy).Contents (Elt F) → (⟨S32640, .i32⟩ : BufTy).Contents (Elt F)),
    unary main_v31 main_v32 (broadcastInDim S32640x1 ![0] bcast_S32640_S32640x1_0 : (⟨S32640, .i32⟩ : BufTy).Contents (Elt F) → (⟨S32640x1, .i32⟩ : BufTy).Contents (Elt F)),
    binary main_arg1 main_v32 main_v33 ((fun x i => Host.gather gather_S256x256_S32640x1_S256x32640_0_1_n_n_1_1_2561 x i) : (⟨S256x256, .f32⟩ : BufTy).Contents (Elt F) → (⟨S32640x1, .i32⟩ : BufTy).Contents (Elt F) → (⟨S256x32640, .f32⟩ : BufTy).Contents (Elt F)),
    binary main_v26 main_v33 main_v34 (subf : (⟨S256x32640, .f32⟩ : BufTy).Contents (Elt F) → (⟨S256x32640, .f32⟩ : BufTy).Contents (Elt F) → (⟨S256x32640, .f32⟩ : BufTy).Contents (Elt F)),
    unary main_v34 main_v35 (Host.sign : (⟨S256x32640, .f32⟩ : BufTy).Contents (Elt F) → (⟨S256x32640, .f32⟩ : BufTy).Contents (Elt F)),
    nullary main_c_13 (constantI S_ 32 0#32),
    unary main_c_13 main_v36 (broadcastInDim S32640 ![] bcast_S_S32640 : (⟨S_, .i32⟩ : BufTy).Contents (Elt F) → (⟨S32640, .i32⟩ : BufTy).Contents (Elt F)),
    binary main_v17 main_v36 main_v37 (cmpi .slt : (⟨S32640, .i32⟩ : BufTy).Contents (Elt F) → (⟨S32640, .i32⟩ : BufTy).Contents (Elt F) → (⟨S32640, .i1⟩ : BufTy).Contents (Elt F)),
    nullary main_c_14 (constantI S_ 32 256#32),
    unary main_c_14 main_v38 (broadcastInDim S32640 ![] bcast_S_S32640 : (⟨S_, .i32⟩ : BufTy).Contents (Elt F) → (⟨S32640, .i32⟩ : BufTy).Contents (Elt F)),
    binary main_v17 main_v38 main_v39 (addi : (⟨S32640, .i32⟩ : BufTy).Contents (Elt F) → (⟨S32640, .i32⟩ : BufTy).Contents (Elt F) → (⟨S32640, .i32⟩ : BufTy).Contents (Elt F)),
    ternary main_v37 main_v39 main_v17 main_v40 (select : (⟨S32640, .i1⟩ : BufTy).Contents (Elt F) → (⟨S32640, .i32⟩ : BufTy).Contents (Elt F) → (⟨S32640, .i32⟩ : BufTy).Contents (Elt F) → (⟨S32640, .i32⟩ : BufTy).Contents (Elt F)),
    unary main_v40 main_v41 (broadcastInDim S32640x1 ![0] bcast_S32640_S32640x1_0 : (⟨S32640, .i32⟩ : BufTy).Contents (Elt F) → (⟨S32640x1, .i32⟩ : BufTy).Contents (Elt F)),
    binary main_arg0 main_v41 main_v42 ((fun x i => Host.gather gather_S256x256_S32640x1_S256x32640_0_1_n_n_1_1_2561 x i) : (⟨S256x256, .f32⟩ : BufTy).Contents (Elt F) → (⟨S32640x1, .i32⟩ : BufTy).Contents (Elt F) → (⟨S256x32640, .f32⟩ : BufTy).Contents (Elt F)),
    nullary main_c_15 (constantI S_ 32 0#32),
    unary main_c_15 main_v43 (broadcastInDim S32640 ![] bcast_S_S32640 : (⟨S_, .i32⟩ : BufTy).Contents (Elt F) → (⟨S32640, .i32⟩ : BufTy).Contents (Elt F)),
    binary main_v19 main_v43 main_v44 (cmpi .slt : (⟨S32640, .i32⟩ : BufTy).Contents (Elt F) → (⟨S32640, .i32⟩ : BufTy).Contents (Elt F) → (⟨S32640, .i1⟩ : BufTy).Contents (Elt F)),
    nullary main_c_16 (constantI S_ 32 256#32),
    unary main_c_16 main_v45 (broadcastInDim S32640 ![] bcast_S_S32640 : (⟨S_, .i32⟩ : BufTy).Contents (Elt F) → (⟨S32640, .i32⟩ : BufTy).Contents (Elt F)),
    binary main_v19 main_v45 main_v46 (addi : (⟨S32640, .i32⟩ : BufTy).Contents (Elt F) → (⟨S32640, .i32⟩ : BufTy).Contents (Elt F) → (⟨S32640, .i32⟩ : BufTy).Contents (Elt F)),
    ternary main_v44 main_v46 main_v19 main_v47 (select : (⟨S32640, .i1⟩ : BufTy).Contents (Elt F) → (⟨S32640, .i32⟩ : BufTy).Contents (Elt F) → (⟨S32640, .i32⟩ : BufTy).Contents (Elt F) → (⟨S32640, .i32⟩ : BufTy).Contents (Elt F)),
    unary main_v47 main_v48 (broadcastInDim S32640x1 ![0] bcast_S32640_S32640x1_0 : (⟨S32640, .i32⟩ : BufTy).Contents (Elt F) → (⟨S32640x1, .i32⟩ : BufTy).Contents (Elt F)),
    binary main_arg0 main_v48 main_v49 ((fun x i => Host.gather gather_S256x256_S32640x1_S256x32640_0_1_n_n_1_1_2561 x i) : (⟨S256x256, .f32⟩ : BufTy).Contents (Elt F) → (⟨S32640x1, .i32⟩ : BufTy).Contents (Elt F) → (⟨S256x32640, .f32⟩ : BufTy).Contents (Elt F)),
    binary main_v42 main_v49 main_v50 (subf : (⟨S256x32640, .f32⟩ : BufTy).Contents (Elt F) → (⟨S256x32640, .f32⟩ : BufTy).Contents (Elt F) → (⟨S256x32640, .f32⟩ : BufTy).Contents (Elt F)),
    nullary main_cst_17 (constant S_ .f32 0xBF800000#32),
    unary main_cst_17 main_v51 (broadcastInDim S256x32640 ![] bcast_S_S256x32640 : (⟨S_, .f32⟩ : BufTy).Contents (Elt F) → (⟨S256x32640, .f32⟩ : BufTy).Contents (Elt F)),
    binary main_v51 main_v35 main_v52 (mulf : (⟨S256x32640, .f32⟩ : BufTy).Contents (Elt F) → (⟨S256x32640, .f32⟩ : BufTy).Contents (Elt F) → (⟨S256x32640, .f32⟩ : BufTy).Contents (Elt F)),
    binary main_v52 main_v50 main_v53 (mulf : (⟨S256x32640, .f32⟩ : BufTy).Contents (Elt F) → (⟨S256x32640, .f32⟩ : BufTy).Contents (Elt F) → (⟨S256x32640, .f32⟩ : BufTy).Contents (Elt F)),
    TRef.nullary main_call8.cst (constant S_ .f32 0x00000000#32),
    TRef.unary main_call8.cst main_call8.v0 (broadcastInDim S256x32640 ![] bcast_S_S256x32640),
    TRef.binary (.of main_v53 : StableHlo.TRef sig ⟨S256x32640, .f32⟩) main_call8.v0 main_call8.v1 maximumf,
    TRef.unary main_call8.cst main_call8.v2 (broadcastInDim S256x32640 ![] bcast_S_S256x32640),
    TRef.binary (.of main_v53 : StableHlo.TRef sig ⟨S256x32640, .f32⟩) main_call8.v2 main_call8.v3 subf,
    TRef.binary main_call8.v3 main_call8.v3 main_call8.v4 (cmpf .une),
    TRef.unary main_call8.cst main_call8.v5 (broadcastInDim S256x32640 ![] bcast_S_S256x32640),
    TRef.binary (.of main_v53 : StableHlo.TRef sig ⟨S256x32640, .f32⟩) main_call8.v5 main_call8.v6 addf,
    TRef.unary main_call8.v3 main_call8.v7 Host.absf,
    TRef.unary main_call8.v7 main_call8.v8 Host.negf,
    TRef.unary main_call8.v8 main_call8.v9 Host.exp,
    TRef.unary main_call8.v9 main_call8.v10 Host.log1p,
    TRef.binary main_call8.v1 main_call8.v10 main_call8.v11 addf,
    TRef.ternary main_call8.v4 main_call8.v6 main_call8.v11 main_call8.v12 select,
    nullary main_cst_18 (constant S_ .f32 0x00000000#32),
    unary main_cst_18 main_v55 (broadcastInDim S256x32640 ![] bcast_S_S256x32640 : (⟨S_, .f32⟩ : BufTy).Contents (Elt F) → (⟨S256x32640, .f32⟩ : BufTy).Contents (Elt F)),
    binary main_v35 main_v55 main_v56 (cmpf .une : (⟨S256x32640, .f32⟩ : BufTy).Contents (Elt F) → (⟨S256x32640, .f32⟩ : BufTy).Contents (Elt F) → (⟨S256x32640, .i1⟩ : BufTy).Contents (Elt F)),
    unary main_v56 main_v57 ((extui 32 · natLt_1_32) : (⟨S256x32640, .i1⟩ : BufTy).Contents (Elt F) → (⟨S256x32640, .i32⟩ : BufTy).Contents (Elt F)),
    nullary main_c_19 (constantI S_ 32 0#32),
    binary main_v57 main_c_19 main_v58 ((fun x v => Host.reduce IntOp.addi x v reducesTo_S256x32640_S32640_d0 h_S_) : (⟨S256x32640, .i32⟩ : BufTy).Contents (Elt F) → (⟨S_, .i32⟩ : BufTy).Contents (Elt F) → (⟨S32640, .i32⟩ : BufTy).Contents (Elt F)),
    nullary main_cst_20 (constant S_ .f32 0x00000000#32),
    TRef.unary (.of main_cst_20 : StableHlo.TRef sig ⟨S_, .f32⟩) main_call9.v0 id,
    TRef.unary main_call9.v0 main_call9.v1 (broadcastInDim S256x32640 ![] bcast_S_S256x32640),
    TRef.ternary (.of main_v56 : StableHlo.TRef sig ⟨S256x32640, .i1⟩) (.of main_v54 : StableHlo.TRef sig ⟨S256x32640, .f32⟩) main_call9.v1 main_call9.v2 select,
    nullary main_cst_21 (constant S_ .f32 0x00000000#32),
    binary main_v59 main_cst_21 main_v60 ((fun x v => Host.reduceAdd x v reducesTo_S256x32640_S32640_d0 h_S_) : (⟨S256x32640, .f32⟩ : BufTy).Contents (Elt F) → (⟨S_, .f32⟩ : BufTy).Contents (Elt F) → (⟨S32640, .f32⟩ : BufTy).Contents (Elt F)),
    nullary main_c_22 (constantI S_ 32 0#32),
    unary main_c_22 main_v61 (broadcastInDim S32640 ![] bcast_S_S32640 : (⟨S_, .i32⟩ : BufTy).Contents (Elt F) → (⟨S32640, .i32⟩ : BufTy).Contents (Elt F)),
    binary main_v58 main_v61 main_v62 (cmpi .sgt : (⟨S32640, .i32⟩ : BufTy).Contents (Elt F) → (⟨S32640, .i32⟩ : BufTy).Contents (Elt F) → (⟨S32640, .i1⟩ : BufTy).Contents (Elt F)),
    nullary main_c_23 (constantI S_ 32 1#32),
    unary main_c_23 main_v63 (broadcastInDim S32640 ![] bcast_S_S32640 : (⟨S_, .i32⟩ : BufTy).Contents (Elt F) → (⟨S32640, .i32⟩ : BufTy).Contents (Elt F)),
    binary main_v58 main_v63 main_v64 (maxsi : (⟨S32640, .i32⟩ : BufTy).Contents (Elt F) → (⟨S32640, .i32⟩ : BufTy).Contents (Elt F) → (⟨S32640, .i32⟩ : BufTy).Contents (Elt F)),
    unary main_v64 main_v65 (sitofp .f32 : (⟨S32640, .i32⟩ : BufTy).Contents (Elt F) → (⟨S32640, .f32⟩ : BufTy).Contents (Elt F)),
    binary main_v60 main_v65 main_v66 (Host.divf : (⟨S32640, .f32⟩ : BufTy).Contents (Elt F) → (⟨S32640, .f32⟩ : BufTy).Contents (Elt F) → (⟨S32640, .f32⟩ : BufTy).Contents (Elt F)),
    nullary main_cst_24 (constant S_ .f32 0x00000000#32),
    TRef.unary (.of main_cst_24 : StableHlo.TRef sig ⟨S_, .f32⟩) main_call10.v0 id,
    TRef.unary main_call10.v0 main_call10.v1 (broadcastInDim S32640 ![] bcast_S_S32640),
    TRef.ternary (.of main_v62 : StableHlo.TRef sig ⟨S32640, .i1⟩) (.of main_v66 : StableHlo.TRef sig ⟨S32640, .f32⟩) main_call10.v1 main_call10.v2 select,
    nullary main_c_25 (constantI S_ 32 0#32),
    unary main_c_25 main_v68 (broadcastInDim S32640 ![] bcast_S_S32640 : (⟨S_, .i32⟩ : BufTy).Contents (Elt F) → (⟨S32640, .i32⟩ : BufTy).Contents (Elt F)),
    binary main_v58 main_v68 main_v69 (cmpi .sgt : (⟨S32640, .i32⟩ : BufTy).Contents (Elt F) → (⟨S32640, .i32⟩ : BufTy).Contents (Elt F) → (⟨S32640, .i1⟩ : BufTy).Contents (Elt F)),
    unary main_v69 main_v70 ((extui 32 · natLt_1_32) : (⟨S32640, .i1⟩ : BufTy).Contents (Elt F) → (⟨S32640, .i32⟩ : BufTy).Contents (Elt F)),
    nullary main_c_26 (constantI S_ 32 0#32),
    binary main_v70 main_c_26 main_v71 ((fun x v => Host.reduce IntOp.addi x v reducesTo_S32640_S_d0 h_S_) : (⟨S32640, .i32⟩ : BufTy).Contents (Elt F) → (⟨S_, .i32⟩ : BufTy).Contents (Elt F) → (⟨S_, .i32⟩ : BufTy).Contents (Elt F)),
    unary main_v71 main_v72 (sitofp .f32 : (⟨S_, .i32⟩ : BufTy).Contents (Elt F) → (⟨S_, .f32⟩ : BufTy).Contents (Elt F)),
    nullary main_cst_27 (constant S_ .f32 0x00000000#32),
    binary main_v67 main_cst_27 main_v73 ((fun x v => Host.reduceAdd x v reducesTo_S32640_S_d0 h_S_) : (⟨S32640, .f32⟩ : BufTy).Contents (Elt F) → (⟨S_, .f32⟩ : BufTy).Contents (Elt F) → (⟨S_, .f32⟩ : BufTy).Contents (Elt F)),
    nullary main_cst_28 (constant S_ .f32 0x00000000#32),
    binary main_v72 main_cst_28 main_v74 (cmpf .ogt : (⟨S_, .f32⟩ : BufTy).Contents (Elt F) → (⟨S_, .f32⟩ : BufTy).Contents (Elt F) → (⟨S_, .i1⟩ : BufTy).Contents (Elt F)),
    nullary main_cst_29 (constant S_ .f32 0x3F800000#32),
    binary main_v72 main_cst_29 main_v75 (maximumf : (⟨S_, .f32⟩ : BufTy).Contents (Elt F) → (⟨S_, .f32⟩ : BufTy).Contents (Elt F) → (⟨S_, .f32⟩ : BufTy).Contents (Elt F)),
    binary main_v73 main_v75 main_v76 (Host.divf : (⟨S_, .f32⟩ : BufTy).Contents (Elt F) → (⟨S_, .f32⟩ : BufTy).Contents (Elt F) → (⟨S_, .f32⟩ : BufTy).Contents (Elt F)),
    nullary main_cst_30 (constant S_ .f32 0x00000000#32),
    TRef.unary (.of main_cst_30 : StableHlo.TRef sig ⟨S_, .f32⟩) main_call11.v0 id,
    TRef.ternary (.of main_v74 : StableHlo.TRef sig ⟨S_, .i1⟩) (.of main_v76 : StableHlo.TRef sig ⟨S_, .f32⟩) main_call11.v0 main_call11.v1 select ]

set_option maxRecDepth 16384 in
set_option maxHeartbeats 4000000 in
/-- @main is that line: the functions' definitions unfolded at their calls, sequencing reassociated. -/
theorem main_eq (c : Dev nD) : main (F := F) c = seq ops := by
  simp only [main, main_part0, main_part1, fn_triu.body, fn_cumsum_0.body, fn_cumsum.body, fn_clip.body, fn_cumsum_2.body, fn_cumsum_1.body, fn_where.body, fn_floor_divide.body, fn_where_3.body, fn_remainder.body, fn_softplus.body, fn_where_4.body, fn_where_5.body, fn_where_6.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation names TensorCore buffers only. -/
theorem ops_sub : (ops : List (HloOp τ sig (Elt F))).Forall fun op => op.bufs ⊆ tcRefs τ sig :=
  ⟨
    nullary_bufs_sub .., unary_bufs_sub .., nullary_bufs_sub .., nullary_bufs_sub .., unary_bufs_sub .., binary_bufs_sub ..,
    nullary_bufs_sub .., binary_bufs_sub .., nullary_bufs_sub .., unary_bufs_sub .., ternary_bufs_sub .., nullary_bufs_sub ..,
    unary_bufs_sub .., binary_bufs_sub .., reshape_bufs_sub .., unary_bufs_sub .., nullary_bufs_sub .., unary_bufs_sub ..,
    binary_bufs_sub .., nullary_bufs_sub .., unary_bufs_sub .., nullary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., nullary_bufs_sub .., unary_bufs_sub .., ternary_bufs_sub ..,
    nullary_bufs_sub .., unary_bufs_sub .., binary_bufs_sub .., nullary_bufs_sub .., unary_bufs_sub .., binary_bufs_sub ..,
    unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., ternary_bufs_sub .., nullary_bufs_sub .., unary_bufs_sub .., nullary_bufs_sub .., binary_bufs_sub ..,
    nullary_bufs_sub .., ternary_bufs_sub .., unary_bufs_sub .., binary_bufs_sub .., nullary_bufs_sub .., unary_bufs_sub ..,
    binary_bufs_sub .., nullary_bufs_sub .., unary_bufs_sub .., binary_bufs_sub .., nullary_bufs_sub .., binary_bufs_sub ..,
    unary_bufs_sub .., binary_bufs_sub .., binary_bufs_sub .., unary_bufs_sub .., binary_bufs_sub .., ternary_bufs_sub ..,
    nullary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., binary_bufs_sub .., nullary_bufs_sub .., unary_bufs_sub ..,
    binary_bufs_sub .., unary_bufs_sub .., binary_bufs_sub .., binary_bufs_sub .., unary_bufs_sub .., binary_bufs_sub ..,
    unary_bufs_sub .., unary_bufs_sub .., unary_bufs_sub .., unary_bufs_sub .., binary_bufs_sub .., ternary_bufs_sub ..,
    nullary_bufs_sub .., unary_bufs_sub .., binary_bufs_sub .., unary_bufs_sub .., nullary_bufs_sub .., binary_bufs_sub ..,
    nullary_bufs_sub .., unary_bufs_sub .., unary_bufs_sub .., ternary_bufs_sub .., nullary_bufs_sub .., binary_bufs_sub ..,
    nullary_bufs_sub .., unary_bufs_sub .., binary_bufs_sub .., nullary_bufs_sub .., unary_bufs_sub .., binary_bufs_sub ..,
    unary_bufs_sub .., binary_bufs_sub .., nullary_bufs_sub .., unary_bufs_sub .., unary_bufs_sub .., ternary_bufs_sub ..,
    nullary_bufs_sub .., unary_bufs_sub .., binary_bufs_sub .., unary_bufs_sub .., nullary_bufs_sub .., binary_bufs_sub ..,
    unary_bufs_sub .., nullary_bufs_sub .., binary_bufs_sub .., nullary_bufs_sub .., binary_bufs_sub .., nullary_bufs_sub ..,
    binary_bufs_sub .., binary_bufs_sub .., nullary_bufs_sub .., unary_bufs_sub .., ternary_bufs_sub ..⟩

/-- From any memory with zero counters, every weakly fair execution of @main terminates, and every final state has
    each buffer at the fold of the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefFrame.lean ====
/-
  The reference program never writes its two inputs: every one of its operations stores into a buffer of its own.
  So after the whole line both inputs hold what they held at launch, and the line's run is the reference's frame:
  it terminates, faults nowhere, and leaves the inputs unchanged.
-/
import proofs.«118690_j7060926235074_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The predictions are read only. -/
theorem kept_arg0 (V : Valuation τ sig (Elt F)) :
    after ops V (main_arg0 : DevRef τ sig) = V (main_arg0 : DevRef τ sig) := by
  after_results_simp

set_option maxRecDepth 16384 in
set_option maxHeartbeats 4000000 in
/-- The relevance scores are read only. -/
theorem kept_arg1 (V : Valuation τ sig (Elt F)) :
    after ops V (main_arg1 : DevRef τ sig) = V (main_arg1 : DevRef τ sig) := by
  after_results_simp

/-- Every weakly fair execution of the reference terminates, faults nowhere, and ends with both inputs unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_arg0).trans (kept_arg0 _), (h c main_arg1).trans (kept_arg1 _)⟩)
    (run_main m ρ)

end Cert.ReferenceIdeal.RefRun

end
-- ==== Proof.KIDefs.lean ====
/-
  The kernel's four grid points, its windows and its conditionals, as the run of its body needs them.

  The grid is 2 x 2, walked row-major: point t is the tile (t / 2, t % 2) of the square of pairs. Windows 0 and 2
  bring the 256 x 128 column block of the tile's ROW features of the predictions and of the relevance scores, windows 1
  and 3 the block of its COLUMN features; window 4 is the one-word result. The body zeroes its two one-word
  accumulators under its first conditional (the first point only) and stores the result under its second (the last point
  only); elsewhere the result window is idle and not written back.
-/
import proofs.«118690_j7060926235074_1_alg».proof.Proof.Gen.KernelIdeal.Launch
import proofs.«118690_j7060926235074_1_alg».proof.Proof.Gen.KernelIdeal.Skeleton
import proofs.«118690_j7060926235074_1_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s TensorCore buffers when the region is entered: as launched (the region is @main's first step). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditionals -/

/-- "This is the first tile": both grid coordinates are zero. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last tile": both grid coordinates are one. -/
abbrev cond0_1 (i : grid0.Coords) : Prop := k0_cond2 i = 1#1
/-- It holds at the last point only. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last point the result window is idle: the body stores nothing into it, -/
theorem idleAt0_4 : ∀ t : Fin cfg0.N, ¬cond0_1 (grid0.coords t) → cfg0.idle 4 (grid0.coords t) = true := by decide +kernel
/-- and the pipeline does not write it back. -/
theorem noFlush0_4 : ∀ t : Fin cfg0.N, ¬cond0_1 (grid0.coords t) → (cfg0.win 4).flush t = false := by decide +kernel
/-- At the last point it is live. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S256x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
/-- The result window's one staging buffer, through which its contents are stated. -/
abbrev VO0_4 : View sig .tc .vmem S1x1 .f32 := (Memref.whole cc0_stg4_0 : Memref sig .tc .vmem S1x1 .f32).view
/-- The two accumulators: the running total of the pairs' means and the running number of pairs. -/
abbrev scM0_0 : Memref sig .tc .vmem S1x1 .f32 := Memref.whole cc0_scratch0
abbrev scM0_1 : Memref sig .tc .vmem S1x1 .f32 := Memref.whole cc0_scratch1
abbrev VS0_0 : View sig .tc .vmem S1x1 .f32 := scM0_0.view
abbrev VS0_1 : View sig .tc .vmem S1x1 .f32 := scM0_1.view

/-- The region's plain invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KIRunA.lean ====
/-
  The kernel's body run whole at the first point (the accumulators zeroed first, nothing stored into the result): on whole staging memrefs holding the
  four input blocks, the body runs to its end, hands the input blocks back as they were, and leaves each accumulator —
  and at the last point the result — with the pieces its stores wrote, which are found by running it.
-/
import proofs.«118690_j7060926235074_1_alg».proof.Proof.KIDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each buffer ends with, with the proof that the body runs to the continuation holding them. -/
noncomputable def kernelRun0_A (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x2 x3 x4 x5 : Vec F S256x128 .f32) :
    Σ' (L6 : List (View.Piece (Elt F) S1x1 .f32)) (LS7 : List (View.Piece (Elt F) S1x1 .f32)), { LS8 : List (View.Piece (Elt F) S1x1 .f32) //
      ∀ (xi6 : Vec F S1x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6 ∗ (∃ d, owns (c : Thread nD τ) arg7 fullShare d) ∗ (∃ d, owns (c : Thread nD τ) arg8 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5
                ∗ owns (c : Thread nD τ) arg6 fullShare xi6
                ∗ (∃ f, arg7.view.loc (c : Thread nD τ) ↦[arg7.view.set]{fullShare} arg7.view.writes (Elt F) f LS7)
                ∗ (∃ f, arg8.view.loc (c : Thread nD τ) ↦[arg8.view.set]{fullShare} arg8.view.writes (Elt F) f LS8)) -∗ K ⟨⟩))
          ⊢ wp frame (wpE (defs₀ (F := F)) Variants.none c none) E (cc0__ranknet_kernel i arg2 harg2 arg3 harg3 arg4 harg4 arg5 harg5 arg6 harg6 arg7 harg7 arg8 harg8) K } := by
  refine ⟨[], ?_, ?_, fun xi6 E K => ?run⟩
  case run =>
    simp only [cc0__ranknet_kernel_eq_skeleton]; unfold cc0__ranknet_kernel_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg2.eq_unread hf2
    obtain rfl := harg3.eq_unread hf3
    obtain rfl := harg4.eq_unread hf4
    obtain rfl := harg5.eq_unread hf5
    obtain rfl := harg6.eq_unread hf6
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    iexists _; iexact H8

end Cert.KernelIdeal.Hand

end
-- ==== Proof.KIRunB.lean ====
/-
  The kernel's body run whole at a middle point (neither conditional taken: the accumulators added to, nothing stored into the result): on whole staging memrefs holding the
  four input blocks, the body runs to its end, hands the input blocks back as they were, and leaves each accumulator —
  and at the last point the result — with the pieces its stores wrote, which are found by running it.
-/
import proofs.«118690_j7060926235074_1_alg».proof.Proof.KIRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each buffer ends with, with the proof that the body runs to the continuation holding them. -/
noncomputable def kernelRun0_B (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x2 x3 x4 x5 : Vec F S256x128 .f32) (xs7 xs8 : Vec F S1x1 .f32) :
    Σ' (L6 : List (View.Piece (Elt F) S1x1 .f32)) (LS7 : List (View.Piece (Elt F) S1x1 .f32)), { LS8 : List (View.Piece (Elt F) S1x1 .f32) //
      ∀ (xi6 : Vec F S1x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6 ∗ owns (c : Thread nD τ) arg7 fullShare xs7 ∗ owns (c : Thread nD τ) arg8 fullShare xs8
            ∗ (iprop(owns (c : Thread nD τ) arg2 fullShare x2 ∗ owns (c : Thread nD τ) arg3 fullShare x3 ∗ owns (c : Thread nD τ) arg4 fullShare x4 ∗ owns (c : Thread nD τ) arg5 fullShare x5
                ∗ owns (c : Thread nD τ) arg6 fullShare xi6
                ∗ (∃ f, arg7.view.loc (c : Thread nD τ) ↦[arg7.view.set]{fullShare} arg7.view.writes (Elt F) f LS7)
                ∗ (∃ f, arg8.view.loc (c : Thread nD τ) ↦[arg8.view.set]{fullShare} arg8.view.writes (Elt F) f LS8)) -∗ K ⟨⟩))
          ⊢ wp frame (wpE (defs₀ (F := F)) Variants.none c none) E (cc0__ranknet_kernel i arg2 harg2 arg3 harg3 arg4 harg4 arg5 harg5 arg6 harg6 arg7 harg7 arg8 harg8) K } := by
  refine ⟨[], ?_, ?_, fun xi6 E K => ?run⟩
  case run =>
    simp only [cc0__ranknet_kernel_eq_skeleton]; unfold cc0__ranknet_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    iexists _; iexact H8

end Cert.KernelIdeal.Hand

end
-- ==== Proof.KIRunC.lean ====
/-
  The kernel's body run whole at the last point (the accumulators added to, then the result stored: the total over the number of pairs): on whole staging memrefs holding the
  four input blocks, the body runs to its end, hands the input blocks back as they were, and leaves each accumulator —
  and at the last point the result — with the pieces its stores wrote, which are found by running it.
-/
import proofs.«118690_j7060926235074_1_alg».proof.Proof.KIRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each buffer ends with, with the proof that the body runs to the continuation holding them. -/
noncomputable def kernelRun0_C (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x2 x3 x4 x5 : Vec F S256x128 .f32) (xs7 xs8 : Vec F S1x1 .f32) :
    Σ' (L6 : List (View.Piece (Elt F) S1x1 .f32)) (LS7 : List (View.Piece (Elt F) S1x1 .f32)), { LS8 : List (View.Piece (Elt F) S1x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5
            ∗ (∃ d, owns (c : Thread nD τ) arg6 fullShare d) ∗ owns (c : Thread nD τ) arg7 fullShare xs7 ∗ owns (c : Thread nD τ) arg8 fullShare xs8
            ∗ (iprop(owns (c : Thread nD τ) arg2 fullShare x2 ∗ owns (c : Thread nD τ) arg3 fullShare x3 ∗ owns (c : Thread nD τ) arg4 fullShare x4 ∗ owns (c : Thread nD τ) arg5 fullShare x5
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f LS7)
                ∗ (∃ f, arg8.view.loc (c : Thread nD τ) ↦[arg8.view.set]{fullShare} arg8.view.writes (Elt F) f LS8)) -∗ K ⟨⟩))
          ⊢ wp frame (wpE (defs₀ (F := F)) Variants.none c none) E (cc0__ranknet_kernel i arg2 harg2 arg3 harg3 arg4 harg4 arg5 harg5 arg6 harg6 arg7 harg7 arg8 harg8) K } := by
  refine ⟨?_, ?_, ?_, fun E K => ?run⟩
  case run =>
    simp only [cc0__ranknet_kernel_eq_skeleton]; unfold cc0__ranknet_kernel_skel
    unfold owns
    iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg2.eq_unread hf2
    obtain rfl := harg3.eq_unread hf3
    obtain rfl := harg4.eq_unread hf4
    obtain rfl := harg5.eq_unread hf5
    obtain rfl := harg7.eq_unread hf7
    obtain rfl := harg8.eq_unread hf8
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    isplitl [H7]
    · iexists _; iexact H7
    iexists _; iexact H8

end Cert.KernelIdeal.Hand

end
-- ==== Proof.KIFrame.lean ====
/-
  The kernel's proof data and body obligation.

  What the two accumulators and the result window hold after each grid point is defined by recursion on the point: the
  first point runs the body's first case from anything, a middle point its middle case over what the point before left
  in the accumulators, the last point its last case, which also stores the result. Between points the region's
  invariant holds the two accumulators at exactly those contents. Each input array is staged through two windows (the
  tile's row features and its column features); each of the two holds one half of the array's share.
-/
import proofs.«118690_j7060926235074_1_alg».proof.Proof.KIRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- What the case's stores leave in the result window's buffer: its pieces read back (no piece where the case stores
    nothing into it: then nothing consults it). -/
def out0_A_4 (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x2 x3 x4 x5 : Vec F S256x128 .f32) : Vec F S1x1 .f32 :=
  VO0_4.read (Elt F) (VO0_4.writes (Elt F) VO0_4.junk (kernelRun0_A c i arg2 harg2 arg3 harg3 arg4 harg4 arg5 harg5 arg6 harg6 arg7 harg7 arg8 harg8 hc0 hc1 x2 x3 x4 x5).1)

/-- The case's pieces for the running total cover it. -/
theorem scover0_A_0 (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x2 x3 x4 x5 : Vec F S256x128 .f32) (y : S1x1.Idx) :
    ∃ pc ∈ (kernelRun0_A c i arg2 harg2 arg3 harg3 arg4 harg4 arg5 harg5 arg6 harg6 arg7 harg7 arg8 harg8 hc0 hc1 x2 x3 x4 x5).2.1, y ∈ pc.1.set :=
  View.cover_of_tiledL (kernelRun0_A c i arg2 harg2 arg3 harg3 arg4 harg4 arg5 harg5 arg6 harg6 arg7 harg7 arg8 harg8 hc0 hc1 x2 x3 x4 x5).2.1 S1x1.size (by sl_kernel_rfl) y

/-- What the case leaves in the running total. -/
def sout0_A_0 (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x2 x3 x4 x5 : Vec F S256x128 .f32) : Vec F S1x1 .f32 :=
  VS0_0.read (Elt F) (VS0_0.writes (Elt F) VS0_0.junk (kernelRun0_A c i arg2 harg2 arg3 harg3 arg4 harg4 arg5 harg5 arg6 harg6 arg7 harg7 arg8 harg8 hc0 hc1 x2 x3 x4 x5).2.1)

/-- The case's pieces for the running number of pairs cover it. -/
theorem scover0_A_1 (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x2 x3 x4 x5 : Vec F S256x128 .f32) (y : S1x1.Idx) :
    ∃ pc ∈ (kernelRun0_A c i arg2 harg2 arg3 harg3 arg4 harg4 arg5 harg5 arg6 harg6 arg7 harg7 arg8 harg8 hc0 hc1 x2 x3 x4 x5).2.2.1, y ∈ pc.1.set :=
  View.cover_of_tiledL (kernelRun0_A c i arg2 harg2 arg3 harg3 arg4 harg4 arg5 harg5 arg6 harg6 arg7 harg7 arg8 harg8 hc0 hc1 x2 x3 x4 x5).2.2.1 S1x1.size (by sl_kernel_rfl) y

/-- What the case leaves in the running number of pairs. -/
def sout0_A_1 (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x2 x3 x4 x5 : Vec F S256x128 .f32) : Vec F S1x1 .f32 :=
  VS0_1.read (Elt F) (VS0_1.writes (Elt F) VS0_1.junk (kernelRun0_A c i arg2 harg2 arg3 harg3 arg4 harg4 arg5 harg5 arg6 harg6 arg7 harg7 arg8 harg8 hc0 hc1 x2 x3 x4 x5).2.2.1)

/-- What the case's stores leave in the result window's buffer: its pieces read back (no piece where the case stores
    nothing into it: then nothing consults it). -/
def out0_B_4 (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x2 x3 x4 x5 : Vec F S256x128 .f32) (xs7 xs8 : Vec F S1x1 .f32) : Vec F S1x1 .f32 :=
  VO0_4.read (Elt F) (VO0_4.writes (Elt F) VO0_4.junk (kernelRun0_B c i arg2 harg2 arg3 harg3 arg4 harg4 arg5 harg5 arg6 harg6 arg7 harg7 arg8 harg8 hc0 hc1 x2 x3 x4 x5 xs7 xs8).1)

/-- The case's pieces for the running total cover it. -/
theorem scover0_B_0 (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x2 x3 x4 x5 : Vec F S256x128 .f32) (xs7 xs8 : Vec F S1x1 .f32) (y : S1x1.Idx) :
    ∃ pc ∈ (kernelRun0_B c i arg2 harg2 arg3 harg3 arg4 harg4 arg5 harg5 arg6 harg6 arg7 harg7 arg8 harg8 hc0 hc1 x2 x3 x4 x5 xs7 xs8).2.1, y ∈ pc.1.set :=
  View.cover_of_tiledL (kernelRun0_B c i arg2 harg2 arg3 harg3 arg4 harg4 arg5 harg5 arg6 harg6 arg7 harg7 arg8 harg8 hc0 hc1 x2 x3 x4 x5 xs7 xs8).2.1 S1x1.size (by sl_kernel_rfl) y

/-- What the case leaves in the running total. -/
def sout0_B_0 (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x2 x3 x4 x5 : Vec F S256x128 .f32) (xs7 xs8 : Vec F S1x1 .f32) : Vec F S1x1 .f32 :=
  VS0_0.read (Elt F) (VS0_0.writes (Elt F) VS0_0.junk (kernelRun0_B c i arg2 harg2 arg3 harg3 arg4 harg4 arg5 harg5 arg6 harg6 arg7 harg7 arg8 harg8 hc0 hc1 x2 x3 x4 x5 xs7 xs8).2.1)

/-- The case's pieces for the running number of pairs cover it. -/
theorem scover0_B_1 (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x2 x3 x4 x5 : Vec F S256x128 .f32) (xs7 xs8 : Vec F S1x1 .f32) (y : S1x1.Idx) :
    ∃ pc ∈ (kernelRun0_B c i arg2 harg2 arg3 harg3 arg4 harg4 arg5 harg5 arg6 harg6 arg7 harg7 arg8 harg8 hc0 hc1 x2 x3 x4 x5 xs7 xs8).2.2.1, y ∈ pc.1.set :=
  View.cover_of_tiledL (kernelRun0_B c i arg2 harg2 arg3 harg3 arg4 harg4 arg5 harg5 arg6 harg6 arg7 harg7 arg8 harg8 hc0 hc1 x2 x3 x4 x5 xs7 xs8).2.2.1 S1x1.size (by sl_kernel_rfl) y

/-- What the case leaves in the running number of pairs. -/
def sout0_B_1 (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x2 x3 x4 x5 : Vec F S256x128 .f32) (xs7 xs8 : Vec F S1x1 .f32) : Vec F S1x1 .f32 :=
  VS0_1.read (Elt F) (VS0_1.writes (Elt F) VS0_1.junk (kernelRun0_B c i arg2 harg2 arg3 harg3 arg4 harg4 arg5 harg5 arg6 harg6 arg7 harg7 arg8 harg8 hc0 hc1 x2 x3 x4 x5 xs7 xs8).2.2.1)

/-- What the case's stores leave in the result window's buffer: its pieces read back (no piece where the case stores
    nothing into it: then nothing consults it). -/
def out0_C_4 (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x2 x3 x4 x5 : Vec F S256x128 .f32) (xs7 xs8 : Vec F S1x1 .f32) : Vec F S1x1 .f32 :=
  VO0_4.read (Elt F) (VO0_4.writes (Elt F) VO0_4.junk (kernelRun0_C c i arg2 harg2 arg3 harg3 arg4 harg4 arg5 harg5 arg6 harg6 arg7 harg7 arg8 harg8 hc0 hc1 x2 x3 x4 x5 xs7 xs8).1)

/-- The case's pieces for the running total cover it. -/
theorem scover0_C_0 (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x2 x3 x4 x5 : Vec F S256x128 .f32) (xs7 xs8 : Vec F S1x1 .f32) (y : S1x1.Idx) :
    ∃ pc ∈ (kernelRun0_C c i arg2 harg2 arg3 harg3 arg4 harg4 arg5 harg5 arg6 harg6 arg7 harg7 arg8 harg8 hc0 hc1 x2 x3 x4 x5 xs7 xs8).2.1, y ∈ pc.1.set :=
  View.cover_of_tiledL (kernelRun0_C c i arg2 harg2 arg3 harg3 arg4 harg4 arg5 harg5 arg6 harg6 arg7 harg7 arg8 harg8 hc0 hc1 x2 x3 x4 x5 xs7 xs8).2.1 S1x1.size (by sl_kernel_rfl) y

/-- What the case leaves in the running total. -/
def sout0_C_0 (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x2 x3 x4 x5 : Vec F S256x128 .f32) (xs7 xs8 : Vec F S1x1 .f32) : Vec F S1x1 .f32 :=
  VS0_0.read (Elt F) (VS0_0.writes (Elt F) VS0_0.junk (kernelRun0_C c i arg2 harg2 arg3 harg3 arg4 harg4 arg5 harg5 arg6 harg6 arg7 harg7 arg8 harg8 hc0 hc1 x2 x3 x4 x5 xs7 xs8).2.1)

/-- The case's pieces for the running number of pairs cover it. -/
theorem scover0_C_1 (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x2 x3 x4 x5 : Vec F S256x128 .f32) (xs7 xs8 : Vec F S1x1 .f32) (y : S1x1.Idx) :
    ∃ pc ∈ (kernelRun0_C c i arg2 harg2 arg3 harg3 arg4 harg4 arg5 harg5 arg6 harg6 arg7 harg7 arg8 harg8 hc0 hc1 x2 x3 x4 x5 xs7 xs8).2.2.1, y ∈ pc.1.set :=
  View.cover_of_tiledL (kernelRun0_C c i arg2 harg2 arg3 harg3 arg4 harg4 arg5 harg5 arg6 harg6 arg7 harg7 arg8 harg8 hc0 hc1 x2 x3 x4 x5 xs7 xs8).2.2.1 S1x1.size (by sl_kernel_rfl) y

/-- What the case leaves in the running number of pairs. -/
def sout0_C_1 (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x2 x3 x4 x5 : Vec F S256x128 .f32) (xs7 xs8 : Vec F S1x1 .f32) : Vec F S1x1 .f32 :=
  VS0_1.read (Elt F) (VS0_1.writes (Elt F) VS0_1.junk (kernelRun0_C c i arg2 harg2 arg3 harg3 arg4 harg4 arg5 harg5 arg6 harg6 arg7 harg7 arg8 harg8 hc0 hc1 x2 x3 x4 x5 xs7 xs8).2.2.1)

/-- The result window's pieces at the last point cover it (one store of the whole word). -/
theorem cover0_C_4 (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x2 x3 x4 x5 : Vec F S256x128 .f32) (xs7 xs8 : Vec F S1x1 .f32) (y : S1x1.Idx) :
    ∃ pc ∈ (kernelRun0_C c i arg2 harg2 arg3 harg3 arg4 harg4 arg5 harg5 arg6 harg6 arg7 harg7 arg8 harg8 hc0 hc1 x2 x3 x4 x5 xs7 xs8).1, y ∈ pc.1.set :=
  View.cover_of_tiledL (kernelRun0_C c i arg2 harg2 arg3 harg3 arg4 harg4 arg5 harg5 arg6 harg6 arg7 harg7 arg8 harg8 hc0 hc1 x2 x3 x4 x5 xs7 xs8).1 S1x1.size (by sl_kernel_rfl) y

/-! ## What the buffers hold after each point -/

/-- THE ACCUMULATION: after the body at position `n`, the result window's buffer, the running total and the running
    number of pairs. -/
def outsAt0 (c : Dev nD) : (n : ℕ) → n < cfg0.N → Vec F S1x1 .f32 × Vec F S1x1 .f32 × Vec F S1x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 4 = 0 then
      if h1 : (n + 1) % 4 = 3 then
        False.elim (by have hN : n + 1 < 4 := lt_of_lt_of_eq hn (show cfg0.N = 4 from N_0); omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)

theorem outsAt0_A (c : Dev nD) (t : Fin cfg0.N) (h0 : t.val % 4 = 0) (h1 : ¬t.val % 4 = 3) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scratch at anything; afterwards the two
    accumulators at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The proof data on core `c`: the arrays as the region finds them; after the body each input's buffer at its block and
    the result's at `outsAt0`; the invariant `PhiS`; nothing owed; of each input array one half of the share to the
    window of the tile's rows and the other to the window of its columns. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
/-- The body at any point: the inputs' memrefs hold their blocks; the closed forms say which case the point is in; the
    invariant hands the body the accumulators at what the point before left (at anything at the first point) and takes
    them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 4 := lt_of_lt_of_eq t.isLt (show cfg0.N = 4 from N_0)
  by_cases h0 : t.val % 4 = 0
  · by_cases h1 : t.val % 4 = 3
    · exfalso; omega
    · have hz : t.val = 0 := by omega
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0 sout0_A_1; (try dsimp only)
      rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t)).2.2.2 _ Set.univ _)
      · isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    · have hz : t.val ≠ 0 := by omega
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) (iblk m c 3 t) _ _).2.2.2 Set.univ _)
      · isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        iintro ⟨H0, H1, H2, H3, ⟨%e4, H4⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _ _ _ _)
    · have hz : t.val ≠ 0 := by omega
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) (iblk m c 3 t) _ _).2.2.2 _ Set.univ _)
      · isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

end Cert.KernelIdeal.Hand

end
-- ==== Proof.KILaunch.lean ====
/-
  The kernel's launch: @main is the region and then one host operation, the reshape of the [1, 1] result to a scalar.

  At the region's entry each input array is held whole; its share is dealt in two halves to the two windows that stage
  it (the tile's row features and its column features). The two accumulators and the generator register enter the
  region's invariant and come back at its end; the scalar result's buffer bypasses the region. At the exit the halves of
  each input are joined again, and the reshape runs over the result array as the region left it.
-/
import proofs.«118690_j7060926235074_1_alg».proof.Proof.KIFrame
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- The pipeline library's algebra is the whole of the certificate's. -/
abbrev EP : Emb (UR sig nD τ) (MT nD τ sig Unit (Elt F) ℕ (UR sig nD τ) ℕ) := emb₁
/-- The launch element: the pipeline library's at the staging cells. -/
def u₀ : UR sig nD τ := initOf (Pipeline.cells cfgs cellOf_inj) (Pipeline.launchToks cfgs cellOf_inj)

/-- The core owes nothing. -/
abbrev R (c : Dev nD) : sProp 𝕄 := iprop(∃ W, owes (c : Thread nD τ) (0 : CellTallies nD τ sig Unit) W)

/-- The core's buffers after the region: as launched, the result array as the region left it. -/
abbrev Vr (c : Dev nD) : Valuation τ sig (Elt F) :=
  Pipeline.withArrays spec0 c (fun b => m (c, b)) (fun w => (dats m 0 c).arrAt w cfg0.N)

/-- The result array after the region is what the pipeline's account of window 4 says. -/
theorem Vr_v0 (c : Dev nD) : Vr m c (Proc.devRef .tc main_v0) = (dats m 0 c).arrAt 4 cfg0.N := by
  unfold Vr Pipeline.withArrays
  have h : ∃ w', Proc.devRef .tc (Pipeline.arrRef spec0 w') = Proc.devRef (τ := τ) .tc main_v0 := ⟨4, rfl⟩
  rw [dif_pos h]
  suffices ∀ (w' : Fin 5) (e : Proc.devRef .tc (Pipeline.arrRef spec0 w') = Proc.devRef (τ := τ) .tc main_v0),
      cast (congrArg (fun b' : DevRef τ sig => b'.ty.Contents (Elt F)) e) ((dats m 0 c).arrAt w' cfg0.N) = (dats m 0 c).arrAt 4 cfg0.N from this _ h.choose_spec
  intro w' e
  have hw : w' = 4 := by
    have e' := Proc.devRef_injective _ e
    revert e'
    fin_cases w' <;> intro e' <;> first | rfl | exact absurd e' (by decide)
  subst hw
  rfl

/-- The scalar result's buffer is no window's array: the region leaves it as launched. -/
theorem Vr_v1 (c : Dev nD) : Vr m c (Proc.devRef .tc main_v1) = m (c, Proc.devRef .tc main_v1) :=
  Pipeline.withArrays_of_ne spec0 c _ _ main_v1 (by decide)

/-- The two buffers the reshape touches. -/
def S2 : Finset (DevRef τ sig) := {Proc.devRef .tc main_v0, Proc.devRef .tc main_v1}

/-- What rides beside them through the reshape: the two inputs, whole again, the generator register, nothing owed. -/
abbrev R2 (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (∃ r, prngReg c r) ∗ R c)

/-- THE HOST SEGMENT: the reshape, over the result array and the scalar's buffer. -/
def seg1 : Pipeline.HostSeg (Name := ℕ) (U := UR sig nD τ) (pcfgs (F := F)) defs₀ 𝒱₀ L lv :=
  Pipeline.HostSeg.ofOps _ _ _ _ _ S2 hostOps1
    (by
      intro op h
      simp only [hostOps1, List.mem_singleton] at h
      subst h
      rw [StableHlo.reshape_bufs]
      exact fun b hb => by simpa [S2] using hb)
    (by intro _ h; (repeat (cases h with | head => rfl | tail _ h => ?_)); exact nomatch h)
    (Vr m) (R2 m)

/-- What the whole program leaves: the two buffers after the reshape, and the inputs. -/
abbrev Tₙ (c : Dev nD) : sProp 𝕄 :=
  iprop(StableHlo.held (c : Thread nD τ) S2 (StableHlo.after hostOps1 (Vr m c))
    ∗ (((c : Thread nD τ).loc main_arg0) ↦{fullShare} m ((c : Thread nD τ).loc main_arg0))
    ∗ (((c : Thread nD τ).loc main_arg1) ↦{fullShare} m ((c : Thread nD τ).loc main_arg1)))

/-- The windows' arrays, one by one, each whole at its window's share. -/
theorem arrays_list (c : Dev nD) (Fa : (w : Fin cfg0.W) → Buf (Elt F) ((cfg0.win w).arr.view.loc (c : Thread nD τ))) :
    ((dats m 0 c).arrays Fa : sProp 𝕄)
      = iprop((((c : Thread nD τ).loc main_arg0) ↦{fullShare.left} Fa 0) ∗ (((c : Thread nD τ).loc main_arg0) ↦{fullShare.right} Fa 1)
          ∗ (((c : Thread nD τ).loc main_arg1) ↦{fullShare.left} Fa 2) ∗ (((c : Thread nD τ).loc main_arg1) ↦{fullShare.right} Fa 3)
          ∗ (((c : Thread nD τ).loc main_v0) ↦{fullShare} Fa 4)) := by
  unfold Dat.arrays
  rw [bigSep_W0]
  simp only [(arr_whole0 0).set_eq_univ, (arr_whole0 1).set_eq_univ, (arr_whole0 2).set_eq_univ, (arr_whole0 3).set_eq_univ, (arr_whole0 4).set_eq_univ]
  rfl

/-- The buffers behind the windows' arrays, each whole at the full share: the two inputs and the result array. -/
theorem arrBufs_list (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0)) := by
  unfold Pipeline.arrBufs
  exact Idealize.SL.BI.bigSep_eq_bigSepL_of_eq [main_arg0, main_arg1, main_v0] (by decide) (by decide) _

/-- The reshape's two buffers, one by one. -/
theorem held_S2 (c : Dev nD) (W : Valuation τ sig (Elt F)) :
    (StableHlo.held (Ix := Unit) (Name := ℕ) (U := UR sig nD τ) (Lvl := ℕ) (c : Thread nD τ) S2 W : sProp 𝕄)
      = iprop((((c : Thread nD τ).loc main_v0) ↦{fullShare} W (Proc.devRef .tc main_v0))
          ∗ (((c : Thread nD τ).loc main_v1) ↦{fullShare} W (Proc.devRef .tc main_v1))) := by
  unfold StableHlo.held S2
  rw [BI.bigSep_insert (by simp only [Finset.mem_singleton]; exact StableHlo.devRef_ne_of_ne (by decide)), BI.bigSep_singleton]
  rfl

/-- After any point but the first the invariant gives the plain one back: the accumulators' contents are forgotten. -/
theorem hout_A (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 4 := N_0; omega), PhiA0_eq]
  iintro ⟨⟨HS0, HS1⟩, Hg⟩
  isplitl [HS0 HS1]
  · isplitl [HS0]
    · iexists _; iexact HS0
    · iexists _; iexact HS1
  iexact Hg

-- unification of the library's lemmas stated over a pipeline family with this program's one configuration unfolds
-- plain definitions in a metavariable's type
set_option backward.isDefEq.respectTransparency.types false in
/-- THE REGION: entered from the launch's buffers — each input's share dealt to its two windows, the accumulators and
    the generator register into the invariant, the scalar's buffer bypassing —, left with the inputs whole again and the
    result array at its final contents. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(unscopedBufs c (V m c) ∗ (∃ r, prngReg c r) ∗ R c)
  post c := iprop(StableHlo.held (c : Thread nD τ) S2 (Vr m c) ∗ R2 m c)
  X c := iprop(∃ r, prngReg c r)
  Y c := iprop(∃ r, prngReg c r)
  Z c := ((c : Thread nD τ).loc main_v1) ↦{fullShare} V m c main_v1
  hentry c := by
    rw [Pipeline.unscopedBufs_split₀ (Pipeline.pin (pcfgs (F := F)) adm) 0 winFacts₀0.arr_unscoped c (V m c)]
    have hA := arrBufs_list c (V m c)
    have hU := unscopedRest0_eq (Ix := Unit) (Val := Elt F) (Name := ℕ) (U := UR sig nD τ) (Lvl := ℕ) c (V m c)
    have hL := arrays_list m c (fun w => (dats m 0 c).arrAt w 0)
    iintro ⟨⟨⟨Ha, Hrest⟩, Hp, HO⟩, -, -⟩
    ihave Ha' := (Entails.of_eq hA) $$ Ha
    icases Ha' with ⟨H0, H1, Hv0⟩
    ihave H0' := (pointsTo_share (PosShare.mem_left_op_right fullShare)).1 $$ H0
    icases H0' with ⟨H0l, H0r⟩
    ihave H1' := (pointsTo_share (PosShare.mem_left_op_right fullShare)).1 $$ H1
    icases H1' with ⟨H1l, H1r⟩
    ihave Hrest' := (Entails.of_eq hU) $$ Hrest
    imodintro
    isplitl [H0l H0r H1l H1r Hv0]
    · iapply (Entails.of_eq hL.symm)
      isplitl [H0l]; · iexact H0l
      isplitl [H0r]; · iexact H0r
      isplitl [H1l]; · iexact H1l
      isplitl [H1r]; · iexact H1r
      iexact Hv0
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest'
  hin c := by
    rw [show (dats m 0 c).Φ 0 = Pipeline.ΦA spec0 c from rfl]
    unfold Pipeline.ΦA
    iintro ⟨Hp, -, Hr⟩
    isplitl [Hr]; · iexact Hr
    iexact Hp
  hout c := by
    rw [Pipeline.ownSems0_none]
    refine (hout_A m c).trans ?_
    unfold Pipeline.ΦA
    iintro ⟨Hr, Hp⟩
    isplitl [Hp]; · iexact Hp
    isplitr; · iempintro
    iexact Hr
  hexit c := by
    have hL := arrays_list m c (fun w => (dats m 0 c).arrAt w cfg0.N)
    iintro ⟨Ha, HO, Hp, Hz⟩
    have e0 : (dats m 0 c).arrAt 0 cfg0.N = m ((c : Thread nD τ).loc main_arg0) := ((dats m 0 c).arrAt_in 0 rfl _).trans (A_eq m c 0)
    have e1 : (dats m 0 c).arrAt 1 cfg0.N = m ((c : Thread nD τ).loc main_arg0) := ((dats m 0 c).arrAt_in 1 rfl _).trans (A_eq m c 1)
    have e2 : (dats m 0 c).arrAt 2 cfg0.N = m ((c : Thread nD τ).loc main_arg1) := ((dats m 0 c).arrAt_in 2 rfl _).trans (A_eq m c 2)
    have e3 : (dats m 0 c).arrAt 3 cfg0.N = m ((c : Thread nD τ).loc main_arg1) := ((dats m 0 c).arrAt_in 3 rfl _).trans (A_eq m c 3)
    rw [e0, e1, e2, e3] at hL
    have hH := held_S2 c (Vr m c)
    rw [Vr_v0 m c, Vr_v1 m c] at hH
    ihave Ha' := (Entails.of_eq hL) $$ Ha
    icases Ha' with ⟨H0l, H0r, H1l, H1r, Hv0⟩
    ihave H0 := (pointsTo_share (PosShare.mem_left_op_right fullShare)).2 $$ [H0l H0r]
    · isplitl [H0l] <;> iassumption
    ihave H1 := (pointsTo_share (PosShare.mem_left_op_right fullShare)).2 $$ [H1l H1r]
    · isplitl [H1l] <;> iassumption
    imodintro
    isplitl [Hv0 Hz]
    · iapply (Entails.of_eq hH.symm)
      isplitl [Hv0]; · iexact Hv0
      iexact Hz
    isplitl [H0]; · iexact H0
    isplitl [H1]; · iexact H1
    isplitl [Hp]; · iexact Hp
    unfold Pipeline.Dat.owesAt Pipeline.owesWithin
    icases HO with ⟨%W, -, HO⟩; iexists W; iexact HO

/-- @main as the list of the two. -/
abbrev segs : List (Pipeline.Seg (pcfgs (F := F)) adm (dats m) () defs₀ 𝒱₀ L lv) := [.region (reg0 m), .host (seg1 m)]

/-- What the run establishes of a final state, core by core: the scalar result is the reshape of the result array as the
    region left it; both inputs are as launched. -/
def QC : PUnit × MemSt nD τ sig (Elt F) → Prop := fun r => ∀ c : Dev nD,
  r.2.mem ((c : Thread nD τ).loc main_v1) = StableHlo.after hostOps1 (Vr m c) (Proc.devRef .tc main_v1)
    ∧ r.2.mem ((c : Thread nD τ).loc main_arg0) = m ((c : Thread nD τ).loc main_arg0)
    ∧ r.2.mem ((c : Thread nD τ).loc main_arg1) = m ((c : Thread nD τ).loc main_arg1)

set_option backward.isDefEq.respectTransparency.types false in
/-- At the compiled mesh, for any values, from any memory with zero counters: every weakly fair execution of @main on the
    TensorCores terminates, and every final state has the scalar result and both inputs as `QC` says. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg1 m) (reg0 m) rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu
      imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(unscopedBufs c (V m c) ∗ (∃ r, prngReg c r) ∗ R c)) (Tₙ := Tₙ m)
    (hch := ⟨fun _ => .rfl, fun _ => .rfl, fun c => by
      show iprop(StableHlo.held (c : Thread nD τ) S2 (StableHlo.after hostOps1 (Vr m c)) ∗ R2 m c)
        ⊢ iprop(Tₙ m c ∗ ∃ W, owes (c : Thread nD τ) (0 : CellTallies nD τ sig Unit) W)
      iintro ⟨Hh, H0, H1, -, HR⟩
      isplitl [Hh H0 H1]
      · isplitl [Hh]; · iexact Hh
        isplitl [H0]; · iexact H0
        iexact H1
      iexact HR⟩)
    (hinit := by
      refine Pipeline.initEach L lv fun c => ?_
      iintro ⟨⟨Hh, -, HO, -, Hp, -⟩, -⟩
      imodintro
      isplitl [Hh]; · iexact Hh
      isplitl [Hp]; · iexists _; iexact Hp
      iexists ∅; iexact HO)
    (QY := fun c s => s.mem ((c : Thread nD τ).loc main_v1) = StableHlo.after hostOps1 (Vr m c) (Proc.devRef .tc main_v1)
      ∧ s.mem ((c : Thread nD τ).loc main_arg0) = m ((c : Thread nD τ).loc main_arg0)
      ∧ s.mem ((c : Thread nD τ).loc main_arg1) = m ((c : Thread nD τ).loc main_arg1))
    (hfin := fun c s' => by
      dsimp only [Tₙ]
      rw [held_S2]
      iintro ⟨⟨⟨-, Hv1⟩, H0, H1⟩, HSI⟩
      icombine HSI Hv1 gives %h1
      icombine HSI H0 gives %h0
      icombine HSI H1 gives %h2
      imodintro
      isplitr
      · ipureintro
        exact ⟨Buf.eq_of_forall_mem_univ h1, Buf.eq_of_forall_mem_univ h0, Buf.eq_of_forall_mem_univ h2⟩
      iexact HSI)
    (hQ := fun _ h => h)

/-- THE FRAME: the program runs to the end, faults nowhere and leaves both inputs unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.1, (h c).2.2⟩) (run_main m ρ)

end Cert.KernelIdeal.Hand

end
-- ==== Proof.KBDefs.lean ====
/-
  The kernel's four grid points, its windows and its conditionals, as the run of its body needs them.

  The grid is 2 x 2, walked row-major: point t is the tile (t / 2, t % 2) of the square of pairs. Windows 0 and 2
  bring the 256 x 128 column block of the tile's ROW features of the predictions and of the relevance scores, windows 1
  and 3 the block of its COLUMN features; window 4 is the one-word result. The body zeroes its two one-word
  accumulators under its first conditional (the first point only) and stores the result under its second (the last point
  only); elsewhere the result window is idle and not written back.
-/
import proofs.«118690_j7060926235074_1_alg».proof.Proof.Gen.Kernel.Launch
import proofs.«118690_j7060926235074_1_alg».proof.Proof.Gen.Kernel.Skeleton
import proofs.«118690_j7060926235074_1_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s TensorCore buffers when the region is entered: as launched (the region is @main's first step). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditionals -/

/-- "This is the first tile": both grid coordinates are zero. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last tile": both grid coordinates are one. -/
abbrev cond0_1 (i : grid0.Coords) : Prop := k0_cond2 i = 1#1
/-- It holds at the last point only. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last point the result window is idle: the body stores nothing into it, -/
theorem idleAt0_4 : ∀ t : Fin cfg0.N, ¬cond0_1 (grid0.coords t) → cfg0.idle 4 (grid0.coords t) = true := by decide +kernel
/-- and the pipeline does not write it back. -/
theorem noFlush0_4 : ∀ t : Fin cfg0.N, ¬cond0_1 (grid0.coords t) → (cfg0.win 4).flush t = false := by decide +kernel
/-- At the last point it is live. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S256x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
/-- The result window's one staging buffer, through which its contents are stated. -/
abbrev VO0_4 : View sig .tc .vmem S1x1 .f32 := (Memref.whole cc0_stg4_0 : Memref sig .tc .vmem S1x1 .f32).view
/-- The two accumulators: the running total of the pairs' means and the running number of pairs. -/
abbrev scM0_0 : Memref sig .tc .vmem S1x1 .f32 := Memref.whole cc0_scratch0
abbrev scM0_1 : Memref sig .tc .vmem S1x1 .f32 := Memref.whole cc0_scratch1
abbrev VS0_0 : View sig .tc .vmem S1x1 .f32 := scM0_0.view
abbrev VS0_1 : View sig .tc .vmem S1x1 .f32 := scM0_1.view

/-- The region's plain invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.KBRunA.lean ====
/-
  The kernel's body run whole at the first point (the accumulators zeroed first, nothing stored into the result): on whole staging memrefs holding the
  four input blocks, the body runs to its end, hands the input blocks back as they were, and leaves each accumulator —
  and at the last point the result — with the pieces its stores wrote, which are found by running it.
-/
import proofs.«118690_j7060926235074_1_alg».proof.Proof.KBDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
/-- The pieces each buffer ends with, with the proof that the body runs to the continuation holding them. -/
noncomputable def kernelRun0_A (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x2 x3 x4 x5 : Vec F S256x128 .f32) :
    Σ' (L6 : List (View.Piece (Elt F) S1x1 .f32)) (LS7 : List (View.Piece (Elt F) S1x1 .f32)), { LS8 : List (View.Piece (Elt F) S1x1 .f32) //
      ∀ (xi6 : Vec F S1x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6 ∗ (∃ d, owns (c : Thread nD τ) arg7 fullShare d) ∗ (∃ d, owns (c : Thread nD τ) arg8 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5
                ∗ owns (c : Thread nD τ) arg6 fullShare xi6
                ∗ (∃ f, arg7.view.loc (c : Thread nD τ) ↦[arg7.view.set]{fullShare} arg7.view.writes (Elt F) f LS7)
                ∗ (∃ f, arg8.view.loc (c : Thread nD τ) ↦[arg8.view.set]{fullShare} arg8.view.writes (Elt F) f LS8)) -∗ K ⟨⟩))
          ⊢ wp frame (wpE (defs₀ (F := F)) Variants.none c none) E (cc0__ranknet_kernel i arg2 harg2 arg3 harg3 arg4 harg4 arg5 harg5 arg6 harg6 arg7 harg7 arg8 harg8) K } := by
  refine ⟨[], ?_, ?_, fun xi6 E K => ?run⟩
  case run =>
    simp only [cc0__ranknet_kernel_eq_skeleton]; unfold cc0__ranknet_kernel_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg2.eq_unread hf2
    obtain rfl := harg3.eq_unread hf3
    obtain rfl := harg4.eq_unread hf4
    obtain rfl := harg5.eq_unread hf5
    obtain rfl := harg6.eq_unread hf6
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    iexists _; iexact H8

end Cert.Kernel.Hand

end
-- ==== Proof.KBRunB.lean ====
/-
  The kernel's body run whole at a middle point (neither conditional taken: the accumulators added to, nothing stored into the result): on whole staging memrefs holding the
  four input blocks, the body runs to its end, hands the input blocks back as they were, and leaves each accumulator —
  and at the last point the result — with the pieces its stores wrote, which are found by running it.
-/
import proofs.«118690_j7060926235074_1_alg».proof.Proof.KBRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
/-- The pieces each buffer ends with, with the proof that the body runs to the continuation holding them. -/
noncomputable def kernelRun0_B (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x2 x3 x4 x5 : Vec F S256x128 .f32) (xs7 xs8 : Vec F S1x1 .f32) :
    Σ' (L6 : List (View.Piece (Elt F) S1x1 .f32)) (LS7 : List (View.Piece (Elt F) S1x1 .f32)), { LS8 : List (View.Piece (Elt F) S1x1 .f32) //
      ∀ (xi6 : Vec F S1x1 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare xi6 ∗ owns (c : Thread nD τ) arg7 fullShare xs7 ∗ owns (c : Thread nD τ) arg8 fullShare xs8
            ∗ (iprop(owns (c : Thread nD τ) arg2 fullShare x2 ∗ owns (c : Thread nD τ) arg3 fullShare x3 ∗ owns (c : Thread nD τ) arg4 fullShare x4 ∗ owns (c : Thread nD τ) arg5 fullShare x5
                ∗ owns (c : Thread nD τ) arg6 fullShare xi6
                ∗ (∃ f, arg7.view.loc (c : Thread nD τ) ↦[arg7.view.set]{fullShare} arg7.view.writes (Elt F) f LS7)
                ∗ (∃ f, arg8.view.loc (c : Thread nD τ) ↦[arg8.view.set]{fullShare} arg8.view.writes (Elt F) f LS8)) -∗ K ⟨⟩))
          ⊢ wp frame (wpE (defs₀ (F := F)) Variants.none c none) E (cc0__ranknet_kernel i arg2 harg2 arg3 harg3 arg4 harg4 arg5 harg5 arg6 harg6 arg7 harg7 arg8 harg8) K } := by
  refine ⟨[], ?_, ?_, fun xi6 E K => ?run⟩
  case run =>
    simp only [cc0__ranknet_kernel_eq_skeleton]; unfold cc0__ranknet_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    iexists _; iexact H8

end Cert.Kernel.Hand

end
-- ==== Proof.KBRunC.lean ====
/-
  The kernel's body run whole at the last point (the accumulators added to, then the result stored: the total over the number of pairs): on whole staging memrefs holding the
  four input blocks, the body runs to its end, hands the input blocks back as they were, and leaves each accumulator —
  and at the last point the result — with the pieces its stores wrote, which are found by running it.
-/
import proofs.«118690_j7060926235074_1_alg».proof.Proof.KBRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
/-- The pieces each buffer ends with, with the proof that the body runs to the continuation holding them. -/
noncomputable def kernelRun0_C (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x2 x3 x4 x5 : Vec F S256x128 .f32) (xs7 xs8 : Vec F S1x1 .f32) :
    Σ' (L6 : List (View.Piece (Elt F) S1x1 .f32)) (LS7 : List (View.Piece (Elt F) S1x1 .f32)), { LS8 : List (View.Piece (Elt F) S1x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5
            ∗ (∃ d, owns (c : Thread nD τ) arg6 fullShare d) ∗ owns (c : Thread nD τ) arg7 fullShare xs7 ∗ owns (c : Thread nD τ) arg8 fullShare xs8
            ∗ (iprop(owns (c : Thread nD τ) arg2 fullShare x2 ∗ owns (c : Thread nD τ) arg3 fullShare x3 ∗ owns (c : Thread nD τ) arg4 fullShare x4 ∗ owns (c : Thread nD τ) arg5 fullShare x5
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f LS7)
                ∗ (∃ f, arg8.view.loc (c : Thread nD τ) ↦[arg8.view.set]{fullShare} arg8.view.writes (Elt F) f LS8)) -∗ K ⟨⟩))
          ⊢ wp frame (wpE (defs₀ (F := F)) Variants.none c none) E (cc0__ranknet_kernel i arg2 harg2 arg3 harg3 arg4 harg4 arg5 harg5 arg6 harg6 arg7 harg7 arg8 harg8) K } := by
  refine ⟨?_, ?_, ?_, fun E K => ?run⟩
  case run =>
    simp only [cc0__ranknet_kernel_eq_skeleton]; unfold cc0__ranknet_kernel_skel
    unfold owns
    iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg2.eq_unread hf2
    obtain rfl := harg3.eq_unread hf3
    obtain rfl := harg4.eq_unread hf4
    obtain rfl := harg5.eq_unread hf5
    obtain rfl := harg7.eq_unread hf7
    obtain rfl := harg8.eq_unread hf8
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    isplitl [H7]
    · iexists _; iexact H7
    iexists _; iexact H8

end Cert.Kernel.Hand

end
-- ==== Proof.KBFrame.lean ====
/-
  The kernel's proof data and body obligation.

  What the two accumulators and the result window hold after each grid point is defined by recursion on the point: the
  first point runs the body's first case from anything, a middle point its middle case over what the point before left
  in the accumulators, the last point its last case, which also stores the result. Between points the region's
  invariant holds the two accumulators at exactly those contents. Each input array is staged through two windows (the
  tile's row features and its column features); each of the two holds one half of the array's share.
-/
import proofs.«118690_j7060926235074_1_alg».proof.Proof.KBRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## What each case leaves -/

/-- What the case's stores leave in the result window's buffer: its pieces read back (no piece where the case stores
    nothing into it: then nothing consults it). -/
def out0_A_4 (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x2 x3 x4 x5 : Vec F S256x128 .f32) : Vec F S1x1 .f32 :=
  VO0_4.read (Elt F) (VO0_4.writes (Elt F) VO0_4.junk (kernelRun0_A c i arg2 harg2 arg3 harg3 arg4 harg4 arg5 harg5 arg6 harg6 arg7 harg7 arg8 harg8 hc0 hc1 x2 x3 x4 x5).1)

/-- The case's pieces for the running total cover it. -/
theorem scover0_A_0 (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x2 x3 x4 x5 : Vec F S256x128 .f32) (y : S1x1.Idx) :
    ∃ pc ∈ (kernelRun0_A c i arg2 harg2 arg3 harg3 arg4 harg4 arg5 harg5 arg6 harg6 arg7 harg7 arg8 harg8 hc0 hc1 x2 x3 x4 x5).2.1, y ∈ pc.1.set :=
  View.cover_of_tiledL (kernelRun0_A c i arg2 harg2 arg3 harg3 arg4 harg4 arg5 harg5 arg6 harg6 arg7 harg7 arg8 harg8 hc0 hc1 x2 x3 x4 x5).2.1 S1x1.size (by sl_kernel_rfl) y

/-- What the case leaves in the running total. -/
def sout0_A_0 (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x2 x3 x4 x5 : Vec F S256x128 .f32) : Vec F S1x1 .f32 :=
  VS0_0.read (Elt F) (VS0_0.writes (Elt F) VS0_0.junk (kernelRun0_A c i arg2 harg2 arg3 harg3 arg4 harg4 arg5 harg5 arg6 harg6 arg7 harg7 arg8 harg8 hc0 hc1 x2 x3 x4 x5).2.1)

/-- The case's pieces for the running number of pairs cover it. -/
theorem scover0_A_1 (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x2 x3 x4 x5 : Vec F S256x128 .f32) (y : S1x1.Idx) :
    ∃ pc ∈ (kernelRun0_A c i arg2 harg2 arg3 harg3 arg4 harg4 arg5 harg5 arg6 harg6 arg7 harg7 arg8 harg8 hc0 hc1 x2 x3 x4 x5).2.2.1, y ∈ pc.1.set :=
  View.cover_of_tiledL (kernelRun0_A c i arg2 harg2 arg3 harg3 arg4 harg4 arg5 harg5 arg6 harg6 arg7 harg7 arg8 harg8 hc0 hc1 x2 x3 x4 x5).2.2.1 S1x1.size (by sl_kernel_rfl) y

/-- What the case leaves in the running number of pairs. -/
def sout0_A_1 (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x2 x3 x4 x5 : Vec F S256x128 .f32) : Vec F S1x1 .f32 :=
  VS0_1.read (Elt F) (VS0_1.writes (Elt F) VS0_1.junk (kernelRun0_A c i arg2 harg2 arg3 harg3 arg4 harg4 arg5 harg5 arg6 harg6 arg7 harg7 arg8 harg8 hc0 hc1 x2 x3 x4 x5).2.2.1)

/-- What the case's stores leave in the result window's buffer: its pieces read back (no piece where the case stores
    nothing into it: then nothing consults it). -/
def out0_B_4 (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x2 x3 x4 x5 : Vec F S256x128 .f32) (xs7 xs8 : Vec F S1x1 .f32) : Vec F S1x1 .f32 :=
  VO0_4.read (Elt F) (VO0_4.writes (Elt F) VO0_4.junk (kernelRun0_B c i arg2 harg2 arg3 harg3 arg4 harg4 arg5 harg5 arg6 harg6 arg7 harg7 arg8 harg8 hc0 hc1 x2 x3 x4 x5 xs7 xs8).1)

/-- The case's pieces for the running total cover it. -/
theorem scover0_B_0 (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x2 x3 x4 x5 : Vec F S256x128 .f32) (xs7 xs8 : Vec F S1x1 .f32) (y : S1x1.Idx) :
    ∃ pc ∈ (kernelRun0_B c i arg2 harg2 arg3 harg3 arg4 harg4 arg5 harg5 arg6 harg6 arg7 harg7 arg8 harg8 hc0 hc1 x2 x3 x4 x5 xs7 xs8).2.1, y ∈ pc.1.set :=
  View.cover_of_tiledL (kernelRun0_B c i arg2 harg2 arg3 harg3 arg4 harg4 arg5 harg5 arg6 harg6 arg7 harg7 arg8 harg8 hc0 hc1 x2 x3 x4 x5 xs7 xs8).2.1 S1x1.size (by sl_kernel_rfl) y

/-- What the case leaves in the running total. -/
def sout0_B_0 (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x2 x3 x4 x5 : Vec F S256x128 .f32) (xs7 xs8 : Vec F S1x1 .f32) : Vec F S1x1 .f32 :=
  VS0_0.read (Elt F) (VS0_0.writes (Elt F) VS0_0.junk (kernelRun0_B c i arg2 harg2 arg3 harg3 arg4 harg4 arg5 harg5 arg6 harg6 arg7 harg7 arg8 harg8 hc0 hc1 x2 x3 x4 x5 xs7 xs8).2.1)

/-- The case's pieces for the running number of pairs cover it. -/
theorem scover0_B_1 (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x2 x3 x4 x5 : Vec F S256x128 .f32) (xs7 xs8 : Vec F S1x1 .f32) (y : S1x1.Idx) :
    ∃ pc ∈ (kernelRun0_B c i arg2 harg2 arg3 harg3 arg4 harg4 arg5 harg5 arg6 harg6 arg7 harg7 arg8 harg8 hc0 hc1 x2 x3 x4 x5 xs7 xs8).2.2.1, y ∈ pc.1.set :=
  View.cover_of_tiledL (kernelRun0_B c i arg2 harg2 arg3 harg3 arg4 harg4 arg5 harg5 arg6 harg6 arg7 harg7 arg8 harg8 hc0 hc1 x2 x3 x4 x5 xs7 xs8).2.2.1 S1x1.size (by sl_kernel_rfl) y

/-- What the case leaves in the running number of pairs. -/
def sout0_B_1 (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x2 x3 x4 x5 : Vec F S256x128 .f32) (xs7 xs8 : Vec F S1x1 .f32) : Vec F S1x1 .f32 :=
  VS0_1.read (Elt F) (VS0_1.writes (Elt F) VS0_1.junk (kernelRun0_B c i arg2 harg2 arg3 harg3 arg4 harg4 arg5 harg5 arg6 harg6 arg7 harg7 arg8 harg8 hc0 hc1 x2 x3 x4 x5 xs7 xs8).2.2.1)

/-- What the case's stores leave in the result window's buffer: its pieces read back (no piece where the case stores
    nothing into it: then nothing consults it). -/
def out0_C_4 (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x2 x3 x4 x5 : Vec F S256x128 .f32) (xs7 xs8 : Vec F S1x1 .f32) : Vec F S1x1 .f32 :=
  VO0_4.read (Elt F) (VO0_4.writes (Elt F) VO0_4.junk (kernelRun0_C c i arg2 harg2 arg3 harg3 arg4 harg4 arg5 harg5 arg6 harg6 arg7 harg7 arg8 harg8 hc0 hc1 x2 x3 x4 x5 xs7 xs8).1)

/-- The case's pieces for the running total cover it. -/
theorem scover0_C_0 (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x2 x3 x4 x5 : Vec F S256x128 .f32) (xs7 xs8 : Vec F S1x1 .f32) (y : S1x1.Idx) :
    ∃ pc ∈ (kernelRun0_C c i arg2 harg2 arg3 harg3 arg4 harg4 arg5 harg5 arg6 harg6 arg7 harg7 arg8 harg8 hc0 hc1 x2 x3 x4 x5 xs7 xs8).2.1, y ∈ pc.1.set :=
  View.cover_of_tiledL (kernelRun0_C c i arg2 harg2 arg3 harg3 arg4 harg4 arg5 harg5 arg6 harg6 arg7 harg7 arg8 harg8 hc0 hc1 x2 x3 x4 x5 xs7 xs8).2.1 S1x1.size (by sl_kernel_rfl) y

/-- What the case leaves in the running total. -/
def sout0_C_0 (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x2 x3 x4 x5 : Vec F S256x128 .f32) (xs7 xs8 : Vec F S1x1 .f32) : Vec F S1x1 .f32 :=
  VS0_0.read (Elt F) (VS0_0.writes (Elt F) VS0_0.junk (kernelRun0_C c i arg2 harg2 arg3 harg3 arg4 harg4 arg5 harg5 arg6 harg6 arg7 harg7 arg8 harg8 hc0 hc1 x2 x3 x4 x5 xs7 xs8).2.1)

/-- The case's pieces for the running number of pairs cover it. -/
theorem scover0_C_1 (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x2 x3 x4 x5 : Vec F S256x128 .f32) (xs7 xs8 : Vec F S1x1 .f32) (y : S1x1.Idx) :
    ∃ pc ∈ (kernelRun0_C c i arg2 harg2 arg3 harg3 arg4 harg4 arg5 harg5 arg6 harg6 arg7 harg7 arg8 harg8 hc0 hc1 x2 x3 x4 x5 xs7 xs8).2.2.1, y ∈ pc.1.set :=
  View.cover_of_tiledL (kernelRun0_C c i arg2 harg2 arg3 harg3 arg4 harg4 arg5 harg5 arg6 harg6 arg7 harg7 arg8 harg8 hc0 hc1 x2 x3 x4 x5 xs7 xs8).2.2.1 S1x1.size (by sl_kernel_rfl) y

/-- What the case leaves in the running number of pairs. -/
def sout0_C_1 (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x2 x3 x4 x5 : Vec F S256x128 .f32) (xs7 xs8 : Vec F S1x1 .f32) : Vec F S1x1 .f32 :=
  VS0_1.read (Elt F) (VS0_1.writes (Elt F) VS0_1.junk (kernelRun0_C c i arg2 harg2 arg3 harg3 arg4 harg4 arg5 harg5 arg6 harg6 arg7 harg7 arg8 harg8 hc0 hc1 x2 x3 x4 x5 xs7 xs8).2.2.1)

/-- The result window's pieces at the last point cover it (one store of the whole word). -/
theorem cover0_C_4 (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x2 x3 x4 x5 : Vec F S256x128 .f32) (xs7 xs8 : Vec F S1x1 .f32) (y : S1x1.Idx) :
    ∃ pc ∈ (kernelRun0_C c i arg2 harg2 arg3 harg3 arg4 harg4 arg5 harg5 arg6 harg6 arg7 harg7 arg8 harg8 hc0 hc1 x2 x3 x4 x5 xs7 xs8).1, y ∈ pc.1.set :=
  View.cover_of_tiledL (kernelRun0_C c i arg2 harg2 arg3 harg3 arg4 harg4 arg5 harg5 arg6 harg6 arg7 harg7 arg8 harg8 hc0 hc1 x2 x3 x4 x5 xs7 xs8).1 S1x1.size (by sl_kernel_rfl) y

/-! ## What the buffers hold after each point -/

/-- THE ACCUMULATION: after the body at position `n`, the result window's buffer, the running total and the running
    number of pairs. -/
def outsAt0 (c : Dev nD) : (n : ℕ) → n < cfg0.N → Vec F S1x1 .f32 × Vec F S1x1 .f32 × Vec F S1x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 4 = 0 then
      if h1 : (n + 1) % 4 = 3 then
        False.elim (by have hN : n + 1 < 4 := lt_of_lt_of_eq hn (show cfg0.N = 4 from N_0); omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)

theorem outsAt0_A (c : Dev nD) (t : Fin cfg0.N) (h0 : t.val % 4 = 0) (h1 : ¬t.val % 4 = 3) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scratch at anything; afterwards the two
    accumulators at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The proof data on core `c`: the arrays as the region finds them; after the body each input's buffer at its block and
    the result's at `outsAt0`; the invariant `PhiS`; nothing owed; of each input array one half of the share to the
    window of the tile's rows and the other to the window of its columns. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
/-- The body at any point: the inputs' memrefs hold their blocks; the closed forms say which case the point is in; the
    invariant hands the body the accumulators at what the point before left (at anything at the first point) and takes
    them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 4 := lt_of_lt_of_eq t.isLt (show cfg0.N = 4 from N_0)
  by_cases h0 : t.val % 4 = 0
  · by_cases h1 : t.val % 4 = 3
    · exfalso; omega
    · have hz : t.val = 0 := by omega
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0 sout0_A_1; (try dsimp only)
      rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t)).2.2.2 _ Set.univ _)
      · isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    · have hz : t.val ≠ 0 := by omega
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) (iblk m c 3 t) _ _).2.2.2 Set.univ _)
      · isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        iintro ⟨H0, H1, H2, H3, ⟨%e4, H4⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _ _ _ _)
    · have hz : t.val ≠ 0 := by omega
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) (iblk m c 3 t) _ _).2.2.2 _ Set.univ _)
      · isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

end Cert.Kernel.Hand

end
-- ==== Proof.KBLaunch.lean ====
/-
  The kernel's launch: @main is the region and then one host operation, the reshape of the [1, 1] result to a scalar.

  At the region's entry each input array is held whole; its share is dealt in two halves to the two windows that stage
  it (the tile's row features and its column features). The two accumulators and the generator register enter the
  region's invariant and come back at its end; the scalar result's buffer bypasses the region. At the exit the halves of
  each input are joined again, and the reshape runs over the result array as the region left it.
-/
import proofs.«118690_j7060926235074_1_alg».proof.Proof.KBFrame
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- The pipeline library's algebra is the whole of the certificate's. -/
abbrev EP : Emb (UR sig nD τ) (MT nD τ sig Unit (Elt F) ℕ (UR sig nD τ) ℕ) := emb₁
/-- The launch element: the pipeline library's at the staging cells. -/
def u₀ : UR sig nD τ := initOf (Pipeline.cells cfgs cellOf_inj) (Pipeline.launchToks cfgs cellOf_inj)

/-- The core owes nothing. -/
abbrev R (c : Dev nD) : sProp 𝕄 := iprop(∃ W, owes (c : Thread nD τ) (0 : CellTallies nD τ sig Unit) W)

/-- The core's buffers after the region: as launched, the result array as the region left it. -/
abbrev Vr (c : Dev nD) : Valuation τ sig (Elt F) :=
  Pipeline.withArrays spec0 c (fun b => m (c, b)) (fun w => (dats m 0 c).arrAt w cfg0.N)

/-- The result array after the region is what the pipeline's account of window 4 says. -/
theorem Vr_v0 (c : Dev nD) : Vr m c (Proc.devRef .tc main_v0) = (dats m 0 c).arrAt 4 cfg0.N := by
  unfold Vr Pipeline.withArrays
  have h : ∃ w', Proc.devRef .tc (Pipeline.arrRef spec0 w') = Proc.devRef (τ := τ) .tc main_v0 := ⟨4, rfl⟩
  rw [dif_pos h]
  suffices ∀ (w' : Fin 5) (e : Proc.devRef .tc (Pipeline.arrRef spec0 w') = Proc.devRef (τ := τ) .tc main_v0),
      cast (congrArg (fun b' : DevRef τ sig => b'.ty.Contents (Elt F)) e) ((dats m 0 c).arrAt w' cfg0.N) = (dats m 0 c).arrAt 4 cfg0.N from this _ h.choose_spec
  intro w' e
  have hw : w' = 4 := by
    have e' := Proc.devRef_injective _ e
    revert e'
    fin_cases w' <;> intro e' <;> first | rfl | exact absurd e' (by decide)
  subst hw
  rfl

/-- The scalar result's buffer is no window's array: the region leaves it as launched. -/
theorem Vr_v1 (c : Dev nD) : Vr m c (Proc.devRef .tc main_v1) = m (c, Proc.devRef .tc main_v1) :=
  Pipeline.withArrays_of_ne spec0 c _ _ main_v1 (by decide)

/-- The two buffers the reshape touches. -/
def S2 : Finset (DevRef τ sig) := {Proc.devRef .tc main_v0, Proc.devRef .tc main_v1}

/-- What rides beside them through the reshape: the two inputs, whole again, the generator register, nothing owed. -/
abbrev R2 (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (∃ r, prngReg c r) ∗ R c)

/-- THE HOST SEGMENT: the reshape, over the result array and the scalar's buffer. -/
def seg1 : Pipeline.HostSeg (Name := ℕ) (U := UR sig nD τ) (pcfgs (F := F)) defs₀ 𝒱₀ L lv :=
  Pipeline.HostSeg.ofOps _ _ _ _ _ S2 hostOps1
    (by
      intro op h
      simp only [hostOps1, List.mem_singleton] at h
      subst h
      rw [StableHlo.reshape_bufs]
      exact fun b hb => by simpa [S2] using hb)
    (by intro _ h; (repeat (cases h with | head => rfl | tail _ h => ?_)); exact nomatch h)
    (Vr m) (R2 m)

/-- What the whole program leaves: the two buffers after the reshape, and the inputs. -/
abbrev Tₙ (c : Dev nD) : sProp 𝕄 :=
  iprop(StableHlo.held (c : Thread nD τ) S2 (StableHlo.after hostOps1 (Vr m c))
    ∗ (((c : Thread nD τ).loc main_arg0) ↦{fullShare} m ((c : Thread nD τ).loc main_arg0))
    ∗ (((c : Thread nD τ).loc main_arg1) ↦{fullShare} m ((c : Thread nD τ).loc main_arg1)))

/-- The windows' arrays, one by one, each whole at its window's share. -/
theorem arrays_list (c : Dev nD) (Fa : (w : Fin cfg0.W) → Buf (Elt F) ((cfg0.win w).arr.view.loc (c : Thread nD τ))) :
    ((dats m 0 c).arrays Fa : sProp 𝕄)
      = iprop((((c : Thread nD τ).loc main_arg0) ↦{fullShare.left} Fa 0) ∗ (((c : Thread nD τ).loc main_arg0) ↦{fullShare.right} Fa 1)
          ∗ (((c : Thread nD τ).loc main_arg1) ↦{fullShare.left} Fa 2) ∗ (((c : Thread nD τ).loc main_arg1) ↦{fullShare.right} Fa 3)
          ∗ (((c : Thread nD τ).loc main_v0) ↦{fullShare} Fa 4)) := by
  unfold Dat.arrays
  rw [bigSep_W0]
  simp only [(arr_whole0 0).set_eq_univ, (arr_whole0 1).set_eq_univ, (arr_whole0 2).set_eq_univ, (arr_whole0 3).set_eq_univ, (arr_whole0 4).set_eq_univ]
  rfl

/-- The buffers behind the windows' arrays, each whole at the full share: the two inputs and the result array. -/
theorem arrBufs_list (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0)) := by
  unfold Pipeline.arrBufs
  exact Idealize.SL.BI.bigSep_eq_bigSepL_of_eq [main_arg0, main_arg1, main_v0] (by decide) (by decide) _

/-- The reshape's two buffers, one by one. -/
theorem held_S2 (c : Dev nD) (W : Valuation τ sig (Elt F)) :
    (StableHlo.held (Ix := Unit) (Name := ℕ) (U := UR sig nD τ) (Lvl := ℕ) (c : Thread nD τ) S2 W : sProp 𝕄)
      = iprop((((c : Thread nD τ).loc main_v0) ↦{fullShare} W (Proc.devRef .tc main_v0))
          ∗ (((c : Thread nD τ).loc main_v1) ↦{fullShare} W (Proc.devRef .tc main_v1))) := by
  unfold StableHlo.held S2
  rw [BI.bigSep_insert (by simp only [Finset.mem_singleton]; exact StableHlo.devRef_ne_of_ne (by decide)), BI.bigSep_singleton]
  rfl

/-- After any point but the first the invariant gives the plain one back: the accumulators' contents are forgotten. -/
theorem hout_A (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 4 := N_0; omega), PhiA0_eq]
  iintro ⟨⟨HS0, HS1⟩, Hg⟩
  isplitl [HS0 HS1]
  · isplitl [HS0]
    · iexists _; iexact HS0
    · iexists _; iexact HS1
  iexact Hg

-- unification of the library's lemmas stated over a pipeline family with this program's one configuration unfolds
-- plain definitions in a metavariable's type
set_option backward.isDefEq.respectTransparency.types false in
/-- THE REGION: entered from the launch's buffers — each input's share dealt to its two windows, the accumulators and
    the generator register into the invariant, the scalar's buffer bypassing —, left with the inputs whole again and the
    result array at its final contents. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(unscopedBufs c (V m c) ∗ (∃ r, prngReg c r) ∗ R c)
  post c := iprop(StableHlo.held (c : Thread nD τ) S2 (Vr m c) ∗ R2 m c)
  X c := iprop(∃ r, prngReg c r)
  Y c := iprop(∃ r, prngReg c r)
  Z c := ((c : Thread nD τ).loc main_v1) ↦{fullShare} V m c main_v1
  hentry c := by
    rw [Pipeline.unscopedBufs_split₀ (Pipeline.pin (pcfgs (F := F)) adm) 0 winFacts₀0.arr_unscoped c (V m c)]
    have hA := arrBufs_list c (V m c)
    have hU := unscopedRest0_eq (Ix := Unit) (Val := Elt F) (Name := ℕ) (U := UR sig nD τ) (Lvl := ℕ) c (V m c)
    have hL := arrays_list m c (fun w => (dats m 0 c).arrAt w 0)
    iintro ⟨⟨⟨Ha, Hrest⟩, Hp, HO⟩, -, -⟩
    ihave Ha' := (Entails.of_eq hA) $$ Ha
    icases Ha' with ⟨H0, H1, Hv0⟩
    ihave H0' := (pointsTo_share (PosShare.mem_left_op_right fullShare)).1 $$ H0
    icases H0' with ⟨H0l, H0r⟩
    ihave H1' := (pointsTo_share (PosShare.mem_left_op_right fullShare)).1 $$ H1
    icases H1' with ⟨H1l, H1r⟩
    ihave Hrest' := (Entails.of_eq hU) $$ Hrest
    imodintro
    isplitl [H0l H0r H1l H1r Hv0]
    · iapply (Entails.of_eq hL.symm)
      isplitl [H0l]; · iexact H0l
      isplitl [H0r]; · iexact H0r
      isplitl [H1l]; · iexact H1l
      isplitl [H1r]; · iexact H1r
      iexact Hv0
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest'
  hin c := by
    rw [show (dats m 0 c).Φ 0 = Pipeline.ΦA spec0 c from rfl]
    unfold Pipeline.ΦA
    iintro ⟨Hp, -, Hr⟩
    isplitl [Hr]; · iexact Hr
    iexact Hp
  hout c := by
    rw [Pipeline.ownSems0_none]
    refine (hout_A m c).trans ?_
    unfold Pipeline.ΦA
    iintro ⟨Hr, Hp⟩
    isplitl [Hp]; · iexact Hp
    isplitr; · iempintro
    iexact Hr
  hexit c := by
    have hL := arrays_list m c (fun w => (dats m 0 c).arrAt w cfg0.N)
    iintro ⟨Ha, HO, Hp, Hz⟩
    have e0 : (dats m 0 c).arrAt 0 cfg0.N = m ((c : Thread nD τ).loc main_arg0) := ((dats m 0 c).arrAt_in 0 rfl _).trans (A_eq m c 0)
    have e1 : (dats m 0 c).arrAt 1 cfg0.N = m ((c : Thread nD τ).loc main_arg0) := ((dats m 0 c).arrAt_in 1 rfl _).trans (A_eq m c 1)
    have e2 : (dats m 0 c).arrAt 2 cfg0.N = m ((c : Thread nD τ).loc main_arg1) := ((dats m 0 c).arrAt_in 2 rfl _).trans (A_eq m c 2)
    have e3 : (dats m 0 c).arrAt 3 cfg0.N = m ((c : Thread nD τ).loc main_arg1) := ((dats m 0 c).arrAt_in 3 rfl _).trans (A_eq m c 3)
    rw [e0, e1, e2, e3] at hL
    have hH := held_S2 c (Vr m c)
    rw [Vr_v0 m c, Vr_v1 m c] at hH
    ihave Ha' := (Entails.of_eq hL) $$ Ha
    icases Ha' with ⟨H0l, H0r, H1l, H1r, Hv0⟩
    ihave H0 := (pointsTo_share (PosShare.mem_left_op_right fullShare)).2 $$ [H0l H0r]
    · isplitl [H0l] <;> iassumption
    ihave H1 := (pointsTo_share (PosShare.mem_left_op_right fullShare)).2 $$ [H1l H1r]
    · isplitl [H1l] <;> iassumption
    imodintro
    isplitl [Hv0 Hz]
    · iapply (Entails.of_eq hH.symm)
      isplitl [Hv0]; · iexact Hv0
      iexact Hz
    isplitl [H0]; · iexact H0
    isplitl [H1]; · iexact H1
    isplitl [Hp]; · iexact Hp
    unfold Pipeline.Dat.owesAt Pipeline.owesWithin
    icases HO with ⟨%W, -, HO⟩; iexists W; iexact HO

/-- @main as the list of the two. -/
abbrev segs : List (Pipeline.Seg (pcfgs (F := F)) adm (dats m) () defs₀ 𝒱₀ L lv) := [.region (reg0 m), .host (seg1 m)]

/-- What the run establishes of a final state, core by core: the scalar result is the reshape of the result array as the
    region left it; both inputs are as launched. -/
def QC : PUnit × MemSt nD τ sig (Elt F) → Prop := fun r => ∀ c : Dev nD,
  r.2.mem ((c : Thread nD τ).loc main_v1) = StableHlo.after hostOps1 (Vr m c) (Proc.devRef .tc main_v1)
    ∧ r.2.mem ((c : Thread nD τ).loc main_arg0) = m ((c : Thread nD τ).loc main_arg0)
    ∧ r.2.mem ((c : Thread nD τ).loc main_arg1) = m ((c : Thread nD τ).loc main_arg1)

set_option backward.isDefEq.respectTransparency.types false in
/-- At the compiled mesh, for any values, from any memory with zero counters: every weakly fair execution of @main on the
    TensorCores terminates, and every final state has the scalar result and both inputs as `QC` says. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg1 m) (reg0 m) rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu
      imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(unscopedBufs c (V m c) ∗ (∃ r, prngReg c r) ∗ R c)) (Tₙ := Tₙ m)
    (hch := ⟨fun _ => .rfl, fun _ => .rfl, fun c => by
      show iprop(StableHlo.held (c : Thread nD τ) S2 (StableHlo.after hostOps1 (Vr m c)) ∗ R2 m c)
        ⊢ iprop(Tₙ m c ∗ ∃ W, owes (c : Thread nD τ) (0 : CellTallies nD τ sig Unit) W)
      iintro ⟨Hh, H0, H1, -, HR⟩
      isplitl [Hh H0 H1]
      · isplitl [Hh]; · iexact Hh
        isplitl [H0]; · iexact H0
        iexact H1
      iexact HR⟩)
    (hinit := by
      refine Pipeline.initEach L lv fun c => ?_
      iintro ⟨⟨Hh, -, HO, -, Hp, -⟩, -⟩
      imodintro
      isplitl [Hh]; · iexact Hh
      isplitl [Hp]; · iexists _; iexact Hp
      iexists ∅; iexact HO)
    (QY := fun c s => s.mem ((c : Thread nD τ).loc main_v1) = StableHlo.after hostOps1 (Vr m c) (Proc.devRef .tc main_v1)
      ∧ s.mem ((c : Thread nD τ).loc main_arg0) = m ((c : Thread nD τ).loc main_arg0)
      ∧ s.mem ((c : Thread nD τ).loc main_arg1) = m ((c : Thread nD τ).loc main_arg1))
    (hfin := fun c s' => by
      dsimp only [Tₙ]
      rw [held_S2]
      iintro ⟨⟨⟨-, Hv1⟩, H0, H1⟩, HSI⟩
      icombine HSI Hv1 gives %h1
      icombine HSI H0 gives %h0
      icombine HSI H1 gives %h2
      imodintro
      isplitr
      · ipureintro
        exact ⟨Buf.eq_of_forall_mem_univ h1, Buf.eq_of_forall_mem_univ h0, Buf.eq_of_forall_mem_univ h2⟩
      iexact HSI)
    (hQ := fun _ h => h)

/-- THE FRAME: the program runs to the end, faults nowhere and leaves both inputs unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.1, (h c).2.2⟩) (run_main m ρ)

end Cert.Kernel.Hand

end
-- ==== Proof.KITile.lean ====
/-
  One tile's work as pure functions of the four staged blocks.

  The body reads each 256 x 128 block in eight slices of 32 batch rows. Over a tile it builds, pair by pair, the count
  of batch rows whose relevance difference has a sign (`cnt8`) and the sum of their softplus terms (`sum8` over the
  first seven slices, `last8` the last slice's terms before their sum), masks the pairs to i < j with a counted row,
  and adds the tile's total of the pairs' means to the running total (`newTot`) and the tile's number of such pairs to the
  running number (`newCnt`). At the last tile the result is the running total over the running number (`outVal`).
-/
import proofs.«118690_j7060926235074_1_alg».proof.Proof.Gen.KernelIdeal.Skeleton
import Idealize.ShloMosaic.Lib.Pipeline.Value

noncomputable section

namespace Cert.KernelIdeal.Hand

open Cert.KernelIdeal Cert.KernelIdeal.Gen
open Idealize.ShloMosaic

variable {F : FTy → Type} [FloatOps F]

/-! ## The eight slices of 32 batch rows of a staged block -/
abbrev rows0 (x : Vec F S256x128 .f32) : Vec F S32x128 .f32 :=
  View.ld x (Rect.unit (s := S256x128) ![0, 0] S32x128.size inb_S256x128_S32x128_0_0)
abbrev rows32 (x : Vec F S256x128 .f32) : Vec F S32x128 .f32 :=
  View.ld x (Rect.unit (s := S256x128) ![32, 0] S32x128.size inb_S256x128_S32x128_32_0)
abbrev rows64 (x : Vec F S256x128 .f32) : Vec F S32x128 .f32 :=
  View.ld x (Rect.unit (s := S256x128) ![64, 0] S32x128.size inb_S256x128_S32x128_64_0)
abbrev rows96 (x : Vec F S256x128 .f32) : Vec F S32x128 .f32 :=
  View.ld x (Rect.unit (s := S256x128) ![96, 0] S32x128.size inb_S256x128_S32x128_96_0)
abbrev rows128 (x : Vec F S256x128 .f32) : Vec F S32x128 .f32 :=
  View.ld x (Rect.unit (s := S256x128) ![128, 0] S32x128.size inb_S256x128_S32x128_128_0)
abbrev rows160 (x : Vec F S256x128 .f32) : Vec F S32x128 .f32 :=
  View.ld x (Rect.unit (s := S256x128) ![160, 0] S32x128.size inb_S256x128_S32x128_160_0)
abbrev rows192 (x : Vec F S256x128 .f32) : Vec F S32x128 .f32 :=
  View.ld x (Rect.unit (s := S256x128) ![192, 0] S32x128.size inb_S256x128_S32x128_192_0)
abbrev rows224 (x : Vec F S256x128 .f32) : Vec F S32x128 .f32 :=
  View.ld x (Rect.unit (s := S256x128) ![224, 0] S32x128.size inb_S256x128_S32x128_224_0)

/-- The pairs' counts over the tile: for local features (p, q), the number of batch rows with a signed relevance
    difference, as a float. -/
def cnt8 (x4 x5 : Vec F S256x128 .f32) : FVec F S128x128 .f32 :=
  k0_pay54 (k0_pay49 (k0_pay45 (k0_pay39 (k0_pay32 (k0_pay25 (k0_pay20 (k0_pay14 k0_pay4 (k0_pay6 (rows0 x4) (rows0 x5))) (k0_pay16 (rows32 x4) (rows32 x5))) (k0_pay23 (rows64 x4) (rows64 x5))) (k0_pay28 (rows96 x4) (rows96 x5)) (k0_pay29 (rows96 x4) (rows96 x5))) (k0_pay35 (rows128 x4)) (k0_pay36 (rows128 x5))) (rows160 x4) (rows160 x5)) (rows192 x4) (rows192 x5)) (rows224 x4) (rows224 x5)

/-- The pairs' sums over the first seven slices. -/
def sum8 (x2 x3 x4 x5 : Vec F S256x128 .f32) : FVec F S128x128 .f32 :=
  k0_pay50 (k0_pay46 (k0_pay40 (k0_pay33 (k0_pay26 (k0_pay21 (k0_pay15 k0_pay5 (k0_pay6 (rows0 x4) (rows0 x5)) (k0_pay8 (rows0 x2) (rows0 x3) (rows0 x4) (rows0 x5)) (k0_pay10 (rows0 x2) (rows0 x3) (rows0 x4) (rows0 x5)) (k0_pay11 (rows0 x2) (rows0 x3) (rows0 x4) (rows0 x5)) (k0_pay12 (rows0 x2) (rows0 x3) (rows0 x4) (rows0 x5))) (k0_pay16 (rows32 x4) (rows32 x5)) (k0_pay17 (rows32 x2) (rows32 x3) (rows32 x4) (rows32 x5)) (FloatOps.ofBits FTy.f32 0#32) (k0_pay18 (rows32 x2) (rows32 x3) (rows32 x4) (rows32 x5))) (k0_pay22 (rows64 x2) (rows64 x3)) (k0_pay23 (rows64 x4) (rows64 x5)) (FloatOps.ofBits FTy.f32 3212836864#32)) (k0_pay27 (rows96 x2) (rows96 x3)) (k0_pay28 (rows96 x4) (rows96 x5)) (k0_pay29 (rows96 x4) (rows96 x5))) (k0_pay34 (rows128 x2) (rows128 x3)) (k0_pay35 (rows128 x4)) (k0_pay36 (rows128 x5))) (rows160 x4) (rows160 x5) (k0_pay41 (rows160 x3)) (k0_pay42 (rows160 x2))) (rows192 x2) (rows192 x3) (rows192 x4) (rows192 x5)

/-- The last slice's masked terms, row by row. -/
def last8 (x2 x3 x4 x5 : Vec F S256x128 .f32) : FVec F S32x128x128 .f32 :=
  k0_pay53 (rows224 x2) (rows224 x3) (rows224 x4) (rows224 x5)

/-- The running total after the tile `i`, from the running total before it. -/
def newTot (i : grid0.Coords) (x2 x3 x4 x5 : Vec F S256x128 .f32) (a7 : Vec F S1x1 .f32) : FVec F S1x1 .f32 :=
  k0_pay56 (BitVec.ofNat 32 (i 0).val) (BitVec.ofNat 32 (i 1).val) (sum8 x2 x3 x4 x5) (last8 x2 x3 x4 x5) (cnt8 x4 x5) a7

/-- The running number of pairs after the tile `i`. -/
def newCnt (i : grid0.Coords) (x4 x5 : Vec F S256x128 .f32) (a8 : Vec F S1x1 .f32) : FVec F S1x1 .f32 :=
  k0_pay57 (BitVec.ofNat 32 (i 0).val) (BitVec.ofNat 32 (i 1).val) (cnt8 x4 x5) a8

/-- The result from the running total `a7` and the running number `a8`. -/
def outVal (a7 a8 : Vec F S1x1 .f32) : FVec F S1x1 .f32 := k0_pay1 a8 a7 a8

end Cert.KernelIdeal.Hand

end
-- ==== Proof.KIVChunk.lean ====
/-
  One slice of 32 batch rows as clean functions of the four slices.

  For a slice of the four staged blocks the body forms, for a batch row b and local features p, q, the relevance
  difference d = x4[b,p] - x5[b,q], its sign s, the prediction difference dp = x2[b,p] - x3[b,q], the argument
  x = (-1 * s) * dp, the softplus of x, and whether the row is counted (s is not zero). The slice's count is the sum over b of
  the counted rows, its sum the sum over b of the counted rows' softplus terms. The tile's count and sum are the eight
  slices' counts and sums added up from zero.
-/
import proofs.«118690_j7060926235074_1_alg».proof.Proof.KITile
import Idealize.ShloMosaic.Lib.ValueLayout

noncomputable section

namespace Cert.KernelIdeal.Hand

open Cert.KernelIdeal Cert.KernelIdeal.Gen
open Idealize.ShloMosaic

variable {F : FTy → Type} [FloatOps F]

/-- The zero splat over a slice's pairs. -/
abbrev zero3 : FVec F S32x128x128 .f32 := broadcast S32x128x128 (Scalar.ofBits .f32 0x00000000#32)

/-- The pairwise difference of two slices: a[b,p] - c[b,q]. -/
def pdiff (a c : Vec F S32x128 .f32) : FVec F S32x128x128 .f32 :=
  subf (broadcastTo S32x128x128 (shapeCast S32x128x1 a shapeCasts_S32x128_S32x128x1) broadcasts_S32x128x1_S32x128x128)
    (broadcastTo S32x128x128 (shapeCast S32x1x128 c shapeCasts_S32x128_S32x1x128) broadcasts_S32x1x128_S32x128x128)

/-- The sign of a difference, as the body spells it. -/
def psign (d : FVec F S32x128x128 .f32) : FVec F S32x128x128 .f32 :=
  select (cmpf .ogt (absf d) (broadcast S32x128x128 (Scalar.ofBits .f32 0x00000000#32)))
    (select (cmpf .olt d (constant S32x128x128 .f32 0x00000000#32)) (constant S32x128x128 .f32 0xBF800000#32)
      (constant S32x128x128 .f32 0x3F800000#32)) d

/-- Whether a row is counted for a pair: its sign is not zero. -/
def pvalid (s : FVec F S32x128x128 .f32) : IVec S32x128x128 1 :=
  cmpf .one s (broadcast S32x128x128 (Scalar.ofBits .f32 0x00000000#32))

/-- The softplus argument (-1 * s) * dp. -/
def parg (s dp : FVec F S32x128x128 .f32) : FVec F S32x128x128 .f32 :=
  mulf (mulf (broadcast S32x128x128 (Scalar.ofBits .f32 0xBF800000#32)) s) dp

/-- softplus, as the body spells it. -/
def ploss (x : FVec F S32x128x128 .f32) : FVec F S32x128x128 .f32 :=
  select (cmpf .one (subf x zero3) (subf x zero3)) (addf x zero3)
    (addf (maximumf x zero3) (log1p (exp (subf zero3 (absf (subf x zero3))))))

/-- The counted rows' softplus terms, zero elsewhere. -/
def pterm (s x : FVec F S32x128x128 .f32) : FVec F S32x128x128 .f32 :=
  select (pvalid s) (ploss x) zero3

/-- The sum over the slice's batch rows. -/
def psum (t : FVec F S32x128x128 .f32) : FVec F S128x128 .f32 :=
  multiReduction .add [0] S128x128 t 0x00000000#32 reduces_S32x128x128_S128x128 (.inl rfl) rfl

/-- The slice's count of counted rows, pair by pair. -/
def pcount (s : FVec F S32x128x128 .f32) : FVec F S128x128 .f32 :=
  psum (sitofp .f32 (extui 32 (pvalid s) natLt_1_32))

/-- The slice's signs. -/
def chunkS (a4 a5 : Vec F S32x128 .f32) : FVec F S32x128x128 .f32 := psign (pdiff a4 a5)

/-- The slice's counts. -/
def chunkCnt (a4 a5 : Vec F S32x128 .f32) : FVec F S128x128 .f32 := pcount (chunkS a4 a5)

/-- The slice's terms, row by row. -/
def chunkTerm (a2 a3 a4 a5 : Vec F S32x128 .f32) : FVec F S32x128x128 .f32 :=
  pterm (chunkS a4 a5) (parg (chunkS a4 a5) (pdiff a2 a3))

/-- The slice's sums. -/
def chunkSum (a2 a3 a4 a5 : Vec F S32x128 .f32) : FVec F S128x128 .f32 := psum (chunkTerm a2 a3 a4 a5)

/-- The zero splat over the tile's pairs. -/
abbrev zero2 : FVec F S128x128 .f32 := broadcast S128x128 (Scalar.ofBits .f32 0x00000000#32)

/-- The tile's counts are the eight slices' counts added up from zero. -/
theorem cnt8_eq (x4 x5 : Vec F S256x128 .f32) :
    cnt8 x4 x5 = addf (addf (addf (addf (addf (addf (addf (addf zero2
      (chunkCnt (rows0 x4) (rows0 x5))) (chunkCnt (rows32 x4) (rows32 x5))) (chunkCnt (rows64 x4) (rows64 x5)))
      (chunkCnt (rows96 x4) (rows96 x5))) (chunkCnt (rows128 x4) (rows128 x5))) (chunkCnt (rows160 x4) (rows160 x5)))
      (chunkCnt (rows192 x4) (rows192 x5))) (chunkCnt (rows224 x4) (rows224 x5)) := rfl

/-- The tile's sums over the first seven slices. -/
theorem sum8_eq (x2 x3 x4 x5 : Vec F S256x128 .f32) :
    sum8 x2 x3 x4 x5 = addf (addf (addf (addf (addf (addf (addf zero2
      (chunkSum (rows0 x2) (rows0 x3) (rows0 x4) (rows0 x5))) (chunkSum (rows32 x2) (rows32 x3) (rows32 x4) (rows32 x5)))
      (chunkSum (rows64 x2) (rows64 x3) (rows64 x4) (rows64 x5))) (chunkSum (rows96 x2) (rows96 x3) (rows96 x4) (rows96 x5)))
      (chunkSum (rows128 x2) (rows128 x3) (rows128 x4) (rows128 x5))) (chunkSum (rows160 x2) (rows160 x3) (rows160 x4) (rows160 x5)))
      (chunkSum (rows192 x2) (rows192 x3) (rows192 x4) (rows192 x5)) := rfl

/-- The last slice's terms. -/
theorem last8_eq (x2 x3 x4 x5 : Vec F S256x128 .f32) :
    last8 x2 x3 x4 x5 = chunkTerm (rows224 x2) (rows224 x3) (rows224 x4) (rows224 x5) := rfl

end Cert.KernelIdeal.Hand

end
-- ==== Proof.Spec.lean ====
/-
  The pairwise ranking loss as one function of the two input matrices.

  `P` (predictions) and `R` (relevance scores) are 256 x 256: a batch row `b` and a feature `i`. For features `i`, `j`
  and a batch row `b` the sign `s` of the relevance difference `R b i - R b j` says which of the two should rank
  higher; the row is counted for the pair when `s ≠ 0`, and then contributes softplus(-s · (P b i - P b j)). A pair's
  mean is the sum of its contributions over its count (pairs with no counted row have no mean), and the loss is the
  mean of the pairs' means over the pairs `i < j` that have one. Everything is an extended real; softplus is spelled
  as both programs spell it, max(x, 0) + log(1 + exp(-|x - 0|)), and -1 is the word both programs multiply by.
-/
import Idealize.ShloMosaic.PureOps.Ideal
import Idealize.ShloMosaic.Lib.ValueIdx

noncomputable section

namespace RankSpec

open Idealize.ShloMosaic Idealize.ShloMosaic.ValueIdx
open Classical

/-- A 256 x 256 matrix of extended reals. -/
abbrev Mat : Type := (⟨2, ![256, 256]⟩ : Shape).Idx → EReal

/-- The word -1.0, as both programs write it. -/
abbrev negOne : EReal := Ideal.ofBits .f32 0xBF800000#32

/-- The sign of the relevance difference of features `i`, `j` in batch row `b`. -/
def sgn (R : Mat) (b i j : Fin 256) : EReal := Ideal.sign (R (ix2 b i) - R (ix2 b j))

/-- softplus, as both programs spell it. -/
def softplus (x : EReal) : EReal := max x 0 + Ideal.log1p (Ideal.exp (-(max (x - 0) (-(x - 0)))))

/-- The contribution of batch row `b` to the pair `(i, j)`. -/
def loss (P R : Mat) (b i j : Fin 256) : EReal :=
  softplus (negOne * sgn R b i j * (P (ix2 b i) - P (ix2 b j)))

/-- The number of batch rows counted for the pair. -/
def cntN (R : Mat) (i j : Fin 256) : ℕ := (Finset.univ.filter fun b : Fin 256 => sgn R b i j ≠ 0).card

/-- The sum of the counted rows' contributions. -/
def sumL (P R : Mat) (i j : Fin 256) : EReal := ∑ b : Fin 256, if sgn R b i j ≠ 0 then loss P R b i j else 0

/-- The pair's mean, zero when no row is counted. -/
def pairMean (P R : Mat) (i j : Fin 256) : EReal :=
  if 0 < cntN R i j then Ideal.div (sumL P R i j) (max ((cntN R i j : ℝ) : EReal) 1) else 0

/-- The sum of the pairs' means over the pairs `i < j`. -/
def total (P R : Mat) : EReal := ∑ i : Fin 256, ∑ j : Fin 256, if i < j then pairMean P R i j else 0

/-- The number of pairs `i < j` with a counted row. -/
def npairs (R : Mat) : ℕ := (Finset.univ.filter fun ij : Fin 256 × Fin 256 => ij.1 < ij.2 ∧ 0 < cntN R ij.1 ij.2).card

/-- THE LOSS. -/
def result (P R : Mat) : EReal :=
  if 0 < npairs R then Ideal.div (total P R) (max ((npairs R : ℝ) : EReal) 1) else 0

end RankSpec

end
-- ==== Proof.KIVPoint.lean ====
/-
  One slice's clean functions read at an index, at the extended reals.

  The pairwise difference at (b, p, q) is a[b,p] - c[b,q]; the body's sign term is the sign of the extended reals; a row
  is counted when its sign is not zero; the body's softplus term is the specification's; the sum over the slice's batch rows is
  a sum over thirty-two rows. So a slice's count at (p, q) is the sum over its rows of one for each counted row, and its sum at
  (p, q) the sum over its rows of the counted rows' softplus terms.
-/
import proofs.«118690_j7060926235074_1_alg».proof.Proof.KIVChunk
import proofs.«118690_j7060926235074_1_alg».proof.Proof.Spec
import Idealize.ShloMosaic.PureOps.Ideal.Laws

noncomputable section

namespace Cert.KernelIdeal.Hand

open Cert.KernelIdeal Cert.KernelIdeal.Gen
open Idealize.ShloMosaic Idealize.ShloMosaic.ValueIdx
open Classical

/-! ## The layout operations of a slice -/

/-- A [32,128] slice viewed [32,128,1] reads, at (b, p, u), the slice at (b, p). -/
theorem cast_col {α : Type} (a : S32x128.Idx → α) (b : Fin 32) (p : Fin 128) (u : Fin 1) :
    shapeCast S32x128x1 a shapeCasts_S32x128_S32x128x1 (ix3 b p u) = a (ix2 b p) :=
  shapeCast_apply a _ _ _ (by
    have hu : u.val = 0 := by omega
    rw [Shape.rowMajor_val_three, Shape.rowMajor_val_two]
    show b.val * 128 + p.val = (b.val * 128 + p.val) * 1 + u.val
    rw [hu, Nat.mul_one, Nat.add_zero])

/-- A [32,128] slice viewed [32,1,128] reads, at (b, u, q), the slice at (b, q). -/
theorem cast_row {α : Type} (a : S32x128.Idx → α) (b : Fin 32) (u : Fin 1) (q : Fin 128) :
    shapeCast S32x1x128 a shapeCasts_S32x128_S32x1x128 (ix3 b u q) = a (ix2 b q) :=
  shapeCast_apply a _ _ _ (by
    have hu : u.val = 0 := by omega
    rw [Shape.rowMajor_val_three, Shape.rowMajor_val_two]
    show b.val * 128 + q.val = (b.val * 1 + u.val) * 128 + q.val
    rw [hu, Nat.mul_one, Nat.add_zero])

/-- A [32,128,1] array broadcast along its last axis reads, at (b, p, q), the array at (b, p, 0). -/
theorem bcast_col {α : Type} (v : S32x128x1.Idx → α) (b : Fin 32) (p q : Fin 128) :
    broadcastTo S32x128x128 v broadcasts_S32x128x1_S32x128x128 (ix3 b p q) = v (ix3 b p (0 : Fin 1)) :=
  broadcastTo_apply v _ (ix3 b p q) (ix3 b p (0 : Fin 1)) fun ax => by
    match ax with
    | ⟨0, _⟩ => rfl
    | ⟨1, _⟩ => rfl
    | ⟨2, _⟩ => rfl

/-- A [32,1,128] array broadcast along its middle axis reads, at (b, p, q), the array at (b, 0, q). -/
theorem bcast_row {α : Type} (v : S32x1x128.Idx → α) (b : Fin 32) (p q : Fin 128) :
    broadcastTo S32x128x128 v broadcasts_S32x1x128_S32x128x128 (ix3 b p q) = v (ix3 b (0 : Fin 1) q) :=
  broadcastTo_apply v _ (ix3 b p q) (ix3 b (0 : Fin 1) q) fun ax => by
    match ax with
    | ⟨0, _⟩ => rfl
    | ⟨1, _⟩ => rfl
    | ⟨2, _⟩ => rfl

/-! ## The clean functions at an index -/

/-- The pairwise difference at (b, p, q). -/
theorem pdiff_apply (a c : Vec Ideal S32x128 .f32) (b : Fin 32) (p q : Fin 128) :
    pdiff (F := Ideal) a c (ix3 b p q) = a (ix2 b p) - c (ix2 b q) :=
  congrArg₂ (fun x y : EReal => x - y)
    ((bcast_col (shapeCast S32x128x1 a shapeCasts_S32x128_S32x128x1) b p q).trans (cast_col a b p 0))
    ((bcast_row (shapeCast S32x1x128 c shapeCasts_S32x128_S32x1x128) b p q).trans (cast_row c b 0 q))

/-- The body's sign term is the sign of the extended reals. -/
theorem psign_apply (d : FVec Ideal S32x128x128 .f32) (j : S32x128x128.Idx) :
    psign (F := Ideal) d j = Ideal.sign (d j) := Ideal.jnp_sign_eq_sign_f32 (d j)

/-- A row is counted exactly when its sign is not zero. -/
theorem pvalid_eq_one_iff (s : FVec Ideal S32x128x128 .f32) (j : S32x128x128.Idx) :
    pvalid (F := Ideal) s j = 1#1 ↔ s j ≠ 0 := by
  show Ideal.cmp .one (s j) (Ideal.ofBits .f32 0x00000000#32) = 1#1 ↔ _
  rw [Ideal.ofBits_zero_f32]
  by_cases h : s j = 0 <;> simp [Ideal.cmp, h]

/-- A one-bit word widened and read as a float is one when the bit is set, else zero. -/
theorem count_word (v : BitVec 1) :
    FloatOps.sitofp (F := Ideal) .f32 (v.setWidth 32) = if v = 1#1 then (1 : EReal) else 0 := by
  rcases BitVec.eq_zero_or_eq_one v with h | h <;> subst h
  · have e : ((0#1 : BitVec 1).setWidth 32).toInt = 0 := by decide
    show ((((0#1 : BitVec 1).setWidth 32).toInt : ℝ) : EReal) = _
    rw [e, if_neg (by decide)]; simp
  · have e : ((1#1 : BitVec 1).setWidth 32).toInt = 1 := by decide
    show ((((1#1 : BitVec 1).setWidth 32).toInt : ℝ) : EReal) = _
    rw [e, if_pos rfl]; simp

/-- The body's softplus term is the specification's. -/
theorem ploss_apply (x : FVec Ideal S32x128x128 .f32) (j : S32x128x128.Idx) :
    ploss (F := Ideal) x j = RankSpec.softplus (x j) := by
  have hc : ∀ y : EReal, Ideal.cmp .one y y = 0#1 := fun y => by simp [Ideal.cmp]
  show Scalar.select (Ideal.cmp .one (x j - Ideal.ofBits .f32 0x00000000#32) (x j - Ideal.ofBits .f32 0x00000000#32))
      (x j + Ideal.ofBits .f32 0x00000000#32)
      (max (x j) (Ideal.ofBits .f32 0x00000000#32) + Ideal.log1p (Ideal.exp (Ideal.ofBits .f32 0x00000000#32
        - max (x j - Ideal.ofBits .f32 0x00000000#32) (-(x j - Ideal.ofBits .f32 0x00000000#32))))) = _
  rw [hc, select_zero, Ideal.ofBits_zero_f32, zero_sub]
  rfl

/-- The counted rows' terms at an index. -/
theorem pterm_apply (s x : FVec Ideal S32x128x128 .f32) (j : S32x128x128.Idx) :
    pterm (F := Ideal) s x j = if s j ≠ 0 then RankSpec.softplus (x j) else 0 := by
  show (if pvalid (F := Ideal) s j = 1#1 then ploss (F := Ideal) x j else Ideal.ofBits .f32 0x00000000#32) = _
  by_cases h : s j ≠ 0
  · rw [if_pos ((pvalid_eq_one_iff s j).mpr h), if_pos h, ploss_apply]
  · rw [if_neg (fun hv => h ((pvalid_eq_one_iff s j).mp hv)), if_neg h, Ideal.ofBits_zero_f32]

/-- The sum over a slice's batch rows at (p, q) is the sum over thirty-two rows. -/
theorem psum_apply (t : FVec Ideal S32x128x128 .f32) (p q : Fin 128) :
    psum (F := Ideal) t (ix2 p q) = ∑ b : Fin 32, t (ix3 b p q) := by
  unfold psum
  refine (Ideal.multiReduction_add_single t 0x00000000#32 reduces_S32x128x128_S128x128 (.inl rfl) rfl (ix2 p q)).trans ?_
  refine Finset.sum_congr rfl fun k _ => congrArg t (funext fun a => ?_)
  match a with
  | ⟨0, _⟩ => rfl
  | ⟨1, _⟩ => rfl
  | ⟨2, _⟩ => rfl

/-- The counted rows, as floats, at an index. -/
theorem pcount_word (s : FVec Ideal S32x128x128 .f32) (j : S32x128x128.Idx) :
    sitofp (F := Ideal) .f32 (extui 32 (pvalid (F := Ideal) s) natLt_1_32) j = if s j ≠ 0 then (1 : EReal) else 0 := by
  show FloatOps.sitofp (F := Ideal) .f32 ((pvalid (F := Ideal) s j).setWidth 32) = _
  rw [count_word]
  exact if_congr (pvalid_eq_one_iff s j) rfl rfl

/-! ## A slice's count, terms and sum at an index -/

/-- A slice's signs at (b, p, q). -/
theorem chunkS_apply (a4 a5 : Vec Ideal S32x128 .f32) (b : Fin 32) (p q : Fin 128) :
    chunkS (F := Ideal) a4 a5 (ix3 b p q) = Ideal.sign (a4 (ix2 b p) - a5 (ix2 b q)) := by
  unfold chunkS
  rw [psign_apply, pdiff_apply]

/-- A slice's count at (p, q): one for each counted row. -/
theorem chunkCnt_apply (a4 a5 : Vec Ideal S32x128 .f32) (p q : Fin 128) :
    chunkCnt (F := Ideal) a4 a5 (ix2 p q)
      = ∑ b : Fin 32, if Ideal.sign (a4 (ix2 b p) - a5 (ix2 b q)) ≠ 0 then (1 : EReal) else 0 := by
  unfold chunkCnt pcount
  rw [psum_apply]
  refine Finset.sum_congr rfl fun b _ => ?_
  rw [pcount_word, chunkS_apply]

/-- A slice's terms at (b, p, q): the softplus term of a counted row, zero otherwise. -/
theorem chunkTerm_apply (a2 a3 a4 a5 : Vec Ideal S32x128 .f32) (b : Fin 32) (p q : Fin 128) :
    chunkTerm (F := Ideal) a2 a3 a4 a5 (ix3 b p q)
      = if Ideal.sign (a4 (ix2 b p) - a5 (ix2 b q)) ≠ 0 then
          RankSpec.softplus (RankSpec.negOne * Ideal.sign (a4 (ix2 b p) - a5 (ix2 b q)) * (a2 (ix2 b p) - a3 (ix2 b q)))
        else 0 := by
  unfold chunkTerm
  rw [pterm_apply, chunkS_apply]
  have hx : parg (F := Ideal) (chunkS (F := Ideal) a4 a5) (pdiff (F := Ideal) a2 a3) (ix3 b p q)
      = RankSpec.negOne * Ideal.sign (a4 (ix2 b p) - a5 (ix2 b q)) * (a2 (ix2 b p) - a3 (ix2 b q)) := by
    show Ideal.ofBits .f32 0xBF800000#32 * chunkS (F := Ideal) a4 a5 (ix3 b p q) * pdiff (F := Ideal) a2 a3 (ix3 b p q) = _
    rw [chunkS_apply, pdiff_apply]
  rw [hx]

/-- A slice's sum at (p, q). -/
theorem chunkSum_apply (a2 a3 a4 a5 : Vec Ideal S32x128 .f32) (p q : Fin 128) :
    chunkSum (F := Ideal) a2 a3 a4 a5 (ix2 p q)
      = ∑ b : Fin 32, if Ideal.sign (a4 (ix2 b p) - a5 (ix2 b q)) ≠ 0 then
          RankSpec.softplus (RankSpec.negOne * Ideal.sign (a4 (ix2 b p) - a5 (ix2 b q)) * (a2 (ix2 b p) - a3 (ix2 b q)))
        else 0 := by
  unfold chunkSum
  rw [psum_apply]
  exact Finset.sum_congr rfl fun b _ => chunkTerm_apply a2 a3 a4 a5 b p q

end Cert.KernelIdeal.Hand

end
-- ==== Proof.KIVSums.lean ====
/-
  Sums used to read a tile: a finite sum of reals cast to the extended reals is the sum of the casts; the number of
  indices with a property, as an extended real, is the sum of one over those indices; and a sum over 256 rows is the
  sum of the eight sums over 32 consecutive rows, added up from zero.
-/
import Mathlib.Data.EReal.Basic
import Mathlib.Algebra.BigOperators.Fin
import Mathlib.Algebra.BigOperators.Ring.Finset
import Mathlib.Logic.Equiv.Fin.Basic

namespace Cert.KernelIdeal.Hand

open Classical

/-- The cast of a finite sum of reals is the sum of the casts. -/
theorem coe_sum_ereal {ι : Type} (s : Finset ι) (f : ι → ℝ) :
    ((∑ i ∈ s, f i : ℝ) : EReal) = ∑ i ∈ s, (f i : EReal) := by
  induction s using Finset.induction_on with
  | empty => simp
  | insert a s ha ih => rw [Finset.sum_insert ha, Finset.sum_insert ha, EReal.coe_add, ih]

/-- The number of indices with a property, as an extended real, is the sum of one over them. -/
theorem sum_ite_one_eq_card {ι : Type} [Fintype ι] (P : ι → Prop) [DecidablePred P] :
    ∑ r : ι, (if P r then (1 : EReal) else 0) = (((Finset.univ.filter P).card : ℝ) : EReal) := by
  have h : (((Finset.univ.filter P).card : ℝ)) = ∑ r : ι, (if P r then (1 : ℝ) else 0) := by
    rw [Finset.sum_boole]
  rw [h, coe_sum_ereal]
  refine Finset.sum_congr rfl fun r _ => ?_
  by_cases hr : P r
  · rw [if_pos hr, if_pos hr, EReal.coe_one]
  · rw [if_neg hr, if_neg hr, EReal.coe_zero]

/-- A sum over 256 rows is the eight sums over 32 consecutive rows, added up from zero. -/
theorem sum_rows256 {M : Type} [AddCommMonoid M] (f : Fin 256 → M) :
    (0 + ∑ b : Fin 32, f ⟨0 + b.val, by omega⟩) + (∑ b : Fin 32, f ⟨32 + b.val, by omega⟩)
      + (∑ b : Fin 32, f ⟨64 + b.val, by omega⟩) + (∑ b : Fin 32, f ⟨96 + b.val, by omega⟩)
      + (∑ b : Fin 32, f ⟨128 + b.val, by omega⟩) + (∑ b : Fin 32, f ⟨160 + b.val, by omega⟩)
      + (∑ b : Fin 32, f ⟨192 + b.val, by omega⟩) + (∑ b : Fin 32, f ⟨224 + b.val, by omega⟩)
      = ∑ r : Fin 256, f r := by
  have e : ∑ r : Fin 256, f r = ∑ c : Fin 8, ∑ b : Fin 32, f ⟨32 * c.val + b.val, by omega⟩ := by
    rw [← Equiv.sum_comp (finProdFinEquiv : Fin 8 × Fin 32 ≃ Fin 256) f, Fintype.sum_prod_type]
    refine Finset.sum_congr rfl fun c _ => Finset.sum_congr rfl fun b _ => congrArg f (Fin.ext ?_)
    show b.val + 32 * c.val = 32 * c.val + b.val
    omega
  rw [e, Fin.sum_univ_eight, zero_add]
  rfl

end Cert.KernelIdeal.Hand
-- ==== Proof.KIVTile.lean ====
/-
  The tile's count and sum at a pair of local features.

  A slice of 32 rows from row O of a staged block reads, at (b, p), the block at (O + b, p). So each slice's count and sum
  at (p, q) is the sum over 32 consecutive rows of the block of the row's contribution, and the eight slices added up from
  zero are the sum over all 256 rows: the tile's count is the number of rows with a signed relevance difference, and its
  sum the sum of those rows' softplus terms.
-/
import proofs.«118690_j7060926235074_1_alg».proof.Proof.KIVPoint
import proofs.«118690_j7060926235074_1_alg».proof.Proof.KIVSums

noncomputable section

namespace Cert.KernelIdeal.Hand

open Cert.KernelIdeal Cert.KernelIdeal.Gen
open Idealize.ShloMosaic Idealize.ShloMosaic.ValueIdx
open Classical

/-- The tile's count for local features p, q: the batch rows with a signed relevance difference. -/
def tcnt (x4 x5 : Vec Ideal S256x128 .f32) (p q : Fin 128) : ℕ :=
  (Finset.univ.filter fun b : Fin 256 => Ideal.sign (x4 (ix2 b p) - x5 (ix2 b q)) ≠ 0).card

/-- The tile's sum for local features p, q: the counted rows' softplus terms. -/
def tsum (x2 x3 x4 x5 : Vec Ideal S256x128 .f32) (p q : Fin 128) : EReal :=
  ∑ b : Fin 256, if Ideal.sign (x4 (ix2 b p) - x5 (ix2 b q)) ≠ 0 then
    RankSpec.softplus (RankSpec.negOne * Ideal.sign (x4 (ix2 b p) - x5 (ix2 b q)) * (x2 (ix2 b p) - x3 (ix2 b q))) else 0

/-- A slice of 32 rows from row O reads, at (b, p), the block at (O + b, p). -/
theorem ld_rows (x : Vec Ideal S256x128 .f32) (O : ℕ)
    (inb : ∀ a, (![O, 0] : Fin 2 → Nat) a + S32x128.size a ≤ S256x128.size a) (b : Fin 32) (p : Fin 128)
    (hb : O + b.val < 256) :
    View.ld x (Rect.unit (s := S256x128) ![O, 0] S32x128.size inb) (ix2 b p) = x (ix2 ⟨O + b.val, hb⟩ p) :=
  congrArg x (funext fun a => by
    match a with
    | ⟨0, _⟩ => exact Fin.ext (by show O + 1 * b.val = O + b.val; omega)
    | ⟨1, _⟩ => exact Fin.ext (by show 0 + 1 * p.val = p.val; omega))

/-- A row's contribution to a pair's count. -/
abbrev rowCnt (x4 x5 : Vec Ideal S256x128 .f32) (p q : Fin 128) (r : Fin 256) : EReal :=
  if Ideal.sign (x4 (ix2 r p) - x5 (ix2 r q)) ≠ 0 then (1 : EReal) else 0

/-- A row's contribution to a pair's sum. -/
abbrev rowTerm (x2 x3 x4 x5 : Vec Ideal S256x128 .f32) (p q : Fin 128) (r : Fin 256) : EReal :=
  if Ideal.sign (x4 (ix2 r p) - x5 (ix2 r q)) ≠ 0 then
    RankSpec.softplus (RankSpec.negOne * Ideal.sign (x4 (ix2 r p) - x5 (ix2 r q)) * (x2 (ix2 r p) - x3 (ix2 r q))) else 0

/-- The count of the slice from row O, over the block's rows. -/
theorem chunkCnt_rows (x4 x5 : Vec Ideal S256x128 .f32) (O : ℕ)
    (inb : ∀ a, (![O, 0] : Fin 2 → Nat) a + S32x128.size a ≤ S256x128.size a) (hO : O + 32 ≤ 256) (p q : Fin 128) :
    chunkCnt (F := Ideal) (View.ld x4 (Rect.unit (s := S256x128) ![O, 0] S32x128.size inb))
        (View.ld x5 (Rect.unit (s := S256x128) ![O, 0] S32x128.size inb)) (ix2 p q)
      = ∑ b : Fin 32, rowCnt x4 x5 p q ⟨O + b.val, by omega⟩ := by
  rw [chunkCnt_apply]
  refine Finset.sum_congr rfl fun b _ => ?_
  rw [ld_rows x4 O inb b p (by omega), ld_rows x5 O inb b q (by omega)]

/-- The sum of the slice from row O, over the block's rows. -/
theorem chunkSum_rows (x2 x3 x4 x5 : Vec Ideal S256x128 .f32) (O : ℕ)
    (inb : ∀ a, (![O, 0] : Fin 2 → Nat) a + S32x128.size a ≤ S256x128.size a) (hO : O + 32 ≤ 256) (p q : Fin 128) :
    chunkSum (F := Ideal) (View.ld x2 (Rect.unit (s := S256x128) ![O, 0] S32x128.size inb))
        (View.ld x3 (Rect.unit (s := S256x128) ![O, 0] S32x128.size inb))
        (View.ld x4 (Rect.unit (s := S256x128) ![O, 0] S32x128.size inb))
        (View.ld x5 (Rect.unit (s := S256x128) ![O, 0] S32x128.size inb)) (ix2 p q)
      = ∑ b : Fin 32, rowTerm x2 x3 x4 x5 p q ⟨O + b.val, by omega⟩ := by
  rw [chunkSum_apply]
  refine Finset.sum_congr rfl fun b _ => ?_
  rw [ld_rows x2 O inb b p (by omega), ld_rows x3 O inb b q (by omega), ld_rows x4 O inb b p (by omega),
    ld_rows x5 O inb b q (by omega)]

/-- THE TILE'S COUNT at (p, q). -/
theorem cnt8_apply (x4 x5 : Vec Ideal S256x128 .f32) (p q : Fin 128) :
    cnt8 (F := Ideal) x4 x5 (ix2 p q) = ((tcnt x4 x5 p q : ℝ) : EReal) := by
  have h0 : chunkCnt (F := Ideal) (rows0 x4) (rows0 x5) (ix2 p q) = _ := chunkCnt_rows x4 x5 0 _ (by omega) p q
  have h1 : chunkCnt (F := Ideal) (rows32 x4) (rows32 x5) (ix2 p q) = _ := chunkCnt_rows x4 x5 32 _ (by omega) p q
  have h2 : chunkCnt (F := Ideal) (rows64 x4) (rows64 x5) (ix2 p q) = _ := chunkCnt_rows x4 x5 64 _ (by omega) p q
  have h3 : chunkCnt (F := Ideal) (rows96 x4) (rows96 x5) (ix2 p q) = _ := chunkCnt_rows x4 x5 96 _ (by omega) p q
  have h4 : chunkCnt (F := Ideal) (rows128 x4) (rows128 x5) (ix2 p q) = _ := chunkCnt_rows x4 x5 128 _ (by omega) p q
  have h5 : chunkCnt (F := Ideal) (rows160 x4) (rows160 x5) (ix2 p q) = _ := chunkCnt_rows x4 x5 160 _ (by omega) p q
  have h6 : chunkCnt (F := Ideal) (rows192 x4) (rows192 x5) (ix2 p q) = _ := chunkCnt_rows x4 x5 192 _ (by omega) p q
  have h7 : chunkCnt (F := Ideal) (rows224 x4) (rows224 x5) (ix2 p q) = _ := chunkCnt_rows x4 x5 224 _ (by omega) p q
  unfold tcnt
  rw [← sum_ite_one_eq_card, ← sum_rows256, cnt8_eq]
  show Ideal.ofBits .f32 0x00000000#32
      + chunkCnt (F := Ideal) (rows0 x4) (rows0 x5) (ix2 p q) + chunkCnt (F := Ideal) (rows32 x4) (rows32 x5) (ix2 p q)
      + chunkCnt (F := Ideal) (rows64 x4) (rows64 x5) (ix2 p q) + chunkCnt (F := Ideal) (rows96 x4) (rows96 x5) (ix2 p q)
      + chunkCnt (F := Ideal) (rows128 x4) (rows128 x5) (ix2 p q) + chunkCnt (F := Ideal) (rows160 x4) (rows160 x5) (ix2 p q)
      + chunkCnt (F := Ideal) (rows192 x4) (rows192 x5) (ix2 p q) + chunkCnt (F := Ideal) (rows224 x4) (rows224 x5) (ix2 p q) = _
  rw [h0, h1, h2, h3, h4, h5, h6, h7, Ideal.ofBits_zero_f32]

/-- THE TILE'S SUM at (p, q): the first seven slices' sums and the last slice's terms summed. -/
theorem sum8_last8_apply (x2 x3 x4 x5 : Vec Ideal S256x128 .f32) (p q : Fin 128) :
    sum8 (F := Ideal) x2 x3 x4 x5 (ix2 p q) + psum (F := Ideal) (last8 (F := Ideal) x2 x3 x4 x5) (ix2 p q)
      = tsum x2 x3 x4 x5 p q := by
  have h0 : chunkSum (F := Ideal) (rows0 x2) (rows0 x3) (rows0 x4) (rows0 x5) (ix2 p q) = _ :=
    chunkSum_rows x2 x3 x4 x5 0 _ (by omega) p q
  have h1 : chunkSum (F := Ideal) (rows32 x2) (rows32 x3) (rows32 x4) (rows32 x5) (ix2 p q) = _ :=
    chunkSum_rows x2 x3 x4 x5 32 _ (by omega) p q
  have h2 : chunkSum (F := Ideal) (rows64 x2) (rows64 x3) (rows64 x4) (rows64 x5) (ix2 p q) = _ :=
    chunkSum_rows x2 x3 x4 x5 64 _ (by omega) p q
  have h3 : chunkSum (F := Ideal) (rows96 x2) (rows96 x3) (rows96 x4) (rows96 x5) (ix2 p q) = _ :=
    chunkSum_rows x2 x3 x4 x5 96 _ (by omega) p q
  have h4 : chunkSum (F := Ideal) (rows128 x2) (rows128 x3) (rows128 x4) (rows128 x5) (ix2 p q) = _ :=
    chunkSum_rows x2 x3 x4 x5 128 _ (by omega) p q
  have h5 : chunkSum (F := Ideal) (rows160 x2) (rows160 x3) (rows160 x4) (rows160 x5) (ix2 p q) = _ :=
    chunkSum_rows x2 x3 x4 x5 160 _ (by omega) p q
  have h6 : chunkSum (F := Ideal) (rows192 x2) (rows192 x3) (rows192 x4) (rows192 x5) (ix2 p q) = _ :=
    chunkSum_rows x2 x3 x4 x5 192 _ (by omega) p q
  have h7 : chunkSum (F := Ideal) (rows224 x2) (rows224 x3) (rows224 x4) (rows224 x5) (ix2 p q) = _ :=
    chunkSum_rows x2 x3 x4 x5 224 _ (by omega) p q
  unfold tsum
  rw [← sum_rows256, sum8_eq, last8_eq]
  show Ideal.ofBits .f32 0x00000000#32
      + chunkSum (F := Ideal) (rows0 x2) (rows0 x3) (rows0 x4) (rows0 x5) (ix2 p q)
      + chunkSum (F := Ideal) (rows32 x2) (rows32 x3) (rows32 x4) (rows32 x5) (ix2 p q)
      + chunkSum (F := Ideal) (rows64 x2) (rows64 x3) (rows64 x4) (rows64 x5) (ix2 p q)
      + chunkSum (F := Ideal) (rows96 x2) (rows96 x3) (rows96 x4) (rows96 x5) (ix2 p q)
      + chunkSum (F := Ideal) (rows128 x2) (rows128 x3) (rows128 x4) (rows128 x5) (ix2 p q)
      + chunkSum (F := Ideal) (rows160 x2) (rows160 x3) (rows160 x4) (rows160 x5) (ix2 p q)
      + chunkSum (F := Ideal) (rows192 x2) (rows192 x3) (rows192 x4) (rows192 x5) (ix2 p q)
      + chunkSum (F := Ideal) (rows224 x2) (rows224 x3) (rows224 x4) (rows224 x5) (ix2 p q) = _
  rw [h0, h1, h2, h3, h4, h5, h6, h7, Ideal.ofBits_zero_f32]

end Cert.KernelIdeal.Hand

end
-- ==== Proof.KIVTileDefs.lean ====
/-
  The tile's last steps as clean functions.

  The total of a 128 x 128 array of pairs is taken lane by lane and then over the rows, and viewed 1 x 1. The tile adds to
  the running number the total of the mask (pairs i < j with a counted row) read as floats, and to the running total the
  total of the masked pairs' means: the pair's sum over the maximum of its count and one.
-/
import proofs.«118690_j7060926235074_1_alg».proof.Proof.KIVChunk

noncomputable section

namespace Cert.KernelIdeal.Hand

open Cert.KernelIdeal Cert.KernelIdeal.Gen
open Idealize.ShloMosaic

variable {F : FTy → Type} [FloatOps F]

/-- The total of an array of pairs, viewed 1 x 1. -/
def total (v : FVec F S128x128 .f32) : FVec F S1x1 .f32 :=
  shapeCast S1x1 (multiReduction .add [0] S1
    (shapeCast S128x1 (multiReduction .add [1] S128 v 0x00000000#32 reduces_S128x128_S128 (.inl rfl) rfl) shapeCasts_S128_S128x1)
    0x00000000#32 reduces_S128x1_S1 (.inl rfl) rfl) shapeCasts_S1_S1x1

/-- The mask of the tile's pairs read as floats. -/
def maskF (arg0 arg1 : BitVec 32) (cnt : FVec F S128x128 .f32) : FVec F S128x128 .f32 :=
  sitofp .f32 (extui 32 (k0_pay55 arg0 arg1 cnt) natLt_1_32)

/-- The masked pairs' means. -/
def meanF (arg0 arg1 : BitVec 32) (s : FVec F S128x128 .f32) (l : FVec F S32x128x128 .f32) (cnt : FVec F S128x128 .f32) :
    FVec F S128x128 .f32 :=
  select (k0_pay55 arg0 arg1 cnt)
    (divf (addf s (psum l)) (maximumf cnt (broadcast S128x128 (Scalar.ofBits .f32 0x3F800000#32)))) zero2

/-- The running number after the tile. -/
theorem pay57_eq (arg0 arg1 : BitVec 32) (cnt : FVec F S128x128 .f32) (a8 : Vec F S1x1 .f32) :
    k0_pay57 arg0 arg1 cnt a8 = shapeCast S1x1 (addf a8 (total (maskF arg0 arg1 cnt))) shapeCasts_S1x1_S1x1 := rfl

/-- The running total after the tile. -/
theorem pay56_eq (arg0 arg1 : BitVec 32) (s : FVec F S128x128 .f32) (l : FVec F S32x128x128 .f32) (cnt : FVec F S128x128 .f32)
    (a7 : Vec F S1x1 .f32) :
    k0_pay56 arg0 arg1 s l cnt a7 = shapeCast S1x1 (addf a7 (total (meanF arg0 arg1 s l cnt))) shapeCasts_S1x1_S1x1 := rfl

/-- The tile's mask, operation by operation. -/
theorem pay55_eq (arg0 arg1 : BitVec 32) (cnt : FVec F S128x128 .f32) :
    k0_pay55 arg0 arg1 cnt = andi (cmpf .ogt cnt zero2)
      (cmpi .slt (addi (broadcast S128x128 (Scalar.muli arg0 128#32)) (iota .tc S128x128 32 [0] iota_S128x128_d0_w32))
        (addi (broadcast S128x128 (Scalar.muli arg1 128#32)) (iota .tc S128x128 32 [1] iota_S128x128_d1_w32))) := rfl

/-- The result, operation by operation. -/
theorem outVal_eq (a7 a8 : Vec F S1x1 .f32) :
    outVal a7 a8 = select (cmpf .ogt a8 (broadcast S1x1 (Scalar.ofBits .f32 0x00000000#32)))
      (divf a7 (maximumf a8 (broadcast S1x1 (Scalar.ofBits .f32 0x3F800000#32))))
      (broadcast S1x1 (Scalar.ofBits .f32 0x00000000#32)) := rfl

/-- The accumulators' first value, operation by operation. -/
theorem pay2_eq : (k0_pay2 : FVec F S1x1 .f32)
    = shapeCast S1x1 (broadcast S1x1 (Scalar.ofBits .f32 0x00000000#32)) shapeCasts_S1x1_S1x1 := rfl
theorem pay3_eq : (k0_pay3 : FVec F S1x1 .f32)
    = shapeCast S1x1 (broadcast S1x1 (Scalar.ofBits .f32 0x00000000#32)) shapeCasts_S1x1_S1x1 := rfl

end Cert.KernelIdeal.Hand

end
-- ==== Proof.KIVOut.lean ====
/-
  The tile's last steps at the 1 x 1 index, at the extended reals.

  The mask of a pair (p, q) of the tile (i0, i1) is set exactly when the global features satisfy
  128 i0 + p < 128 i1 + q (the 32-bit words hold these naturals, so the signed comparison is theirs) and the pair has a
  counted row. The total of an array of pairs is the double sum over p and q. So the running number grows by the number
  of masked pairs, and the running total by the sum of the masked pairs' means. The result is the running total over the
  running number when that is positive, else zero; the accumulators start from zero.
-/
import proofs.«118690_j7060926235074_1_alg».proof.Proof.KIVTile
import proofs.«118690_j7060926235074_1_alg».proof.Proof.KIVTileDefs

noncomputable section

namespace Cert.KernelIdeal.Hand

open Cert.KernelIdeal Cert.KernelIdeal.Gen
open Idealize.ShloMosaic Idealize.ShloMosaic.ValueIdx
open Classical

/-! ## Words -/

/-- A natural below 2^31 is the signed value of its 32-bit word. -/
theorem toInt_small (n : ℕ) (h : n < 2 ^ 31) : (BitVec.ofNat 32 n).toInt = (n : ℤ) := by
  rw [BitVec.toInt_eq_toNat_cond, BitVec.toNat_ofNat]
  have e : n % 2 ^ 32 = n := Nat.mod_eq_of_lt (by omega)
  rw [e, if_pos (by omega)]

/-- The word 128 * a + p, for a tile coordinate a and a local feature p. -/
theorem word_eq (a p : ℕ) (ha : a < 2) (hp : p < 128) :
    IntOp.addi (Scalar.muli (BitVec.ofNat 32 a) 128#32) (BitVec.ofNat 32 p) = BitVec.ofNat 32 (128 * a + p) := by
  apply BitVec.eq_of_toNat_eq
  simp only [IntOp.addi, Scalar.muli, IntOp.muli, BitVec.toNat_add, BitVec.toNat_mul, BitVec.toNat_ofNat]
  omega

/-- The signed comparison of the two global feature words is the comparison of the naturals. -/
theorem mask_word (a0 a1 : ℕ) (h0 : a0 < 2) (h1 : a1 < 2) (p q : Fin 128) :
    IntOp.cmpi .slt (IntOp.addi (Scalar.muli (BitVec.ofNat 32 a0) 128#32) (BitVec.ofNat 32 p.val))
        (IntOp.addi (Scalar.muli (BitVec.ofNat 32 a1) 128#32) (BitVec.ofNat 32 q.val))
      = BitVec.ofBool (decide (128 * a0 + p.val < 128 * a1 + q.val)) := by
  rw [word_eq a0 p.val h0 p.isLt, word_eq a1 q.val h1 q.isLt]
  show BitVec.ofBool ((BitVec.ofNat 32 (128 * a0 + p.val)).slt (BitVec.ofNat 32 (128 * a1 + q.val))) = _
  congr 1
  rw [BitVec.slt, toInt_small _ (by have := p.isLt; omega), toInt_small _ (by have := q.isLt; omega)]
  simp only [decide_eq_decide]
  constructor <;> intro h <;> omega

/-- The word 0x3F800000 is one. -/
theorem ofBits_one_f32 : Ideal.ofBits .f32 0x3F800000#32 = 1 := IdealRules.sign_bit.ideal_onePat .f32

/-- A float comparison "greater than zero" is set exactly when the value is positive. -/
theorem cmp_ogt_zero_iff (c : EReal) : Ideal.cmp .ogt c (Ideal.ofBits .f32 0x00000000#32) = 1#1 ↔ 0 < c := by
  rw [Ideal.ofBits_zero_f32]
  by_cases h : 0 < c <;> simp [Ideal.cmp, h]

/-! ## The mask -/

/-- The mask at (p, q) is set exactly for a pair i < j of global features with a positive count. -/
theorem mask_eq_one_iff (a0 a1 : ℕ) (h0 : a0 < 2) (h1 : a1 < 2) (cnt : FVec Ideal S128x128 .f32) (p q : Fin 128) :
    k0_pay55 (F := Ideal) (BitVec.ofNat 32 a0) (BitVec.ofNat 32 a1) cnt (ix2 p q) = 1#1
      ↔ (128 * a0 + p.val < 128 * a1 + q.val ∧ 0 < cnt (ix2 p q)) := by
  rw [pay55_eq]
  have e0 : iota .tc S128x128 32 [0] iota_S128x128_d0_w32 (ix2 p q) = BitVec.ofNat 32 p.val :=
    iota_single_apply .tc S128x128 32 0 iota_S128x128_d0_w32 (ix2 p q)
  have e1 : iota .tc S128x128 32 [1] iota_S128x128_d1_w32 (ix2 p q) = BitVec.ofNat 32 q.val :=
    iota_single_apply .tc S128x128 32 1 iota_S128x128_d1_w32 (ix2 p q)
  show IntOp.andi (Ideal.cmp .ogt (cnt (ix2 p q)) (Ideal.ofBits .f32 0x00000000#32))
      (IntOp.cmpi .slt
        (IntOp.addi (Scalar.muli (BitVec.ofNat 32 a0) 128#32) (iota .tc S128x128 32 [0] iota_S128x128_d0_w32 (ix2 p q)))
        (IntOp.addi (Scalar.muli (BitVec.ofNat 32 a1) 128#32) (iota .tc S128x128 32 [1] iota_S128x128_d1_w32 (ix2 p q))))
      = 1#1 ↔ _
  rw [e0, e1, mask_word a0 a1 h0 h1 p q]
  have hc := cmp_ogt_zero_iff (cnt (ix2 p q))
  by_cases hA : 0 < cnt (ix2 p q)
  · rw [hc.mpr hA]
    by_cases hB : 128 * a0 + p.val < 128 * a1 + q.val
    · simp [IntOp.andi, hA, hB]
    · simp [IntOp.andi, hA, hB]
  · have hz : Ideal.cmp .ogt (cnt (ix2 p q)) (Ideal.ofBits .f32 0x00000000#32) = 0#1 :=
      eq_zero_of_ne_one (fun h => hA (hc.mp h))
    rw [hz]
    simp [IntOp.andi, hA]

/-! ## The total of an array of pairs -/

/-- A [128] array viewed [128,1] reads, at (p, u), the array at p. -/
theorem cast_keep {α : Type} (w : S128.Idx → α) (p : Fin 128) (u : Fin 1) :
    shapeCast S128x1 w shapeCasts_S128_S128x1 (ix2 p u) = w (ix1 p) :=
  shapeCast_apply w _ _ _ (by
    have hu : u.val = 0 := by omega
    rw [Shape.rowMajor_val_two, Shape.rowMajor_val_one]
    show p.val = p.val * 1 + u.val
    rw [hu, Nat.mul_one, Nat.add_zero])

/-- The total at the one index is the double sum over the pairs. -/
theorem total_apply (v : FVec Ideal S128x128 .f32) :
    total (F := Ideal) v (ix2 (0 : Fin 1) (0 : Fin 1)) = ∑ p : Fin 128, ∑ q : Fin 128, v (ix2 p q) := by
  unfold total
  refine (shapeCast_a_1a_apply _ shapeCasts_S1_S1x1 0 0).trans ?_
  refine (Ideal.multiReduction_add_single _ 0x00000000#32 reduces_S128x1_S1 (.inl rfl) rfl (ix1 0)).trans ?_
  refine Finset.sum_congr rfl fun p _ => ?_
  have hl : reduces_S128x1_S1.lift (ix1 (0 : Fin 1)) p = ix2 p (0 : Fin 1) :=
    funext fun a => match a with | ⟨0, _⟩ => rfl | ⟨1, _⟩ => rfl
  refine (congrArg _ hl).trans ?_
  refine (cast_keep _ p 0).trans ?_
  refine (Ideal.multiReduction_add_single v 0x00000000#32 reduces_S128x128_S128 (.inl rfl) rfl (ix1 p)).trans ?_
  exact Finset.sum_congr rfl fun q _ => congrArg v (funext fun a => match a with | ⟨0, _⟩ => rfl | ⟨1, _⟩ => rfl)

/-! ## The running number and the running total after a tile -/

/-- The count of a pair is positive as an extended real exactly when it is positive. -/
theorem cnt8_pos_iff (x4 x5 : Vec Ideal S256x128 .f32) (p q : Fin 128) :
    0 < cnt8 (F := Ideal) x4 x5 (ix2 p q) ↔ 0 < tcnt x4 x5 p q := by
  rw [cnt8_apply, EReal.coe_pos, Nat.cast_pos]

/-- THE RUNNING NUMBER after the tile i. -/
theorem newCnt_apply (i : grid0.Coords) (x4 x5 : Vec Ideal S256x128 .f32) (a8 : Vec Ideal S1x1 .f32) :
    newCnt (F := Ideal) i x4 x5 a8 (ix2 (0 : Fin 1) (0 : Fin 1)) = a8 (ix2 (0 : Fin 1) (0 : Fin 1))
      + (((Finset.univ.filter fun pq : Fin 128 × Fin 128 =>
          128 * (i 0).val + pq.1.val < 128 * (i 1).val + pq.2.val ∧ 0 < tcnt x4 x5 pq.1 pq.2).card : ℝ) : EReal) := by
  unfold newCnt
  rw [pay57_eq, shapeCast_self]
  show a8 (ix2 (0 : Fin 1) (0 : Fin 1)) + total (F := Ideal) _ (ix2 (0 : Fin 1) (0 : Fin 1)) = _
  rw [total_apply, ← sum_ite_one_eq_card, Fintype.sum_prod_type]
  refine congrArg _ (Finset.sum_congr rfl fun p _ => Finset.sum_congr rfl fun q _ => ?_)
  show FloatOps.sitofp (F := Ideal) .f32
      ((k0_pay55 (F := Ideal) (BitVec.ofNat 32 (i 0).val) (BitVec.ofNat 32 (i 1).val) (cnt8 (F := Ideal) x4 x5) (ix2 p q)).setWidth 32) = _
  rw [count_word]
  refine if_congr ?_ rfl rfl
  rw [mask_eq_one_iff (i 0).val (i 1).val (i 0).isLt (i 1).isLt, cnt8_pos_iff]

/-- THE RUNNING TOTAL after the tile i. -/
theorem newTot_apply (i : grid0.Coords) (x2 x3 x4 x5 : Vec Ideal S256x128 .f32) (a7 : Vec Ideal S1x1 .f32) :
    newTot (F := Ideal) i x2 x3 x4 x5 a7 (ix2 (0 : Fin 1) (0 : Fin 1)) = a7 (ix2 (0 : Fin 1) (0 : Fin 1))
      + ∑ p : Fin 128, ∑ q : Fin 128,
          if 128 * (i 0).val + p.val < 128 * (i 1).val + q.val ∧ 0 < tcnt x4 x5 p q then
            Ideal.div (tsum x2 x3 x4 x5 p q) (max ((tcnt x4 x5 p q : ℝ) : EReal) 1) else 0 := by
  unfold newTot
  rw [pay56_eq, shapeCast_self]
  show a7 (ix2 (0 : Fin 1) (0 : Fin 1)) + total (F := Ideal) _ (ix2 (0 : Fin 1) (0 : Fin 1)) = _
  rw [total_apply]
  refine congrArg _ (Finset.sum_congr rfl fun p _ => Finset.sum_congr rfl fun q _ => ?_)
  show (if k0_pay55 (F := Ideal) (BitVec.ofNat 32 (i 0).val) (BitVec.ofNat 32 (i 1).val) (cnt8 (F := Ideal) x4 x5) (ix2 p q) = 1#1
      then Ideal.div (sum8 (F := Ideal) x2 x3 x4 x5 (ix2 p q) + psum (F := Ideal) (last8 (F := Ideal) x2 x3 x4 x5) (ix2 p q))
        (max (cnt8 (F := Ideal) x4 x5 (ix2 p q)) (Ideal.ofBits .f32 0x3F800000#32))
      else Ideal.ofBits .f32 0x00000000#32) = _
  rw [sum8_last8_apply, cnt8_apply, ofBits_one_f32, Ideal.ofBits_zero_f32]
  refine if_congr ?_ rfl rfl
  rw [mask_eq_one_iff (i 0).val (i 1).val (i 0).isLt (i 1).isLt, cnt8_pos_iff]

/-! ## The result and the accumulators' first value -/

/-- THE RESULT from the running total and the running number. -/
theorem outVal_apply (a7 a8 : Vec Ideal S1x1 .f32) :
    outVal (F := Ideal) a7 a8 (ix2 (0 : Fin 1) (0 : Fin 1))
      = if 0 < a8 (ix2 (0 : Fin 1) (0 : Fin 1)) then
          Ideal.div (a7 (ix2 (0 : Fin 1) (0 : Fin 1))) (max (a8 (ix2 (0 : Fin 1) (0 : Fin 1))) 1) else 0 := by
  rw [outVal_eq]
  show (if Ideal.cmp .ogt (a8 (ix2 (0 : Fin 1) (0 : Fin 1))) (Ideal.ofBits .f32 0x00000000#32) = 1#1
      then Ideal.div (a7 (ix2 (0 : Fin 1) (0 : Fin 1))) (max (a8 (ix2 (0 : Fin 1) (0 : Fin 1))) (Ideal.ofBits .f32 0x3F800000#32))
      else Ideal.ofBits .f32 0x00000000#32) = _
  rw [ofBits_one_f32]
  exact if_congr (cmp_ogt_zero_iff _) rfl Ideal.ofBits_zero_f32

/-- The running total starts from zero. -/
theorem pay2_apply : k0_pay2 (F := Ideal) (ix2 (0 : Fin 1) (0 : Fin 1)) = 0 := by
  rw [pay2_eq, shapeCast_self]
  exact Ideal.ofBits_zero_f32

/-- The running number starts from zero. -/
theorem pay3_apply : k0_pay3 (F := Ideal) (ix2 (0 : Fin 1) (0 : Fin 1)) = 0 := by
  rw [pay3_eq, shapeCast_self]
  exact Ideal.ofBits_zero_f32

end Cert.KernelIdeal.Hand

end
-- ==== Proof.KIPieces.lean ====
/-
  What the body's stores leave, named: at every point the running total becomes `newTot` of the point's four blocks and
  the total before it, the running number of pairs `newCnt`; at the first point they start from the zero words the body
  has just stored; at the last point the result is `outVal` of the two.
-/
import proofs.«118690_j7060926235074_1_alg».proof.Proof.KIFrame
import proofs.«118690_j7060926235074_1_alg».proof.Proof.KITile

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

set_option maxHeartbeats 4000000 in
theorem sout0_B_0_eq (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x2 x3 x4 x5 : Vec F S256x128 .f32) (xs7 xs8 : Vec F S1x1 .f32) :
    sout0_B_0 c i arg2 harg2 arg3 harg3 arg4 harg4 arg5 harg5 arg6 harg6 arg7 harg7 arg8 harg8 hc0 hc1 x2 x3 x4 x5 xs7 xs8 = newTot i x2 x3 x4 x5 xs7 := by
  unfold sout0_B_0
  rw [View.read_writes_eq_canon _ _ _ (scover0_B_0 c i arg2 harg2 arg3 harg3 arg4 harg4 arg5 harg5 arg6 harg6 arg7 harg7 arg8 harg8 hc0 hc1 x2 x3 x4 x5 xs7 xs8)]
  unfold kernelRun0_B
  dsimp only
  sl_unfold_run_names
  rw [View.canon_unit_zero hz]
  simp only [View.readAt_eq_ld, Memref.IsWhole.read_unread, View.ld_unit_zero (S := S1x1) hz]
  rfl

set_option maxHeartbeats 4000000 in
theorem sout0_B_1_eq (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x2 x3 x4 x5 : Vec F S256x128 .f32) (xs7 xs8 : Vec F S1x1 .f32) :
    sout0_B_1 c i arg2 harg2 arg3 harg3 arg4 harg4 arg5 harg5 arg6 harg6 arg7 harg7 arg8 harg8 hc0 hc1 x2 x3 x4 x5 xs7 xs8 = newCnt i x4 x5 xs8 := by
  unfold sout0_B_1
  rw [View.read_writes_eq_canon _ _ _ (scover0_B_1 c i arg2 harg2 arg3 harg3 arg4 harg4 arg5 harg5 arg6 harg6 arg7 harg7 arg8 harg8 hc0 hc1 x2 x3 x4 x5 xs7 xs8)]
  unfold kernelRun0_B
  dsimp only
  sl_unfold_run_names
  rw [View.canon_unit_zero hz]
  simp only [View.readAt_eq_ld, Memref.IsWhole.read_unread, View.ld_unit_zero (S := S1x1) hz]
  rfl

set_option maxHeartbeats 4000000 in
theorem sout0_C_0_eq (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x2 x3 x4 x5 : Vec F S256x128 .f32) (xs7 xs8 : Vec F S1x1 .f32) :
    sout0_C_0 c i arg2 harg2 arg3 harg3 arg4 harg4 arg5 harg5 arg6 harg6 arg7 harg7 arg8 harg8 hc0 hc1 x2 x3 x4 x5 xs7 xs8 = newTot i x2 x3 x4 x5 xs7 := by
  unfold sout0_C_0
  rw [View.read_writes_eq_canon _ _ _ (scover0_C_0 c i arg2 harg2 arg3 harg3 arg4 harg4 arg5 harg5 arg6 harg6 arg7 harg7 arg8 harg8 hc0 hc1 x2 x3 x4 x5 xs7 xs8)]
  unfold kernelRun0_C
  dsimp only
  sl_unfold_run_names
  rw [View.canon_unit_zero hz]
  simp only [View.readAt_eq_ld, Memref.IsWhole.read_unread, View.ld_unit_zero (S := S1x1) hz]
  rfl

set_option maxHeartbeats 4000000 in
theorem sout0_C_1_eq (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x2 x3 x4 x5 : Vec F S256x128 .f32) (xs7 xs8 : Vec F S1x1 .f32) :
    sout0_C_1 c i arg2 harg2 arg3 harg3 arg4 harg4 arg5 harg5 arg6 harg6 arg7 harg7 arg8 harg8 hc0 hc1 x2 x3 x4 x5 xs7 xs8 = newCnt i x4 x5 xs8 := by
  unfold sout0_C_1
  rw [View.read_writes_eq_canon _ _ _ (scover0_C_1 c i arg2 harg2 arg3 harg3 arg4 harg4 arg5 harg5 arg6 harg6 arg7 harg7 arg8 harg8 hc0 hc1 x2 x3 x4 x5 xs7 xs8)]
  unfold kernelRun0_C
  dsimp only
  sl_unfold_run_names
  rw [View.canon_unit_zero hz]
  simp only [View.readAt_eq_ld, Memref.IsWhole.read_unread, View.ld_unit_zero (S := S1x1) hz]
  rfl

set_option maxHeartbeats 4000000 in
theorem out0_C_4_eq (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x2 x3 x4 x5 : Vec F S256x128 .f32) (xs7 xs8 : Vec F S1x1 .f32) :
    out0_C_4 c i arg2 harg2 arg3 harg3 arg4 harg4 arg5 harg5 arg6 harg6 arg7 harg7 arg8 harg8 hc0 hc1 x2 x3 x4 x5 xs7 xs8 = outVal (newTot i x2 x3 x4 x5 xs7) (newCnt i x4 x5 xs8) := by
  unfold out0_C_4
  rw [View.read_writes_eq_canon _ _ _ (cover0_C_4 c i arg2 harg2 arg3 harg3 arg4 harg4 arg5 harg5 arg6 harg6 arg7 harg7 arg8 harg8 hc0 hc1 x2 x3 x4 x5 xs7 xs8)]
  unfold kernelRun0_C
  dsimp only
  sl_unfold_run_names
  rw [View.canon_unit_zero hz]
  simp only [View.readCov_unit_zero (S := S1x1) _ hz, View.readAt_eq_ld, Memref.IsWhole.read_unread, View.ld_unit_zero (S := S1x1) hz]
  rfl

set_option maxHeartbeats 4000000 in
theorem sout0_A_0_eq (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x2 x3 x4 x5 : Vec F S256x128 .f32) :
    sout0_A_0 c i arg2 harg2 arg3 harg3 arg4 harg4 arg5 harg5 arg6 harg6 arg7 harg7 arg8 harg8 hc0 hc1 x2 x3 x4 x5 = newTot i x2 x3 x4 x5 k0_pay2 := by
  unfold sout0_A_0
  rw [View.read_writes_eq_canon _ _ _ (scover0_A_0 c i arg2 harg2 arg3 harg3 arg4 harg4 arg5 harg5 arg6 harg6 arg7 harg7 arg8 harg8 hc0 hc1 x2 x3 x4 x5)]
  unfold kernelRun0_A
  dsimp only
  sl_unfold_run_names
  rw [View.canon_cons_unit_zero hz]
  simp only [View.readCov_unit_zero (S := S1x1) _ hz, View.readAt_eq_ld, Memref.IsWhole.read_unread, View.ld_unit_zero (S := S1x1) hz]
  rfl

set_option maxHeartbeats 4000000 in
theorem sout0_A_1_eq (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x2 x3 x4 x5 : Vec F S256x128 .f32) :
    sout0_A_1 c i arg2 harg2 arg3 harg3 arg4 harg4 arg5 harg5 arg6 harg6 arg7 harg7 arg8 harg8 hc0 hc1 x2 x3 x4 x5 = newCnt i x4 x5 k0_pay3 := by
  unfold sout0_A_1
  rw [View.read_writes_eq_canon _ _ _ (scover0_A_1 c i arg2 harg2 arg3 harg3 arg4 harg4 arg5 harg5 arg6 harg6 arg7 harg7 arg8 harg8 hc0 hc1 x2 x3 x4 x5)]
  unfold kernelRun0_A
  dsimp only
  sl_unfold_run_names
  rw [View.canon_cons_unit_zero hz]
  simp only [View.readCov_unit_zero (S := S1x1) _ hz, View.readAt_eq_ld, Memref.IsWhole.read_unread, View.ld_unit_zero (S := S1x1) hz]
  rfl

end Cert.KernelIdeal.Hand

end
-- ==== Proof.KIChain.lean ====
/-
  The accumulators point by point: after the first point they are the first tile's total and number of pairs (from the
  zero words), after each later point the tile update of what the point before left; at the last point the result word
  is the total over the number of pairs.
-/
import proofs.«118690_j7060926235074_1_alg».proof.Proof.KIPieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The running total and the running number of pairs after the point at position `n`. -/
def acc (c : Dev nD) : (n : ℕ) → n < cfg0.N → Vec F S1x1 .f32 × Vec F S1x1 .f32
  | 0, hn => (newTot (grid0.coords ⟨0, hn⟩) (iblk m c 0 ⟨0, hn⟩) (iblk m c 1 ⟨0, hn⟩) (iblk m c 2 ⟨0, hn⟩) (iblk m c 3 ⟨0, hn⟩) k0_pay2,
      newCnt (grid0.coords ⟨0, hn⟩) (iblk m c 2 ⟨0, hn⟩) (iblk m c 3 ⟨0, hn⟩) k0_pay3)
  | n + 1, hn => (newTot (grid0.coords ⟨n + 1, hn⟩) (iblk m c 0 ⟨n + 1, hn⟩) (iblk m c 1 ⟨n + 1, hn⟩) (iblk m c 2 ⟨n + 1, hn⟩) (iblk m c 3 ⟨n + 1, hn⟩) (acc c n (Nat.lt_of_succ_lt hn)).1,
      newCnt (grid0.coords ⟨n + 1, hn⟩) (iblk m c 2 ⟨n + 1, hn⟩) (iblk m c 3 ⟨n + 1, hn⟩) (acc c n (Nat.lt_of_succ_lt hn)).2)

/-- The recursion the run's witnesses follow is that one. -/
theorem outsAt_eq (c : Dev nD) : ∀ (n : ℕ) (h : n < cfg0.N), (outsAt0 m c n h).2 = acc m c n h
  | 0, h => by
    show (_, _) = (_, _)
    rw [sout0_A_0_eq, sout0_A_1_eq]
  | n + 1, h => by
    have hN : n + 1 < 4 := lt_of_lt_of_eq h (show cfg0.N = 4 from N_0)
    have ih := outsAt_eq c n (Nat.lt_of_succ_lt h)
    have h0 : ¬ (n + 1) % 4 = 0 := by omega
    by_cases h1 : (n + 1) % 4 = 3
    · have e := outsAt0_C m c ⟨n + 1, h⟩ h0 h1
      rw [e]
      show (_, _) = (_, _)
      rw [sout0_C_0_eq, sout0_C_1_eq]
      simp only [Nat.add_sub_cancel] at ih ⊢
      rw [ih]
    · have e := outsAt0_B m c ⟨n + 1, h⟩ h0 h1
      rw [e]
      show (_, _) = (_, _)
      rw [sout0_B_0_eq, sout0_B_1_eq]
      simp only [Nat.add_sub_cancel] at ih ⊢
      rw [ih]

/-- The result word stored at the last point. -/
theorem out_last (c : Dev nD) (h : 3 < cfg0.N) :
    (outsAt0 m c 3 h).1 = outVal (acc m c 3 h).1 (acc m c 3 h).2 := by
  have e := outsAt0_C m c ⟨3, h⟩ (show ¬ (3 : ℕ) % 4 = 0 by decide) (show (3 : ℕ) % 4 = 3 by decide)
  rw [e]
  dsimp only
  rw [out0_C_4_eq]
  have ih := outsAt_eq m c 2 (Nat.lt_of_succ_lt h)
  rw [ih]
  rfl

end Cert.KernelIdeal.Hand

end
-- ==== Proof.KIFinal.lean ====
/-
  From the proof data to the scalar result: the last point's write-back covers the one-word result array, so the
  array ends holding the word stored there; the reshape after the region copies it to the scalar result.
-/
import proofs.«118690_j7060926235074_1_alg».proof.Proof.KIChain
import proofs.«118690_j7060926235074_1_alg».proof.Proof.KILaunch
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem h3N : 3 < cfg0.N := by rw [show cfg0.N = 4 from N_0]; decide

/-- The result array's final contents: the word stored at the last point. -/
def resArr (c : Dev nD) : Buf (Elt F) ((cfg0.win 4).arr.view.loc (c : Thread nD τ)) := (outsAt0 m c 3 h3N).1

/-- What the last point writes back is that word, read through the array's one block. -/
theorem flushed_eq (c : Dev nD) (t : Fin cfg0.N) (hf : (cfg0.win 4).flush t = true) :
    (dats m 0 c).flushed 4 t = ((cfg0.win 4).blk t).view.read (Elt F) (resArr m c) := by
  have hN : cfg0.N = 4 := N_0
  have h3 : t.val = 3 := by have := (flush0_4 t).mp hf; have := t.isLt; omega
  obtain rfl : t = t0_3 := Fin.ext h3
  show (cfg0.win 4).cut (grid0.coords t0_3) ((dats m 0 c).after 4 t0_3) = _
  rw [after0_4]
  have hz' : (fun a => win0_4.index t0_3 a * main_v0.ty.shape.size a) = fun _ => 0 := funext fun a => by fin_cases a <;> decide
  exact (Memref.read_access_unit_zero (Elt F) main_v0 hz' (fun a => by rw [congrFun hz' a]; simp) (resArr m c)).symm

/-- So the result array ends holding it: the last point's block covers the array. -/
theorem final_o (c : Dev nD) : (dats m 0 c).arrAt 4 cfg0.N = resArr m c :=
  (dats m 0 c).arrAt_eq_of_cover 4 (resArr m c) (flushed_eq m c) fun i =>
    ⟨t0_3, (flush0_4 t0_3).mpr rfl, by
      show i ∈ ((View.whole main_v0).slice (win0_4.rect t0_3)).set
      rw [View.set_slice_whole, Rect.mem_set_unit]
      intro a
      have h0 : (i 0 : Nat) < 1 := (i 0).isLt
      have h1 : (i 1 : Nat) < 1 := (i 1).isLt
      match a with
      | ⟨0, _⟩ => show win0_4.index t0_3 0 * win0_4.size 0 ≤ (i 0 : Nat) ∧ (i 0 : Nat) < win0_4.index t0_3 0 * win0_4.size 0 + win0_4.xsize (grid0.coords t0_3) 0
                  rw [show win0_4.index t0_3 0 * win0_4.size 0 = 0 from by decide +kernel, show win0_4.xsize (grid0.coords t0_3) 0 = 1 from by decide +kernel]; omega
      | ⟨1, _⟩ => show win0_4.index t0_3 1 * win0_4.size 1 ≤ (i 1 : Nat) ∧ (i 1 : Nat) < win0_4.index t0_3 1 * win0_4.size 1 + win0_4.xsize (grid0.coords t0_3) 1
                  rw [show win0_4.index t0_3 1 * win0_4.size 1 = 0 from by decide +kernel, show win0_4.xsize (grid0.coords t0_3) 1 = 1 from by decide +kernel]; omega⟩

/-- A one-word array has one index. -/
theorem idx11 (k : S1x1.Idx) : k = Idealize.ShloMosaic.ValueIdx.ix2 (0 : Fin 1) (0 : Fin 1) := by
  funext a
  match a with
  | ⟨0, _⟩ => exact Fin.ext (by have h : (k 0).val < 1 := (k 0).isLt; show (k 0).val = 0; omega)
  | ⟨1, _⟩ => exact Fin.ext (by have h : (k 1).val < 1 := (k 1).isLt; show (k 1).val = 0; omega)

/-- The scalar result after the reshape is the word stored at the last point. -/
theorem result_word (c : Dev nD) (i : (Proc.devRef (τ := τ) .tc main_v1).ty.Idx) :
    StableHlo.after hostOps1 (Vr m c) (Proc.devRef .tc main_v1) i
      = resArr m c (Idealize.ShloMosaic.ValueIdx.ix2 (0 : Fin 1) (0 : Fin 1)) := by
  have e : StableHlo.after hostOps1 (Vr m c) (Proc.devRef .tc main_v1)
      = fun i => shapeCast main_v1.ty.shape (Vr m c (Proc.devRef .tc main_v0)) shapeCasts_S1x1_S_ i := by
    dsimp only [hostOps1]
    after_results
  rw [e]
  dsimp only
  rw [Vr_v0, final_o]
  unfold shapeCast
  exact congrArg (resArr m c) (idx11 _)

end Cert.KernelIdeal.Hand

end
-- ==== Proof.KIBlocks.lean ====
/-
  The four input windows' blocks as column blocks of the two inputs: at the tile (a, b) the windows of the tile's rows
  bring columns 128 a … 128 a + 127 and the windows of its columns bring columns 128 b … 128 b + 127, all 256 batch rows.
-/
import proofs.«118690_j7060926235074_1_alg».proof.Proof.KIDefs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
variable (m : (ℓ : Loc nD τ sig) → Buf (Elt F) ℓ)

/-- Columns 128 a … 128 a + 127 of a 256 x 256 matrix. -/
def colBlk (X : Vec F S256x256 .f32) (a : ℕ) (ha : a < 2) : Vec F S256x128 .f32 := fun y =>
  X (ix2 (⟨(y 0).val, (y 0).isLt⟩ : Fin 256) (⟨128 * a + (y 1).val, by have : (y 1).val < 128 := (y 1).isLt; omega⟩ : Fin 256))

theorem coord_lt (t : Fin cfg0.N) (a : Fin 2) : (grid0.coords t a).val < 2 := by
  have h := (grid0.coords t a).isLt
  fin_cases a <;> exact h

theorem idx_facts0 : ∀ t : Fin cfg0.N, win0_0.index t 0 = 0 ∧ win0_0.index t 1 = (grid0.coords t 0).val :=
  (by decide +kernel : ∀ t : Fin grid0.N, win0_0.index t 0 = 0 ∧ win0_0.index t 1 = (grid0.coords t 0).val)
theorem idx_facts1 : ∀ t : Fin cfg0.N, win0_1.index t 0 = 0 ∧ win0_1.index t 1 = (grid0.coords t 1).val :=
  (by decide +kernel : ∀ t : Fin grid0.N, win0_1.index t 0 = 0 ∧ win0_1.index t 1 = (grid0.coords t 1).val)
theorem idx_facts2 : ∀ t : Fin cfg0.N, win0_2.index t 0 = 0 ∧ win0_2.index t 1 = (grid0.coords t 0).val :=
  (by decide +kernel : ∀ t : Fin grid0.N, win0_2.index t 0 = 0 ∧ win0_2.index t 1 = (grid0.coords t 0).val)
theorem idx_facts3 : ∀ t : Fin cfg0.N, win0_3.index t 0 = 0 ∧ win0_3.index t 1 = (grid0.coords t 1).val :=
  (by decide +kernel : ∀ t : Fin grid0.N, win0_3.index t 0 = 0 ∧ win0_3.index t 1 = (grid0.coords t 1).val)

theorem iblk0_eq (c : Dev nD) (t : Fin cfg0.N) :
    (iblk m c 0 t : Vec F S256x128 .f32) = colBlk (m ((c : Thread nD τ).loc main_arg0)) (grid0.coords t 0).val (coord_lt t 0) := by
  have hi := idx_facts0 t
  funext j
  unfold iblk colBlk
  rw [View.read_apply]
  show V m c main_arg0 _ = m (c.tc.loc main_arg0) _
  unfold V
  congr 1
  funext a
  apply Fin.ext
  match a with
  | ⟨0, _⟩ => show win0_0.index t 0 * 256 + 1 * (j 0).val = (j 0).val; rw [hi.1]; omega
  | ⟨1, _⟩ => show win0_0.index t 1 * 128 + 1 * (j 1).val = 128 * (grid0.coords t 0).val + (j 1).val; rw [hi.2]; omega

theorem iblk1_eq (c : Dev nD) (t : Fin cfg0.N) :
    (iblk m c 1 t : Vec F S256x128 .f32) = colBlk (m ((c : Thread nD τ).loc main_arg0)) (grid0.coords t 1).val (coord_lt t 1) := by
  have hi := idx_facts1 t
  funext j
  unfold iblk colBlk
  rw [View.read_apply]
  show V m c main_arg0 _ = m (c.tc.loc main_arg0) _
  unfold V
  congr 1
  funext a
  apply Fin.ext
  match a with
  | ⟨0, _⟩ => show win0_1.index t 0 * 256 + 1 * (j 0).val = (j 0).val; rw [hi.1]; omega
  | ⟨1, _⟩ => show win0_1.index t 1 * 128 + 1 * (j 1).val = 128 * (grid0.coords t 1).val + (j 1).val; rw [hi.2]; omega

theorem iblk2_eq (c : Dev nD) (t : Fin cfg0.N) :
    (iblk m c 2 t : Vec F S256x128 .f32) = colBlk (m ((c : Thread nD τ).loc main_arg1)) (grid0.coords t 0).val (coord_lt t 0) := by
  have hi := idx_facts2 t
  funext j
  unfold iblk colBlk
  rw [View.read_apply]
  show V m c main_arg1 _ = m (c.tc.loc main_arg1) _
  unfold V
  congr 1
  funext a
  apply Fin.ext
  match a with
  | ⟨0, _⟩ => show win0_2.index t 0 * 256 + 1 * (j 0).val = (j 0).val; rw [hi.1]; omega
  | ⟨1, _⟩ => show win0_2.index t 1 * 128 + 1 * (j 1).val = 128 * (grid0.coords t 0).val + (j 1).val; rw [hi.2]; omega

theorem iblk3_eq (c : Dev nD) (t : Fin cfg0.N) :
    (iblk m c 3 t : Vec F S256x128 .f32) = colBlk (m ((c : Thread nD τ).loc main_arg1)) (grid0.coords t 1).val (coord_lt t 1) := by
  have hi := idx_facts3 t
  funext j
  unfold iblk colBlk
  rw [View.read_apply]
  show V m c main_arg1 _ = m (c.tc.loc main_arg1) _
  unfold V
  congr 1
  funext a
  apply Fin.ext
  match a with
  | ⟨0, _⟩ => show win0_3.index t 0 * 256 + 1 * (j 0).val = (j 0).val; rw [hi.1]; omega
  | ⟨1, _⟩ => show win0_3.index t 1 * 128 + 1 * (j 1).val = 128 * (grid0.coords t 1).val + (j 1).val; rw [hi.2]; omega

end Cert.KernelIdeal.Hand

end
-- ==== Proof.SpecTiles.lean ====
/-
  The loss regrouped by tiles. A feature index below 256 is 128 a + p with a < 2 and p < 128, so a sum over pairs of
  features is a sum over the four tiles (a, b) of the sums over the tile's local pairs (p, q); likewise the number of
  pairs i < j with a counted row is the sum of the tiles' numbers.
-/
import proofs.«118690_j7060926235074_1_alg».proof.Proof.Spec
import Mathlib.Algebra.BigOperators.Fin

noncomputable section

namespace RankSpec

open Idealize.ShloMosaic Idealize.ShloMosaic.ValueIdx
open Classical

/-- Feature 128 a + p. -/
def ij (a : Fin 2) (p : Fin 128) : Fin 256 := ⟨128 * a.val + p.val, by have := a.isLt; have := p.isLt; omega⟩

theorem ij_lt_iff (a b : Fin 2) (p q : Fin 128) : ij a p < ij b q ↔ 128 * a.val + p.val < 128 * b.val + q.val := Iff.rfl

/-- A feature is a block and a place in it. -/
def ijEquiv : Fin 2 × Fin 128 ≃ Fin 256 where
  toFun x := ij x.1 x.2
  invFun i := (⟨i.val / 128, by have := i.isLt; omega⟩, ⟨i.val % 128, Nat.mod_lt _ (by decide)⟩)
  left_inv x := by
    rcases x with ⟨a, p⟩
    have ha := a.isLt; have hp := p.isLt
    exact Prod.ext (Fin.ext (show (128 * a.val + p.val) / 128 = a.val by omega)) (Fin.ext (show (128 * a.val + p.val) % 128 = p.val by omega))
  right_inv i := Fin.ext (show 128 * (i.val / 128) + i.val % 128 = i.val by omega)

theorem sum_split {M : Type*} [AddCommMonoid M] (f : Fin 256 → M) : ∑ i, f i = ∑ a : Fin 2, ∑ p : Fin 128, f (ij a p) := by
  rw [← Equiv.sum_comp ijEquiv f, Fintype.sum_prod_type]
  rfl

/-- A double sum over features, tile by tile. -/
theorem sum4 {M : Type*} [AddCommMonoid M] (h : Fin 256 → Fin 256 → M) :
    ∑ i, ∑ j, h i j = ∑ a : Fin 2, ∑ b : Fin 2, ∑ p : Fin 128, ∑ q : Fin 128, h (ij a p) (ij b q) := by
  rw [sum_split]
  refine Finset.sum_congr rfl fun a _ => ?_
  rw [Finset.sum_comm, sum_split]
  exact Finset.sum_congr rfl fun b _ => Finset.sum_comm

/-- The total of the pairs' means, tile by tile. -/
theorem total_tiles (P R : Mat) :
    total P R = ∑ a : Fin 2, ∑ b : Fin 2, ∑ p : Fin 128, ∑ q : Fin 128,
      if 128 * a.val + p.val < 128 * b.val + q.val then pairMean P R (ij a p) (ij b q) else 0 := by
  unfold total
  rw [sum4]
  refine Finset.sum_congr rfl fun a _ => Finset.sum_congr rfl fun b _ => Finset.sum_congr rfl fun p _ => Finset.sum_congr rfl fun q _ => ?_
  by_cases hc : 128 * a.val + p.val < 128 * b.val + q.val
  · rw [if_pos hc, if_pos ((ij_lt_iff a b p q).mpr hc)]
  · rw [if_neg hc, if_neg (fun hh => hc ((ij_lt_iff a b p q).mp hh))]

/-- The number of pairs with a counted row, tile by tile. -/
theorem npairs_tiles (R : Mat) :
    npairs R = ∑ a : Fin 2, ∑ b : Fin 2,
      (Finset.univ.filter fun pq : Fin 128 × Fin 128 =>
        128 * a.val + pq.1.val < 128 * b.val + pq.2.val ∧ 0 < cntN R (ij a pq.1) (ij b pq.2)).card := by
  unfold npairs
  rw [Finset.card_filter, Fintype.sum_prod_type, sum4]
  refine Finset.sum_congr rfl fun a _ => Finset.sum_congr rfl fun b _ => ?_
  rw [Finset.card_filter, Fintype.sum_prod_type]
  refine Finset.sum_congr rfl fun p _ => Finset.sum_congr rfl fun q _ => ?_
  by_cases hc : 128 * a.val + p.val < 128 * b.val + q.val ∧ 0 < cntN R (ij a p) (ij b q)
  · rw [if_pos hc, if_pos ⟨(ij_lt_iff a b p q).mpr hc.1, hc.2⟩]
  · rw [if_neg hc, if_neg (fun hh => hc ⟨(ij_lt_iff a b p q).mp hh.1, hh.2⟩)]

end RankSpec

end
-- ==== Proof.KIValue.lean ====
/-
  The idealized kernel's result is the loss.

  At the tile (a, b) the four windows hold the column blocks a and b of the predictions and of the relevance scores, so
  the tile's counts and sums are the pairs' counts and sums at the features (128 a + p, 128 b + q). The four points walk
  the tiles (0,0), (0,1), (1,0), (1,1); starting from zero, the running total ends at the sum over all pairs i < j of
  the pairs' means and the running number at the number of such pairs with a counted row: the regrouping of the loss
  by tiles. The last point divides.
-/
import proofs.«118690_j7060926235074_1_alg».proof.Proof.KIVOut
import proofs.«118690_j7060926235074_1_alg».proof.Proof.KIFinal
import proofs.«118690_j7060926235074_1_alg».proof.Proof.KIBlocks
import proofs.«118690_j7060926235074_1_alg».proof.Proof.SpecTiles

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open RankSpec (ij)
open Classical

variable (m : (ℓ : Loc nD τ sig) → Buf (Elt Ideal) ℓ) (ρ : Dev nD → PrngReg)

/-- The predictions and the relevance scores on core `c`, as matrices. -/
abbrev Pm (c : Dev nD) : RankSpec.Mat := m ((c : Thread nD τ).loc main_arg0)
abbrev Rm (c : Dev nD) : RankSpec.Mat := m ((c : Thread nD τ).loc main_arg1)

/-- A tile's count at local features is the pair's count. -/
theorem tcnt_colBlk (R : RankSpec.Mat) (a b : Fin 2) (p q : Fin 128) :
    tcnt (colBlk (F := Ideal) R a.val a.isLt) (colBlk (F := Ideal) R b.val b.isLt) p q = RankSpec.cntN R (ij a p) (ij b q) := rfl

/-- A tile's sum at local features is the pair's sum. -/
theorem tsum_colBlk (P R : RankSpec.Mat) (a b : Fin 2) (p q : Fin 128) :
    tsum (colBlk (F := Ideal) P a.val a.isLt) (colBlk (F := Ideal) P b.val b.isLt) (colBlk (F := Ideal) R a.val a.isLt) (colBlk (F := Ideal) R b.val b.isLt) p q
      = RankSpec.sumL P R (ij a p) (ij b q) := rfl

/-- The tile's total of the pairs' means. -/
def tileTot (P R : RankSpec.Mat) (a b : Fin 2) : EReal :=
  ∑ p : Fin 128, ∑ q : Fin 128, if 128 * a.val + p.val < 128 * b.val + q.val then RankSpec.pairMean P R (ij a p) (ij b q) else 0

/-- The tile's number of pairs i < j with a counted row. -/
def tileCnt (R : RankSpec.Mat) (a b : Fin 2) : ℕ :=
  (Finset.univ.filter fun pq : Fin 128 × Fin 128 =>
    128 * a.val + pq.1.val < 128 * b.val + pq.2.val ∧ 0 < RankSpec.cntN R (ij a pq.1) (ij b pq.2)).card

/-- The tile of a point. -/
def ca (t : Fin cfg0.N) : Fin 2 := ⟨(grid0.coords t 0).val, coord_lt t 0⟩
def cb (t : Fin cfg0.N) : Fin 2 := ⟨(grid0.coords t 1).val, coord_lt t 1⟩

/-- One point's update of the running total. -/
theorem step_tot (c : Dev nD) (t : Fin cfg0.N) (a7 : Vec Ideal S1x1 .f32) :
    newTot (F := Ideal) (grid0.coords t) (iblk m c 0 t) (iblk m c 1 t) (iblk m c 2 t) (iblk m c 3 t) a7 (ix2 (0 : Fin 1) (0 : Fin 1))
      = a7 (ix2 (0 : Fin 1) (0 : Fin 1)) + tileTot (Pm m c) (Rm m c) (ca t) (cb t) := by
  rw [newTot_apply, iblk0_eq, iblk1_eq, iblk2_eq, iblk3_eq]
  refine congrArg (a7 (ix2 (0 : Fin 1) (0 : Fin 1)) + ·) ?_
  unfold tileTot
  refine Finset.sum_congr rfl fun p _ => Finset.sum_congr rfl fun q _ => ?_
  have e1 : tcnt (colBlk (F := Ideal) (m ((c : Thread nD τ).loc main_arg1)) (grid0.coords t 0).val (coord_lt t 0))
      (colBlk (F := Ideal) (m ((c : Thread nD τ).loc main_arg1)) (grid0.coords t 1).val (coord_lt t 1)) p q
      = RankSpec.cntN (Rm m c) (ij (ca t) p) (ij (cb t) q) := tcnt_colBlk (Rm m c) (ca t) (cb t) p q
  have e2 : tsum (colBlk (F := Ideal) (m ((c : Thread nD τ).loc main_arg0)) (grid0.coords t 0).val (coord_lt t 0))
      (colBlk (F := Ideal) (m ((c : Thread nD τ).loc main_arg0)) (grid0.coords t 1).val (coord_lt t 1))
      (colBlk (F := Ideal) (m ((c : Thread nD τ).loc main_arg1)) (grid0.coords t 0).val (coord_lt t 0))
      (colBlk (F := Ideal) (m ((c : Thread nD τ).loc main_arg1)) (grid0.coords t 1).val (coord_lt t 1)) p q
      = RankSpec.sumL (Pm m c) (Rm m c) (ij (ca t) p) (ij (cb t) q) := tsum_colBlk (Pm m c) (Rm m c) (ca t) (cb t) p q
  rw [e1, e2]
  show (if 128 * (ca t).val + p.val < 128 * (cb t).val + q.val ∧ 0 < RankSpec.cntN (Rm m c) (ij (ca t) p) (ij (cb t) q) then _ else 0) = _
  unfold RankSpec.pairMean
  by_cases h1 : 128 * (ca t).val + p.val < 128 * (cb t).val + q.val
  · by_cases h2 : 0 < RankSpec.cntN (Rm m c) (ij (ca t) p) (ij (cb t) q)
    · rw [if_pos ⟨h1, h2⟩, if_pos h1, if_pos h2]
    · rw [if_neg (fun hh => h2 hh.2), if_pos h1, if_neg h2]
  · rw [if_neg (fun hh => h1 hh.1), if_neg h1]

/-- One point's update of the running number of pairs. -/
theorem step_cnt (c : Dev nD) (t : Fin cfg0.N) (a8 : Vec Ideal S1x1 .f32) :
    newCnt (F := Ideal) (grid0.coords t) (iblk m c 2 t) (iblk m c 3 t) a8 (ix2 (0 : Fin 1) (0 : Fin 1))
      = a8 (ix2 (0 : Fin 1) (0 : Fin 1)) + (((tileCnt (Rm m c) (ca t) (cb t) : ℕ) : ℝ) : EReal) := by
  rw [newCnt_apply, iblk2_eq, iblk3_eq]
  rfl

/-- The points walk the tiles row by row. -/
theorem tiles_of_points : ∀ t : Fin cfg0.N, (grid0.coords t 0).val = t.val / 2 ∧ (grid0.coords t 1).val = t.val % 2 :=
  (by decide +kernel : ∀ t : Fin grid0.N, (grid0.coords t 0).val = t.val / 2 ∧ (grid0.coords t 1).val = t.val % 2)

theorem ca_eq (t : Fin cfg0.N) : ca t = ⟨t.val / 2, by have := t.isLt; have : cfg0.N = 4 := N_0; omega⟩ := Fin.ext (tiles_of_points t).1
theorem cb_eq (t : Fin cfg0.N) : cb t = ⟨t.val % 2, Nat.mod_lt _ (by decide)⟩ := Fin.ext (tiles_of_points t).2

theorem acc_zero (c : Dev nD) (h : 0 < cfg0.N) :
    acc m c 0 h = (newTot (grid0.coords ⟨0, h⟩) (iblk m c 0 ⟨0, h⟩) (iblk m c 1 ⟨0, h⟩) (iblk m c 2 ⟨0, h⟩) (iblk m c 3 ⟨0, h⟩) (k0_pay2 (F := Ideal)),
      newCnt (grid0.coords ⟨0, h⟩) (iblk m c 2 ⟨0, h⟩) (iblk m c 3 ⟨0, h⟩) (k0_pay3 (F := Ideal))) := rfl
theorem acc_succ (c : Dev nD) (n : ℕ) (h : n + 1 < cfg0.N) :
    acc m c (n + 1) h = (newTot (grid0.coords ⟨n + 1, h⟩) (iblk m c 0 ⟨n + 1, h⟩) (iblk m c 1 ⟨n + 1, h⟩) (iblk m c 2 ⟨n + 1, h⟩) (iblk m c 3 ⟨n + 1, h⟩) (acc m c n (Nat.lt_of_succ_lt h)).1,
      newCnt (grid0.coords ⟨n + 1, h⟩) (iblk m c 2 ⟨n + 1, h⟩) (iblk m c 3 ⟨n + 1, h⟩) (acc m c n (Nat.lt_of_succ_lt h)).2) := rfl

/-- After the last point the running total is the loss's total, -/
theorem acc_tot (c : Dev nD) : (acc m c 3 h3N).1 (ix2 (0 : Fin 1) (0 : Fin 1)) = RankSpec.total (Pm m c) (Rm m c) := by
  have h0 : 0 < cfg0.N := by rw [show cfg0.N = 4 from N_0]; decide
  have h1 : 1 < cfg0.N := by rw [show cfg0.N = 4 from N_0]; decide
  have h2 : 2 < cfg0.N := by rw [show cfg0.N = 4 from N_0]; decide
  rw [show acc m c 3 h3N = _ from acc_succ m c 2 h3N]; dsimp only
  rw [step_tot, show acc m c 2 _ = _ from acc_succ m c 1 h2]; dsimp only
  rw [step_tot, show acc m c 1 _ = _ from acc_succ m c 0 h1]; dsimp only
  rw [step_tot, show acc m c 0 _ = _ from acc_zero m c h0]; dsimp only
  rw [step_tot, pay2_apply, zero_add]
  have hT : RankSpec.total (Pm m c) (Rm m c)
      = tileTot (Pm m c) (Rm m c) 0 0 + tileTot (Pm m c) (Rm m c) 0 1 + tileTot (Pm m c) (Rm m c) 1 0 + tileTot (Pm m c) (Rm m c) 1 1 := by
    rw [RankSpec.total_tiles, Fin.sum_univ_two, Fin.sum_univ_two, Fin.sum_univ_two]
    exact (add_assoc _ _ _).symm
  rw [hT]
  simp only [ca_eq, cb_eq]
  rfl

/-- and the running number of pairs is the loss's number of pairs. -/
theorem acc_cnt (c : Dev nD) : (acc m c 3 h3N).2 (ix2 (0 : Fin 1) (0 : Fin 1)) = (((RankSpec.npairs (Rm m c) : ℕ) : ℝ) : EReal) := by
  have h0 : 0 < cfg0.N := by rw [show cfg0.N = 4 from N_0]; decide
  have h1 : 1 < cfg0.N := by rw [show cfg0.N = 4 from N_0]; decide
  have h2 : 2 < cfg0.N := by rw [show cfg0.N = 4 from N_0]; decide
  rw [show acc m c 3 h3N = _ from acc_succ m c 2 h3N]; dsimp only
  rw [step_cnt, show acc m c 2 _ = _ from acc_succ m c 1 h2]; dsimp only
  rw [step_cnt, show acc m c 1 _ = _ from acc_succ m c 0 h1]; dsimp only
  rw [step_cnt, show acc m c 0 _ = _ from acc_zero m c h0]; dsimp only
  rw [step_cnt, pay3_apply, zero_add]
  have hC : RankSpec.npairs (Rm m c)
      = tileCnt (Rm m c) 0 0 + tileCnt (Rm m c) 0 1 + tileCnt (Rm m c) 1 0 + tileCnt (Rm m c) 1 1 := by
    rw [RankSpec.npairs_tiles, Fin.sum_univ_two, Fin.sum_univ_two, Fin.sum_univ_two]
    exact (add_assoc _ _ _).symm
  rw [hC]
  simp only [ca_eq, cb_eq, Nat.cast_add, EReal.coe_add]
  rfl

/-- THE KERNEL'S RESULT: the scalar result buffer ends at the loss of the two inputs. -/
theorem kernel_value (c : Dev nD) (i : (Proc.devRef (τ := τ) .tc main_v1).ty.Idx) :
    StableHlo.after hostOps1 (Vr m c) (Proc.devRef .tc main_v1) i = RankSpec.result (Pm m c) (Rm m c) := by
  rw [result_word]
  unfold resArr
  rw [out_last, outVal_apply, acc_tot, acc_cnt]
  unfold RankSpec.result
  by_cases hn : 0 < RankSpec.npairs (Rm m c)
  · rw [if_pos hn, if_pos (EReal.coe_pos.mpr (Nat.cast_pos.mpr hn))]
  · rw [if_neg hn, if_neg (fun hh => hn (Nat.cast_pos.mp (EReal.coe_pos.mp hh)))]

end Cert.KernelIdeal.Hand

end
-- ==== Proof.LibAfterAppend.lean ====
/-
  A straight line of host operations run in two stretches: the fold of the operations' results over a valuation
  (`StableHlo.after`) of a concatenation is the fold of the second stretch over the fold of the first. It lets a
  long line be read stretch by stretch, each against an arbitrary valuation.
-/
import Idealize.ShloMosaic.Lib.StableHlo.Run

namespace Idealize.ShloMosaic.StableHlo

variable {τ : Topo} {sig : RefSig} {Val : EltTy → Type}

/-- The results after `a ++ b` are the results after `b` of the results after `a`. -/
theorem after_append (a b : List (HloOp τ sig Val)) (V : Valuation τ sig Val) :
    after (a ++ b) V = after b (after a V) := by
  induction a generalizing V with
  | nil => rfl
  | cons op a ih => exact ih (op.result V)

end Idealize.ShloMosaic.StableHlo
-- ==== Proof.RefStages.lean ====
/-
  The reference's line of operations cut in three stretches: the list of index pairs' flat positions (everything up to
  the running sum of the histogram), the rows and columns of the pairs (two floor divisions and two remainders of the
  positions), and the loss (the gathers, the per-pair counts, sums and means, and the mean of the means).
-/
import proofs.«118690_j7060926235074_1_alg».proof.Proof.RefOps
import proofs.«118690_j7060926235074_1_alg».proof.Proof.LibAfterAppend

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first 39 operations: the flat positions of the pairs, in order. -/
abbrev opsPos : List (HloOp τ sig (Elt F)) :=
  [
    nullary main_cst (constant S_ .f32 0x3F800000#32),
    unary main_cst main_v0 (broadcastInDim S256x256 ![] bcast_S_S256x256 : (⟨S_, .f32⟩ : BufTy).Contents (Elt F) → (⟨S256x256, .f32⟩ : BufTy).Contents (Elt F)),
    TRef.nullary main_call0.v0 (iotaInDim S256x256 32 0),
    TRef.nullary main_call0.c (constantI S_ 32 0#32),
    TRef.unary main_call0.c main_call0.v1 (broadcastInDim S256x256 ![] bcast_S_S256x256),
    TRef.binary main_call0.v0 main_call0.v1 main_call0.v2 addi,
    TRef.nullary main_call0.v3 (iotaInDim S256x256 32 1),
    TRef.binary main_call0.v2 main_call0.v3 main_call0.v4 (cmpi .sge),
    TRef.nullary main_call0.cst (constant S_ .f32 0x00000000#32),
    TRef.unary main_call0.cst main_call0.v5 (broadcastInDim S256x256 ![] bcast_S_S256x256),
    TRef.ternary main_call0.v4 main_call0.v5 (.of main_v0 : StableHlo.TRef sig ⟨S256x256, .f32⟩) main_call0.v6 select,
    nullary main_cst_0 (constant S_ .f32 0x00000000#32),
    unary main_cst_0 main_v2 (broadcastInDim S256x256 ![] bcast_S_S256x256 : (⟨S_, .f32⟩ : BufTy).Contents (Elt F) → (⟨S256x256, .f32⟩ : BufTy).Contents (Elt F)),
    binary main_v1 main_v2 main_v3 (cmpf .une : (⟨S256x256, .f32⟩ : BufTy).Contents (Elt F) → (⟨S256x256, .f32⟩ : BufTy).Contents (Elt F) → (⟨S256x256, .i1⟩ : BufTy).Contents (Elt F)),
    TRef.reshape (.of main_v3 : StableHlo.TRef sig ⟨S256x256, .i1⟩) main_call1.v0 rfl shapeCasts_S256x256_S65536,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![65536] ![1] ![65535] ![0] x v reduceWindows_S65536_S65536_w65536s1p65535_0 h_S_),
    nullary main_c (constantI S_ 32 0#32),
    unary main_c main_v5 (broadcastInDim S32640 ![] bcast_S_S32640 : (⟨S_, .i32⟩ : BufTy).Contents (Elt F) → (⟨S32640, .i32⟩ : BufTy).Contents (Elt F)),
    nullary main_c_1 (constantI S_ 32 0#32),
    TRef.unary (.of main_c_1 : StableHlo.TRef sig ⟨S_, .i32⟩) main_call2.v0 id,
    TRef.unary main_call2.v0 main_call2.v1 (broadcastInDim S65536 ![] bcast_S_S65536),
    TRef.binary main_call2.v1 (.of main_v4 : StableHlo.TRef sig ⟨S65536, .i32⟩) main_call2.v2 maxsi,
    nullary main_c_2 (constantI S_ 32 0#32),
    unary main_c_2 main_v7 (broadcastInDim S65536 ![] bcast_S_S65536 : (⟨S_, .i32⟩ : BufTy).Contents (Elt F) → (⟨S65536, .i32⟩ : BufTy).Contents (Elt F)),
    binary main_v6 main_v7 main_v8 (cmpi .slt : (⟨S65536, .i32⟩ : BufTy).Contents (Elt F) → (⟨S65536, .i32⟩ : BufTy).Contents (Elt F) → (⟨S65536, .i1⟩ : BufTy).Contents (Elt F)),
    nullary main_c_3 (constantI S_ 32 32640#32),
    unary main_c_3 main_v9 (broadcastInDim S65536 ![] bcast_S_S65536 : (⟨S_, .i32⟩ : BufTy).Contents (Elt F) → (⟨S65536, .i32⟩ : BufTy).Contents (Elt F)),
    binary main_v6 main_v9 main_v10 (addi : (⟨S65536, .i32⟩ : BufTy).Contents (Elt F) → (⟨S65536, .i32⟩ : BufTy).Contents (Elt F) → (⟨S65536, .i32⟩ : BufTy).Contents (Elt F)),
    ternary main_v8 main_v10 main_v6 main_v11 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v11 main_v12 (broadcastInDim S65536x1 ![0] bcast_S65536_S65536x1_0 : (⟨S65536, .i32⟩ : BufTy).Contents (Elt F) → (⟨S65536x1, .i32⟩ : BufTy).Contents (Elt F)),
    nullary main_c_4 (constantI S_ 32 1#32),
    unary main_c_4 main_v13 (broadcastInDim S65536 ![] bcast_S_S65536 : (⟨S_, .i32⟩ : BufTy).Contents (Elt F) → (⟨S65536, .i32⟩ : BufTy).Contents (Elt F)),
    ternary main_v5 main_v12 main_v13 main_v14 ((fun x i u => Host.scatter scatter_S32640_S65536x1_S65536_n_0_0_1 IntOp.addi x i u) : (⟨S32640, .i32⟩ : BufTy).Contents (Elt F) → (⟨S65536x1, .i32⟩ : BufTy).Contents (Elt F) → (⟨S65536, .i32⟩ : BufTy).Contents (Elt F) → (⟨S32640, .i32⟩ : BufTy).Contents (Elt F)),
    TRef.nullary main_call3.call0.c (constantI S_ 32 0#32),
    TRef.unary main_call3.call0.c main_call3.call0.v0 (broadcastInDim S_ ![] bcast_S_S_),
    TRef.binary (.of main_v14 : StableHlo.TRef sig ⟨S32640, .i32⟩) main_call3.call0.v0 main_call3.call0.v1 (fun x v => Host.reduceWindow IntOp.addi ![32640] ![1] ![32639] ![0] x v reduceWindows_S32640_S32640_w32640s1p32639_0 h_S_) ]

/-- The next 78 operations: the row and the column of each position. -/
abbrev opsRowCol : List (HloOp τ sig (Elt F)) :=
  [
    nullary main_c_5 (constantI S_ 32 256#32),
    TRef.unary (.of main_c_5 : StableHlo.TRef sig ⟨S_, .i32⟩) main_call4.v0 (broadcastInDim S32640 ![] bcast_S_S32640),
    TRef.binary (.of main_v15 : StableHlo.TRef sig ⟨S32640, .i32⟩) main_call4.v0 main_call4.v1 Host.divsi,
    TRef.unary (.of main_v15 : StableHlo.TRef sig ⟨S32640, .i32⟩) main_call4.v2 signi,
    TRef.unary (.of main_c_5 : StableHlo.TRef sig ⟨S_, .i32⟩) main_call4.v3 signi,
    TRef.unary main_call4.v3 main_call4.v4 (broadcastInDim S32640 ![] bcast_S_S32640),
    TRef.binary main_call4.v2 main_call4.v4 main_call4.v5 (cmpi .ne),
    TRef.unary (.of main_c_5 : StableHlo.TRef sig ⟨S_, .i32⟩) main_call4.v6 (broadcastInDim S32640 ![] bcast_S_S32640),
    TRef.binary (.of main_v15 : StableHlo.TRef sig ⟨S32640, .i32⟩) main_call4.v6 main_call4.v7 Host.remsi,
    TRef.nullary main_call4.c (constantI S_ 32 0#32),
    TRef.unary main_call4.c main_call4.v8 (broadcastInDim S32640 ![] bcast_S_S32640),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S32640 ![] bcast_S_S32640),
    TRef.binary main_call4.v1 main_call4.v11 main_call4.v12 subi,
    TRef.ternary main_call4.v10 main_call4.v12 main_call4.v1 main_call4.call0.v0 select,
    nullary main_c_6 (constantI S_ 32 256#32),
    TRef.unary (.of main_c_6 : StableHlo.TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S32640 ![] bcast_S_S32640),
    TRef.binary (.of main_v16 : StableHlo.TRef sig ⟨S32640, .i32⟩) main_call5.v3 main_call5.v4 Host.remsi,
    TRef.nullary main_call5.c_1 (constantI S_ 32 0#32),
    TRef.unary main_call5.c_1 main_call5.v5 (broadcastInDim S32640 ![] bcast_S_S32640),
    TRef.binary main_call5.v4 main_call5.v5 main_call5.v6 (cmpi .ne),
    TRef.nullary main_call5.c_2 (constantI S_ 32 0#32),
    TRef.unary main_call5.c_2 main_call5.v7 (broadcastInDim S32640 ![] bcast_S_S32640),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S32640 ![] bcast_S_S32640),
    TRef.binary main_call5.v8 main_call5.v10 main_call5.v11 (cmpi .ne),
    TRef.binary main_call5.v11 main_call5.v6 main_call5.v12 andi,
    TRef.unary main_call5.call0.v0 main_call5.v13 (broadcastInDim S32640 ![] bcast_S_S32640),
    TRef.binary main_call5.v4 main_call5.v13 main_call5.v14 addi,
    TRef.ternary main_call5.v12 main_call5.v14 main_call5.v4 main_call5.v15 select,
    nullary main_c_7 (constantI S_ 32 1#32),
    TRef.unary (.of main_c_7 : StableHlo.TRef sig ⟨S_, .i32⟩) main_call6.v0 (broadcastInDim S32640 ![] bcast_S_S32640),
    TRef.binary (.of main_v15 : StableHlo.TRef sig ⟨S32640, .i32⟩) main_call6.v0 main_call6.v1 Host.divsi,
    TRef.unary (.of main_v15 : StableHlo.TRef sig ⟨S32640, .i32⟩) main_call6.v2 signi,
    TRef.unary (.of main_c_7 : StableHlo.TRef sig ⟨S_, .i32⟩) main_call6.v3 signi,
    TRef.unary main_call6.v3 main_call6.v4 (broadcastInDim S32640 ![] bcast_S_S32640),
    TRef.binary main_call6.v2 main_call6.v4 main_call6.v5 (cmpi .ne),
    TRef.unary (.of main_c_7 : StableHlo.TRef sig ⟨S_, .i32⟩) main_call6.v6 (broadcastInDim S32640 ![] bcast_S_S32640),
    TRef.binary (.of main_v15 : StableHlo.TRef sig ⟨S32640, .i32⟩) main_call6.v6 main_call6.v7 Host.remsi,
    TRef.nullary main_call6.c (constantI S_ 32 0#32),
    TRef.unary main_call6.c main_call6.v8 (broadcastInDim S32640 ![] bcast_S_S32640),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S32640 ![] bcast_S_S32640),
    TRef.binary main_call6.v1 main_call6.v11 main_call6.v12 subi,
    TRef.ternary main_call6.v10 main_call6.v12 main_call6.v1 main_call6.call0.v0 select,
    nullary main_c_8 (constantI S_ 32 256#32),
    TRef.unary (.of main_c_8 : StableHlo.TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S32640 ![] bcast_S_S32640),
    TRef.binary (.of main_v18 : StableHlo.TRef sig ⟨S32640, .i32⟩) main_call7.v3 main_call7.v4 Host.remsi,
    TRef.nullary main_call7.c_1 (constantI S_ 32 0#32),
    TRef.unary main_call7.c_1 main_call7.v5 (broadcastInDim S32640 ![] bcast_S_S32640),
    TRef.binary main_call7.v4 main_call7.v5 main_call7.v6 (cmpi .ne),
    TRef.nullary main_call7.c_2 (constantI S_ 32 0#32),
    TRef.unary main_call7.c_2 main_call7.v7 (broadcastInDim S32640 ![] bcast_S_S32640),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S32640 ![] bcast_S_S32640),
    TRef.binary main_call7.v8 main_call7.v10 main_call7.v11 (cmpi .ne),
    TRef.binary main_call7.v11 main_call7.v6 main_call7.v12 andi,
    TRef.unary main_call7.call0.v0 main_call7.v13 (broadcastInDim S32640 ![] bcast_S_S32640),
    TRef.binary main_call7.v4 main_call7.v13 main_call7.v14 addi,
    TRef.ternary main_call7.v12 main_call7.v14 main_call7.v4 main_call7.v15 select ]

/-- The last 98 operations: the loss over the listed pairs. -/
abbrev opsLoss : List (HloOp τ sig (Elt F)) :=
  [
    nullary main_c_9 (constantI S_ 32 0#32),
    unary main_c_9 main_v20 (broadcastInDim S32640 ![] bcast_S_S32640 : (⟨S_, .i32⟩ : BufTy).Contents (Elt F) → (⟨S32640, .i32⟩ : BufTy).Contents (Elt F)),
    binary main_v17 main_v20 main_v21 (cmpi .slt : (⟨S32640, .i32⟩ : BufTy).Contents (Elt F) → (⟨S32640, .i32⟩ : BufTy).Contents (Elt F) → (⟨S32640, .i1⟩ : BufTy).Contents (Elt F)),
    nullary main_c_10 (constantI S_ 32 256#32),
    unary main_c_10 main_v22 (broadcastInDim S32640 ![] bcast_S_S32640 : (⟨S_, .i32⟩ : BufTy).Contents (Elt F) → (⟨S32640, .i32⟩ : BufTy).Contents (Elt F)),
    binary main_v17 main_v22 main_v23 (addi : (⟨S32640, .i32⟩ : BufTy).Contents (Elt F) → (⟨S32640, .i32⟩ : BufTy).Contents (Elt F) → (⟨S32640, .i32⟩ : BufTy).Contents (Elt F)),
    ternary main_v21 main_v23 main_v17 main_v24 (select : (⟨S32640, .i1⟩ : BufTy).Contents (Elt F) → (⟨S32640, .i32⟩ : BufTy).Contents (Elt F) → (⟨S32640, .i32⟩ : BufTy).Contents (Elt F) → (⟨S32640, .i32⟩ : BufTy).Contents (Elt F)),
    unary main_v24 main_v25 (broadcastInDim S32640x1 ![0] bcast_S32640_S32640x1_0 : (⟨S32640, .i32⟩ : BufTy).Contents (Elt F) → (⟨S32640x1, .i32⟩ : BufTy).Contents (Elt F)),
    binary main_arg1 main_v25 main_v26 ((fun x i => Host.gather gather_S256x256_S32640x1_S256x32640_0_1_n_n_1_1_2561 x i) : (⟨S256x256, .f32⟩ : BufTy).Contents (Elt F) → (⟨S32640x1, .i32⟩ : BufTy).Contents (Elt F) → (⟨S256x32640, .f32⟩ : BufTy).Contents (Elt F)),
    nullary main_c_11 (constantI S_ 32 0#32),
    unary main_c_11 main_v27 (broadcastInDim S32640 ![] bcast_S_S32640 : (⟨S_, .i32⟩ : BufTy).Contents (Elt F) → (⟨S32640, .i32⟩ : BufTy).Contents (Elt F)),
    binary main_v19 main_v27 main_v28 (cmpi .slt : (⟨S32640, .i32⟩ : BufTy).Contents (Elt F) → (⟨S32640, .i32⟩ : BufTy).Contents (Elt F) → (⟨S32640, .i1⟩ : BufTy).Contents (Elt F)),
    nullary main_c_12 (constantI S_ 32 256#32),
    unary main_c_12 main_v29 (broadcastInDim S32640 ![] bcast_S_S32640 : (⟨S_, .i32⟩ : BufTy).Contents (Elt F) → (⟨S32640, .i32⟩ : BufTy).Contents (Elt F)),
    binary main_v19 main_v29 main_v30 (addi : (⟨S32640, .i32⟩ : BufTy).Contents (Elt F) → (⟨S32640, .i32⟩ : BufTy).Contents (Elt F) → (⟨S32640, .i32⟩ : BufTy).Contents (Elt F)),
    ternary main_v28 main_v30 main_v19 main_v31 (select : (⟨S32640, .i1⟩ : BufTy).Contents (Elt F) → (⟨S32640, .i32⟩ : BufTy).Contents (Elt F) → (⟨S32640, .i32⟩ : BufTy).Contents (Elt F) → (⟨S32640, .i32⟩ : BufTy).Contents (Elt F)),
    unary main_v31 main_v32 (broadcastInDim S32640x1 ![0] bcast_S32640_S32640x1_0 : (⟨S32640, .i32⟩ : BufTy).Contents (Elt F) → (⟨S32640x1, .i32⟩ : BufTy).Contents (Elt F)),
    binary main_arg1 main_v32 main_v33 ((fun x i => Host.gather gather_S256x256_S32640x1_S256x32640_0_1_n_n_1_1_2561 x i) : (⟨S256x256, .f32⟩ : BufTy).Contents (Elt F) → (⟨S32640x1, .i32⟩ : BufTy).Contents (Elt F) → (⟨S256x32640, .f32⟩ : BufTy).Contents (Elt F)),
    binary main_v26 main_v33 main_v34 (subf : (⟨S256x32640, .f32⟩ : BufTy).Contents (Elt F) → (⟨S256x32640, .f32⟩ : BufTy).Contents (Elt F) → (⟨S256x32640, .f32⟩ : BufTy).Contents (Elt F)),
    unary main_v34 main_v35 (Host.sign : (⟨S256x32640, .f32⟩ : BufTy).Contents (Elt F) → (⟨S256x32640, .f32⟩ : BufTy).Contents (Elt F)),
    nullary main_c_13 (constantI S_ 32 0#32),
    unary main_c_13 main_v36 (broadcastInDim S32640 ![] bcast_S_S32640 : (⟨S_, .i32⟩ : BufTy).Contents (Elt F) → (⟨S32640, .i32⟩ : BufTy).Contents (Elt F)),
    binary main_v17 main_v36 main_v37 (cmpi .slt : (⟨S32640, .i32⟩ : BufTy).Contents (Elt F) → (⟨S32640, .i32⟩ : BufTy).Contents (Elt F) → (⟨S32640, .i1⟩ : BufTy).Contents (Elt F)),
    nullary main_c_14 (constantI S_ 32 256#32),
    unary main_c_14 main_v38 (broadcastInDim S32640 ![] bcast_S_S32640 : (⟨S_, .i32⟩ : BufTy).Contents (Elt F) → (⟨S32640, .i32⟩ : BufTy).Contents (Elt F)),
    binary main_v17 main_v38 main_v39 (addi : (⟨S32640, .i32⟩ : BufTy).Contents (Elt F) → (⟨S32640, .i32⟩ : BufTy).Contents (Elt F) → (⟨S32640, .i32⟩ : BufTy).Contents (Elt F)),
    ternary main_v37 main_v39 main_v17 main_v40 (select : (⟨S32640, .i1⟩ : BufTy).Contents (Elt F) → (⟨S32640, .i32⟩ : BufTy).Contents (Elt F) → (⟨S32640, .i32⟩ : BufTy).Contents (Elt F) → (⟨S32640, .i32⟩ : BufTy).Contents (Elt F)),
    unary main_v40 main_v41 (broadcastInDim S32640x1 ![0] bcast_S32640_S32640x1_0 : (⟨S32640, .i32⟩ : BufTy).Contents (Elt F) → (⟨S32640x1, .i32⟩ : BufTy).Contents (Elt F)),
    binary main_arg0 main_v41 main_v42 ((fun x i => Host.gather gather_S256x256_S32640x1_S256x32640_0_1_n_n_1_1_2561 x i) : (⟨S256x256, .f32⟩ : BufTy).Contents (Elt F) → (⟨S32640x1, .i32⟩ : BufTy).Contents (Elt F) → (⟨S256x32640, .f32⟩ : BufTy).Contents (Elt F)),
    nullary main_c_15 (constantI S_ 32 0#32),
    unary main_c_15 main_v43 (broadcastInDim S32640 ![] bcast_S_S32640 : (⟨S_, .i32⟩ : BufTy).Contents (Elt F) → (⟨S32640, .i32⟩ : BufTy).Contents (Elt F)),
    binary main_v19 main_v43 main_v44 (cmpi .slt : (⟨S32640, .i32⟩ : BufTy).Contents (Elt F) → (⟨S32640, .i32⟩ : BufTy).Contents (Elt F) → (⟨S32640, .i1⟩ : BufTy).Contents (Elt F)),
    nullary main_c_16 (constantI S_ 32 256#32),
    unary main_c_16 main_v45 (broadcastInDim S32640 ![] bcast_S_S32640 : (⟨S_, .i32⟩ : BufTy).Contents (Elt F) → (⟨S32640, .i32⟩ : BufTy).Contents (Elt F)),
    binary main_v19 main_v45 main_v46 (addi : (⟨S32640, .i32⟩ : BufTy).Contents (Elt F) → (⟨S32640, .i32⟩ : BufTy).Contents (Elt F) → (⟨S32640, .i32⟩ : BufTy).Contents (Elt F)),
    ternary main_v44 main_v46 main_v19 main_v47 (select : (⟨S32640, .i1⟩ : BufTy).Contents (Elt F) → (⟨S32640, .i32⟩ : BufTy).Contents (Elt F) → (⟨S32640, .i32⟩ : BufTy).Contents (Elt F) → (⟨S32640, .i32⟩ : BufTy).Contents (Elt F)),
    unary main_v47 main_v48 (broadcastInDim S32640x1 ![0] bcast_S32640_S32640x1_0 : (⟨S32640, .i32⟩ : BufTy).Contents (Elt F) → (⟨S32640x1, .i32⟩ : BufTy).Contents (Elt F)),
    binary main_arg0 main_v48 main_v49 ((fun x i => Host.gather gather_S256x256_S32640x1_S256x32640_0_1_n_n_1_1_2561 x i) : (⟨S256x256, .f32⟩ : BufTy).Contents (Elt F) → (⟨S32640x1, .i32⟩ : BufTy).Contents (Elt F) → (⟨S256x32640, .f32⟩ : BufTy).Contents (Elt F)),
    binary main_v42 main_v49 main_v50 (subf : (⟨S256x32640, .f32⟩ : BufTy).Contents (Elt F) → (⟨S256x32640, .f32⟩ : BufTy).Contents (Elt F) → (⟨S256x32640, .f32⟩ : BufTy).Contents (Elt F)),
    nullary main_cst_17 (constant S_ .f32 0xBF800000#32),
    unary main_cst_17 main_v51 (broadcastInDim S256x32640 ![] bcast_S_S256x32640 : (⟨S_, .f32⟩ : BufTy).Contents (Elt F) → (⟨S256x32640, .f32⟩ : BufTy).Contents (Elt F)),
    binary main_v51 main_v35 main_v52 (mulf : (⟨S256x32640, .f32⟩ : BufTy).Contents (Elt F) → (⟨S256x32640, .f32⟩ : BufTy).Contents (Elt F) → (⟨S256x32640, .f32⟩ : BufTy).Contents (Elt F)),
    binary main_v52 main_v50 main_v53 (mulf : (⟨S256x32640, .f32⟩ : BufTy).Contents (Elt F) → (⟨S256x32640, .f32⟩ : BufTy).Contents (Elt F) → (⟨S256x32640, .f32⟩ : BufTy).Contents (Elt F)),
    TRef.nullary main_call8.cst (constant S_ .f32 0x00000000#32),
    TRef.unary main_call8.cst main_call8.v0 (broadcastInDim S256x32640 ![] bcast_S_S256x32640),
    TRef.binary (.of main_v53 : StableHlo.TRef sig ⟨S256x32640, .f32⟩) main_call8.v0 main_call8.v1 maximumf,
    TRef.unary main_call8.cst main_call8.v2 (broadcastInDim S256x32640 ![] bcast_S_S256x32640),
    TRef.binary (.of main_v53 : StableHlo.TRef sig ⟨S256x32640, .f32⟩) main_call8.v2 main_call8.v3 subf,
    TRef.binary main_call8.v3 main_call8.v3 main_call8.v4 (cmpf .une),
    TRef.unary main_call8.cst main_call8.v5 (broadcastInDim S256x32640 ![] bcast_S_S256x32640),
    TRef.binary (.of main_v53 : StableHlo.TRef sig ⟨S256x32640, .f32⟩) main_call8.v5 main_call8.v6 addf,
    TRef.unary main_call8.v3 main_call8.v7 Host.absf,
    TRef.unary main_call8.v7 main_call8.v8 Host.negf,
    TRef.unary main_call8.v8 main_call8.v9 Host.exp,
    TRef.unary main_call8.v9 main_call8.v10 Host.log1p,
    TRef.binary main_call8.v1 main_call8.v10 main_call8.v11 addf,
    TRef.ternary main_call8.v4 main_call8.v6 main_call8.v11 main_call8.v12 select,
    nullary main_cst_18 (constant S_ .f32 0x00000000#32),
    unary main_cst_18 main_v55 (broadcastInDim S256x32640 ![] bcast_S_S256x32640 : (⟨S_, .f32⟩ : BufTy).Contents (Elt F) → (⟨S256x32640, .f32⟩ : BufTy).Contents (Elt F)),
    binary main_v35 main_v55 main_v56 (cmpf .une : (⟨S256x32640, .f32⟩ : BufTy).Contents (Elt F) → (⟨S256x32640, .f32⟩ : BufTy).Contents (Elt F) → (⟨S256x32640, .i1⟩ : BufTy).Contents (Elt F)),
    unary main_v56 main_v57 ((extui 32 · natLt_1_32) : (⟨S256x32640, .i1⟩ : BufTy).Contents (Elt F) → (⟨S256x32640, .i32⟩ : BufTy).Contents (Elt F)),
    nullary main_c_19 (constantI S_ 32 0#32),
    binary main_v57 main_c_19 main_v58 ((fun x v => Host.reduce IntOp.addi x v reducesTo_S256x32640_S32640_d0 h_S_) : (⟨S256x32640, .i32⟩ : BufTy).Contents (Elt F) → (⟨S_, .i32⟩ : BufTy).Contents (Elt F) → (⟨S32640, .i32⟩ : BufTy).Contents (Elt F)),
    nullary main_cst_20 (constant S_ .f32 0x00000000#32),
    TRef.unary (.of main_cst_20 : StableHlo.TRef sig ⟨S_, .f32⟩) main_call9.v0 id,
    TRef.unary main_call9.v0 main_call9.v1 (broadcastInDim S256x32640 ![] bcast_S_S256x32640),
    TRef.ternary (.of main_v56 : StableHlo.TRef sig ⟨S256x32640, .i1⟩) (.of main_v54 : StableHlo.TRef sig ⟨S256x32640, .f32⟩) main_call9.v1 main_call9.v2 select,
    nullary main_cst_21 (constant S_ .f32 0x00000000#32),
    binary main_v59 main_cst_21 main_v60 ((fun x v => Host.reduceAdd x v reducesTo_S256x32640_S32640_d0 h_S_) : (⟨S256x32640, .f32⟩ : BufTy).Contents (Elt F) → (⟨S_, .f32⟩ : BufTy).Contents (Elt F) → (⟨S32640, .f32⟩ : BufTy).Contents (Elt F)),
    nullary main_c_22 (constantI S_ 32 0#32),
    unary main_c_22 main_v61 (broadcastInDim S32640 ![] bcast_S_S32640 : (⟨S_, .i32⟩ : BufTy).Contents (Elt F) → (⟨S32640, .i32⟩ : BufTy).Contents (Elt F)),
    binary main_v58 main_v61 main_v62 (cmpi .sgt : (⟨S32640, .i32⟩ : BufTy).Contents (Elt F) → (⟨S32640, .i32⟩ : BufTy).Contents (Elt F) → (⟨S32640, .i1⟩ : BufTy).Contents (Elt F)),
    nullary main_c_23 (constantI S_ 32 1#32),
    unary main_c_23 main_v63 (broadcastInDim S32640 ![] bcast_S_S32640 : (⟨S_, .i32⟩ : BufTy).Contents (Elt F) → (⟨S32640, .i32⟩ : BufTy).Contents (Elt F)),
    binary main_v58 main_v63 main_v64 (maxsi : (⟨S32640, .i32⟩ : BufTy).Contents (Elt F) → (⟨S32640, .i32⟩ : BufTy).Contents (Elt F) → (⟨S32640, .i32⟩ : BufTy).Contents (Elt F)),
    unary main_v64 main_v65 (sitofp .f32 : (⟨S32640, .i32⟩ : BufTy).Contents (Elt F) → (⟨S32640, .f32⟩ : BufTy).Contents (Elt F)),
    binary main_v60 main_v65 main_v66 (Host.divf : (⟨S32640, .f32⟩ : BufTy).Contents (Elt F) → (⟨S32640, .f32⟩ : BufTy).Contents (Elt F) → (⟨S32640, .f32⟩ : BufTy).Contents (Elt F)),
    nullary main_cst_24 (constant S_ .f32 0x00000000#32),
    TRef.unary (.of main_cst_24 : StableHlo.TRef sig ⟨S_, .f32⟩) main_call10.v0 id,
    TRef.unary main_call10.v0 main_call10.v1 (broadcastInDim S32640 ![] bcast_S_S32640),
    TRef.ternary (.of main_v62 : StableHlo.TRef sig ⟨S32640, .i1⟩) (.of main_v66 : StableHlo.TRef sig ⟨S32640, .f32⟩) main_call10.v1 main_call10.v2 select,
    nullary main_c_25 (constantI S_ 32 0#32),
    unary main_c_25 main_v68 (broadcastInDim S32640 ![] bcast_S_S32640 : (⟨S_, .i32⟩ : BufTy).Contents (Elt F) → (⟨S32640, .i32⟩ : BufTy).Contents (Elt F)),
    binary main_v58 main_v68 main_v69 (cmpi .sgt : (⟨S32640, .i32⟩ : BufTy).Contents (Elt F) → (⟨S32640, .i32⟩ : BufTy).Contents (Elt F) → (⟨S32640, .i1⟩ : BufTy).Contents (Elt F)),
    unary main_v69 main_v70 ((extui 32 · natLt_1_32) : (⟨S32640, .i1⟩ : BufTy).Contents (Elt F) → (⟨S32640, .i32⟩ : BufTy).Contents (Elt F)),
    nullary main_c_26 (constantI S_ 32 0#32),
    binary main_v70 main_c_26 main_v71 ((fun x v => Host.reduce IntOp.addi x v reducesTo_S32640_S_d0 h_S_) : (⟨S32640, .i32⟩ : BufTy).Contents (Elt F) → (⟨S_, .i32⟩ : BufTy).Contents (Elt F) → (⟨S_, .i32⟩ : BufTy).Contents (Elt F)),
    unary main_v71 main_v72 (sitofp .f32 : (⟨S_, .i32⟩ : BufTy).Contents (Elt F) → (⟨S_, .f32⟩ : BufTy).Contents (Elt F)),
    nullary main_cst_27 (constant S_ .f32 0x00000000#32),
    binary main_v67 main_cst_27 main_v73 ((fun x v => Host.reduceAdd x v reducesTo_S32640_S_d0 h_S_) : (⟨S32640, .f32⟩ : BufTy).Contents (Elt F) → (⟨S_, .f32⟩ : BufTy).Contents (Elt F) → (⟨S_, .f32⟩ : BufTy).Contents (Elt F)),
    nullary main_cst_28 (constant S_ .f32 0x00000000#32),
    binary main_v72 main_cst_28 main_v74 (cmpf .ogt : (⟨S_, .f32⟩ : BufTy).Contents (Elt F) → (⟨S_, .f32⟩ : BufTy).Contents (Elt F) → (⟨S_, .i1⟩ : BufTy).Contents (Elt F)),
    nullary main_cst_29 (constant S_ .f32 0x3F800000#32),
    binary main_v72 main_cst_29 main_v75 (maximumf : (⟨S_, .f32⟩ : BufTy).Contents (Elt F) → (⟨S_, .f32⟩ : BufTy).Contents (Elt F) → (⟨S_, .f32⟩ : BufTy).Contents (Elt F)),
    binary main_v73 main_v75 main_v76 (Host.divf : (⟨S_, .f32⟩ : BufTy).Contents (Elt F) → (⟨S_, .f32⟩ : BufTy).Contents (Elt F) → (⟨S_, .f32⟩ : BufTy).Contents (Elt F)),
    nullary main_cst_30 (constant S_ .f32 0x00000000#32),
    TRef.unary (.of main_cst_30 : StableHlo.TRef sig ⟨S_, .f32⟩) main_call11.v0 id,
    TRef.ternary (.of main_v74 : StableHlo.TRef sig ⟨S_, .i1⟩) (.of main_v76 : StableHlo.TRef sig ⟨S_, .f32⟩) main_call11.v0 main_call11.v1 select ]

/-- The line is the three stretches in order. -/
theorem ops_eq : (ops : List (HloOp τ sig (Elt F))) = opsPos ++ (opsRowCol ++ opsLoss) := rfl

/-- The line's results are the third stretch's over the second's over the first's. -/
theorem after_ops (V : Valuation τ sig (Elt F)) :
    after ops V = after opsLoss (after opsRowCol (after opsPos V)) := by
  rw [ops_eq, after_append, after_append]

end Cert.ReferenceIdeal.RefRun

end
-- ==== Proof.LibResultsInside.lean ====
/-
  Reading a line of host operations back where the one-pass reader stops.

  The library's one-pass reader of a line of host operations (`after_results_simp`) rewrites every operation's result
  at its own buffer and at every other buffer — except where a value stands INSIDE a `concatenate`'s list of pieces, and
  it leaves the transports of an outlined function's typed references in place. Closing what is left by `rfl` makes the
  unifier evaluate: the chain of `HloOp.result`s under a `concatenate`, or, with a transport (a `cast`) at the head of
  one side, the other side down to the elementwise definitions of a gather or a scatter — which does not end.

  `results_inside` is the library's result lemmas applied by `rw`, repeated: `rw` abstracts occurrences wherever they
  stand, a `concatenate`'s pieces included. The recipe that read a 117-operation line against staged definitions:

    after_results_simp; results_inside          -- the composed term over the starting contents
    dsimp only [‹the stages this stretch computes›]; first | done | rfl

  with the line CUT at each outlined function (a stretch of `TRef.…` operations), each stretch read from an arbitrary
  contents `W` under hypotheses `W (devRef b) = ‹stage›` for the buffers it reads. In such a stretch: cancel
  written-then-read pairs (`TRef.ofBuf_toBuf`), remove each remaining transport by a lemma about that buffer stated over
  a VARIABLE value and proved by `rfl` — there `rfl` can only do the one reduction of the cast —

    theorem ofBuf_b (h1 : b.ty = (⟨S, e⟩ : BufTy)) (h2 : b.space ≠ .host) (h3 : b.isScoped = false)
        (v : b.ty.Contents Val) : (TRef.of (T := ⟨S, e⟩) b h1 h2 h3).ofBuf v = v := rfl

  used by `rw`, and only then rewrite the hypotheses and unfold the stages. (`simp` or `dsimp` with `cast_eq` over the
  whole term exhausts memory.)
-/
import Idealize.ShloMosaic.Lib.StableHlo.Run

namespace Idealize.ShloMosaic.StableHlo

/-- The library's result lemmas by `rw`, repeated: they also rewrite an operation's result where it stands inside a
    `concatenate`'s list of pieces, which the one-pass form leaves alone. Does nothing where nothing is left. -/
macro "results_inside" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

end Idealize.ShloMosaic.StableHlo
-- ==== Proof.LibTypedRef.lean ====
/-
  Typed references of a module-local function's operations. An operation of an outlined function reads and writes its
  buffers through typed references: a result is transported to its buffer's type when written and back to the value's
  type when the next operation reads it. The two transports cancel, so a line of such operations composes to the
  plain composition of their functions.
-/
import Idealize.ShloMosaic.Lib.StableHlo

namespace Idealize.ShloMosaic.StableHlo.TRef

variable {sig : RefSig} {Val : EltTy → Type} {T : BufTy}

/-- Written to the buffer and read back: the value. -/
theorem ofBuf_toBuf (x : TRef sig T) (v : T.Contents Val) : x.ofBuf (x.toBuf v) = v := by
  obtain ⟨r, ty_eq, h1, h2⟩ := x
  subst ty_eq
  rfl

/-- Read from the buffer and written back: the contents. -/
theorem toBuf_ofBuf (x : TRef sig T) (v : x.ref.ty.Contents Val) : x.toBuf (x.ofBuf v) = v := by
  obtain ⟨r, ty_eq, h1, h2⟩ := x
  subst ty_eq
  rfl

end Idealize.ShloMosaic.StableHlo.TRef
-- ==== Proof.RefLossRead.lean ====
/-
  The loss stretch of the reference, staged. From the row vector and the column vector of the listed pairs and the two
  inputs: the columns gathered (an index below zero wrapped by 256 first, as the program writes it), the sign of the
  relevance difference, the prediction difference, softplus of minus their product, the validity bit, per pair the
  count and the sum over the batch rows and the mean, and over the pairs the count of those with a mean, the sum of
  the means and their mean. The stretch's result buffer holds exactly this composition.
-/
import proofs.«118690_j7060926235074_1_alg».proof.Proof.RefStages
import proofs.«118690_j7060926235074_1_alg».proof.Proof.LibResultsInside
import proofs.«118690_j7060926235074_1_alg».proof.Proof.LibTypedRef

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

namespace Loss

/-- A pair-coordinate vector as a column of gather start indices: a coordinate below zero is moved up by 256. -/
def wrapIdx (a : IVec S32640 32) : IVec S32640x1 32 :=
  broadcastInDim S32640x1 ![0] bcast_S32640_S32640x1_0
    (select (cmpi .slt a (broadcastInDim S32640 ![] bcast_S_S32640 (constantI S_ 32 0#32)))
      (addi a (broadcastInDim S32640 ![] bcast_S_S32640 (constantI S_ 32 256#32))) a)

/-- The columns of a matrix the coordinate vector names. -/
def cols (X : FVec F S256x256 .f32) (a : IVec S32640 32) : FVec F S256x32640 .f32 :=
  Host.gather gather_S256x256_S32640x1_S256x32640_0_1_n_n_1_1_2561 X (wrapIdx a)

/-- The scalar zero and its broadcasts. -/
def zeroS : FVec F S_ .f32 := constant S_ .f32 0x00000000#32
def zeroB : FVec F S256x32640 .f32 := broadcastInDim S256x32640 ![] bcast_S_S256x32640 zeroS

/-- The sign of the relevance difference. -/
def sgnV (R : FVec F S256x256 .f32) (a b : IVec S32640 32) : FVec F S256x32640 .f32 :=
  Host.sign (subf (cols R a) (cols R b))

/-- Minus the sign times the prediction difference. -/
def xV (P R : FVec F S256x256 .f32) (a b : IVec S32640 32) : FVec F S256x32640 .f32 :=
  mulf (mulf (broadcastInDim S256x32640 ![] bcast_S_S256x32640 (constant S_ .f32 0xBF800000#32)) (sgnV R a b))
    (subf (cols P a) (cols P b))

/-- softplus, as the program writes it. -/
def softplusV (x : FVec F S256x32640 .f32) : FVec F S256x32640 .f32 :=
  select (cmpf .une (subf x zeroB) (subf x zeroB)) (addf x zeroB)
    (addf (maximumf x zeroB) (Host.log1p (Host.exp (Host.negf (Host.absf (subf x zeroB))))))

/-- The validity bit: the sign is not zero. -/
def validV (R : FVec F S256x256 .f32) (a b : IVec S32640 32) : IVec S256x32640 1 :=
  cmpf .une (sgnV R a b) zeroB

/-- Per pair, the number of valid batch rows. -/
def cntV (R : FVec F S256x256 .f32) (a b : IVec S32640 32) : IVec S32640 32 :=
  Host.reduce IntOp.addi (extui 32 (validV R a b) natLt_1_32) (constantI S_ 32 0#32) reducesTo_S256x32640_S32640_d0 h_S_

/-- Per pair, the sum of the valid rows' contributions. -/
def sumV (P R : FVec F S256x256 .f32) (a b : IVec S32640 32) : FVec F S32640 .f32 :=
  Host.reduceAdd (select (validV R a b) (softplusV (xV P R a b))
      (broadcastInDim S256x32640 ![] bcast_S_S256x32640 (id zeroS)))
    zeroS reducesTo_S256x32640_S32640_d0 h_S_

/-- Per pair: a valid row exists. -/
def hasV (R : FVec F S256x256 .f32) (a b : IVec S32640 32) : IVec S32640 1 :=
  cmpi .sgt (cntV R a b) (broadcastInDim S32640 ![] bcast_S_S32640 (constantI S_ 32 0#32))

/-- Per pair, the mean (zero where no row is valid). -/
def meanV (P R : FVec F S256x256 .f32) (a b : IVec S32640 32) : FVec F S32640 .f32 :=
  select (hasV R a b)
    (Host.divf (sumV P R a b)
      (sitofp .f32 (maxsi (cntV R a b) (broadcastInDim S32640 ![] bcast_S_S32640 (constantI S_ 32 1#32)))))
    (broadcastInDim S32640 ![] bcast_S_S32640 (id zeroS))

/-- The number of pairs with a valid row, as a float. -/
def npV (R : FVec F S256x256 .f32) (a b : IVec S32640 32) : FVec F S_ .f32 :=
  sitofp .f32 (Host.reduce IntOp.addi (extui 32 (hasV R a b) natLt_1_32) (constantI S_ 32 0#32) reducesTo_S32640_S_d0 h_S_)

/-- The sum of the pairs' means. -/
def totV (P R : FVec F S256x256 .f32) (a b : IVec S32640 32) : FVec F S_ .f32 :=
  Host.reduceAdd (meanV P R a b) zeroS reducesTo_S32640_S_d0 h_S_

/-- The loss. -/
def resV (P R : FVec F S256x256 .f32) (a b : IVec S32640 32) : FVec F S_ .f32 :=
  select (cmpf .ogt (npV R a b) zeroS)
    (Host.divf (totV P R a b) (maximumf (npV R a b) (constant S_ .f32 0x3F800000#32)))
    (id zeroS)

end Loss

/-! The typed references at the stretch's boundary: a buffer's contents at its value's type are the contents. -/

theorem ofBuf_main_v74 (h1 : (main_v74 : Ref sig .tc).ty = (⟨S_, .i1⟩ : BufTy)) (h2 : (main_v74 : Ref sig .tc).space ≠ .host)
    (h3 : (main_v74 : Ref sig .tc).isScoped = false) (v : (main_v74 : Ref sig .tc).ty.Contents (Elt F)) :
    (TRef.of (T := ⟨S_, .i1⟩) main_v74 h1 h2 h3).ofBuf v = v := rfl
theorem toBuf_main_v74 (h1 : (main_v74 : Ref sig .tc).ty = (⟨S_, .i1⟩ : BufTy)) (h2 : (main_v74 : Ref sig .tc).space ≠ .host)
    (h3 : (main_v74 : Ref sig .tc).isScoped = false) (v : (⟨S_, .i1⟩ : BufTy).Contents (Elt F)) :
    (TRef.of (T := ⟨S_, .i1⟩) main_v74 h1 h2 h3).toBuf v = v := rfl
theorem ofBuf_main_v76 (h1 : (main_v76 : Ref sig .tc).ty = (⟨S_, .f32⟩ : BufTy)) (h2 : (main_v76 : Ref sig .tc).space ≠ .host)
    (h3 : (main_v76 : Ref sig .tc).isScoped = false) (v : (main_v76 : Ref sig .tc).ty.Contents (Elt F)) :
    (TRef.of (T := ⟨S_, .f32⟩) main_v76 h1 h2 h3).ofBuf v = v := rfl
theorem toBuf_main_v76 (h1 : (main_v76 : Ref sig .tc).ty = (⟨S_, .f32⟩ : BufTy)) (h2 : (main_v76 : Ref sig .tc).space ≠ .host)
    (h3 : (main_v76 : Ref sig .tc).isScoped = false) (v : (⟨S_, .f32⟩ : BufTy).Contents (Elt F)) :
    (TRef.of (T := ⟨S_, .f32⟩) main_v76 h1 h2 h3).toBuf v = v := rfl
theorem ofBuf_main_v67 (h1 : (main_v67 : Ref sig .tc).ty = (⟨S32640, .f32⟩ : BufTy)) (h2 : (main_v67 : Ref sig .tc).space ≠ .host)
    (h3 : (main_v67 : Ref sig .tc).isScoped = false) (v : (main_v67 : Ref sig .tc).ty.Contents (Elt F)) :
    (TRef.of (T := ⟨S32640, .f32⟩) main_v67 h1 h2 h3).ofBuf v = v := rfl
theorem toBuf_main_v67 (h1 : (main_v67 : Ref sig .tc).ty = (⟨S32640, .f32⟩ : BufTy)) (h2 : (main_v67 : Ref sig .tc).space ≠ .host)
    (h3 : (main_v67 : Ref sig .tc).isScoped = false) (v : (⟨S32640, .f32⟩ : BufTy).Contents (Elt F)) :
    (TRef.of (T := ⟨S32640, .f32⟩) main_v67 h1 h2 h3).toBuf v = v := rfl
theorem ofBuf_main_v62 (h1 : (main_v62 : Ref sig .tc).ty = (⟨S32640, .i1⟩ : BufTy)) (h2 : (main_v62 : Ref sig .tc).space ≠ .host)
    (h3 : (main_v62 : Ref sig .tc).isScoped = false) (v : (main_v62 : Ref sig .tc).ty.Contents (Elt F)) :
    (TRef.of (T := ⟨S32640, .i1⟩) main_v62 h1 h2 h3).ofBuf v = v := rfl
theorem toBuf_main_v62 (h1 : (main_v62 : Ref sig .tc).ty = (⟨S32640, .i1⟩ : BufTy)) (h2 : (main_v62 : Ref sig .tc).space ≠ .host)
    (h3 : (main_v62 : Ref sig .tc).isScoped = false) (v : (⟨S32640, .i1⟩ : BufTy).Contents (Elt F)) :
    (TRef.of (T := ⟨S32640, .i1⟩) main_v62 h1 h2 h3).toBuf v = v := rfl
theorem ofBuf_main_v66 (h1 : (main_v66 : Ref sig .tc).ty = (⟨S32640, .f32⟩ : BufTy)) (h2 : (main_v66 : Ref sig .tc).space ≠ .host)
    (h3 : (main_v66 : Ref sig .tc).isScoped = false) (v : (main_v66 : Ref sig .tc).ty.Contents (Elt F)) :
    (TRef.of (T := ⟨S32640, .f32⟩) main_v66 h1 h2 h3).ofBuf v = v := rfl
theorem toBuf_main_v66 (h1 : (main_v66 : Ref sig .tc).ty = (⟨S32640, .f32⟩ : BufTy)) (h2 : (main_v66 : Ref sig .tc).space ≠ .host)
    (h3 : (main_v66 : Ref sig .tc).isScoped = false) (v : (⟨S32640, .f32⟩ : BufTy).Contents (Elt F)) :
    (TRef.of (T := ⟨S32640, .f32⟩) main_v66 h1 h2 h3).toBuf v = v := rfl
theorem ofBuf_main_v59 (h1 : (main_v59 : Ref sig .tc).ty = (⟨S256x32640, .f32⟩ : BufTy)) (h2 : (main_v59 : Ref sig .tc).space ≠ .host)
    (h3 : (main_v59 : Ref sig .tc).isScoped = false) (v : (main_v59 : Ref sig .tc).ty.Contents (Elt F)) :
    (TRef.of (T := ⟨S256x32640, .f32⟩) main_v59 h1 h2 h3).ofBuf v = v := rfl
theorem toBuf_main_v59 (h1 : (main_v59 : Ref sig .tc).ty = (⟨S256x32640, .f32⟩ : BufTy)) (h2 : (main_v59 : Ref sig .tc).space ≠ .host)
    (h3 : (main_v59 : Ref sig .tc).isScoped = false) (v : (⟨S256x32640, .f32⟩ : BufTy).Contents (Elt F)) :
    (TRef.of (T := ⟨S256x32640, .f32⟩) main_v59 h1 h2 h3).toBuf v = v := rfl
theorem ofBuf_main_v56 (h1 : (main_v56 : Ref sig .tc).ty = (⟨S256x32640, .i1⟩ : BufTy)) (h2 : (main_v56 : Ref sig .tc).space ≠ .host)
    (h3 : (main_v56 : Ref sig .tc).isScoped = false) (v : (main_v56 : Ref sig .tc).ty.Contents (Elt F)) :
    (TRef.of (T := ⟨S256x32640, .i1⟩) main_v56 h1 h2 h3).ofBuf v = v := rfl
theorem toBuf_main_v56 (h1 : (main_v56 : Ref sig .tc).ty = (⟨S256x32640, .i1⟩ : BufTy)) (h2 : (main_v56 : Ref sig .tc).space ≠ .host)
    (h3 : (main_v56 : Ref sig .tc).isScoped = false) (v : (⟨S256x32640, .i1⟩ : BufTy).Contents (Elt F)) :
    (TRef.of (T := ⟨S256x32640, .i1⟩) main_v56 h1 h2 h3).toBuf v = v := rfl
theorem ofBuf_main_v54 (h1 : (main_v54 : Ref sig .tc).ty = (⟨S256x32640, .f32⟩ : BufTy)) (h2 : (main_v54 : Ref sig .tc).space ≠ .host)
    (h3 : (main_v54 : Ref sig .tc).isScoped = false) (v : (main_v54 : Ref sig .tc).ty.Contents (Elt F)) :
    (TRef.of (T := ⟨S256x32640, .f32⟩) main_v54 h1 h2 h3).ofBuf v = v := rfl
theorem toBuf_main_v54 (h1 : (main_v54 : Ref sig .tc).ty = (⟨S256x32640, .f32⟩ : BufTy)) (h2 : (main_v54 : Ref sig .tc).space ≠ .host)
    (h3 : (main_v54 : Ref sig .tc).isScoped = false) (v : (⟨S256x32640, .f32⟩ : BufTy).Contents (Elt F)) :
    (TRef.of (T := ⟨S256x32640, .f32⟩) main_v54 h1 h2 h3).toBuf v = v := rfl
theorem ofBuf_main_v53 (h1 : (main_v53 : Ref sig .tc).ty = (⟨S256x32640, .f32⟩ : BufTy)) (h2 : (main_v53 : Ref sig .tc).space ≠ .host)
    (h3 : (main_v53 : Ref sig .tc).isScoped = false) (v : (main_v53 : Ref sig .tc).ty.Contents (Elt F)) :
    (TRef.of (T := ⟨S256x32640, .f32⟩) main_v53 h1 h2 h3).ofBuf v = v := rfl
theorem toBuf_main_v53 (h1 : (main_v53 : Ref sig .tc).ty = (⟨S256x32640, .f32⟩ : BufTy)) (h2 : (main_v53 : Ref sig .tc).space ≠ .host)
    (h3 : (main_v53 : Ref sig .tc).isScoped = false) (v : (⟨S256x32640, .f32⟩ : BufTy).Contents (Elt F)) :
    (TRef.of (T := ⟨S256x32640, .f32⟩) main_v53 h1 h2 h3).toBuf v = v := rfl
theorem ofBuf_main_cst_20 (h1 : (main_cst_20 : Ref sig .tc).ty = (⟨S_, .f32⟩ : BufTy)) (h2 : (main_cst_20 : Ref sig .tc).space ≠ .host)
    (h3 : (main_cst_20 : Ref sig .tc).isScoped = false) (v : (main_cst_20 : Ref sig .tc).ty.Contents (Elt F)) :
    (TRef.of (T := ⟨S_, .f32⟩) main_cst_20 h1 h2 h3).ofBuf v = v := rfl
theorem toBuf_main_cst_20 (h1 : (main_cst_20 : Ref sig .tc).ty = (⟨S_, .f32⟩ : BufTy)) (h2 : (main_cst_20 : Ref sig .tc).space ≠ .host)
    (h3 : (main_cst_20 : Ref sig .tc).isScoped = false) (v : (⟨S_, .f32⟩ : BufTy).Contents (Elt F)) :
    (TRef.of (T := ⟨S_, .f32⟩) main_cst_20 h1 h2 h3).toBuf v = v := rfl
theorem ofBuf_main_cst_24 (h1 : (main_cst_24 : Ref sig .tc).ty = (⟨S_, .f32⟩ : BufTy)) (h2 : (main_cst_24 : Ref sig .tc).space ≠ .host)
    (h3 : (main_cst_24 : Ref sig .tc).isScoped = false) (v : (main_cst_24 : Ref sig .tc).ty.Contents (Elt F)) :
    (TRef.of (T := ⟨S_, .f32⟩) main_cst_24 h1 h2 h3).ofBuf v = v := rfl
theorem toBuf_main_cst_24 (h1 : (main_cst_24 : Ref sig .tc).ty = (⟨S_, .f32⟩ : BufTy)) (h2 : (main_cst_24 : Ref sig .tc).space ≠ .host)
    (h3 : (main_cst_24 : Ref sig .tc).isScoped = false) (v : (⟨S_, .f32⟩ : BufTy).Contents (Elt F)) :
    (TRef.of (T := ⟨S_, .f32⟩) main_cst_24 h1 h2 h3).toBuf v = v := rfl
theorem ofBuf_main_cst_30 (h1 : (main_cst_30 : Ref sig .tc).ty = (⟨S_, .f32⟩ : BufTy)) (h2 : (main_cst_30 : Ref sig .tc).space ≠ .host)
    (h3 : (main_cst_30 : Ref sig .tc).isScoped = false) (v : (main_cst_30 : Ref sig .tc).ty.Contents (Elt F)) :
    (TRef.of (T := ⟨S_, .f32⟩) main_cst_30 h1 h2 h3).ofBuf v = v := rfl
theorem toBuf_main_cst_30 (h1 : (main_cst_30 : Ref sig .tc).ty = (⟨S_, .f32⟩ : BufTy)) (h2 : (main_cst_30 : Ref sig .tc).space ≠ .host)
    (h3 : (main_cst_30 : Ref sig .tc).isScoped = false) (v : (⟨S_, .f32⟩ : BufTy).Contents (Elt F)) :
    (TRef.of (T := ⟨S_, .f32⟩) main_cst_30 h1 h2 h3).toBuf v = v := rfl
theorem ofBuf_main_v77 (h1 : (main_v77 : Ref sig .tc).ty = (⟨S_, .f32⟩ : BufTy)) (h2 : (main_v77 : Ref sig .tc).space ≠ .host)
    (h3 : (main_v77 : Ref sig .tc).isScoped = false) (v : (main_v77 : Ref sig .tc).ty.Contents (Elt F)) :
    (TRef.of (T := ⟨S_, .f32⟩) main_v77 h1 h2 h3).ofBuf v = v := rfl
theorem toBuf_main_v77 (h1 : (main_v77 : Ref sig .tc).ty = (⟨S_, .f32⟩ : BufTy)) (h2 : (main_v77 : Ref sig .tc).space ≠ .host)
    (h3 : (main_v77 : Ref sig .tc).isScoped = false) (v : (⟨S_, .f32⟩ : BufTy).Contents (Elt F)) :
    (TRef.of (T := ⟨S_, .f32⟩) main_v77 h1 h2 h3).toBuf v = v := rfl

set_option maxRecDepth 16384 in
set_option maxHeartbeats 4000000 in
/-- The stretch's result is the staged composition over the row vector, the column vector and the two inputs. -/
theorem loss_read (W : Valuation τ sig (Elt F)) :
    after opsLoss W (main_v77 : DevRef τ sig)
      = Loss.resV (W (main_arg0 : DevRef τ sig)) (W (main_arg1 : DevRef τ sig)) (W (main_v17 : DevRef τ sig))
          (W (main_v19 : DevRef τ sig)) := by
  after_results_simp
  simp only [TRef.ofBuf_toBuf, ofBuf_main_v74, toBuf_main_v74, ofBuf_main_v76, toBuf_main_v76, ofBuf_main_v67, toBuf_main_v67, ofBuf_main_v62, toBuf_main_v62, ofBuf_main_v66, toBuf_main_v66, ofBuf_main_v59, toBuf_main_v59, ofBuf_main_v56, toBuf_main_v56, ofBuf_main_v54, toBuf_main_v54, ofBuf_main_v53, toBuf_main_v53, ofBuf_main_cst_20, toBuf_main_cst_20, ofBuf_main_cst_24, toBuf_main_cst_24, ofBuf_main_cst_30, toBuf_main_cst_30, ofBuf_main_v77, toBuf_main_v77]
  rfl

end Cert.ReferenceIdeal.RefRun

end
-- ==== Proof.LibOnesInOrder.lean ====
/-
  The positions of the ones of a mask, in order, from running counts.

  Let `mask` be a predicate on the positions `0, …, N - 1`, `upTo p` the number of ones among the positions `0, …, p`
  (a running count, inclusive) and `K` the number of ones in all. For `k < K` let `pos k` be the number of positions
  whose running count is at most `k`. The running count never decreases, so those positions are an initial stretch
  `0, …, pos k - 1`, and position `pos k` is the first whose count exceeds `k`: it carries a one, the `(k + 1)`-st.
  So `pos` lists the ones in increasing order, each once — which is how `jnp.nonzero` with a static size (and with it
  `jnp.triu_indices`, `jnp.tril_indices`, `jnp.argwhere`) finds them: a running sum of the mask, a histogram of the
  running sums, and the running sum of the histogram, whose entry `k` is `pos k`. A sum over the listed positions
  is therefore the sum over the ones of the mask.
-/
import Mathlib.Algebra.BigOperators.Fin

namespace OnesInOrder

open Finset

variable (mask : ℕ → Prop) [DecidablePred mask]

/-- The number of ones among the positions `0, …, p`. -/
def upTo (p : ℕ) : ℕ := #((range (p + 1)).filter mask)

/-- The number of positions below `N` whose running count is at most `k`. -/
def pos (N k : ℕ) : ℕ := #((range N).filter fun p => upTo mask p ≤ k)

theorem upTo_mono {p q : ℕ} (h : p ≤ q) : upTo mask p ≤ upTo mask q :=
  card_le_card (filter_subset_filter _ (range_subset_range.2 (by omega)))

theorem upTo_zero : upTo mask 0 = if mask 0 then 1 else 0 := by
  unfold upTo
  rw [show range (0 + 1) = {0} from range_one, filter_singleton]
  by_cases h : mask 0
  · rw [if_pos h, if_pos h, card_singleton]
  · rw [if_neg h, if_neg h, card_empty]

theorem upTo_succ (p : ℕ) : upTo mask (p + 1) = upTo mask p + if mask (p + 1) then 1 else 0 := by
  unfold upTo
  rw [range_add_one (n := p + 1), filter_insert]
  by_cases h : mask (p + 1)
  · rw [if_pos h, if_pos h, card_insert_of_notMem]
    intro hm
    have := (mem_filter.1 hm).1
    rw [mem_range] at this
    omega
  · rw [if_neg h, if_neg h]
    exact (Nat.add_zero _).symm

/-- A set of numbers closed under going down is the numbers below its size. -/
theorem eq_range_of_downClosed (S : Finset ℕ) (h : ∀ p ∈ S, ∀ q, q ≤ p → q ∈ S) : S = range #S := by
  refine eq_of_subset_of_card_le (fun p hp => ?_) (by rw [card_range])
  rw [mem_range]
  have hsub : range (p + 1) ⊆ S := fun q hq => h p hp q (by rw [mem_range] at hq; omega)
  have := card_le_card hsub
  rw [card_range] at this
  omega

/-- The positions with running count at most `k` are exactly the positions below `pos N k`. -/
theorem lt_pos_iff (N k q : ℕ) : q < pos mask N k ↔ q < N ∧ upTo mask q ≤ k := by
  have hS := eq_range_of_downClosed ((range N).filter fun p => upTo mask p ≤ k) (fun p hp q hq => by
    rw [mem_filter, mem_range] at hp ⊢
    exact ⟨by omega, (upTo_mono mask hq).trans hp.2⟩)
  have : q ∈ ((range N).filter fun p => upTo mask p ≤ k) ↔ q ∈ range (pos mask N k) := by
    unfold pos
    rw [← hS]
  rw [mem_filter, mem_range, mem_range] at this
  exact this.symm

/-- The total number of ones is the running count at the last position. -/
theorem upTo_last {N : ℕ} (hN : 0 < N) : upTo mask (N - 1) = #((range N).filter mask) := by
  unfold upTo
  rw [show N - 1 + 1 = N by omega]

/-- THE `(k + 1)`-ST ONE: for `k` below the number of ones, `pos N k` is a position, it carries a one, and the running
    count there is `k + 1`. -/
theorem pos_spec {N k : ℕ} (hk : k < #((range N).filter mask)) :
    pos mask N k < N ∧ mask (pos mask N k) ∧ upTo mask (pos mask N k) = k + 1 := by
  have hN : 0 < N := by
    rcases Nat.eq_zero_or_pos N with h0 | h0
    · subst h0; simp at hk
    · exact h0
  have hlast := upTo_last mask hN
  -- the last position is not among those with count at most `k`
  have h1 : ¬ (N - 1 < pos mask N k) := fun hlt => by
    have := ((lt_pos_iff mask N k (N - 1)).1 hlt).2
    omega
  have hpN : pos mask N k < N := by omega
  -- `pos N k` itself is not below `pos N k`: its count exceeds `k`
  have h2 : k < upTo mask (pos mask N k) := by
    by_contra hle
    exact absurd ((lt_pos_iff mask N k (pos mask N k)).2 ⟨hpN, by omega⟩) (lt_irrefl _)
  refine ⟨hpN, ?_⟩
  rcases Nat.eq_zero_or_pos (pos mask N k) with h0 | h0
  · rw [h0] at h2 ⊢
    rw [upTo_zero] at h2 ⊢
    by_cases hm : mask 0
    · rw [if_pos hm] at h2 ⊢
      exact ⟨hm, by omega⟩
    · rw [if_neg hm] at h2
      omega
  · obtain ⟨p', hp'⟩ : ∃ p', pos mask N k = p' + 1 := ⟨pos mask N k - 1, by omega⟩
    have h3 : upTo mask p' ≤ k := ((lt_pos_iff mask N k p').1 (by omega)).2
    rw [hp'] at h2 ⊢
    rw [upTo_succ] at h2 ⊢
    by_cases hm : mask (p' + 1)
    · rw [if_pos hm] at h2 ⊢
      exact ⟨hm, by omega⟩
    · rw [if_neg hm] at h2
      omega

/-- EVERY ONE IS LISTED: a position carrying a one is `pos N k` for `k` its running count less one. -/
theorem pos_of_mask {N p : ℕ} (hp : p < N) (hm : mask p) :
    upTo mask p - 1 < #((range N).filter mask) ∧ 0 < upTo mask p ∧ pos mask N (upTo mask p - 1) = p := by
  have hN : 0 < N := by omega
  have hlast := upTo_last mask hN
  have hle : upTo mask p ≤ upTo mask (N - 1) := upTo_mono mask (by omega)
  have hpos : 0 < upTo mask p := by
    unfold upTo
    exact card_pos.2 ⟨p, mem_filter.2 ⟨mem_range.2 (by omega), hm⟩⟩
  refine ⟨by omega, hpos, ?_⟩
  -- the positions with count at most `upTo p - 1` are exactly those below `p`
  have key : ∀ q, (q < N ∧ upTo mask q ≤ upTo mask p - 1) ↔ q < p := by
    intro q
    constructor
    · rintro ⟨_, hq⟩
      by_contra hge
      have := upTo_mono mask (show p ≤ q by omega)
      omega
    · intro hq
      refine ⟨by omega, ?_⟩
      obtain ⟨p', rfl⟩ : ∃ p', p = p' + 1 := ⟨p - 1, by omega⟩
      have := upTo_succ mask p'
      rw [if_pos hm] at this
      have := upTo_mono mask (show q ≤ p' by omega)
      omega
  have e : ∀ q, q < pos mask N (upTo mask p - 1) ↔ q < p := fun q => (lt_pos_iff mask N _ q).trans (key q)
  have e1 := e p
  have e2 := e (pos mask N (upTo mask p - 1))
  omega

/-- A SUM OVER THE LISTED POSITIONS IS THE SUM OVER THE ONES. -/
theorem sum_pos {M : Type*} [AddCommMonoid M] (N : ℕ) (g : ℕ → M) :
    ∑ k ∈ range #((range N).filter mask), g (pos mask N k) = ∑ p ∈ (range N).filter mask, g p := by
  refine sum_nbij' (fun k => pos mask N k) (fun p => upTo mask p - 1) ?_ ?_ ?_ ?_ (fun _ _ => rfl)
  · intro k hk
    have := pos_spec mask (mem_range.1 hk)
    exact mem_filter.2 ⟨mem_range.2 this.1, this.2.1⟩
  · intro p hp
    have hp' := mem_filter.1 hp
    exact mem_range.2 (pos_of_mask mask (mem_range.1 hp'.1) hp'.2).1
  · intro k hk
    have := (pos_spec mask (mem_range.1 hk)).2.2
    show upTo mask (pos mask N k) - 1 = k
    omega
  · intro p hp
    have hp' := mem_filter.1 hp
    exact (pos_of_mask mask (mem_range.1 hp'.1) hp'.2).2.2

end OnesInOrder
-- ==== Proof.RefPairs.lean ====
/-
  The pairs `i < j` of a 256 x 256 grid, listed in row-major order.

  Flatten the grid row-major: position `p` is the cell `(p / 256, p % 256)`. The cells above the diagonal are the
  ones of the mask `p / 256 < p % 256`; there are 32640 of them (the sum of `255 - i` over the rows), and the
  `k`-th of them in order is position `pos k`, a cell `(iu k, ju k)` with `iu k < ju k`. A sum over the listed
  cells is the double sum over the cells above the diagonal, and the number of listed cells with a property is the
  number of cells above the diagonal with it.
-/
import Idealize.ShloMosaic.PureOps.Ideal
import proofs.«118690_j7060926235074_1_alg».proof.Proof.LibOnesInOrder

namespace RankPairs

open Finset OnesInOrder

/-- The mask of the cells above the diagonal, on flat positions. -/
def upper (p : ℕ) : Prop := p / 256 < p % 256

instance : DecidablePred upper := fun p => Nat.decLt (p / 256) (p % 256)

/-- A sum over the flat positions of a function of the cell is the double sum over the cells. -/
theorem sum_range_grid {M : Type*} [AddCommMonoid M] (g : ℕ → ℕ → M) :
    ∑ p ∈ range 65536, g (p / 256) (p % 256) = ∑ i : Fin 256, ∑ j : Fin 256, g i.val j.val := by
  rw [← Fin.sum_univ_eq_sum_range (fun p => g (p / 256) (p % 256)) 65536]
  rw [← (finProdFinEquiv (m := 256) (n := 256)).sum_comp (fun p : Fin 65536 => g (p.val / 256) (p.val % 256)),
    Fintype.sum_prod_type]
  refine Finset.sum_congr rfl fun i _ => Finset.sum_congr rfl fun j _ => ?_
  have hv : (finProdFinEquiv (i, j)).val = j.val + 256 * i.val := rfl
  have hj := j.isLt
  rw [hv, show (j.val + 256 * i.val) / 256 = i.val by omega, show (j.val + 256 * i.val) % 256 = j.val by omega]

/-- There are 32640 cells above the diagonal. -/
theorem card_upper : #((range 65536).filter upper) = 32640 := by
  rw [Finset.card_filter]
  have h := sum_range_grid (M := ℕ) (fun a b => if a < b then 1 else 0)
  have e : (∑ p ∈ range 65536, if upper p then 1 else 0) = ∑ p ∈ range 65536, if p / 256 < p % 256 then 1 else 0 :=
    Finset.sum_congr rfl fun p _ => if_congr Iff.rfl rfl rfl
  rw [e, h]
  have hrow : ∀ i : Fin 256, (∑ j : Fin 256, if i.val < j.val then 1 else 0) = 255 - i.val := by
    intro i
    have hI : (Finset.univ.filter fun j : Fin 256 => i.val < j.val) = Finset.Ioi i := by
      ext j
      rw [Finset.mem_filter, Finset.mem_Ioi]
      exact ⟨fun h => Fin.lt_def.2 h.2, fun h => ⟨Finset.mem_univ _, Fin.lt_def.1 h⟩⟩
    rw [← Finset.card_filter, hI, Fin.card_Ioi]
  rw [Finset.sum_congr rfl fun i _ => hrow i, Fin.sum_univ_eq_sum_range (fun i => 255 - i) 256]
  have h1 : ∑ i ∈ range 256, (256 - 1 - i) = ∑ i ∈ range 256, i := Finset.sum_range_reflect (fun i => i) 256
  have h2 := Finset.sum_range_id_mul_two 256
  have h3 : ∑ i ∈ range 256, (255 - i) = ∑ i ∈ range 256, (256 - 1 - i) := rfl
  omega

/-- The flat position of the `k`-th cell above the diagonal. -/
def posk (k : ℕ) : ℕ := pos upper 65536 k
/-- Its row. -/
def iu (k : ℕ) : ℕ := posk k / 256
/-- Its column. -/
def ju (k : ℕ) : ℕ := posk k % 256

theorem posk_lt {k : ℕ} (hk : k < 32640) : posk k < 65536 :=
  (pos_spec upper (by rw [card_upper]; exact hk)).1

theorem iu_lt_ju {k : ℕ} (hk : k < 32640) : iu k < ju k :=
  (pos_spec upper (N := 65536) (by rw [card_upper]; exact hk)).2.1

theorem ju_lt (k : ℕ) : ju k < 256 := Nat.mod_lt _ (by norm_num)

theorem iu_lt {k : ℕ} (hk : k < 32640) : iu k < 256 := lt_trans (iu_lt_ju hk) (ju_lt k)

/-- The row and the column of the `k`-th listed cell, as grid coordinates. -/
def iuF (k : Fin 32640) : Fin 256 := ⟨iu k.val, iu_lt k.isLt⟩
def juF (k : Fin 32640) : Fin 256 := ⟨ju k.val, ju_lt k.val⟩

theorem iuF_lt_juF (k : Fin 32640) : iuF k < juF k := iu_lt_ju k.isLt

/-- A SUM OVER THE LISTED CELLS IS THE DOUBLE SUM OVER THE CELLS ABOVE THE DIAGONAL. -/
theorem sum_pairs {M : Type*} [AddCommMonoid M] (g : Fin 256 → Fin 256 → M) :
    ∑ k : Fin 32640, g (iuF k) (juF k) = ∑ i : Fin 256, ∑ j : Fin 256, if i < j then g i j else 0 := by
  let g' : ℕ → ℕ → M := fun a b => if h : a < 256 ∧ b < 256 then g ⟨a, h.1⟩ ⟨b, h.2⟩ else 0
  have hL : ∀ k : Fin 32640, g (iuF k) (juF k) = g' (posk k.val / 256) (posk k.val % 256) := by
    intro k
    show _ = if h : iu k.val < 256 ∧ ju k.val < 256 then g ⟨iu k.val, h.1⟩ ⟨ju k.val, h.2⟩ else 0
    rw [dif_pos ⟨iu_lt k.isLt, ju_lt k.val⟩]
    rfl
  rw [Finset.sum_congr rfl fun k _ => hL k,
    Fin.sum_univ_eq_sum_range (fun k => g' (posk k / 256) (posk k % 256)) 32640]
  have hc := card_upper
  have hs := sum_pos upper 65536 (fun p => g' (p / 256) (p % 256))
  rw [hc] at hs
  show ∑ k ∈ range 32640, g' (pos upper 65536 k / 256) (pos upper 65536 k % 256) = _
  rw [hs, Finset.sum_filter]
  have e : (∑ p ∈ range 65536, if upper p then g' (p / 256) (p % 256) else 0)
      = ∑ p ∈ range 65536, if p / 256 < p % 256 then g' (p / 256) (p % 256) else 0 :=
    Finset.sum_congr rfl fun p _ => if_congr Iff.rfl rfl rfl
  rw [e]
  refine (sum_range_grid (fun a b => if a < b then g' a b else 0)).trans ?_
  refine Finset.sum_congr rfl fun i _ => Finset.sum_congr rfl fun j _ => ?_
  show (if i.val < j.val then g' i.val j.val else 0) = if i < j then g i j else 0
  refine if_congr Fin.lt_def.symm ?_ rfl
  show (if h : i.val < 256 ∧ j.val < 256 then g ⟨i.val, h.1⟩ ⟨j.val, h.2⟩ else 0) = g i j
  rw [dif_pos ⟨i.isLt, j.isLt⟩]

/-- THE NUMBER OF LISTED CELLS WITH A PROPERTY IS THE NUMBER OF CELLS ABOVE THE DIAGONAL WITH IT. -/
theorem card_pairs (q : Fin 256 → Fin 256 → Prop) [∀ i j, Decidable (q i j)] :
    #(Finset.univ.filter fun k : Fin 32640 => q (iuF k) (juF k))
      = #(Finset.univ.filter fun ij : Fin 256 × Fin 256 => ij.1 < ij.2 ∧ q ij.1 ij.2) := by
  rw [Finset.card_filter, Finset.card_filter, sum_pairs (fun i j => if q i j then 1 else 0), Fintype.sum_prod_type]
  refine Finset.sum_congr rfl fun i _ => Finset.sum_congr rfl fun j _ => ?_
  by_cases h1 : i < j
  · by_cases h2 : q i j
    · rw [if_pos h1, if_pos h2, if_pos ⟨h1, h2⟩]
    · rw [if_pos h1, if_neg h2, if_neg (fun h => h2 h.2)]
  · rw [if_neg h1, if_neg (fun h => h1 h.1)]

end RankPairs
-- ==== Proof.LibGatherCols.lean ====
/-
  `stablehlo.gather` of whole columns of a matrix, read at an index.

  What `x[:, idx]` of a table `x : [N, C]` at an integer vector `idx : [E]` lowers to, the vector carried as an
  `[E, 1]` array of start indices: offset axes `[0]`, collapsed axes `[1]`, start index map `[1]`, the index vector on
  axis 1, slice sizes `[N, 1]`. Result element `(r, e)` is the table's element `(r, c)`, the column `c` being the start
  word `idx[e, 0]` read as a signed integer and clamped into `[0, C - 1]`: a negative word reads column 0, a word past
  the table its last column.
-/
import Idealize.ShloMosaic.Lib.ValueIdx

noncomputable section

namespace Idealize.ShloMosaic.ValueIdx

open Idealize.ShloMosaic

section Cols
variable {α : Type}

/-- Those dimension numbers for a table `[N, C]`, start indices `[E, 1]` and a result `[N, E]`; their conditions are
    decided on a program's literal shapes. -/
abbrev colsDims (N C E : Nat)
    (wf : GatherDims.WF ⟨2, ![N, C]⟩ ⟨2, ![E, 1]⟩ ⟨2, ![N, E]⟩ [0] [1] [] [1] [] 1 ![N, 1]) :
    GatherDims ⟨2, ![N, C]⟩ ⟨2, ![E, 1]⟩ ⟨2, ![N, E]⟩ where
  offsetDims := [0]
  collapsedSliceDims := [1]
  operandBatchingDims := []
  startIndicesBatchingDims := []
  startIndexMap := [1]
  indexVectorDim := 1
  sliceSizes := ![N, 1]
  wf := wf

/-- The column a start word names in a table of `C` columns: the word read signed, clamped into `[0, C - 1]`. -/
def clampCol (C : Nat) {w : Nat} (v : BitVec w) : Nat := min v.toInt.toNat (C - 1)

theorem clampCol_lt {C : Nat} (hC : 0 < C) {w : Nat} (v : BitVec w) : clampCol C v < C := by
  unfold clampCol; omega

/-- A word that, read signed, is a column of the table names that column. -/
theorem clampCol_of_lt {C : Nat} {w : Nat} (v : BitVec w) (h0 : 0 ≤ v.toInt) (h : v.toInt.toNat < C) :
    clampCol C v = v.toInt.toNat := by
  unfold clampCol; omega

/-- THE GATHER READ AT `(r, e)`: the table at row `r`, column `clampCol C idx[e, 0]`. -/
theorem gather_cols_apply {N C E w : Nat} (hC : 0 < C)
    (wf : GatherDims.WF ⟨2, ![N, C]⟩ ⟨2, ![E, 1]⟩ ⟨2, ![N, E]⟩ [0] [1] [] [1] [] 1 ![N, 1])
    (x : (⟨2, ![N, C]⟩ : Shape).Idx → α) (idx : IVec ⟨2, ![E, 1]⟩ w) (r : Fin N) (e : Fin E) :
    Host.gather (colsDims N C E wf) x idx (ix2 r e)
      = x (ix2 r ⟨clampCol C (idx (ix2 e (0 : Fin 1))), clampCol_lt hC _⟩) := by
  unfold Host.gather
  congr 1
  funext a
  refine Fin.ext ?_
  match a with
  | ⟨0, _⟩ =>
    show (colsDims N C E wf).start (ix2 r e) idx 0 + (colsDims N C E wf).batchCoord (ix2 r e) 0
      + (colsDims N C E wf).offCoord (ix2 r e) 0 = r.val
    rw [GatherDims.batchCoord_eq_zero _ _ _ List.not_mem_nil]
    unfold GatherDims.start
    rw [dif_neg (show ¬ (0 : Fin 2) ∈ (colsDims N C E wf).startIndexMap from
      fun h => absurd (congrArg Fin.val (List.mem_singleton.mp h)) Nat.zero_ne_one)]
    simp only [Nat.add_zero, Nat.zero_add]
    unfold GatherDims.offCoord
    rw [dif_pos (show (0 : Fin 2) ∈ (colsDims N C E wf).sKept from (GatherDims.mem_sKept _ _).mpr
      ⟨fun h => absurd (congrArg Fin.val (List.mem_singleton.mp h)) Nat.zero_ne_one, List.not_mem_nil⟩)]
    rfl
  | ⟨1, _⟩ =>
    show (colsDims N C E wf).start (ix2 r e) idx 1 + (colsDims N C E wf).batchCoord (ix2 r e) 1
      + (colsDims N C E wf).offCoord (ix2 r e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims N C E wf).startIndexMap from List.mem_singleton.mpr rfl)]
    have hsi : (colsDims N C E wf).siIdx (ix2 r e) ⟨List.idxOf (1 : Fin 2) (colsDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Cols

end Idealize.ShloMosaic.ValueIdx

end
-- ==== Proof.LibCumsum.lean ====
/-
  A running sum of integers read at an index.

  `jnp.cumsum` of an integer vector of length `n` lowers to a `stablehlo.reduce_window` with an adding body: window
  `n`, stride 1, `n - 1` positions of padding below and none above, the padding holding the initial value zero. The
  window of result element `j` covers the padded positions `j, …, j + n - 1`, that is the padding and then the
  operand's elements `0, …, j`: element `j` of the result is the sum of the operand's first `j + 1` elements. Sums of
  machine integers are sums in the ring of integers modulo `2 ^ w`, so no order or overflow question arises here.
-/
import Idealize.ShloMosaic.Lib.ValueIdx
import Mathlib.Data.BitVec

noncomputable section

namespace Idealize.ShloMosaic.ValueIdx

open Idealize.ShloMosaic

section Cumsum
variable {w : Nat}

/-- A left fold of machine-integer additions is the starting value plus the sum of the terms. -/
theorem foldl_addi_eq_sum {ι : Type} (g : ι → BitVec w) :
    ∀ (l : List ι) (v : BitVec w), l.foldl (fun r m => IntOp.addi r (g m)) v = v + (l.map g).sum
  | [], v => by simp
  | m :: l, v => by
    rw [List.foldl_cons, foldl_addi_eq_sum g l, List.map_cons, List.sum_cons]
    unfold IntOp.addi
    exact add_assoc _ _ _

/-- The indices of a vector of length `n` are the numbers below `n`. -/
def idxEquiv1 (n : Nat) : Fin n ≃ (⟨1, ![n]⟩ : Shape).Idx where
  toFun := ix1
  invFun := fun i => i 0
  left_inv := fun _ => rfl
  right_inv := fun i => (eq_ix1 i).symm

/-- A sum over the indices of a vector is the sum over the numbers below its length. -/
theorem sum_idx1 {M : Type*} [AddCommMonoid M] {n : Nat} (f : (⟨1, ![n]⟩ : Shape).Idx → M) :
    ∑ i, f i = ∑ k : Fin n, f (ix1 k) :=
  (Equiv.sum_comp (idxEquiv1 n) f).symm

/-- THE RUNNING SUM READ AT `j`: the sum of the operand's elements `0, …, j`. (`p` is the padding below, `n - 1`.) -/
theorem cumsum_apply {n p : Nat} (hp : p + 1 = n)
    (h : (⟨1, ![n]⟩ : Shape).ReduceWindows (![n] : Fin 1 → Nat) ![1] ![p] ![0] ⟨1, ![n]⟩)
    {u : Shape} (hu : 0 < u.numel) (x : IVec ⟨1, ![n]⟩ w) (init : IVec u w)
    (h0 : init (Shape.Idx.first hu) = 0) (j : Fin n) :
    Host.reduceWindow (s := ⟨1, ![n]⟩) IntOp.addi ![n] ![1] ![p] ![0] x init h hu (ix1 j)
      = ∑ k : Fin n, if k.val ≤ j.val then x (ix1 k) else 0 := by
  -- the operand as a function of a number, zero past its end
  let X : ℕ → BitVec w := fun i => if hi : i < n then x (ix1 ⟨i, hi⟩) else 0
  have hj : j.val < n := j.isLt
  -- both sides are the sum of `X` over the numbers up to `j`
  have hR : (∑ k : Fin n, if k.val ≤ j.val then x (ix1 k) else 0) = ∑ i ∈ Finset.range (j.val + 1), X i := by
    have e1 : (∑ k : Fin n, if k.val ≤ j.val then x (ix1 k) else 0)
        = ∑ k : Fin n, (fun m : ℕ => if m ≤ j.val then X m else 0) k.val := by
      refine Finset.sum_congr rfl fun k _ => ?_
      show _ = if k.val ≤ j.val then X k.val else 0
      have : X k.val = x (ix1 k) := by
        show (if hi : k.val < n then x (ix1 ⟨k.val, hi⟩) else 0) = _
        rw [dif_pos k.isLt]
      rw [this]
    rw [e1, Fin.sum_univ_eq_sum_range (fun m : ℕ => if m ≤ j.val then X m else 0) n, ← Finset.sum_filter]
    refine Finset.sum_congr ?_ fun _ _ => rfl
    ext m
    simp only [Finset.mem_filter, Finset.mem_range]
    omega
  rw [hR]
  unfold Host.reduceWindow
  simp only []
  rw [foldl_addi_eq_sum, h0, zero_add, ← Fin.sum_univ_def]
  refine ((Equiv.sum_comp (Shape.rowMajor ⟨1, ![n]⟩) _).symm.trans ?_)
  simp only [Equiv.symm_apply_apply]
  rw [sum_idx1]
  refine (Finset.sum_congr rfl (fun k _ =>
    show _ = (fun m : ℕ => if p ≤ j.val + m then X (j.val + m - p) else 0) k.val from ?_)).trans ?_
  · show _ = if p ≤ j.val + k.val then X (j.val + k.val - p) else 0
    by_cases hc : p ≤ j.val + k.val
    · rw [if_pos hc]
      have hlt : j.val + k.val - p < n := by have := k.isLt; omega
      have hX : X (j.val + k.val - p) = x (ix1 ⟨j.val + k.val - p, hlt⟩) := by
        show (if hi : j.val + k.val - p < n then x (ix1 ⟨j.val + k.val - p, hi⟩) else 0) = _
        rw [dif_pos hlt]
      rw [hX]
      split
      · congr 1
        funext a
        match a with
        | ⟨0, _⟩ => exact Fin.ext (by show j.val * 1 + k.val - p = j.val + k.val - p; omega)
      · rename_i hno
        exact absurd (fun a => by
          match a with
          | ⟨0, _⟩ =>
            exact ⟨by show p ≤ j.val * 1 + k.val; omega, by show j.val * 1 + k.val - p < n; omega⟩) hno
    · rw [if_neg hc]
      split
      · rename_i hyes
        have h1 : p ≤ j.val * 1 + k.val := (hyes 0).1
        exact absurd (by omega) hc
      · rfl
  rw [Fin.sum_univ_eq_sum_range (fun m : ℕ => if p ≤ j.val + m then X (j.val + m - p) else 0) n, ← Finset.sum_filter]
  have hset : (Finset.range n).filter (fun m => p ≤ j.val + m) = Finset.Ico (p - j.val) n := by
    ext m
    simp only [Finset.mem_filter, Finset.mem_range, Finset.mem_Ico]
    omega
  rw [hset, Finset.sum_Ico_eq_sum_range]
  have hlen : n - (p - j.val) = j.val + 1 := by omega
  rw [hlen]
  refine Finset.sum_congr rfl fun i hi => ?_
  have : j.val + (p - j.val + i) - p = i := by omega
  rw [this]

end Cumsum

end Idealize.ShloMosaic.ValueIdx

end
-- ==== Proof.RefLossValue.lean ====
/-
  The loss stretch's value at the ideal instance. Given the row vector and the column vector of the listed pairs (pair
  `k` is the cell `(iu k, ju k)` above the diagonal, as 32-bit words), every stage of the stretch is read at an
  index: the gathered columns are the inputs' columns `iu k` and `ju k`, the sign, the product and softplus are the
  specification's per-row terms, a count of a 0/1 indicator over the batch rows is the specification's count, the sum
  of the selected contributions its sum, and the per-pair mean its mean. Over the listed pairs the count of the pairs
  with a mean and the sum of the means are the specification's, through the correspondence of the listed pairs with
  the cells above the diagonal. So the stretch's result is the specification's loss.
-/
import proofs.«118690_j7060926235074_1_alg».proof.Proof.RefLossRead
import proofs.«118690_j7060926235074_1_alg».proof.Proof.RefPairs
import proofs.«118690_j7060926235074_1_alg».proof.Proof.Spec
import proofs.«118690_j7060926235074_1_alg».proof.Proof.LibGatherCols
import proofs.«118690_j7060926235074_1_alg».proof.Proof.LibCumsum
import Idealize.ShloMosaic.Lib.IndicatorCount
import Idealize.ShloMosaic.Lib.IdealHost
import Idealize.ShloMosaic.Lib.WordArith
import Idealize.ShloMosaic.Lib.Affine
import Idealize.ShloMosaic.PureOps.Ideal.Laws
import Idealize.ShloMosaic.PureOps.IdealRules

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx RankPairs

namespace Loss

/-! ## Words and bits -/

theorem select_of_eq_one {α : Type} {c : BitVec 1} (h : c = 1#1) (x y : α) : Scalar.select c x y = x := by
  rw [h]; exact select_one x y
theorem select_of_ne_one {α : Type} {c : BitVec 1} (h : ¬c = 1#1) (x y : α) : Scalar.select c x y = y := by
  rw [eq_zero_of_ne_one h]; exact select_zero x y

theorem zero32_toInt : (0#32 : BitVec 32).toInt = 0 := by decide
theorem one32_toInt : (1#32 : BitVec 32).toInt = 1 := by decide

/-- The signed maximum of two words reads signed as the maximum. -/
theorem toInt_maxsi (x y : BitVec 32) : (IntOp.maxsi x y).toInt = max x.toInt y.toInt := by
  unfold IntOp.maxsi
  by_cases h : y.slt x = true
  · rw [if_pos h]
    rw [BitVec.slt_iff_toInt_lt] at h
    exact (max_eq_left (le_of_lt h)).symm
  · rw [if_neg h]
    rw [BitVec.slt_iff_toInt_lt] at h
    exact (max_eq_right (not_lt.1 h)).symm

/-- A comparison of an extended real with itself for inequality is the zero bit. -/
theorem cmp_une_self (d : EReal) : Ideal.cmp .une d d = 0#1 := by
  show BitVec.ofBool (decide (d ≠ d)) = 0#1
  rw [decide_eq_false (fun h => h rfl)]
  rfl

theorem cmp_une_eq_one (x y : EReal) : Ideal.cmp .une x y = 1#1 ↔ x ≠ y := by
  show BitVec.ofBool (decide (x ≠ y)) = 1#1 ↔ _
  by_cases h : x ≠ y
  · rw [decide_eq_true h]; exact ⟨fun _ => h, fun _ => rfl⟩
  · rw [decide_eq_false h]; exact ⟨fun hh => absurd hh (by decide), fun hh => absurd hh h⟩

theorem cmp_ogt_eq_one (x y : EReal) : Ideal.cmp .ogt x y = 1#1 ↔ y < x := by
  show BitVec.ofBool (decide (y < x)) = 1#1 ↔ _
  by_cases h : y < x
  · rw [decide_eq_true h]; exact ⟨fun _ => h, fun _ => rfl⟩
  · rw [decide_eq_false h]; exact ⟨fun hh => absurd hh (by decide), fun hh => absurd hh h⟩

theorem one_f32 : Ideal.ofBits .f32 0x3F800000#32 = 1 := IdealRules.sign_bit.ideal_onePat .f32

/-! ## The shape operations at an index -/

/-- A vector as a one-column array reads the vector. -/
theorem bcast_col_apply (x : IVec S32640 32) (k : Fin 32640) :
    broadcastInDim S32640x1 ![0] bcast_S32640_S32640x1_0 x (ix2 k (0 : Fin 1)) = x (ix1 k) := by
  unfold broadcastInDim
  congr 1
  funext d
  match d with
  | ⟨0, _⟩ => rfl

/-- The start index of a pair whose coordinate is a column of the table is that coordinate. -/
theorem wrapIdx_apply (a : IVec S32640 32) (k : Fin 32640) (c : ℕ) (hc : c < 256)
    (ha : a (ix1 k) = BitVec.ofNat 32 c) : wrapIdx a (ix2 k (0 : Fin 1)) = BitVec.ofNat 32 c := by
  unfold wrapIdx
  rw [bcast_col_apply]
  show Scalar.select (IntOp.cmpi .slt (a (ix1 k)) 0#32) (IntOp.addi (a (ix1 k)) 256#32) (a (ix1 k)) = _
  have hn : ¬IntOp.cmpi .slt (a (ix1 k)) 0#32 = 1#1 := by
    rw [IntOp.cmpi_slt, ha, WordArith.toInt_ofNat_small c (by omega), zero32_toInt]
    omega
  rw [select_of_ne_one hn, ha]

/-- The gathered column of a pair is the table's column at the pair's coordinate. -/
theorem cols_apply (X : FVec Ideal S256x256 .f32) (a : IVec S32640 32) (r : Fin 256) (k : Fin 32640) (c : Fin 256)
    (ha : a (ix1 k) = BitVec.ofNat 32 c.val) : cols X a (ix2 r k) = X (ix2 r c) := by
  have h := gather_cols_apply (N := 256) (C := 256) (E := 32640) (by decide)
    gather_S256x256_S32640x1_S256x32640_0_1_n_n_1_1_2561.wf X (wrapIdx a) r k
  refine (show cols X a (ix2 r k) = _ from h).trans ?_
  have hw := wrapIdx_apply a k c.val c.isLt ha
  have ht : (BitVec.ofNat 32 c.val).toInt = (c.val : ℤ) := WordArith.toInt_ofNat_small c.val (by have := c.isLt; omega)
  have hcl : clampCol 256 (wrapIdx a (ix2 k (0 : Fin 1))) = c.val := by
    rw [hw, clampCol_of_lt _ (by rw [ht]; omega) (by rw [ht]; have := c.isLt; omega), ht]
    rfl
  congr 1
  congr 1
  exact Fin.ext hcl

/-- A count of a 0/1 indicator over the batch rows, per pair. -/
theorem reduce_rows_count (v : IVec S256x32640 1) (k : Fin 32640) :
    Host.reduce IntOp.addi (extui 32 v natLt_1_32) (constantI S_ 32 0#32) reducesTo_S256x32640_S32640_d0 h_S_ (ix1 k)
      = BitVec.ofNat 32 (Finset.univ.filter fun r : Fin 256 => v (ix2 r k) = 1#1).card := by
  have h : S256x32640.Reduces [0] S32640 := by decide
  refine (Host.reduce_eq_fold_single IntOp.addi _ _ reducesTo_S256x32640_S32640_d0 h h_S_ (ix1 k)).trans ?_
  have hl : ∀ r : Fin 256, h.lift (ix1 k) r = ix2 r k := fun r => by
    funext d
    match d with
    | ⟨0, _⟩ => exact Fin.ext rfl
    | ⟨1, _⟩ => exact Fin.ext rfl
  have e : ((extui 32 v natLt_1_32) ∘ h.lift (ix1 k)) = fun r : Fin 256 => (v (ix2 r k)).setWidth 32 := by
    funext r
    show (v (h.lift (ix1 k) r)).setWidth 32 = _
    rw [hl r]
  rw [e]
  exact IndicatorCount.fold_addi_setWidth_eq_card (fun r : Fin 256 => v (ix2 r k)) Finset.univ

theorem reduce_all_fold (v : IVec S32640 1) (j : S_.Idx) :
    Host.reduce IntOp.addi (extui 32 v natLt_1_32) (constantI S_ 32 0#32) reducesTo_S32640_S_d0 h_S_ j
      = (Finset.univ.filter fun i => reducesTo_S32640_S_d0.drop i = j).fold IntOp.addi
          ((constantI S_ 32 0#32) (Shape.Idx.first h_S_)) (extui 32 v natLt_1_32) :=
  Host.reduce_eq_fold IntOp.addi _ _ reducesTo_S32640_S_d0 h_S_ j

theorem drop_all (j : S_.Idx) :
    (Finset.univ.filter fun i : S32640.Idx => reducesTo_S32640_S_d0.drop i = j) = Finset.univ :=
  Finset.filter_true_of_mem fun i _ => funext fun b => b.elim0

theorem fold_all_count (v : IVec S32640 1) :
    (Finset.univ : Finset S32640.Idx).fold IntOp.addi (0#32) (fun i => (v i).setWidth 32)
      = BitVec.ofNat 32 (Finset.univ.filter fun i : S32640.Idx => v i = 1#1).card :=
  IndicatorCount.fold_addi_setWidth_eq_card (fun i : S32640.Idx => v i) Finset.univ

theorem card_idx1 (v : IVec S32640 1) :
    (Finset.univ.filter fun i : S32640.Idx => v i = 1#1).card = (Finset.univ.filter fun k : Fin 32640 => v (ix1 k) = 1#1).card := by
  rw [Finset.card_filter, Finset.card_filter]
  exact sum_idx1 (fun i : S32640.Idx => if v i = 1#1 then 1 else 0)

/-- A count of a 0/1 indicator over the pairs. -/
theorem reduce_all_count (v : IVec S32640 1) (j : S_.Idx) :
    Host.reduce IntOp.addi (extui 32 v natLt_1_32) (constantI S_ 32 0#32) reducesTo_S32640_S_d0 h_S_ j
      = BitVec.ofNat 32 (Finset.univ.filter fun k : Fin 32640 => v (ix1 k) = 1#1).card := by
  rw [reduce_all_fold, drop_all, ← card_idx1]
  exact fold_all_count v

/-- A float sum over the batch rows, per pair. -/
theorem reduceAdd_rows (x : FVec Ideal S256x32640 .f32) (init : FVec Ideal S_ .f32) (k : Fin 32640) :
    Host.reduceAdd x init reducesTo_S256x32640_S32640_d0 h_S_ (ix1 k) = init ix0 + ∑ r : Fin 256, x (ix2 r k) := by
  have h : S256x32640.Reduces [0] S32640 := by decide
  refine (Ideal.hostReduceAdd_single reducesTo_S256x32640_S32640_d0 h x (init (Shape.Idx.first h_S_)) (ix1 k)).trans ?_
  have hl : ∀ r : Fin 256, h.lift (ix1 k) r = ix2 r k := fun r => by
    funext d
    match d with
    | ⟨0, _⟩ => exact Fin.ext rfl
    | ⟨1, _⟩ => exact Fin.ext rfl
  rw [eq_ix0 (Shape.Idx.first h_S_)]
  congr 1
  exact Finset.sum_congr rfl fun r _ => by rw [hl r]

theorem reduceAdd_all_idx (x : FVec Ideal S32640 .f32) (init : FVec Ideal S_ .f32) (j : S_.Idx) :
    Host.reduceAdd x init reducesTo_S32640_S_d0 h_S_ j = init (Shape.Idx.first h_S_) + ∑ i : S32640.Idx, x i :=
  Ideal.hostReduceAdd_total reducesTo_S32640_S_d0 (fun b => b.elim0) x (init (Shape.Idx.first h_S_)) j

/-- A float sum over the pairs. -/
theorem reduceAdd_all (x : FVec Ideal S32640 .f32) (init : FVec Ideal S_ .f32) (j : S_.Idx) :
    Host.reduceAdd x init reducesTo_S32640_S_d0 h_S_ j = init ix0 + ∑ k : Fin 32640, x (ix1 k) := by
  rw [reduceAdd_all_idx, eq_ix0 (Shape.Idx.first h_S_), sum_idx1 x]

/-! ## The stages at a pair -/

section Stages

variable (P R : FVec Ideal S256x256 .f32) (a b : IVec S32640 32)
  (ha : ∀ k : Fin 32640, a (ix1 k) = BitVec.ofNat 32 (iu k.val))
  (hb : ∀ k : Fin 32640, b (ix1 k) = BitVec.ofNat 32 (ju k.val))

include ha hb

omit ha hb in
theorem zeroB_apply' (i : S256x32640.Idx) : zeroB (F := Ideal) i = 0 := Ideal.ofBits_zero_f32
omit ha hb in
theorem zeroS_apply' (i : S_.Idx) : zeroS (F := Ideal) i = 0 := Ideal.ofBits_zero_f32

/-- The sign stage is the specification's sign. -/
theorem sgnV_apply (r : Fin 256) (k : Fin 32640) :
    sgnV R a b (ix2 r k) = RankSpec.sgn R r (iuF k) (juF k) := by
  show Ideal.sign (cols R a (ix2 r k) - cols R b (ix2 r k)) = _
  rw [cols_apply R a r k (iuF k) (ha k), cols_apply R b r k (juF k) (hb k)]
  rfl

/-- The softplus stage of the product stage is the specification's contribution. -/
theorem loss_apply (r : Fin 256) (k : Fin 32640) :
    softplusV (xV P R a b) (ix2 r k) = RankSpec.loss P R r (iuF k) (juF k) := by
  have hx : xV P R a b (ix2 r k)
      = RankSpec.negOne * RankSpec.sgn R r (iuF k) (juF k) * (P (ix2 r (iuF k)) - P (ix2 r (juF k))) := by
    show RankSpec.negOne * sgnV R a b (ix2 r k) * (cols P a (ix2 r k) - cols P b (ix2 r k)) = _
    rw [sgnV_apply R a b ha hb r k, cols_apply P a r k (iuF k) (ha k), cols_apply P b r k (juF k) (hb k)]
  show Scalar.select
      (Ideal.cmp .une (xV P R a b (ix2 r k) - zeroB (F := Ideal) (ix2 r k)) (xV P R a b (ix2 r k) - zeroB (F := Ideal) (ix2 r k)))
      (xV P R a b (ix2 r k) + zeroB (F := Ideal) (ix2 r k))
      (max (xV P R a b (ix2 r k)) (zeroB (F := Ideal) (ix2 r k))
        + Ideal.log1p (Ideal.exp (-(max (xV P R a b (ix2 r k) - zeroB (F := Ideal) (ix2 r k))
            (-(xV P R a b (ix2 r k) - zeroB (F := Ideal) (ix2 r k))))))) = _
  rw [cmp_une_self, select_zero, zeroB_apply', hx]
  rfl

/-- The validity bit is set exactly where the specification's sign is not zero. -/
theorem validV_apply (r : Fin 256) (k : Fin 32640) :
    validV R a b (ix2 r k) = 1#1 ↔ RankSpec.sgn R r (iuF k) (juF k) ≠ 0 := by
  show Ideal.cmp .une (sgnV R a b (ix2 r k)) (zeroB (F := Ideal) (ix2 r k)) = 1#1 ↔ _
  rw [cmp_une_eq_one, sgnV_apply R a b ha hb r k, zeroB_apply']

/-- The count stage is the specification's count, as a word. -/
theorem cntV_apply (k : Fin 32640) : cntV R a b (ix1 k) = BitVec.ofNat 32 (RankSpec.cntN R (iuF k) (juF k)) := by
  unfold cntV
  rw [reduce_rows_count]
  congr 1
  unfold RankSpec.cntN
  congr 1
  ext r
  simp only [Finset.mem_filter, Finset.mem_univ, true_and]
  exact validV_apply R a b ha hb r k

omit ha hb in
theorem cntN_le (i j : Fin 256) : RankSpec.cntN R i j ≤ 256 := by
  unfold RankSpec.cntN
  exact (Finset.card_filter_le _ _).trans (by rw [Finset.card_univ, Fintype.card_fin])

theorem cntV_toInt (k : Fin 32640) : (cntV R a b (ix1 k)).toInt = (RankSpec.cntN R (iuF k) (juF k) : ℤ) := by
  rw [cntV_apply R a b ha hb k]
  exact WordArith.toInt_ofNat_small _ (by have := cntN_le R (iuF k) (juF k); omega)

/-- The sum stage is the specification's sum. -/
theorem sumV_apply (k : Fin 32640) : sumV P R a b (ix1 k) = RankSpec.sumL P R (iuF k) (juF k) := by
  unfold sumV
  rw [reduceAdd_rows, zeroS_apply', zero_add]
  unfold RankSpec.sumL
  refine Finset.sum_congr rfl fun r _ => ?_
  show Scalar.select (validV R a b (ix2 r k)) (softplusV (xV P R a b) (ix2 r k)) (zeroS (F := Ideal) ix0) = _
  by_cases hs : RankSpec.sgn R r (iuF k) (juF k) ≠ 0
  · rw [select_of_eq_one ((validV_apply R a b ha hb r k).2 hs), if_pos hs, loss_apply P R a b ha hb r k]
  · rw [select_of_ne_one (fun h => hs ((validV_apply R a b ha hb r k).1 h)), if_neg hs, zeroS_apply']

/-- A pair has a valid row exactly when the specification's count is positive. -/
theorem hasV_apply (k : Fin 32640) : hasV R a b (ix1 k) = 1#1 ↔ 0 < RankSpec.cntN R (iuF k) (juF k) := by
  show IntOp.cmpi .sgt (cntV R a b (ix1 k)) 0#32 = 1#1 ↔ _
  rw [IntOp.cmpi_sgt, cntV_toInt R a b ha hb k, zero32_toInt]
  exact Int.natCast_pos

/-- The mean stage is the specification's mean. -/
theorem meanV_apply (k : Fin 32640) : meanV P R a b (ix1 k) = RankSpec.pairMean P R (iuF k) (juF k) := by
  show Scalar.select (hasV R a b (ix1 k))
      (Ideal.div (sumV P R a b (ix1 k)) (((IntOp.maxsi (cntV R a b (ix1 k)) 1#32).toInt : ℝ) : EReal))
      (zeroS (F := Ideal) ix0) = _
  unfold RankSpec.pairMean
  by_cases hp : 0 < RankSpec.cntN R (iuF k) (juF k)
  · rw [select_of_eq_one ((hasV_apply R a b ha hb k).2 hp), if_pos hp, sumV_apply P R a b ha hb k, toInt_maxsi,
      cntV_toInt R a b ha hb k, one32_toInt]
    congr 1
    rw [Int.cast_max, Int.cast_natCast, Int.cast_one, EReal.coe_strictMono.monotone.map_max, EReal.coe_one]
  · rw [select_of_ne_one (fun h => hp ((hasV_apply R a b ha hb k).1 h)), if_neg hp, zeroS_apply']

/-- The number of pairs with a mean is the specification's. -/
theorem npV_apply (j : S_.Idx) : npV R a b j = ((RankSpec.npairs R : ℝ) : EReal) := by
  show (((Host.reduce IntOp.addi (extui 32 (hasV R a b) natLt_1_32) (constantI S_ 32 0#32) reducesTo_S32640_S_d0 h_S_ j).toInt : ℝ) : EReal) = _
  rw [reduce_all_count]
  have hc : (Finset.univ.filter fun k : Fin 32640 => hasV R a b (ix1 k) = 1#1).card = RankSpec.npairs R := by
    have e : (Finset.univ.filter fun k : Fin 32640 => hasV R a b (ix1 k) = 1#1)
        = Finset.univ.filter fun k : Fin 32640 => 0 < RankSpec.cntN R (iuF k) (juF k) := by
      ext k
      simp only [Finset.mem_filter, Finset.mem_univ, true_and]
      exact hasV_apply R a b ha hb k
    rw [e, card_pairs (fun i j => 0 < RankSpec.cntN R i j)]
    unfold RankSpec.npairs
    first | rfl | congr 1
  rw [hc]
  have hle : RankSpec.npairs R ≤ 65536 := by
    unfold RankSpec.npairs
    refine (Finset.card_filter_le _ _).trans ?_
    rw [Finset.card_univ, Fintype.card_prod, Fintype.card_fin]
  rw [WordArith.toInt_ofNat_small _ (by omega), Int.cast_natCast]

/-- The sum of the means is the specification's. -/
theorem totV_apply (j : S_.Idx) : totV P R a b j = RankSpec.total P R := by
  unfold totV
  rw [reduceAdd_all, zeroS_apply', zero_add, Finset.sum_congr rfl fun k _ => meanV_apply P R a b ha hb k,
    sum_pairs (fun i j => RankSpec.pairMean P R i j)]
  rfl

/-- THE STRETCH'S VALUE: the specification's loss. -/
theorem resV_apply (j : S_.Idx) : resV P R a b j = RankSpec.result P R := by
  show Scalar.select (Ideal.cmp .ogt (npV R a b j) (zeroS (F := Ideal) j))
      (Ideal.div (totV P R a b j) (max (npV R a b j) (Ideal.ofBits .f32 0x3F800000#32)))
      (zeroS (F := Ideal) j) = _
  unfold RankSpec.result
  rw [npV_apply R a b ha hb j, totV_apply P R a b ha hb j, zeroS_apply', one_f32]
  by_cases hp : 0 < RankSpec.npairs R
  · have hc : Ideal.cmp .ogt ((RankSpec.npairs R : ℝ) : EReal) 0 = 1#1 :=
      (cmp_ogt_eq_one _ _).2 (EReal.coe_pos.2 (Nat.cast_pos.2 hp))
    rw [select_of_eq_one hc, if_pos hp]
  · have hc : ¬Ideal.cmp .ogt ((RankSpec.npairs R : ℝ) : EReal) 0 = 1#1 := fun h =>
      hp (Nat.cast_pos.1 (EReal.coe_pos.1 ((cmp_ogt_eq_one _ _).1 h)))
    rw [select_of_ne_one hc, if_neg hp]

end Stages

end Loss

end Cert.ReferenceIdeal.RefRun

end
-- ==== Proof.RefRowColRead.lean ====
/-
  The row and column stretch of the reference, staged: floor division and remainder of a vector of positions by a
  scalar, as the program writes them (a truncating division or remainder and a correction where the signs differ), and
  the two vectors the stretch ends with: the positions floor-divided by 256 and reduced modulo 256, and the positions
  floor-divided by 1 and reduced modulo 256.
-/
import proofs.«118690_j7060926235074_1_alg».proof.Proof.RefStages
import proofs.«118690_j7060926235074_1_alg».proof.Proof.LibResultsInside
import proofs.«118690_j7060926235074_1_alg».proof.Proof.LibTypedRef

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

namespace RowCol

/-- A scalar word at every position. -/
abbrev bc (c : IVec S_ 32) : IVec S32640 32 := broadcastInDim S32640 ![] bcast_S_S32640 c

/-- Floor division by a scalar: the truncating quotient, less one where the signs differ and the remainder is not zero. -/
def floorDivV (x : IVec S32640 32) (c : IVec S_ 32) : IVec S32640 32 :=
  select
    (andi (cmpi .ne (signi x) (bc (signi c))) (cmpi .ne (Host.remsi x (bc c)) (bc (constantI S_ 32 0#32))))
    (subi (Host.divsi x (bc c)) (bc (constantI S_ 32 1#32)))
    (Host.divsi x (bc c))

/-- The divisor the remainder uses: one in place of zero. -/
def remDen (c : IVec S_ 32) : IVec S_ 32 :=
  select (cmpi .eq (id c) (constantI S_ 32 0#32)) (constantI S_ 32 1#32) (id c)

/-- The remainder with the divisor's sign: the truncating remainder, plus the divisor where it is not zero and its sign
    differs from the divisor's. -/
def remV (x : IVec S32640 32) (c : IVec S_ 32) : IVec S32640 32 :=
  select
    (andi
      (cmpi .ne (cmpi .slt (Host.remsi x (bc (remDen c))) (bc (constantI S_ 32 0#32)))
        (broadcastInDim S32640 ![] bcast_S_S32640 (cmpi .slt (remDen c) (constantI S_ 32 0#32))))
      (cmpi .ne (Host.remsi x (bc (remDen c))) (bc (constantI S_ 32 0#32))))
    (addi (Host.remsi x (bc (remDen c))) (bc (remDen c)))
    (Host.remsi x (bc (remDen c)))

/-- The rows of the positions. -/
def rowV (x : IVec S32640 32) : IVec S32640 32 := remV (floorDivV x (constantI S_ 32 256#32)) (constantI S_ 32 256#32)
/-- The columns of the positions. -/
def colV (x : IVec S32640 32) : IVec S32640 32 := remV (floorDivV x (constantI S_ 32 1#32)) (constantI S_ 32 256#32)

end RowCol

theorem ofBuf_main_c_5 (h1 : (main_c_5 : Ref sig .tc).ty = (⟨S_, .i32⟩ : BufTy)) (h2 : (main_c_5 : Ref sig .tc).space ≠ .host)
    (h3 : (main_c_5 : Ref sig .tc).isScoped = false) (v : (main_c_5 : Ref sig .tc).ty.Contents (Elt F)) :
    (TRef.of (T := ⟨S_, .i32⟩) main_c_5 h1 h2 h3).ofBuf v = v := rfl
theorem toBuf_main_c_5 (h1 : (main_c_5 : Ref sig .tc).ty = (⟨S_, .i32⟩ : BufTy)) (h2 : (main_c_5 : Ref sig .tc).space ≠ .host)
    (h3 : (main_c_5 : Ref sig .tc).isScoped = false) (v : (⟨S_, .i32⟩ : BufTy).Contents (Elt F)) :
    (TRef.of (T := ⟨S_, .i32⟩) main_c_5 h1 h2 h3).toBuf v = v := rfl
theorem ofBuf_main_v15 (h1 : (main_v15 : Ref sig .tc).ty = (⟨S32640, .i32⟩ : BufTy)) (h2 : (main_v15 : Ref sig .tc).space ≠ .host)
    (h3 : (main_v15 : Ref sig .tc).isScoped = false) (v : (main_v15 : Ref sig .tc).ty.Contents (Elt F)) :
    (TRef.of (T := ⟨S32640, .i32⟩) main_v15 h1 h2 h3).ofBuf v = v := rfl
theorem toBuf_main_v15 (h1 : (main_v15 : Ref sig .tc).ty = (⟨S32640, .i32⟩ : BufTy)) (h2 : (main_v15 : Ref sig .tc).space ≠ .host)
    (h3 : (main_v15 : Ref sig .tc).isScoped = false) (v : (⟨S32640, .i32⟩ : BufTy).Contents (Elt F)) :
    (TRef.of (T := ⟨S32640, .i32⟩) main_v15 h1 h2 h3).toBuf v = v := rfl
theorem ofBuf_main_v16 (h1 : (main_v16 : Ref sig .tc).ty = (⟨S32640, .i32⟩ : BufTy)) (h2 : (main_v16 : Ref sig .tc).space ≠ .host)
    (h3 : (main_v16 : Ref sig .tc).isScoped = false) (v : (main_v16 : Ref sig .tc).ty.Contents (Elt F)) :
    (TRef.of (T := ⟨S32640, .i32⟩) main_v16 h1 h2 h3).ofBuf v = v := rfl
theorem toBuf_main_v16 (h1 : (main_v16 : Ref sig .tc).ty = (⟨S32640, .i32⟩ : BufTy)) (h2 : (main_v16 : Ref sig .tc).space ≠ .host)
    (h3 : (main_v16 : Ref sig .tc).isScoped = false) (v : (⟨S32640, .i32⟩ : BufTy).Contents (Elt F)) :
    (TRef.of (T := ⟨S32640, .i32⟩) main_v16 h1 h2 h3).toBuf v = v := rfl
theorem ofBuf_main_c_6 (h1 : (main_c_6 : Ref sig .tc).ty = (⟨S_, .i32⟩ : BufTy)) (h2 : (main_c_6 : Ref sig .tc).space ≠ .host)
    (h3 : (main_c_6 : Ref sig .tc).isScoped = false) (v : (main_c_6 : Ref sig .tc).ty.Contents (Elt F)) :
    (TRef.of (T := ⟨S_, .i32⟩) main_c_6 h1 h2 h3).ofBuf v = v := rfl
theorem toBuf_main_c_6 (h1 : (main_c_6 : Ref sig .tc).ty = (⟨S_, .i32⟩ : BufTy)) (h2 : (main_c_6 : Ref sig .tc).space ≠ .host)
    (h3 : (main_c_6 : Ref sig .tc).isScoped = false) (v : (⟨S_, .i32⟩ : BufTy).Contents (Elt F)) :
    (TRef.of (T := ⟨S_, .i32⟩) main_c_6 h1 h2 h3).toBuf v = v := rfl
theorem ofBuf_main_c_7 (h1 : (main_c_7 : Ref sig .tc).ty = (⟨S_, .i32⟩ : BufTy)) (h2 : (main_c_7 : Ref sig .tc).space ≠ .host)
    (h3 : (main_c_7 : Ref sig .tc).isScoped = false) (v : (main_c_7 : Ref sig .tc).ty.Contents (Elt F)) :
    (TRef.of (T := ⟨S_, .i32⟩) main_c_7 h1 h2 h3).ofBuf v = v := rfl
theorem toBuf_main_c_7 (h1 : (main_c_7 : Ref sig .tc).ty = (⟨S_, .i32⟩ : BufTy)) (h2 : (main_c_7 : Ref sig .tc).space ≠ .host)
    (h3 : (main_c_7 : Ref sig .tc).isScoped = false) (v : (⟨S_, .i32⟩ : BufTy).Contents (Elt F)) :
    (TRef.of (T := ⟨S_, .i32⟩) main_c_7 h1 h2 h3).toBuf v = v := rfl
theorem ofBuf_main_v18 (h1 : (main_v18 : Ref sig .tc).ty = (⟨S32640, .i32⟩ : BufTy)) (h2 : (main_v18 : Ref sig .tc).space ≠ .host)
    (h3 : (main_v18 : Ref sig .tc).isScoped = false) (v : (main_v18 : Ref sig .tc).ty.Contents (Elt F)) :
    (TRef.of (T := ⟨S32640, .i32⟩) main_v18 h1 h2 h3).ofBuf v = v := rfl
theorem toBuf_main_v18 (h1 : (main_v18 : Ref sig .tc).ty = (⟨S32640, .i32⟩ : BufTy)) (h2 : (main_v18 : Ref sig .tc).space ≠ .host)
    (h3 : (main_v18 : Ref sig .tc).isScoped = false) (v : (⟨S32640, .i32⟩ : BufTy).Contents (Elt F)) :
    (TRef.of (T := ⟨S32640, .i32⟩) main_v18 h1 h2 h3).toBuf v = v := rfl
theorem ofBuf_main_c_8 (h1 : (main_c_8 : Ref sig .tc).ty = (⟨S_, .i32⟩ : BufTy)) (h2 : (main_c_8 : Ref sig .tc).space ≠ .host)
    (h3 : (main_c_8 : Ref sig .tc).isScoped = false) (v : (main_c_8 : Ref sig .tc).ty.Contents (Elt F)) :
    (TRef.of (T := ⟨S_, .i32⟩) main_c_8 h1 h2 h3).ofBuf v = v := rfl
theorem toBuf_main_c_8 (h1 : (main_c_8 : Ref sig .tc).ty = (⟨S_, .i32⟩ : BufTy)) (h2 : (main_c_8 : Ref sig .tc).space ≠ .host)
    (h3 : (main_c_8 : Ref sig .tc).isScoped = false) (v : (⟨S_, .i32⟩ : BufTy).Contents (Elt F)) :
    (TRef.of (T := ⟨S_, .i32⟩) main_c_8 h1 h2 h3).toBuf v = v := rfl
theorem ofBuf_main_v17 (h1 : (main_v17 : Ref sig .tc).ty = (⟨S32640, .i32⟩ : BufTy)) (h2 : (main_v17 : Ref sig .tc).space ≠ .host)
    (h3 : (main_v17 : Ref sig .tc).isScoped = false) (v : (main_v17 : Ref sig .tc).ty.Contents (Elt F)) :
    (TRef.of (T := ⟨S32640, .i32⟩) main_v17 h1 h2 h3).ofBuf v = v := rfl
theorem toBuf_main_v17 (h1 : (main_v17 : Ref sig .tc).ty = (⟨S32640, .i32⟩ : BufTy)) (h2 : (main_v17 : Ref sig .tc).space ≠ .host)
    (h3 : (main_v17 : Ref sig .tc).isScoped = false) (v : (⟨S32640, .i32⟩ : BufTy).Contents (Elt F)) :
    (TRef.of (T := ⟨S32640, .i32⟩) main_v17 h1 h2 h3).toBuf v = v := rfl
theorem ofBuf_main_v19 (h1 : (main_v19 : Ref sig .tc).ty = (⟨S32640, .i32⟩ : BufTy)) (h2 : (main_v19 : Ref sig .tc).space ≠ .host)
    (h3 : (main_v19 : Ref sig .tc).isScoped = false) (v : (main_v19 : Ref sig .tc).ty.Contents (Elt F)) :
    (TRef.of (T := ⟨S32640, .i32⟩) main_v19 h1 h2 h3).ofBuf v = v := rfl
theorem toBuf_main_v19 (h1 : (main_v19 : Ref sig .tc).ty = (⟨S32640, .i32⟩ : BufTy)) (h2 : (main_v19 : Ref sig .tc).space ≠ .host)
    (h3 : (main_v19 : Ref sig .tc).isScoped = false) (v : (⟨S32640, .i32⟩ : BufTy).Contents (Elt F)) :
    (TRef.of (T := ⟨S32640, .i32⟩) main_v19 h1 h2 h3).toBuf v = v := rfl

set_option maxRecDepth 16384 in
set_option maxHeartbeats 4000000 in
/-- The stretch leaves the rows of the positions in its first result … -/
theorem rowcol_read_row (W : Valuation τ sig (Elt F)) :
    after opsRowCol W (main_v17 : DevRef τ sig) = RowCol.rowV (W (main_v15 : DevRef τ sig)) := by
  after_results_simp
  simp only [TRef.ofBuf_toBuf, ofBuf_main_c_5, toBuf_main_c_5, ofBuf_main_v15, toBuf_main_v15, ofBuf_main_v16, toBuf_main_v16, ofBuf_main_c_6, toBuf_main_c_6, ofBuf_main_c_7, toBuf_main_c_7, ofBuf_main_v18, toBuf_main_v18, ofBuf_main_c_8, toBuf_main_c_8, ofBuf_main_v17, toBuf_main_v17, ofBuf_main_v19, toBuf_main_v19]
  rfl

set_option maxRecDepth 16384 in
set_option maxHeartbeats 4000000 in
/-- … and their columns in its second. -/
theorem rowcol_read_col (W : Valuation τ sig (Elt F)) :
    after opsRowCol W (main_v19 : DevRef τ sig) = RowCol.colV (W (main_v15 : DevRef τ sig)) := by
  after_results_simp
  simp only [TRef.ofBuf_toBuf, ofBuf_main_c_5, toBuf_main_c_5, ofBuf_main_v15, toBuf_main_v15, ofBuf_main_v16, toBuf_main_v16, ofBuf_main_c_6, toBuf_main_c_6, ofBuf_main_c_7, toBuf_main_c_7, ofBuf_main_v18, toBuf_main_v18, ofBuf_main_c_8, toBuf_main_c_8, ofBuf_main_v17, toBuf_main_v17, ofBuf_main_v19, toBuf_main_v19]
  rfl

set_option maxRecDepth 16384 in
set_option maxHeartbeats 4000000 in
/-- The stretch writes neither input. -/
theorem rowcol_kept0 (W : Valuation τ sig (Elt F)) :
    after opsRowCol W (main_arg0 : DevRef τ sig) = W (main_arg0 : DevRef τ sig) := by
  after_results_simp

set_option maxRecDepth 16384 in
set_option maxHeartbeats 4000000 in
theorem rowcol_kept1 (W : Valuation τ sig (Elt F)) :
    after opsRowCol W (main_arg1 : DevRef τ sig) = W (main_arg1 : DevRef τ sig) := by
  after_results_simp

end Cert.ReferenceIdeal.RefRun

end
-- ==== Proof.RefRowColValue.lean ====
/-
  The row and column stretch's value: on a vector of positions below 65536 (as 32-bit words, so nonnegative read
  signed) floor division by 256 or by 1 is the quotient and its remainder modulo 256 the remainder — the sign
  corrections never fire on nonnegative operands — so the stretch's two results are the rows `p / 256` and the columns
  `p % 256` of the positions.
-/
import proofs.«118690_j7060926235074_1_alg».proof.Proof.RefRowColRead
import proofs.«118690_j7060926235074_1_alg».proof.Proof.RefPairs
import Idealize.ShloMosaic.Lib.ValueIdx
import Idealize.ShloMosaic.Lib.IdealHost
import Idealize.ShloMosaic.Lib.WordArith
import Idealize.ShloMosaic.Lib.Affine

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx RankPairs

namespace RowCol

/-! ## Words -/

theorem sel_of_ne_one {α : Type} {c : BitVec 1} (h : ¬c = 1#1) (x y : α) : Scalar.select c x y = y := by
  rw [eq_zero_of_ne_one h]; exact select_zero x y

theorem toNat_ofNat_small (p : ℕ) (hp : p < 2 ^ 31) : (BitVec.ofNat 32 p).toNat = p := by
  rw [BitVec.toNat_ofNat]; omega

theorem msb_ofNat_small (p : ℕ) (hp : p < 2 ^ 31) : (BitVec.ofNat 32 p).msb = false := by
  rw [BitVec.msb_eq_false_iff_two_mul_lt, toNat_ofNat_small p hp]; omega

/-- The truncating quotient of a nonnegative word by a positive one is the quotient. -/
theorem divsi_ofNat (u : ArithUnit) (p c : ℕ) (hp : p < 2 ^ 31) (hc0 : 0 < c) (hc : c < 2 ^ 31) :
    IntOp.divsi u (BitVec.ofNat 32 p) (BitVec.ofNat 32 c) = BitVec.ofNat 32 (p / c) := by
  have hy : 0 < (BitVec.ofNat 32 c).toInt := by rw [WordArith.toInt_ofNat_small c hc]; omega
  rw [IntOp.divsi, if_neg (IntOp.not_corner_of_pos hy), BitVec.sdiv_eq, msb_ofNat_small p hp, msb_ofNat_small c hc]
  dsimp only
  rw [BitVec.udiv_eq]
  apply BitVec.eq_of_toNat_eq
  rw [BitVec.toNat_udiv, toNat_ofNat_small p hp, toNat_ofNat_small c hc, BitVec.toNat_ofNat]
  exact (Nat.mod_eq_of_lt (lt_of_le_of_lt (Nat.div_le_self p c) (by omega))).symm

/-- The truncating remainder of a nonnegative word by a positive one is the remainder. -/
theorem remsi_ofNat (u : ArithUnit) (q k : ℕ) (hq : q < 2 ^ 31) (hk : 0 < k) (hk' : k < 2 ^ 31) :
    IntOp.remsi u (BitVec.ofNat 32 q) (BitVec.ofNat 32 k) = BitVec.ofNat 32 (q % k) := by
  apply BitVec.eq_of_toNat_eq
  rw [IntOp.toNat_remsi u (by rw [toNat_ofNat_small q hq]; omega) k hk (by omega), toNat_ofNat_small q hq,
    BitVec.toNat_ofNat]
  exact (Nat.mod_eq_of_lt (lt_of_lt_of_le (Nat.mod_lt q hk) (by omega))).symm

/-- The sign word of a word. -/
def sgnw (x : BitVec 32) : BitVec 32 := if x = 0 then 0 else if x.msb then -1 else 1

theorem sgnw_pos (c : ℕ) (hc0 : 0 < c) (hc : c < 2 ^ 31) : sgnw (BitVec.ofNat 32 c) = 1 := by
  have hne : BitVec.ofNat 32 c ≠ 0 := fun e => by
    have := congrArg BitVec.toNat e
    rw [toNat_ofNat_small c hc] at this
    have h0 : (0 : BitVec 32).toNat = 0 := rfl
    omega
  unfold sgnw
  rw [if_neg hne, msb_ofNat_small c hc]
  rfl

/-- Floor division of a nonnegative word by a positive one, as the program writes it: the quotient. -/
theorem floorDiv_word (p c : ℕ) (hp : p < 2 ^ 31) (hc0 : 0 < c) (hc : c < 2 ^ 31) :
    Scalar.select
        (IntOp.andi (IntOp.cmpi .ne (sgnw (BitVec.ofNat 32 p)) (sgnw (BitVec.ofNat 32 c)))
          (IntOp.cmpi .ne (IntOp.remsi .host (BitVec.ofNat 32 p) (BitVec.ofNat 32 c)) 0#32))
        (IntOp.subi (IntOp.divsi .host (BitVec.ofNat 32 p) (BitVec.ofNat 32 c)) 1#32)
        (IntOp.divsi .host (BitVec.ofNat 32 p) (BitVec.ofNat 32 c))
      = BitVec.ofNat 32 (p / c) := by
  have hn : ¬IntOp.andi (IntOp.cmpi .ne (sgnw (BitVec.ofNat 32 p)) (sgnw (BitVec.ofNat 32 c)))
      (IntOp.cmpi .ne (IntOp.remsi .host (BitVec.ofNat 32 p) (BitVec.ofNat 32 c)) 0#32) = 1#1 := by
    intro h
    rw [IntOp.andi_eq_one, IntOp.cmpi_ne, IntOp.cmpi_ne] at h
    obtain ⟨h1, h2⟩ := h
    rcases Nat.eq_zero_or_pos p with hp0 | hp0
    · apply h2
      rw [hp0, remsi_ofNat .host 0 c (by omega) hc0 hc, Nat.zero_mod]
    · apply h1
      rw [sgnw_pos p hp0 hp, sgnw_pos c hc0 hc]
  rw [sel_of_ne_one hn, divsi_ofNat .host p c hp hc0 hc]

/-- The remainder modulo 256 of a nonnegative word, as the program writes it: the remainder. -/
theorem rem_word (q : ℕ) (hq : q < 2 ^ 31) :
    Scalar.select
        (IntOp.andi
          (IntOp.cmpi .ne (IntOp.cmpi .slt (IntOp.remsi .host (BitVec.ofNat 32 q) 256#32) 0#32) 0#1)
          (IntOp.cmpi .ne (IntOp.remsi .host (BitVec.ofNat 32 q) 256#32) 0#32))
        (IntOp.addi (IntOp.remsi .host (BitVec.ofNat 32 q) 256#32) 256#32)
        (IntOp.remsi .host (BitVec.ofNat 32 q) 256#32)
      = BitVec.ofNat 32 (q % 256) := by
  have hr : IntOp.remsi .host (BitVec.ofNat 32 q) 256#32 = BitVec.ofNat 32 (q % 256) :=
    remsi_ofNat .host q 256 hq (by norm_num) (by norm_num)
  rw [hr]
  have hs : ¬IntOp.cmpi .slt (BitVec.ofNat 32 (q % 256)) 0#32 = 1#1 := by
    rw [IntOp.cmpi_slt, WordArith.toInt_ofNat_small (q % 256) (by omega), show (0#32 : BitVec 32).toInt = 0 by decide]
    omega
  have hn : ¬IntOp.andi (IntOp.cmpi .ne (IntOp.cmpi .slt (BitVec.ofNat 32 (q % 256)) 0#32) 0#1)
      (IntOp.cmpi .ne (BitVec.ofNat 32 (q % 256)) 0#32) = 1#1 := by
    intro h
    rw [IntOp.andi_eq_one, IntOp.cmpi_ne] at h
    exact h.1 (eq_zero_of_ne_one hs)
  rw [sel_of_ne_one hn]

/-! ## The stretch at a position -/

theorem remDen_256 (i : S_.Idx) : remDen (constantI S_ 32 256#32) i = 256#32 := by
  show Scalar.select (IntOp.cmpi .eq 256#32 0#32) 1#32 256#32 = 256#32
  decide

/-- Floor division of the positions by a positive scalar word. -/
theorem floorDivV_apply (x : IVec S32640 32) (c : ℕ) (hc0 : 0 < c) (hc : c < 2 ^ 31) (k : Fin 32640) (p : ℕ)
    (hp : p < 2 ^ 31) (hx : x (ix1 k) = BitVec.ofNat 32 p) :
    floorDivV x (constantI S_ 32 (BitVec.ofNat 32 c)) (ix1 k) = BitVec.ofNat 32 (p / c) := by
  show Scalar.select
      (IntOp.andi (IntOp.cmpi .ne (sgnw (x (ix1 k))) (sgnw (BitVec.ofNat 32 c)))
        (IntOp.cmpi .ne (IntOp.remsi .host (x (ix1 k)) (BitVec.ofNat 32 c)) 0#32))
      (IntOp.subi (IntOp.divsi .host (x (ix1 k)) (BitVec.ofNat 32 c)) 1#32)
      (IntOp.divsi .host (x (ix1 k)) (BitVec.ofNat 32 c)) = _
  rw [hx]
  exact floorDiv_word p c hp hc0 hc

/-- The remainder of a vector of nonnegative words modulo 256. -/
theorem remV_apply (y : IVec S32640 32) (k : Fin 32640) (q : ℕ) (hq : q < 2 ^ 31)
    (hy : y (ix1 k) = BitVec.ofNat 32 q) :
    remV y (constantI S_ 32 256#32) (ix1 k) = BitVec.ofNat 32 (q % 256) := by
  have hd : bc (remDen (constantI S_ 32 256#32)) = fun _ => 256#32 := by
    funext i
    exact remDen_256 _
  have hz : (cmpi .slt (remDen (constantI S_ 32 256#32)) (constantI S_ 32 0#32) : IVec S_ 1) = fun _ => 0#1 := by
    funext i
    show IntOp.cmpi .slt (remDen (constantI S_ 32 256#32) i) 0#32 = 0#1
    rw [remDen_256]
    decide
  have hd' : (broadcastInDim S32640 ![] bcast_S_S32640 (cmpi .slt (remDen (constantI S_ 32 256#32)) (constantI S_ 32 0#32)) :
      IVec S32640 1) = fun _ => 0#1 := by
    rw [hz]
    rfl
  unfold remV
  rw [hd, hd']
  show Scalar.select
      (IntOp.andi
        (IntOp.cmpi .ne (IntOp.cmpi .slt (IntOp.remsi .host (y (ix1 k)) 256#32) 0#32) 0#1)
        (IntOp.cmpi .ne (IntOp.remsi .host (y (ix1 k)) 256#32) 0#32))
      (IntOp.addi (IntOp.remsi .host (y (ix1 k)) 256#32) 256#32)
      (IntOp.remsi .host (y (ix1 k)) 256#32) = _
  rw [hy]
  exact rem_word q hq

/-- THE ROWS AND THE COLUMNS: on the positions of the listed cells the stretch's results are their rows and columns. -/
theorem rowV_apply (x : IVec S32640 32) (hx : ∀ k : Fin 32640, x (ix1 k) = BitVec.ofNat 32 (posk k.val)) (k : Fin 32640) :
    rowV x (ix1 k) = BitVec.ofNat 32 (iu k.val) := by
  have hp := posk_lt k.isLt
  unfold rowV
  rw [remV_apply _ k (posk k.val / 256) (by omega)
    (floorDivV_apply x 256 (by norm_num) (by norm_num) k (posk k.val) (by omega) (hx k))]
  unfold iu
  rw [Nat.mod_eq_of_lt (by omega)]

theorem colV_apply (x : IVec S32640 32) (hx : ∀ k : Fin 32640, x (ix1 k) = BitVec.ofNat 32 (posk k.val)) (k : Fin 32640) :
    colV x (ix1 k) = BitVec.ofNat 32 (ju k.val) := by
  have hp := posk_lt k.isLt
  unfold colV
  rw [remV_apply _ k (posk k.val / 1) (by rw [Nat.div_one]; omega)
    (floorDivV_apply x 1 (by norm_num) (by norm_num) k (posk k.val) (by omega) (hx k))]
  unfold ju
  rw [Nat.div_one]

end RowCol

end Cert.ReferenceIdeal.RefRun

end
-- ==== Proof.RefPosStages.lean ====
/-
  The position stretch of the reference cut in three: the mask's bits, their running count over the flattened grid,
  and the histogram of the counts with its running sum.
-/
import proofs.«118690_j7060926235074_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The mask of the cells above the diagonal, as bits. -/
abbrev opsMask : List (HloOp τ sig (Elt F)) :=
  [
    nullary main_cst (constant S_ .f32 0x3F800000#32),
    unary main_cst main_v0 (broadcastInDim S256x256 ![] bcast_S_S256x256 : (⟨S_, .f32⟩ : BufTy).Contents (Elt F) → (⟨S256x256, .f32⟩ : BufTy).Contents (Elt F)),
    TRef.nullary main_call0.v0 (iotaInDim S256x256 32 0),
    TRef.nullary main_call0.c (constantI S_ 32 0#32),
    TRef.unary main_call0.c main_call0.v1 (broadcastInDim S256x256 ![] bcast_S_S256x256),
    TRef.binary main_call0.v0 main_call0.v1 main_call0.v2 addi,
    TRef.nullary main_call0.v3 (iotaInDim S256x256 32 1),
    TRef.binary main_call0.v2 main_call0.v3 main_call0.v4 (cmpi .sge),
    TRef.nullary main_call0.cst (constant S_ .f32 0x00000000#32),
    TRef.unary main_call0.cst main_call0.v5 (broadcastInDim S256x256 ![] bcast_S_S256x256),
    TRef.ternary main_call0.v4 main_call0.v5 (.of main_v0 : StableHlo.TRef sig ⟨S256x256, .f32⟩) main_call0.v6 select,
    nullary main_cst_0 (constant S_ .f32 0x00000000#32),
    unary main_cst_0 main_v2 (broadcastInDim S256x256 ![] bcast_S_S256x256 : (⟨S_, .f32⟩ : BufTy).Contents (Elt F) → (⟨S256x256, .f32⟩ : BufTy).Contents (Elt F)),
    binary main_v1 main_v2 main_v3 (cmpf .une : (⟨S256x256, .f32⟩ : BufTy).Contents (Elt F) → (⟨S256x256, .f32⟩ : BufTy).Contents (Elt F) → (⟨S256x256, .i1⟩ : BufTy).Contents (Elt F)) ]

/-- The bits flattened and their running count. -/
abbrev opsRun : List (HloOp τ sig (Elt F)) :=
  [
    TRef.reshape (.of main_v3 : StableHlo.TRef sig ⟨S256x256, .i1⟩) main_call1.v0 rfl shapeCasts_S256x256_S65536,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![65536] ![1] ![65535] ![0] x v reduceWindows_S65536_S65536_w65536s1p65535_0 h_S_) ]

/-- The clipped and wrapped counts, their histogram and its running sum. -/
abbrev opsHist : List (HloOp τ sig (Elt F)) :=
  [
    nullary main_c (constantI S_ 32 0#32),
    unary main_c main_v5 (broadcastInDim S32640 ![] bcast_S_S32640 : (⟨S_, .i32⟩ : BufTy).Contents (Elt F) → (⟨S32640, .i32⟩ : BufTy).Contents (Elt F)),
    nullary main_c_1 (constantI S_ 32 0#32),
    TRef.unary (.of main_c_1 : StableHlo.TRef sig ⟨S_, .i32⟩) main_call2.v0 id,
    TRef.unary main_call2.v0 main_call2.v1 (broadcastInDim S65536 ![] bcast_S_S65536),
    TRef.binary main_call2.v1 (.of main_v4 : StableHlo.TRef sig ⟨S65536, .i32⟩) main_call2.v2 maxsi,
    nullary main_c_2 (constantI S_ 32 0#32),
    unary main_c_2 main_v7 (broadcastInDim S65536 ![] bcast_S_S65536 : (⟨S_, .i32⟩ : BufTy).Contents (Elt F) → (⟨S65536, .i32⟩ : BufTy).Contents (Elt F)),
    binary main_v6 main_v7 main_v8 (cmpi .slt : (⟨S65536, .i32⟩ : BufTy).Contents (Elt F) → (⟨S65536, .i32⟩ : BufTy).Contents (Elt F) → (⟨S65536, .i1⟩ : BufTy).Contents (Elt F)),
    nullary main_c_3 (constantI S_ 32 32640#32),
    unary main_c_3 main_v9 (broadcastInDim S65536 ![] bcast_S_S65536 : (⟨S_, .i32⟩ : BufTy).Contents (Elt F) → (⟨S65536, .i32⟩ : BufTy).Contents (Elt F)),
    binary main_v6 main_v9 main_v10 (addi : (⟨S65536, .i32⟩ : BufTy).Contents (Elt F) → (⟨S65536, .i32⟩ : BufTy).Contents (Elt F) → (⟨S65536, .i32⟩ : BufTy).Contents (Elt F)),
    ternary main_v8 main_v10 main_v6 main_v11 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v11 main_v12 (broadcastInDim S65536x1 ![0] bcast_S65536_S65536x1_0 : (⟨S65536, .i32⟩ : BufTy).Contents (Elt F) → (⟨S65536x1, .i32⟩ : BufTy).Contents (Elt F)),
    nullary main_c_4 (constantI S_ 32 1#32),
    unary main_c_4 main_v13 (broadcastInDim S65536 ![] bcast_S_S65536 : (⟨S_, .i32⟩ : BufTy).Contents (Elt F) → (⟨S65536, .i32⟩ : BufTy).Contents (Elt F)),
    ternary main_v5 main_v12 main_v13 main_v14 ((fun x i u => Host.scatter scatter_S32640_S65536x1_S65536_n_0_0_1 IntOp.addi x i u) : (⟨S32640, .i32⟩ : BufTy).Contents (Elt F) → (⟨S65536x1, .i32⟩ : BufTy).Contents (Elt F) → (⟨S65536, .i32⟩ : BufTy).Contents (Elt F) → (⟨S32640, .i32⟩ : BufTy).Contents (Elt F)),
    TRef.nullary main_call3.call0.c (constantI S_ 32 0#32),
    TRef.unary main_call3.call0.c main_call3.call0.v0 (broadcastInDim S_ ![] bcast_S_S_),
    TRef.binary (.of main_v14 : StableHlo.TRef sig ⟨S32640, .i32⟩) main_call3.call0.v0 main_call3.call0.v1 (fun x v => Host.reduceWindow IntOp.addi ![32640] ![1] ![32639] ![0] x v reduceWindows_S32640_S32640_w32640s1p32639_0 h_S_) ]

/-- The position stretch is the three in order. -/
theorem opsPos_eq : (opsPos : List (HloOp τ sig (Elt F))) = opsMask ++ (opsRun ++ opsHist) := rfl

theorem after_opsPos (V : Valuation τ sig (Elt F)) :
    after opsPos V = after opsHist (after opsRun (after opsMask V)) := by
  rw [opsPos_eq, after_append, after_append]

end Cert.ReferenceIdeal.RefRun

end
-- ==== Proof.RefPosRead.lean ====
/-
  The position stretch of the reference, staged: the mask of the cells above the diagonal as floats and as bits, the
  bits flattened row-major, their running count, the count clipped below at zero and wrapped (a count below zero moved
  up by the number of bins) as a column of scatter indices, the histogram of the counts, and its running sum.
-/
import proofs.«118690_j7060926235074_1_alg».proof.Proof.RefPosStages
import proofs.«118690_j7060926235074_1_alg».proof.Proof.LibResultsInside
import proofs.«118690_j7060926235074_1_alg».proof.Proof.LibTypedRef

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

namespace Pos

/-- One above the diagonal, zero elsewhere. -/
def triuV : FVec F S256x256 .f32 :=
  select
    (cmpi .sge (addi (iotaInDim S256x256 32 0) (broadcastInDim S256x256 ![] bcast_S_S256x256 (constantI S_ 32 0#32)))
      (iotaInDim S256x256 32 1))
    (broadcastInDim S256x256 ![] bcast_S_S256x256 (constant S_ .f32 0x00000000#32))
    (broadcastInDim S256x256 ![] bcast_S_S256x256 (constant S_ .f32 0x3F800000#32))

/-- The mask's bits. -/
def maskV : IVec S256x256 1 :=
  cmpf .une (triuV (F := F)) (broadcastInDim S256x256 ![] bcast_S_S256x256 (constant S_ .f32 0x00000000#32))

/-- Bits flattened row-major. -/
def flatOf (m : IVec S256x256 1) : IVec S65536 1 := shapeCast S65536 m shapeCasts_S256x256_S65536

/-- Their running count. -/
def runOf (m : IVec S256x256 1) : IVec S65536 32 :=
  Host.reduceWindow IntOp.addi ![65536] ![1] ![65535] ![0] (extui 32 (flatOf m) natLt_1_32)
    (broadcastInDim S_ ![] bcast_S_S_ (constantI S_ 32 0#32)) reduceWindows_S65536_S65536_w65536s1p65535_0 h_S_

/-- A count clipped below at zero. -/
def clipOf (run : IVec S65536 32) : IVec S65536 32 :=
  maxsi (broadcastInDim S65536 ![] bcast_S_S65536 (id (constantI S_ 32 0#32))) run

/-- The scatter indices: a count below zero moved up by the number of bins, as a column. -/
def idxOf (run : IVec S65536 32) : IVec S65536x1 32 :=
  broadcastInDim S65536x1 ![0] bcast_S65536_S65536x1_0
    (select (cmpi .slt (clipOf run) (broadcastInDim S65536 ![] bcast_S_S65536 (constantI S_ 32 0#32)))
      (addi (clipOf run) (broadcastInDim S65536 ![] bcast_S_S65536 (constantI S_ 32 32640#32))) (clipOf run))

/-- The histogram of the counts. -/
def histOf (run : IVec S65536 32) : IVec S32640 32 :=
  Host.scatter scatter_S32640_S65536x1_S65536_n_0_0_1 IntOp.addi
    (broadcastInDim S32640 ![] bcast_S_S32640 (constantI S_ 32 0#32)) (idxOf run)
    (broadcastInDim S65536 ![] bcast_S_S65536 (constantI S_ 32 1#32))

/-- Its running sum: the positions of the ones, in order. -/
def posOf (run : IVec S65536 32) : IVec S32640 32 :=
  Host.reduceWindow IntOp.addi ![32640] ![1] ![32639] ![0] (histOf run)
    (broadcastInDim S_ ![] bcast_S_S_ (constantI S_ 32 0#32)) reduceWindows_S32640_S32640_w32640s1p32639_0 h_S_

end Pos

theorem ofBufP_main_v0 (h1 : (main_v0 : Ref sig .tc).ty = (⟨S256x256, .f32⟩ : BufTy)) (h2 : (main_v0 : Ref sig .tc).space ≠ .host)
    (h3 : (main_v0 : Ref sig .tc).isScoped = false) (v : (main_v0 : Ref sig .tc).ty.Contents (Elt F)) :
    (TRef.of (T := ⟨S256x256, .f32⟩) main_v0 h1 h2 h3).ofBuf v = v := rfl
theorem toBufP_main_v0 (h1 : (main_v0 : Ref sig .tc).ty = (⟨S256x256, .f32⟩ : BufTy)) (h2 : (main_v0 : Ref sig .tc).space ≠ .host)
    (h3 : (main_v0 : Ref sig .tc).isScoped = false) (v : (⟨S256x256, .f32⟩ : BufTy).Contents (Elt F)) :
    (TRef.of (T := ⟨S256x256, .f32⟩) main_v0 h1 h2 h3).toBuf v = v := rfl
theorem ofBufP_main_v1 (h1 : (main_v1 : Ref sig .tc).ty = (⟨S256x256, .f32⟩ : BufTy)) (h2 : (main_v1 : Ref sig .tc).space ≠ .host)
    (h3 : (main_v1 : Ref sig .tc).isScoped = false) (v : (main_v1 : Ref sig .tc).ty.Contents (Elt F)) :
    (TRef.of (T := ⟨S256x256, .f32⟩) main_v1 h1 h2 h3).ofBuf v = v := rfl
theorem toBufP_main_v1 (h1 : (main_v1 : Ref sig .tc).ty = (⟨S256x256, .f32⟩ : BufTy)) (h2 : (main_v1 : Ref sig .tc).space ≠ .host)
    (h3 : (main_v1 : Ref sig .tc).isScoped = false) (v : (⟨S256x256, .f32⟩ : BufTy).Contents (Elt F)) :
    (TRef.of (T := ⟨S256x256, .f32⟩) main_v1 h1 h2 h3).toBuf v = v := rfl
theorem ofBufP_main_v3 (h1 : (main_v3 : Ref sig .tc).ty = (⟨S256x256, .i1⟩ : BufTy)) (h2 : (main_v3 : Ref sig .tc).space ≠ .host)
    (h3 : (main_v3 : Ref sig .tc).isScoped = false) (v : (main_v3 : Ref sig .tc).ty.Contents (Elt F)) :
    (TRef.of (T := ⟨S256x256, .i1⟩) main_v3 h1 h2 h3).ofBuf v = v := rfl
theorem toBufP_main_v3 (h1 : (main_v3 : Ref sig .tc).ty = (⟨S256x256, .i1⟩ : BufTy)) (h2 : (main_v3 : Ref sig .tc).space ≠ .host)
    (h3 : (main_v3 : Ref sig .tc).isScoped = false) (v : (⟨S256x256, .i1⟩ : BufTy).Contents (Elt F)) :
    (TRef.of (T := ⟨S256x256, .i1⟩) main_v3 h1 h2 h3).toBuf v = v := rfl
theorem ofBufP_main_c_1 (h1 : (main_c_1 : Ref sig .tc).ty = (⟨S_, .i32⟩ : BufTy)) (h2 : (main_c_1 : Ref sig .tc).space ≠ .host)
    (h3 : (main_c_1 : Ref sig .tc).isScoped = false) (v : (main_c_1 : Ref sig .tc).ty.Contents (Elt F)) :
    (TRef.of (T := ⟨S_, .i32⟩) main_c_1 h1 h2 h3).ofBuf v = v := rfl
theorem toBufP_main_c_1 (h1 : (main_c_1 : Ref sig .tc).ty = (⟨S_, .i32⟩ : BufTy)) (h2 : (main_c_1 : Ref sig .tc).space ≠ .host)
    (h3 : (main_c_1 : Ref sig .tc).isScoped = false) (v : (⟨S_, .i32⟩ : BufTy).Contents (Elt F)) :
    (TRef.of (T := ⟨S_, .i32⟩) main_c_1 h1 h2 h3).toBuf v = v := rfl
theorem ofBufP_main_v4 (h1 : (main_v4 : Ref sig .tc).ty = (⟨S65536, .i32⟩ : BufTy)) (h2 : (main_v4 : Ref sig .tc).space ≠ .host)
    (h3 : (main_v4 : Ref sig .tc).isScoped = false) (v : (main_v4 : Ref sig .tc).ty.Contents (Elt F)) :
    (TRef.of (T := ⟨S65536, .i32⟩) main_v4 h1 h2 h3).ofBuf v = v := rfl
theorem toBufP_main_v4 (h1 : (main_v4 : Ref sig .tc).ty = (⟨S65536, .i32⟩ : BufTy)) (h2 : (main_v4 : Ref sig .tc).space ≠ .host)
    (h3 : (main_v4 : Ref sig .tc).isScoped = false) (v : (⟨S65536, .i32⟩ : BufTy).Contents (Elt F)) :
    (TRef.of (T := ⟨S65536, .i32⟩) main_v4 h1 h2 h3).toBuf v = v := rfl
theorem ofBufP_main_v6 (h1 : (main_v6 : Ref sig .tc).ty = (⟨S65536, .i32⟩ : BufTy)) (h2 : (main_v6 : Ref sig .tc).space ≠ .host)
    (h3 : (main_v6 : Ref sig .tc).isScoped = false) (v : (main_v6 : Ref sig .tc).ty.Contents (Elt F)) :
    (TRef.of (T := ⟨S65536, .i32⟩) main_v6 h1 h2 h3).ofBuf v = v := rfl
theorem toBufP_main_v6 (h1 : (main_v6 : Ref sig .tc).ty = (⟨S65536, .i32⟩ : BufTy)) (h2 : (main_v6 : Ref sig .tc).space ≠ .host)
    (h3 : (main_v6 : Ref sig .tc).isScoped = false) (v : (⟨S65536, .i32⟩ : BufTy).Contents (Elt F)) :
    (TRef.of (T := ⟨S65536, .i32⟩) main_v6 h1 h2 h3).toBuf v = v := rfl
theorem ofBufP_main_v14 (h1 : (main_v14 : Ref sig .tc).ty = (⟨S32640, .i32⟩ : BufTy)) (h2 : (main_v14 : Ref sig .tc).space ≠ .host)
    (h3 : (main_v14 : Ref sig .tc).isScoped = false) (v : (main_v14 : Ref sig .tc).ty.Contents (Elt F)) :
    (TRef.of (T := ⟨S32640, .i32⟩) main_v14 h1 h2 h3).ofBuf v = v := rfl
theorem toBufP_main_v14 (h1 : (main_v14 : Ref sig .tc).ty = (⟨S32640, .i32⟩ : BufTy)) (h2 : (main_v14 : Ref sig .tc).space ≠ .host)
    (h3 : (main_v14 : Ref sig .tc).isScoped = false) (v : (⟨S32640, .i32⟩ : BufTy).Contents (Elt F)) :
    (TRef.of (T := ⟨S32640, .i32⟩) main_v14 h1 h2 h3).toBuf v = v := rfl
theorem ofBufP_main_v15 (h1 : (main_v15 : Ref sig .tc).ty = (⟨S32640, .i32⟩ : BufTy)) (h2 : (main_v15 : Ref sig .tc).space ≠ .host)
    (h3 : (main_v15 : Ref sig .tc).isScoped = false) (v : (main_v15 : Ref sig .tc).ty.Contents (Elt F)) :
    (TRef.of (T := ⟨S32640, .i32⟩) main_v15 h1 h2 h3).ofBuf v = v := rfl
theorem toBufP_main_v15 (h1 : (main_v15 : Ref sig .tc).ty = (⟨S32640, .i32⟩ : BufTy)) (h2 : (main_v15 : Ref sig .tc).space ≠ .host)
    (h3 : (main_v15 : Ref sig .tc).isScoped = false) (v : (⟨S32640, .i32⟩ : BufTy).Contents (Elt F)) :
    (TRef.of (T := ⟨S32640, .i32⟩) main_v15 h1 h2 h3).toBuf v = v := rfl
theorem ofBufP_main_call1_v0 (h1 : (main_call1_v0 : Ref sig .tc).ty = (⟨S65536, .i1⟩ : BufTy)) (h2 : (main_call1_v0 : Ref sig .tc).space ≠ .host)
    (h3 : (main_call1_v0 : Ref sig .tc).isScoped = false) (v : (main_call1_v0 : Ref sig .tc).ty.Contents (Elt F)) :
    (TRef.of (T := ⟨S65536, .i1⟩) main_call1_v0 h1 h2 h3).ofBuf v = v := rfl
theorem toBufP_main_call1_v0 (h1 : (main_call1_v0 : Ref sig .tc).ty = (⟨S65536, .i1⟩ : BufTy)) (h2 : (main_call1_v0 : Ref sig .tc).space ≠ .host)
    (h3 : (main_call1_v0 : Ref sig .tc).isScoped = false) (v : (⟨S65536, .i1⟩ : BufTy).Contents (Elt F)) :
    (TRef.of (T := ⟨S65536, .i1⟩) main_call1_v0 h1 h2 h3).toBuf v = v := rfl

set_option maxRecDepth 16384 in
set_option maxHeartbeats 4000000 in
/-- The first part leaves the mask's bits. -/
theorem mask_read (W : Valuation τ sig (Elt F)) :
    after opsMask W (main_v3 : DevRef τ sig) = Pos.maskV (F := F) := by
  after_results_simp
  simp only [TRef.ofBuf_toBuf, ofBufP_main_v0, toBufP_main_v0, ofBufP_main_v1, toBufP_main_v1, ofBufP_main_v3, toBufP_main_v3, ofBufP_main_c_1, toBufP_main_c_1, ofBufP_main_v4, toBufP_main_v4, ofBufP_main_v6, toBufP_main_v6, ofBufP_main_v14, toBufP_main_v14, ofBufP_main_v15, toBufP_main_v15, ofBufP_main_call1_v0, toBufP_main_call1_v0]
  rfl

set_option maxRecDepth 16384 in
set_option maxHeartbeats 4000000 in
/-- The second part leaves the running count of the bits it reads. -/
theorem run_read (W : Valuation τ sig (Elt F)) :
    after opsRun W (main_v4 : DevRef τ sig) = Pos.runOf (W (main_v3 : DevRef τ sig)) := by
  after_results_simp
  simp only [TRef.ofBuf_toBuf, ofBufP_main_v0, toBufP_main_v0, ofBufP_main_v1, toBufP_main_v1, ofBufP_main_v3, toBufP_main_v3, ofBufP_main_c_1, toBufP_main_c_1, ofBufP_main_v4, toBufP_main_v4, ofBufP_main_v6, toBufP_main_v6, ofBufP_main_v14, toBufP_main_v14, ofBufP_main_v15, toBufP_main_v15, ofBufP_main_call1_v0, toBufP_main_call1_v0]
  rfl

set_option maxRecDepth 16384 in
set_option maxHeartbeats 4000000 in
/-- The third part leaves the running sum of the histogram of the counts it reads. -/
theorem hist_read (W : Valuation τ sig (Elt F)) :
    after opsHist W (main_v15 : DevRef τ sig) = Pos.posOf (W (main_v4 : DevRef τ sig)) := by
  after_results_simp
  simp only [TRef.ofBuf_toBuf, ofBufP_main_v0, toBufP_main_v0, ofBufP_main_v1, toBufP_main_v1, ofBufP_main_v3, toBufP_main_v3, ofBufP_main_c_1, toBufP_main_c_1, ofBufP_main_v4, toBufP_main_v4, ofBufP_main_v6, toBufP_main_v6, ofBufP_main_v14, toBufP_main_v14, ofBufP_main_v15, toBufP_main_v15, ofBufP_main_call1_v0, toBufP_main_call1_v0]
  rfl

/-- The stretch leaves the positions of the ones in its result. -/
theorem pos_read (W : Valuation τ sig (Elt F)) :
    after opsPos W (main_v15 : DevRef τ sig) = Pos.posOf (Pos.runOf (Pos.maskV (F := F))) := by
  rw [after_opsPos, hist_read, run_read, mask_read]

set_option maxRecDepth 16384 in
set_option maxHeartbeats 4000000 in
/-- The stretch writes neither input. -/
theorem pos_kept0 (W : Valuation τ sig (Elt F)) :
    after opsPos W (main_arg0 : DevRef τ sig) = W (main_arg0 : DevRef τ sig) := by
  after_results_simp

set_option maxRecDepth 16384 in
set_option maxHeartbeats 4000000 in
theorem pos_kept1 (W : Valuation τ sig (Elt F)) :
    after opsPos W (main_arg1 : DevRef τ sig) = W (main_arg1 : DevRef τ sig) := by
  after_results_simp

end Cert.ReferenceIdeal.RefRun

end
-- ==== Proof.LibScatterCol.lean ====
/-
  A count scattered into a vector and the same count scattered into a one-column matrix.

  The host's accumulating scatter adds, to each operand element, the updates whose result index is that element.
  With one scatter index per update (the index array an [E, 1] column, read signed and not clamped) there are two
  spellings of "add update e at row idx e": into an [N] vector from an [E] vector of updates (no window axis, the
  operand's only axis inserted), and into an [N, 1] matrix from an [E, 1] matrix of updates (the second axis a
  window of extent one). Update e lands on row n in either spelling exactly when the signed index word of e is n,
  so the two results agree row by row whenever the operands and the updates do.
-/
import Idealize.ShloMosaic.Lib.ValueIdx
import Idealize.ShloMosaic.Lib.Pipeline.Value
import Idealize.ShloMosaic.PureOps.Ideal.Laws

noncomputable section

namespace Cert.ScatterCol

open Idealize.ShloMosaic Idealize.ShloMosaic.ValueIdx

variable {N E : Nat}

/-- The dimension numbers of the scatter into a vector: no window axis, the operand's axis inserted. -/
abbrev dvec (h : ScatterDims.WF ⟨1, ![N]⟩ ⟨2, ![E, 1]⟩ ⟨1, ![E]⟩ [] [0] [0] 1) :
    ScatterDims ⟨1, ![N]⟩ ⟨2, ![E, 1]⟩ ⟨1, ![E]⟩ := ⟨[], [0], [0], 1, h⟩
/-- The dimension numbers of the scatter into a one-column matrix: the second axis a window. -/
abbrev dcol (h : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ := ⟨[1], [0], [0], 1, h⟩

theorem start_vec (h) {w : Nat} (j : (⟨1, ![E]⟩ : Shape).Idx) (idx : IVec ⟨2, ![E, 1]⟩ w) :
    (dvec (N := N) h).start j idx 0 = (idx (ix2 (j 0) (0 : Fin 1))).toInt := by
  refine congrArg (fun z => (idx z).toInt) (funext fun b => Fin.ext ?_)
  match b with
  | ⟨0, _⟩ => rfl
  | ⟨1, _⟩ => rfl

theorem window_vec (h) (j : (⟨1, ![E]⟩ : Shape).Idx) : (dvec (N := N) h).window j 0 = 0 := rfl

theorem start_col0 (h) {w : Nat} (j : (⟨2, ![E, 1]⟩ : Shape).Idx) (idx : IVec ⟨2, ![E, 1]⟩ w) :
    (dcol (N := N) h).start j idx 0 = (idx (ix2 (j 0) (0 : Fin 1))).toInt := by
  refine congrArg (fun z => (idx z).toInt) (funext fun b => Fin.ext ?_)
  match b with
  | ⟨0, _⟩ => rfl
  | ⟨1, _⟩ => rfl

theorem start_col1 (h) {w : Nat} (j : (⟨2, ![E, 1]⟩ : Shape).Idx) (idx : IVec ⟨2, ![E, 1]⟩ w) :
    (dcol (N := N) h).start j idx 1 = 0 := rfl
theorem window_col0 (h) (j : (⟨2, ![E, 1]⟩ : Shape).Idx) : (dcol (N := N) h).window j 0 = 0 := rfl
theorem window_col1 (h) (j : (⟨2, ![E, 1]⟩ : Shape).Idx) : (dcol (N := N) h).window j 1 = (j 1).val := rfl

/-- Into the vector, update j lands on element i exactly when its signed index word is i's coordinate. -/
theorem resultIdx_vec_iff (h) {w : Nat} (j : (⟨1, ![E]⟩ : Shape).Idx) (idx : IVec ⟨2, ![E, 1]⟩ w)
    (i : (⟨1, ![N]⟩ : Shape).Idx) :
    (dvec (N := N) h).resultIdx? j idx = some i ↔ (idx (ix2 (j 0) (0 : Fin 1))).toInt = ((i 0).val : Int) := by
  have hs := start_vec (N := N) h j idx
  have hw := window_vec (N := N) h j
  have hi : (i 0).val < N := (i 0).isLt
  unfold ScatterDims.resultIdx?
  split
  · rename_i hall
    have h0 : 0 ≤ (dvec (N := N) h).start j idx 0 + ((dvec (N := N) h).window j 0 : Int)
        ∧ (dvec (N := N) h).start j idx 0 + ((dvec (N := N) h).window j 0 : Int) < (N : Int) := hall 0
    rw [hs, hw] at h0
    rw [Option.some.injEq]
    constructor
    · intro e
      have e0 : ((dvec (N := N) h).start j idx 0 + ((dvec (N := N) h).window j 0 : Int)).toNat = (i 0).val :=
        congrArg (fun f => (f 0).val) e
      rw [hs, hw] at e0
      omega
    · intro e
      funext a
      match a with
      | ⟨0, _⟩ =>
        apply Fin.ext
        show ((dvec (N := N) h).start j idx 0 + ((dvec (N := N) h).window j 0 : Int)).toNat = (i 0).val
        rw [hs, hw]; omega
  · rename_i hnot
    constructor
    · intro e; cases e
    · intro e
      exfalso; apply hnot
      intro a
      match a with
      | ⟨0, _⟩ =>
        show 0 ≤ (dvec (N := N) h).start j idx 0 + ((dvec (N := N) h).window j 0 : Int)
          ∧ (dvec (N := N) h).start j idx 0 + ((dvec (N := N) h).window j 0 : Int) < (N : Int)
        rw [hs, hw]; omega

/-- Into the one-column matrix, update j lands on element i exactly when its signed index word is i's row. -/
theorem resultIdx_col_iff (h) {w : Nat} (j : (⟨2, ![E, 1]⟩ : Shape).Idx) (idx : IVec ⟨2, ![E, 1]⟩ w)
    (i : (⟨2, ![N, 1]⟩ : Shape).Idx) :
    (dcol (N := N) h).resultIdx? j idx = some i ↔ (idx (ix2 (j 0) (0 : Fin 1))).toInt = ((i 0).val : Int) := by
  have hs0 := start_col0 (N := N) h j idx
  have hs1 := start_col1 (N := N) h j idx
  have hw0 := window_col0 (N := N) h j
  have hw1 := window_col1 (N := N) h j
  have hi : (i 0).val < N := (i 0).isLt
  have hi1 : (i 1).val < 1 := (i 1).isLt
  have hj1 : (j 1).val < 1 := (j 1).isLt
  unfold ScatterDims.resultIdx?
  split
  · rename_i hall
    have h0 : 0 ≤ (dcol (N := N) h).start j idx 0 + ((dcol (N := N) h).window j 0 : Int)
        ∧ (dcol (N := N) h).start j idx 0 + ((dcol (N := N) h).window j 0 : Int) < (N : Int) := hall 0
    rw [hs0, hw0] at h0
    rw [Option.some.injEq]
    constructor
    · intro e
      have e0 : ((dcol (N := N) h).start j idx 0 + ((dcol (N := N) h).window j 0 : Int)).toNat = (i 0).val :=
        congrArg (fun f => (f 0).val) e
      rw [hs0, hw0] at e0
      omega
    · intro e
      funext a
      match a with
      | ⟨0, _⟩ =>
        apply Fin.ext
        show ((dcol (N := N) h).start j idx 0 + ((dcol (N := N) h).window j 0 : Int)).toNat = (i 0).val
        rw [hs0, hw0]; omega
      | ⟨1, _⟩ =>
        apply Fin.ext
        show ((dcol (N := N) h).start j idx 1 + ((dcol (N := N) h).window j 1 : Int)).toNat = (i 1).val
        rw [hs1, hw1]; omega
  · rename_i hnot
    constructor
    · intro e; cases e
    · intro e
      exfalso; apply hnot
      intro a
      match a with
      | ⟨0, _⟩ =>
        show 0 ≤ (dcol (N := N) h).start j idx 0 + ((dcol (N := N) h).window j 0 : Int)
          ∧ (dcol (N := N) h).start j idx 0 + ((dcol (N := N) h).window j 0 : Int) < (N : Int)
        rw [hs0, hw0]; omega
      | ⟨1, _⟩ =>
        show 0 ≤ (dcol (N := N) h).start j idx 1 + ((dcol (N := N) h).window j 1 : Int)
          ∧ (dcol (N := N) h).start j idx 1 + ((dcol (N := N) h).window j 1 : Int) < ((1 : Nat) : Int)
        rw [hs1, hw1]; omega

/-- The [E, 1] update indices are the [E] update indices, by the first coordinate. -/
def colEquiv : (⟨2, ![E, 1]⟩ : Shape).Idx ≃ (⟨1, ![E]⟩ : Shape).Idx where
  toFun j := ix1 (j 0)
  invFun j := ix2 (j 0) (0 : Fin 1)
  left_inv j := by
    funext a
    match a with
    | ⟨0, _⟩ => rfl
    | ⟨1, _⟩ => exact Fin.ext (by have h1 : (j 1).val < 1 := (j 1).isLt; show 0 = (j 1).val; omega)
  right_inv j := by
    funext a
    match a with
    | ⟨0, _⟩ => rfl

/-- The scatter into the one-column matrix, at row n, is the scatter into the vector at n, when the operands
    agree at that row and the updates agree row by row. -/
theorem scatterAdd_col_eq_vec (hv) (hc) {w : Nat} (idx : IVec ⟨2, ![E, 1]⟩ w)
    (x1 : (⟨1, ![N]⟩ : Shape).Idx → EReal) (x2 : (⟨2, ![N, 1]⟩ : Shape).Idx → EReal)
    (u1 : (⟨1, ![E]⟩ : Shape).Idx → EReal) (u2 : (⟨2, ![E, 1]⟩ : Shape).Idx → EReal)
    (n : Fin N) (hx : x2 (ix2 n (0 : Fin 1)) = x1 (ix1 n))
    (hu : ∀ e : Fin E, u2 (ix2 e (0 : Fin 1)) = u1 (ix1 e)) :
    Ideal.hostScatterAdd (dcol (N := N) hc) x2 idx u2 (ix2 n (0 : Fin 1))
      = Ideal.hostScatterAdd (dvec (N := N) hv) x1 idx u1 (ix1 n) := by
  unfold Ideal.hostScatterAdd
  rw [hx]
  refine congrArg (x1 (ix1 n) + ·) ?_
  refine Finset.sum_equiv colEquiv (fun j => ?_) (fun j _ => ?_)
  · simp only [Finset.mem_filter, Finset.mem_univ, true_and]
    rw [resultIdx_col_iff, resultIdx_vec_iff]
    exact Iff.rfl
  · have hj : j = ix2 (j 0) (0 : Fin 1) := (colEquiv.left_inv j).symm
    rw [hj]
    exact hu (j 0)

end Cert.ScatterCol

end
-- ==== Proof.LibBincount.lean ====
/-
  A histogram of integers read at an index.

  `x.at[idx].add(u)` on integer vectors lowers to a `stablehlo.scatter` with an adding body: one scatter index per
  update, the indices an [E, 1] column read signed, an index outside the operand dropped. The host's scatter folds the
  updates in one by one; since machine-integer addition is commutative and associative the result does not depend on
  the order: element `v` of the result is the operand's element plus the sum of the updates whose index word is `v`.
  With the operand zero and every update one it is the number of indices equal to `v`: `jnp.bincount`.
-/
import proofs.«118690_j7060926235074_1_alg».proof.Proof.LibScatterCol
import proofs.«118690_j7060926235074_1_alg».proof.Proof.LibCumsum

noncomputable section

namespace Cert.ScatterCol

open Idealize.ShloMosaic Idealize.ShloMosaic.ValueIdx

section Fold
variable {ι κ : Type} {w : Nat}

/-- A left fold of steps each of which adds, at every point, that step's contribution there, adds up the
    contributions: at a point, the starting value plus the sum over the list. -/
theorem foldl_pointwise_add (S : (κ → BitVec w) → ι → (κ → BitVec w)) (T : ι → κ → BitVec w)
    (hS : ∀ r n i, S r n i = r i + T n i) :
    ∀ (l : List ι) (x : κ → BitVec w) (i : κ), (l.foldl S x) i = x i + (l.map fun n => T n i).sum
  | [], x, i => by simp
  | n :: l, x, i => by
    rw [List.foldl_cons, foldl_pointwise_add S T hS l (S x n) i, hS, List.map_cons, List.sum_cons]
    exact add_assoc _ _ _

end Fold

variable {N E : Nat}

/-- THE ADDING SCATTER READ AT `v`: the operand there plus the updates whose signed index word is `v`. -/
theorem scatter_addi_apply (h : ScatterDims.WF ⟨1, ![N]⟩ ⟨2, ![E, 1]⟩ ⟨1, ![E]⟩ [] [0] [0] 1) {w w' : Nat}
    (x : IVec ⟨1, ![N]⟩ w) (idx : IVec ⟨2, ![E, 1]⟩ w') (upd : IVec ⟨1, ![E]⟩ w) (v : Fin N) :
    Host.scatter (dvec (N := N) h) IntOp.addi x idx upd (ix1 v)
      = x (ix1 v) + ∑ e : Fin E, if (idx (ix2 e (0 : Fin 1))).toInt = (v.val : Int) then upd (ix1 e) else 0 := by
  classical
  unfold Host.scatter
  rw [foldl_pointwise_add _
    (fun n i => if (dvec (N := N) h).resultIdx? ((⟨1, ![E]⟩ : Shape).rowMajor.symm n) idx = some i
      then upd ((⟨1, ![E]⟩ : Shape).rowMajor.symm n) else 0)]
  · refine congrArg (x (ix1 v) + ·) ?_
    rw [← Fin.sum_univ_def]
    refine ((Equiv.sum_comp (Shape.rowMajor ⟨1, ![E]⟩) _).symm.trans ?_)
    simp only [Equiv.symm_apply_apply]
    rw [sum_idx1]
    refine Finset.sum_congr rfl fun e _ => ?_
    have hiff := resultIdx_vec_iff (N := N) h (ix1 e) idx (ix1 v)
    by_cases hc : (idx (ix2 e (0 : Fin 1))).toInt = (v.val : Int)
    · rw [if_pos hc, if_pos (hiff.mpr hc)]
    · rw [if_neg hc, if_neg (fun hh => hc (hiff.mp hh))]
  · intro r n i
    generalize (dvec (N := N) h).resultIdx? ((⟨1, ![E]⟩ : Shape).rowMajor.symm n) idx = o
    cases o with
    | none =>
      show r i = r i + if (none : Option (⟨1, ![N]⟩ : Shape).Idx) = some i then _ else 0
      rw [if_neg (fun hh => by cases hh)]
      exact (add_zero _).symm
    | some i' =>
      show (if i = i' then IntOp.addi (r i') (upd ((⟨1, ![E]⟩ : Shape).rowMajor.symm n)) else r i)
        = r i + if some i' = some i then upd ((⟨1, ![E]⟩ : Shape).rowMajor.symm n) else 0
      by_cases hii : i = i'
      · subst hii
        rw [if_pos rfl, if_pos rfl]
        rfl
      · rw [if_neg hii, if_neg (fun hh => hii (Option.some.inj hh).symm)]
        exact (add_zero _).symm

/-- The count of the indices equal to `v`: the adding scatter of ones into zeros. -/
theorem bincount_apply (h : ScatterDims.WF ⟨1, ![N]⟩ ⟨2, ![E, 1]⟩ ⟨1, ![E]⟩ [] [0] [0] 1) {w w' : Nat}
    (idx : IVec ⟨2, ![E, 1]⟩ w') (v : Fin N) :
    Host.scatter (dvec (N := N) h) IntOp.addi (fun _ => (0 : BitVec w)) idx (fun _ => (1 : BitVec w)) (ix1 v)
      = ∑ e : Fin E, if (idx (ix2 e (0 : Fin 1))).toInt = (v.val : Int) then (1 : BitVec w) else 0 := by
  rw [scatter_addi_apply, zero_add]

end Cert.ScatterCol

end
-- ==== Proof.LibNonzero.lean ====
/-
  The flat indices `jnp.nonzero` computes, read at an index.

  With a static size `K`, `jnp.nonzero` (and through it `jnp.triu_indices`, `jnp.tril_indices`, `jnp.argwhere`,
  `jnp.flatnonzero`) finds the positions of a mask's ones in three steps: the running count of the ones (inclusive),
  a histogram with `K` bins of those running counts (a count outside `0 … K - 1` dropped), and the running sum of the
  histogram. Entry `k` of the result adds, over the bins `v ≤ k`, the number of positions whose running count is `v`:
  it is the number of positions whose running count is at most `k` — the position of the `(k + 1)`-st one (the
  companion module on the ones of a mask in order). Stated here over any array of index words that ARE the running
  counts, whatever operations produced them (a clip below at zero, a wrap of negative indices: both the identity on
  a count), and for machine integers of any width: the entry is that position as a machine integer.
-/
import proofs.«118690_j7060926235074_1_alg».proof.Proof.LibBincount
import proofs.«118690_j7060926235074_1_alg».proof.Proof.LibOnesInOrder

noncomputable section

namespace Cert.ScatterCol

open Idealize.ShloMosaic Idealize.ShloMosaic.ValueIdx OnesInOrder

/-- THE RUNNING SUM OF THE HISTOGRAM OF THE RUNNING COUNTS, AT `k`: the position of the `(k + 1)`-st one.
    (`E` positions, `K` bins, `p = K - 1` the padding of the running sum; `idx e` the running count at `e`.) -/
theorem nonzero_flat {E K w w' : ℕ} (mask : ℕ → Prop) [DecidablePred mask]
    (hs : ScatterDims.WF ⟨1, ![K]⟩ ⟨2, ![E, 1]⟩ ⟨1, ![E]⟩ [] [0] [0] 1)
    {p : ℕ} (hp : p + 1 = K)
    (hr : (⟨1, ![K]⟩ : Shape).ReduceWindows (![K] : Fin 1 → Nat) ![1] ![p] ![0] ⟨1, ![K]⟩)
    {u : Shape} (hu : 0 < u.numel) (init : IVec u w) (h0 : init (Shape.Idx.first hu) = 0)
    (idx : IVec ⟨2, ![E, 1]⟩ w')
    (hidx : ∀ e : Fin E, (idx (ix2 e (0 : Fin 1))).toInt = (upTo mask e.val : Int))
    (k : Fin K) :
    Host.reduceWindow (s := ⟨1, ![K]⟩) IntOp.addi ![K] ![1] ![p] ![0]
        (Host.scatter (dvec (N := K) hs) IntOp.addi (fun _ => (0 : BitVec w)) idx (fun _ => (1 : BitVec w)))
        init hr hu (ix1 k)
      = ((pos mask E k.val : ℕ) : BitVec w) := by
  classical
  rw [cumsum_apply hp hr hu _ init h0 k]
  -- a bin of the histogram: the number of positions whose running count is the bin
  have hbin : ∀ v : Fin K,
      Host.scatter (dvec (N := K) hs) IntOp.addi (fun _ => (0 : BitVec w)) idx (fun _ => (1 : BitVec w)) (ix1 v)
        = ∑ e : Fin E, if upTo mask e.val = v.val then (1 : BitVec w) else 0 := by
    intro v
    rw [bincount_apply]
    refine Finset.sum_congr rfl fun e _ => ?_
    rw [hidx e]
    by_cases hc : upTo mask e.val = v.val
    · rw [if_pos hc, if_pos (by rw [hc])]
    · rw [if_neg hc, if_neg (fun hh => hc (Int.natCast_inj.mp hh))]
  -- the bins up to `k`, position by position
  have hsum : (∑ v : Fin K, if v.val ≤ k.val then
        Host.scatter (dvec (N := K) hs) IntOp.addi (fun _ => (0 : BitVec w)) idx (fun _ => (1 : BitVec w)) (ix1 v) else 0)
      = ∑ e : Fin E, ∑ v : Fin K, if v.val ≤ k.val ∧ upTo mask e.val = v.val then (1 : BitVec w) else 0 := by
    rw [Finset.sum_comm]
    refine Finset.sum_congr rfl fun v _ => ?_
    rw [hbin v]
    by_cases hv : v.val ≤ k.val
    · rw [if_pos hv]
      refine Finset.sum_congr rfl fun e _ => ?_
      by_cases hc : upTo mask e.val = v.val
      · rw [if_pos hc, if_pos ⟨hv, hc⟩]
      · rw [if_neg hc, if_neg (fun hh => hc hh.2)]
    · rw [if_neg hv]
      exact (Finset.sum_eq_zero fun e _ => if_neg (fun hh => hv hh.1)).symm
  rw [hsum]
  -- a position counts once, in the bin of its running count, when that count is at most `k`
  have hpos : ∀ e : Fin E, (∑ v : Fin K, if v.val ≤ k.val ∧ upTo mask e.val = v.val then (1 : BitVec w) else 0)
      = (fun i : ℕ => if upTo mask i ≤ k.val then (1 : BitVec w) else 0) e.val := by
    intro e
    show _ = if upTo mask e.val ≤ k.val then (1 : BitVec w) else 0
    by_cases hle : upTo mask e.val ≤ k.val
    · rw [if_pos hle]
      have hlt : upTo mask e.val < K := lt_of_le_of_lt hle k.isLt
      rw [Finset.sum_eq_single (⟨upTo mask e.val, hlt⟩ : Fin K)]
      · exact if_pos ⟨hle, rfl⟩
      · intro v _ hv
        exact if_neg (fun hh => hv (Fin.ext hh.2.symm))
      · intro hno
        exact absurd (Finset.mem_univ _) hno
    · rw [if_neg hle]
      exact Finset.sum_eq_zero fun v _ => if_neg (fun hh => hle (by omega))
  rw [Finset.sum_congr rfl fun e _ => hpos e,
    Fin.sum_univ_eq_sum_range (fun i : ℕ => if upTo mask i ≤ k.val then (1 : BitVec w) else 0) E,
    Finset.sum_boole]
  rfl

end Cert.ScatterCol

end
-- ==== Proof.RefPosValue.lean ====
/-
  The position stretch's value at the ideal instance. The mask's bit at cell `(i, j)` is set exactly when `i < j`; the
  bits flattened row-major are the mask on flat positions; their running count at `e` is the number of ones among the
  positions `0 … e`; clipping below at zero and wrapping a negative index leave a count as it is; and the running sum of
  the histogram of the counts lists the positions of the ones in order. So the stretch ends with the flat position of
  the `k`-th cell above the diagonal at entry `k`.
-/
import proofs.«118690_j7060926235074_1_alg».proof.Proof.RefPosRead
import proofs.«118690_j7060926235074_1_alg».proof.Proof.RefPairs
import proofs.«118690_j7060926235074_1_alg».proof.Proof.LibCumsum
import proofs.«118690_j7060926235074_1_alg».proof.Proof.LibNonzero
import Idealize.ShloMosaic.Lib.IdealHost
import Idealize.ShloMosaic.Lib.WordArith
import Idealize.ShloMosaic.Lib.Affine
import Idealize.ShloMosaic.PureOps.Ideal.Laws
import Idealize.ShloMosaic.PureOps.IdealRules

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx RankPairs OnesInOrder

namespace Pos

theorem selP_of_eq_one {α : Type} {c : BitVec 1} (h : c = 1#1) (x y : α) : Scalar.select c x y = x := by
  rw [h]; exact select_one x y
theorem selP_of_ne_one {α : Type} {c : BitVec 1} (h : ¬c = 1#1) (x y : α) : Scalar.select c x y = y := by
  rw [eq_zero_of_ne_one h]; exact select_zero x y

theorem cmp_une_one (x y : EReal) : Ideal.cmp .une x y = 1#1 ↔ x ≠ y := by
  show BitVec.ofBool (decide (x ≠ y)) = 1#1 ↔ _
  by_cases h : x ≠ y
  · rw [decide_eq_true h]; exact ⟨fun _ => h, fun _ => rfl⟩
  · rw [decide_eq_false h]; exact ⟨fun hh => absurd hh (by decide), fun hh => absurd hh h⟩

/-- The mask's bit at a cell is set exactly above the diagonal. -/
theorem maskV_apply (i j : Fin 256) : maskV (F := Ideal) (ix2 i j) = 1#1 ↔ i.val < j.val := by
  show Ideal.cmp .une
      (Scalar.select (IntOp.cmpi .sge (IntOp.addi (BitVec.ofNat 32 i.val) 0#32) (BitVec.ofNat 32 j.val))
        (Ideal.ofBits .f32 0x00000000#32) (Ideal.ofBits .f32 0x3F800000#32))
      (Ideal.ofBits .f32 0x00000000#32) = 1#1 ↔ _
  have h1 : Ideal.ofBits .f32 0x3F800000#32 = 1 := IdealRules.sign_bit.ideal_onePat .f32
  rw [cmp_une_one, Ideal.ofBits_zero_f32, h1]
  have hi := i.isLt
  have hj := j.isLt
  have hadd : IntOp.addi (BitVec.ofNat 32 i.val) 0#32 = BitVec.ofNat 32 i.val := BitVec.add_zero _
  rw [hadd]
  by_cases hc : IntOp.cmpi .sge (BitVec.ofNat 32 i.val) (BitVec.ofNat 32 j.val) = 1#1
  · rw [selP_of_eq_one hc]
    rw [IntOp.cmpi_sge, WordArith.toInt_ofNat_small i.val (by omega), WordArith.toInt_ofNat_small j.val (by omega)] at hc
    exact ⟨fun h => absurd rfl h, fun h => by omega⟩
  · rw [selP_of_ne_one hc]
    rw [IntOp.cmpi_sge, WordArith.toInt_ofNat_small i.val (by omega), WordArith.toInt_ofNat_small j.val (by omega)] at hc
    exact ⟨fun _ => by omega, fun _ => one_ne_zero⟩

/-- The flattened bits at a flat position are the bits at its cell. -/
theorem flatOf_apply (m : IVec S256x256 1) (p : Fin 65536) :
    flatOf m (ix1 p)
      = m (ix2 (⟨p.val / 256, by have := p.isLt; omega⟩ : Fin 256) (⟨p.val % 256, by omega⟩ : Fin 256)) := by
  show m (Shape.reshapeEquiv _ (ix1 p)) = _
  congr 1
  apply Shape.reshapeEquiv_eq_of_rowMajor
  rw [Shape.rowMajor_val_two, Shape.rowMajor_val_one]
  show p.val / 256 * 256 + p.val % 256 = p.val
  omega

/-- The flattened mask, widened, is the indicator of the cells above the diagonal on flat positions. -/
theorem flat_bit (p : Fin 65536) :
    (flatOf (maskV (F := Ideal)) (ix1 p)).setWidth 32 = if upper p.val then (1 : BitVec 32) else 0 := by
  rw [flatOf_apply]
  have hm := maskV_apply (⟨p.val / 256, by have := p.isLt; omega⟩ : Fin 256) (⟨p.val % 256, by omega⟩ : Fin 256)
  by_cases hu : upper p.val
  · rw [if_pos hu, hm.2 hu]
    decide
  · rw [if_neg hu, eq_zero_of_ne_one (fun h => hu (hm.1 h))]
    decide

theorem upTo_le (e : ℕ) : upTo upper e ≤ e + 1 := by
  unfold upTo
  exact (Finset.card_filter_le _ _).trans (by rw [Finset.card_range])

set_option maxRecDepth 16384 in
/-- The running count at a position is the sum of the widened bits up to it. -/
theorem run_sum (e : Fin 65536) :
    runOf (maskV (F := Ideal)) (ix1 e)
      = ∑ k : Fin 65536, if k.val ≤ e.val then (extui 32 (flatOf (maskV (F := Ideal))) natLt_1_32) (ix1 k) else 0 :=
  cumsum_apply (w := 32) (n := 65536) (p := 65535) rfl reduceWindows_S65536_S65536_w65536s1p65535_0 h_S_
    (extui 32 (flatOf (maskV (F := Ideal))) natLt_1_32) (broadcastInDim S_ ![] bcast_S_S_ (constantI S_ 32 0#32)) rfl e

set_option maxRecDepth 16384 in
/-- The running count of the mask's bits at a position is the number of ones up to it. -/
theorem run_apply (e : Fin 65536) :
    runOf (maskV (F := Ideal)) (ix1 e) = ((upTo upper e.val : ℕ) : BitVec 32) := by
  rw [run_sum]
  have ht : ∀ k : Fin 65536, (if k.val ≤ e.val then (extui 32 (flatOf (maskV (F := Ideal))) natLt_1_32) (ix1 k) else 0)
      = (fun i : ℕ => if i ≤ e.val ∧ upper i then (1 : BitVec 32) else 0) k.val := by
    intro k
    show (if k.val ≤ e.val then (flatOf (maskV (F := Ideal)) (ix1 k)).setWidth 32 else 0) = _
    rw [flat_bit]
    by_cases h1 : k.val ≤ e.val
    · by_cases h2 : upper k.val
      · rw [if_pos h1, if_pos h2]; exact (if_pos ⟨h1, h2⟩).symm
      · rw [if_pos h1, if_neg h2]; exact (if_neg (fun h => h2 h.2)).symm
    · rw [if_neg h1]; exact (if_neg (fun h => h1 h.1)).symm
  rw [Finset.sum_congr rfl fun k _ => ht k,
    Fin.sum_univ_eq_sum_range (fun i : ℕ => if i ≤ e.val ∧ upper i then (1 : BitVec 32) else 0) 65536,
    Finset.sum_boole]
  have hset : (Finset.range 65536).filter (fun i => i ≤ e.val ∧ upper i) = (Finset.range (e.val + 1)).filter upper := by
    ext i
    have he := e.isLt
    simp only [Finset.mem_filter, Finset.mem_range]
    constructor
    · rintro ⟨_, h1, h2⟩; exact ⟨by omega, h2⟩
    · rintro ⟨h1, h2⟩; exact ⟨by omega, by omega, h2⟩
  rw [hset]
  unfold upTo
  rfl

/-- A vector as a one-column array reads the vector. -/
theorem bcast_col65536_apply (x : IVec S65536 32) (e : Fin 65536) :
    broadcastInDim S65536x1 ![0] bcast_S65536_S65536x1_0 x (ix2 e (0 : Fin 1)) = x (ix1 e) := by
  unfold broadcastInDim
  congr 1
  funext d
  match d with
  | ⟨0, _⟩ => rfl

/-- The scatter index of a position is its running count. -/
theorem idx_apply (e : Fin 65536) :
    (idxOf (runOf (maskV (F := Ideal))) (ix2 e (0 : Fin 1))).toInt = (upTo upper e.val : ℤ) := by
  unfold idxOf
  rw [bcast_col65536_apply]
  have hu := upTo_le e.val
  have he := e.isLt
  have hrun : (runOf (maskV (F := Ideal)) (ix1 e)).toInt = (upTo upper e.val : ℤ) := by
    rw [run_apply]
    exact WordArith.toInt_ofNat_small _ (by omega)
  have hclip : (clipOf (runOf (maskV (F := Ideal))) (ix1 e)).toInt = (upTo upper e.val : ℤ) := by
    show (IntOp.maxsi 0#32 (runOf (maskV (F := Ideal)) (ix1 e))).toInt = _
    rw [WordArith.toInt_maxsi_zero, hrun]
    omega
  show (Scalar.select (IntOp.cmpi .slt (clipOf (runOf (maskV (F := Ideal))) (ix1 e)) 0#32)
      (IntOp.addi (clipOf (runOf (maskV (F := Ideal))) (ix1 e)) 32640#32)
      (clipOf (runOf (maskV (F := Ideal))) (ix1 e))).toInt = _
  have hn : ¬IntOp.cmpi .slt (clipOf (runOf (maskV (F := Ideal))) (ix1 e)) 0#32 = 1#1 := by
    rw [IntOp.cmpi_slt, hclip, show (0#32 : BitVec 32).toInt = 0 by decide]
    omega
  rw [selP_of_ne_one hn, hclip]

attribute [local irreducible] Host.reduceWindow Host.scatter in
/-- THE POSITIONS: entry `k` of the stretch's result is the flat position of the `k`-th cell above the diagonal. -/
theorem pos_apply (k : Fin 32640) :
    posOf (runOf (maskV (F := Ideal))) (ix1 k) = BitVec.ofNat 32 (posk k.val) := by
  have h := Cert.ScatterCol.nonzero_flat (E := 65536) (K := 32640) (w := 32) (w' := 32) upper
    scatter_S32640_S65536x1_S65536_n_0_0_1.wf (p := 32639) rfl reduceWindows_S32640_S32640_w32640s1p32639_0 h_S_
    (broadcastInDim S_ ![] bcast_S_S_ (constantI S_ 32 0#32)) rfl (idxOf (runOf (maskV (F := Ideal)))) idx_apply k
  exact h

end Pos

end Cert.ReferenceIdeal.RefRun

end
-- ==== Proof.RefValue.lean ====
/-
  The reference's value: its result buffer ends at the specification's loss of the two inputs. The line is read in
  three stretches — the flat positions of the cells above the diagonal in order, their rows and columns, and the loss
  over the listed pairs — each stretch's result a staged composition, each stage read at an index at the ideal
  instance; the inputs are written by no operation.
-/
import proofs.«118690_j7060926235074_1_alg».proof.Proof.RefLossValue
import proofs.«118690_j7060926235074_1_alg».proof.Proof.RefRowColValue
import proofs.«118690_j7060926235074_1_alg».proof.Proof.RefPosValue

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx RankPairs

/-- THE REFERENCE'S VALUE: after the line, the result buffer holds the pairwise ranking loss of the two inputs. -/
theorem value (V : Valuation τ sig (Elt Ideal)) :
    after (ops (F := Ideal)) V (main_v77 : DevRef τ sig)
      = fun _ => RankSpec.result (V (main_arg0 : DevRef τ sig)) (V (main_arg1 : DevRef τ sig)) := by
  rw [after_ops, loss_read, rowcol_kept0, rowcol_kept1, pos_kept0, pos_kept1, rowcol_read_row, rowcol_read_col, pos_read]
  funext j
  exact Loss.resV_apply _ _ _ _ (fun k => RowCol.rowV_apply _ Pos.pos_apply k)
    (fun k => RowCol.colV_apply _ Pos.pos_apply k) j

end Cert.ReferenceIdeal.RefRun

end
-- ==== Proof.lean ====
/-
  Pairwise ranking loss over 256 batch rows and 256 features. For a pair of features (i, j) with i < j let, over the
  batch rows b, s = sign(rel[b,i] - rel[b,j]); cnt(i,j) counts the rows with s != 0 and sum(i,j) adds, over those rows,
  softplus(-s * (pred[b,i] - pred[b,j])). The result is the mean, over the pairs with cnt > 0, of sum / max(cnt, 1)
  (zero when there is no such pair).

  The kernel walks the 256 x 256 square of pairs in four 128 x 128 tiles, the batch in eight chunks of 32 rows, masks
  each tile by i < j, and carries the total of the per-pair means and the number of contributing pairs in two one-word
  accumulators from tile to tile, dividing at the last tile. The reference lists the 32640 pairs with i < j first (the
  positions of the ones of a triangular mask, in order), gathers the two columns of every pair, and reduces over the
  batch and then over the list. Both are the same double sum regrouped: only commutativity and associativity of
  addition on the extended reals are involved, and the masked entries contribute exact zeros.

  The kernel is handed each input twice, through one window per tile axis (the column block of the tile's rows i and
  the column block of its columns j), so at its launch each input array's share is dealt between the two windows on
  it. After the region one host operation reshapes the [1, 1] result to a scalar.
-/
import proofs.«118690_j7060926235074_1_alg».proof.Defs
import proofs.«118690_j7060926235074_1_alg».proof.Proof.Gen.Kernel
import proofs.«118690_j7060926235074_1_alg».proof.Proof.Gen.Kernel.Skeleton
import proofs.«118690_j7060926235074_1_alg».proof.Proof.Gen.Kernel.Launch
import proofs.«118690_j7060926235074_1_alg».proof.Proof.Gen.Kernel.Points
import proofs.«118690_j7060926235074_1_alg».proof.Proof.Gen.KernelIdeal
import proofs.«118690_j7060926235074_1_alg».proof.Proof.Gen.KernelIdeal.Skeleton
import proofs.«118690_j7060926235074_1_alg».proof.Proof.Gen.KernelIdeal.Launch
import proofs.«118690_j7060926235074_1_alg».proof.Proof.Gen.KernelIdeal.Points
import proofs.«118690_j7060926235074_1_alg».proof.Proof.Gen.ReferenceIdeal
import proofs.«118690_j7060926235074_1_alg».proof.Proof.Gen.Pre_finite_inputs
import proofs.«118690_j7060926235074_1_alg».proof.Proof.Preserves
import proofs.«118690_j7060926235074_1_alg».proof.Proof.RefFrame
import proofs.«118690_j7060926235074_1_alg».proof.Proof.KILaunch
import proofs.«118690_j7060926235074_1_alg».proof.Proof.KBLaunch
import proofs.«118690_j7060926235074_1_alg».proof.Proof.KIValue
import proofs.«118690_j7060926235074_1_alg».proof.Proof.RefValue
import Idealize.ShloMosaic.Adequacy
import Idealize.ShloMosaic.Init

noncomputable section

namespace Cert.Proof

open Idealize.ShloMosaic Idealize.SL.Sem

/-- The reference runs to the end, faults nowhere and leaves both inputs unchanged: its line of host operations
    writes only buffers of its own. -/
theorem frame_reference : Cert.frame_ReferenceIdeal := fun m ρ _ =>
  Cert.ReferenceIdeal.RefRun.frame (F := Ideal) m ρ

/-- The printed kernel's frame: four grid points, each fetching a 256 x 128 column block of each input through the
    window of its tile axis, the two accumulators reset at the first point and the result stored at the last; both
    inputs end unchanged. -/
theorem frame_kernel : Cert.frame_Kernel := fun m ρ _ => Cert.Kernel.Hand.frame (F := Bits) m ρ

/-- The same run of the idealized kernel. -/
theorem frame_kernel_ideal : Cert.frame_KernelIdeal := fun m ρ _ => Cert.KernelIdeal.Hand.frame (F := Ideal) m ρ

/-- The two results are one number: the tile-by-tile, chunk-by-chunk double sum over the masked square against the sum
    over the listed pairs. -/
theorem algebraic : Cert.algebraic_KernelIdeal_ReferenceIdeal := by
  intro m ρ m' ρ' _ hag
  refine ⟨fun c => fun _ => RankSpec.result (Cert.KernelIdeal.Hand.Pm m c) (Cert.KernelIdeal.Hand.Rm m c), ?_, ?_⟩
  · refine (θ_run _ _ _).mono (fun r h c => ⟨?_, (h c).2.1, (h c).2.2⟩) (Cert.KernelIdeal.Hand.run_main (F := Ideal) m ρ)
    rw [(h c).1]
    funext i
    exact Cert.KernelIdeal.Hand.kernel_value m c i
  · refine (θ_run _ _ _).mono (fun r h c => ⟨?_, ?_, ?_⟩) (Cert.ReferenceIdeal.RefRun.run_main (F := Ideal) m' ρ')
    · rw [h c Cert.ReferenceIdeal.main_v77, Cert.ReferenceIdeal.RefRun.value]
      funext _
      show RankSpec.result (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
        = RankSpec.result (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
      rw [(hag c).1, (hag c).2]
    · exact (h c Cert.ReferenceIdeal.main_arg0).trans (Cert.ReferenceIdeal.RefRun.kept_arg0 _)
    · exact (h c Cert.ReferenceIdeal.main_arg1).trans (Cert.ReferenceIdeal.RefRun.kept_arg1 _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, Cert.Proof.RankNet.preserves, algebraic⟩

end Cert.Proof

end
